-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v385) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x96x320 : Shape := ⟨4, ![8, 128, 96, 320]⟩
abbrev S_ : Shape := ⟨0, ![]⟩

class Facts : Prop where
  bcast_S_S8x128x96x320 : S_.BroadcastsInDim S8x128x96x320 (![] : Fin 0 → Fin S8x128x96x320.rank)
  reducesTo_S8x128x96x320_S_d0_1_2_3 : S8x128x96x320.ReducesTo [0, 1, 2, 3] S_
  h_S_ : 0 < S_.numel

variable [Facts]

def fn {F : FTy → Type} [FloatOps F] (main_arg0 : FVec F S8x128x96x320 .f32) (main_arg1 : FVec F S8x128x96x320 .f32) : IVec S_ 1 :=
  let main_v0 : FVec F S8x128x96x320 .f32 := Host.absf main_arg0
  let main_cst : FVec F S_ .f32 := constant S_ .f32 0x7F800000#32
  let main_v1 : FVec F S8x128x96x320 .f32 := broadcastInDim S8x128x96x320 ![] bcast_S_S8x128x96x320 main_cst
  let main_v2 : IVec S8x128x96x320 1 := cmpf .olt main_v0 main_v1
  let main_c : IVec S_ 1 := constantI S_ 1 1#1
  let main_v3 : IVec S_ 1 := (fun x v => Host.reduce IntOp.andi x v reducesTo_S8x128x96x320_S_d0_1_2_3 h_S_) main_v2 main_c
  let main_v4 : FVec F S8x128x96x320 .f32 := Host.absf main_arg1
  let main_cst_0 : FVec F S_ .f32 := constant S_ .f32 0x7F800000#32
  let main_v5 : FVec F S8x128x96x320 .f32 := broadcastInDim S8x128x96x320 ![] bcast_S_S8x128x96x320 main_cst_0
  let main_v6 : IVec S8x128x96x320 1 := cmpf .olt main_v4 main_v5
  let main_c_1 : IVec S_ 1 := constantI S_ 1 1#1
  let main_v7 : IVec S_ 1 := (fun x v => Host.reduce IntOp.andi x v reducesTo_S8x128x96x320_S_d0_1_2_3 h_S_) main_v6 main_c_1
  let main_v8 : IVec S_ 1 := andi main_v3 main_v7
  main_v8
-- ==== Kernel.lean ====
abbrev S8x128x96x320 : Shape := ⟨4, ![8, 128, 96, 320]⟩
abbrev S8x48x96x320 : Shape := ⟨4, ![8, 48, 96, 320]⟩
abbrev S1x128x16x320 : Shape := ⟨4, ![1, 128, 16, 320]⟩
abbrev S1x48x16x320 : Shape := ⟨4, ![1, 48, 16, 320]⟩
abbrev S128x16x320 : Shape := ⟨3, ![128, 16, 320]⟩
abbrev S48x16x320 : Shape := ⟨3, ![48, 16, 320]⟩
abbrev S16x320 : Shape := ⟨2, ![16, 320]⟩
abbrev S1x1x16x320 : Shape := ⟨4, ![1, 1, 16, 320]⟩
abbrev S128x16x319 : Shape := ⟨3, ![128, 16, 319]⟩
abbrev S16x319 : Shape := ⟨2, ![16, 319]⟩
abbrev S1x1x16x319 : Shape := ⟨4, ![1, 1, 16, 319]⟩
abbrev S128x16x318 : Shape := ⟨3, ![128, 16, 318]⟩
abbrev S16x318 : Shape := ⟨2, ![16, 318]⟩
abbrev S1x1x16x318 : Shape := ⟨4, ![1, 1, 16, 318]⟩
abbrev S128x16x317 : Shape := ⟨3, ![128, 16, 317]⟩
abbrev S16x317 : Shape := ⟨2, ![16, 317]⟩
abbrev S1x1x16x317 : Shape := ⟨4, ![1, 1, 16, 317]⟩
abbrev S128x16x316 : Shape := ⟨3, ![128, 16, 316]⟩
abbrev S16x316 : Shape := ⟨2, ![16, 316]⟩
abbrev S1x1x16x316 : Shape := ⟨4, ![1, 1, 16, 316]⟩
abbrev S128x16x315 : Shape := ⟨3, ![128, 16, 315]⟩
abbrev S16x315 : Shape := ⟨2, ![16, 315]⟩
abbrev S1x1x16x315 : Shape := ⟨4, ![1, 1, 16, 315]⟩
abbrev S128x16x314 : Shape := ⟨3, ![128, 16, 314]⟩
abbrev S16x314 : Shape := ⟨2, ![16, 314]⟩
abbrev S1x1x16x314 : Shape := ⟨4, ![1, 1, 16, 314]⟩
abbrev S128x16x313 : Shape := ⟨3, ![128, 16, 313]⟩
abbrev S16x313 : Shape := ⟨2, ![16, 313]⟩
abbrev S1x1x16x313 : Shape := ⟨4, ![1, 1, 16, 313]⟩
abbrev S128x16x312 : Shape := ⟨3, ![128, 16, 312]⟩
abbrev S16x312 : Shape := ⟨2, ![16, 312]⟩
abbrev S1x1x16x312 : Shape := ⟨4, ![1, 1, 16, 312]⟩
abbrev S128x16x311 : Shape := ⟨3, ![128, 16, 311]⟩
abbrev S16x311 : Shape := ⟨2, ![16, 311]⟩
abbrev S1x1x16x311 : Shape := ⟨4, ![1, 1, 16, 311]⟩
abbrev S128x16x310 : Shape := ⟨3, ![128, 16, 310]⟩
abbrev S16x310 : Shape := ⟨2, ![16, 310]⟩
abbrev S1x1x16x310 : Shape := ⟨4, ![1, 1, 16, 310]⟩
abbrev S128x16x309 : Shape := ⟨3, ![128, 16, 309]⟩
abbrev S16x309 : Shape := ⟨2, ![16, 309]⟩
abbrev S1x1x16x309 : Shape := ⟨4, ![1, 1, 16, 309]⟩
abbrev S128x16x308 : Shape := ⟨3, ![128, 16, 308]⟩
abbrev S16x308 : Shape := ⟨2, ![16, 308]⟩
abbrev S1x1x16x308 : Shape := ⟨4, ![1, 1, 16, 308]⟩
abbrev S128x16x307 : Shape := ⟨3, ![128, 16, 307]⟩
abbrev S16x307 : Shape := ⟨2, ![16, 307]⟩
abbrev S1x1x16x307 : Shape := ⟨4, ![1, 1, 16, 307]⟩
abbrev S128x16x306 : Shape := ⟨3, ![128, 16, 306]⟩
abbrev S16x306 : Shape := ⟨2, ![16, 306]⟩
abbrev S1x1x16x306 : Shape := ⟨4, ![1, 1, 16, 306]⟩
abbrev S128x16x305 : Shape := ⟨3, ![128, 16, 305]⟩
abbrev S16x305 : Shape := ⟨2, ![16, 305]⟩
abbrev S1x1x16x305 : Shape := ⟨4, ![1, 1, 16, 305]⟩
abbrev S128x16x304 : Shape := ⟨3, ![128, 16, 304]⟩
abbrev S16x304 : Shape := ⟨2, ![16, 304]⟩
abbrev S1x1x16x304 : Shape := ⟨4, ![1, 1, 16, 304]⟩
abbrev S128x16x303 : Shape := ⟨3, ![128, 16, 303]⟩
abbrev S16x303 : Shape := ⟨2, ![16, 303]⟩
abbrev S1x1x16x303 : Shape := ⟨4, ![1, 1, 16, 303]⟩
abbrev S128x16x302 : Shape := ⟨3, ![128, 16, 302]⟩
abbrev S16x302 : Shape := ⟨2, ![16, 302]⟩
abbrev S1x1x16x302 : Shape := ⟨4, ![1, 1, 16, 302]⟩
abbrev S128x16x301 : Shape := ⟨3, ![128, 16, 301]⟩
abbrev S16x301 : Shape := ⟨2, ![16, 301]⟩
abbrev S1x1x16x301 : Shape := ⟨4, ![1, 1, 16, 301]⟩
abbrev S128x16x300 : Shape := ⟨3, ![128, 16, 300]⟩
abbrev S16x300 : Shape := ⟨2, ![16, 300]⟩
abbrev S1x1x16x300 : Shape := ⟨4, ![1, 1, 16, 300]⟩
abbrev S128x16x299 : Shape := ⟨3, ![128, 16, 299]⟩
abbrev S16x299 : Shape := ⟨2, ![16, 299]⟩
abbrev S1x1x16x299 : Shape := ⟨4, ![1, 1, 16, 299]⟩
abbrev S128x16x298 : Shape := ⟨3, ![128, 16, 298]⟩
abbrev S16x298 : Shape := ⟨2, ![16, 298]⟩
abbrev S1x1x16x298 : Shape := ⟨4, ![1, 1, 16, 298]⟩
abbrev S128x16x297 : Shape := ⟨3, ![128, 16, 297]⟩
abbrev S16x297 : Shape := ⟨2, ![16, 297]⟩
abbrev S1x1x16x297 : Shape := ⟨4, ![1, 1, 16, 297]⟩
abbrev S128x16x296 : Shape := ⟨3, ![128, 16, 296]⟩
abbrev S16x296 : Shape := ⟨2, ![16, 296]⟩
abbrev S1x1x16x296 : Shape := ⟨4, ![1, 1, 16, 296]⟩
abbrev S128x16x295 : Shape := ⟨3, ![128, 16, 295]⟩
abbrev S16x295 : Shape := ⟨2, ![16, 295]⟩
abbrev S1x1x16x295 : Shape := ⟨4, ![1, 1, 16, 295]⟩
abbrev S128x16x294 : Shape := ⟨3, ![128, 16, 294]⟩
abbrev S16x294 : Shape := ⟨2, ![16, 294]⟩
abbrev S1x1x16x294 : Shape := ⟨4, ![1, 1, 16, 294]⟩
abbrev S128x16x293 : Shape := ⟨3, ![128, 16, 293]⟩
abbrev S16x293 : Shape := ⟨2, ![16, 293]⟩
abbrev S1x1x16x293 : Shape := ⟨4, ![1, 1, 16, 293]⟩
abbrev S128x16x292 : Shape := ⟨3, ![128, 16, 292]⟩
abbrev S16x292 : Shape := ⟨2, ![16, 292]⟩
abbrev S1x1x16x292 : Shape := ⟨4, ![1, 1, 16, 292]⟩
abbrev S128x16x291 : Shape := ⟨3, ![128, 16, 291]⟩
abbrev S16x291 : Shape := ⟨2, ![16, 291]⟩
abbrev S1x1x16x291 : Shape := ⟨4, ![1, 1, 16, 291]⟩
abbrev S128x16x290 : Shape := ⟨3, ![128, 16, 290]⟩
abbrev S16x290 : Shape := ⟨2, ![16, 290]⟩
abbrev S1x1x16x290 : Shape := ⟨4, ![1, 1, 16, 290]⟩
abbrev S128x16x289 : Shape := ⟨3, ![128, 16, 289]⟩
abbrev S16x289 : Shape := ⟨2, ![16, 289]⟩
abbrev S1x1x16x289 : Shape := ⟨4, ![1, 1, 16, 289]⟩
abbrev S128x16x288 : Shape := ⟨3, ![128, 16, 288]⟩
abbrev S16x288 : Shape := ⟨2, ![16, 288]⟩
abbrev S1x1x16x288 : Shape := ⟨4, ![1, 1, 16, 288]⟩
abbrev S128x16x287 : Shape := ⟨3, ![128, 16, 287]⟩
abbrev S16x287 : Shape := ⟨2, ![16, 287]⟩
abbrev S1x1x16x287 : Shape := ⟨4, ![1, 1, 16, 287]⟩
abbrev S128x16x286 : Shape := ⟨3, ![128, 16, 286]⟩
abbrev S16x286 : Shape := ⟨2, ![16, 286]⟩
abbrev S1x1x16x286 : Shape := ⟨4, ![1, 1, 16, 286]⟩
abbrev S128x16x285 : Shape := ⟨3, ![128, 16, 285]⟩
abbrev S16x285 : Shape := ⟨2, ![16, 285]⟩
abbrev S1x1x16x285 : Shape := ⟨4, ![1, 1, 16, 285]⟩
abbrev S128x16x284 : Shape := ⟨3, ![128, 16, 284]⟩
abbrev S16x284 : Shape := ⟨2, ![16, 284]⟩
abbrev S1x1x16x284 : Shape := ⟨4, ![1, 1, 16, 284]⟩
abbrev S128x16x283 : Shape := ⟨3, ![128, 16, 283]⟩
abbrev S16x283 : Shape := ⟨2, ![16, 283]⟩
abbrev S1x1x16x283 : Shape := ⟨4, ![1, 1, 16, 283]⟩
abbrev S128x16x282 : Shape := ⟨3, ![128, 16, 282]⟩
abbrev S16x282 : Shape := ⟨2, ![16, 282]⟩
abbrev S1x1x16x282 : Shape := ⟨4, ![1, 1, 16, 282]⟩
abbrev S128x16x281 : Shape := ⟨3, ![128, 16, 281]⟩
abbrev S16x281 : Shape := ⟨2, ![16, 281]⟩
abbrev S1x1x16x281 : Shape := ⟨4, ![1, 1, 16, 281]⟩
abbrev S128x16x280 : Shape := ⟨3, ![128, 16, 280]⟩
abbrev S16x280 : Shape := ⟨2, ![16, 280]⟩
abbrev S1x1x16x280 : Shape := ⟨4, ![1, 1, 16, 280]⟩
abbrev S128x16x279 : Shape := ⟨3, ![128, 16, 279]⟩
abbrev S16x279 : Shape := ⟨2, ![16, 279]⟩
abbrev S1x1x16x279 : Shape := ⟨4, ![1, 1, 16, 279]⟩
abbrev S128x16x278 : Shape := ⟨3, ![128, 16, 278]⟩
abbrev S16x278 : Shape := ⟨2, ![16, 278]⟩
abbrev S1x1x16x278 : Shape := ⟨4, ![1, 1, 16, 278]⟩
abbrev S128x16x277 : Shape := ⟨3, ![128, 16, 277]⟩
abbrev S16x277 : Shape := ⟨2, ![16, 277]⟩
abbrev S1x1x16x277 : Shape := ⟨4, ![1, 1, 16, 277]⟩
abbrev S128x16x276 : Shape := ⟨3, ![128, 16, 276]⟩
abbrev S16x276 : Shape := ⟨2, ![16, 276]⟩
abbrev S1x1x16x276 : Shape := ⟨4, ![1, 1, 16, 276]⟩
abbrev S128x16x275 : Shape := ⟨3, ![128, 16, 275]⟩
abbrev S16x275 : Shape := ⟨2, ![16, 275]⟩
abbrev S1x1x16x275 : Shape := ⟨4, ![1, 1, 16, 275]⟩
abbrev S128x16x274 : Shape := ⟨3, ![128, 16, 274]⟩
abbrev S16x274 : Shape := ⟨2, ![16, 274]⟩
abbrev S1x1x16x274 : Shape := ⟨4, ![1, 1, 16, 274]⟩
abbrev S128x16x273 : Shape := ⟨3, ![128, 16, 273]⟩
abbrev S16x273 : Shape := ⟨2, ![16, 273]⟩
abbrev S1x1x16x273 : Shape := ⟨4, ![1, 1, 16, 273]⟩

abbrev nBuf : Space → Nat
  | .hbm => 3
  | .vmem => 6
  | .smem => 0
  | _ => 0

abbrev bufTy : (tb : Table) → Fin (tcTables nBuf tb) → BufTy
  | .hbm, ⟨0, _⟩ => ⟨S8x128x96x320, .f32⟩
  | .hbm, ⟨1, _⟩ => ⟨S8x128x96x320, .f32⟩
  | .hbm, ⟨2, _⟩ => ⟨S8x48x96x320, .f32⟩
  | .local _ .vmem, ⟨0, _⟩ => ⟨S1x128x16x320, .f32⟩
  | .local _ .vmem, ⟨1, _⟩ => ⟨S1x128x16x320, .f32⟩
  | .local _ .vmem, ⟨2, _⟩ => ⟨S1x128x16x320, .f32⟩
  | .local _ .vmem, ⟨3, _⟩ => ⟨S1x128x16x320, .f32⟩
  | .local _ .vmem, ⟨4, _⟩ => ⟨S1x48x16x320, .f32⟩
  | .local _ .vmem, ⟨5, _⟩ => ⟨S1x48x16x320, .f32⟩
  | _, _ => ⟨S8x128x96x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 6], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x128x16x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x16x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x48x16x320 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x128x16x320_S1x128x16x320_0_0_0_0 : ∀ a, (![0, 0, 0, 0] : Fin 4 → Nat) a + S1x128x16x320.size a ≤ S1x128x16x320.size a
  h_S1x128x16x320 : 0 < S1x128x16x320.numel
  shapeCasts_S1x128x16x320_S128x16x320 : S1x128x16x320.ShapeCasts S128x16x320
  inb_S1x48x16x320_S1x48x16x320_0_0_0_0 : ∀ a, (![0, 0, 0, 0] : Fin 4 → Nat) a + S1x48x16x320.size a ≤ S1x48x16x320.size a
  h_S1x48x16x320 : 0 < S1x48x16x320.numel
  shapeCasts_S1x48x16x320_S48x16x320 : S1x48x16x320.ShapeCasts S48x16x320
  shapeCasts_S48x16x320_S1x48x16x320 : S48x16x320.ShapeCasts S1x48x16x320
  reduces_S128x16x320_S16x320 : S128x16x320.Reduces [0] S16x320
  inb_S1x48x16x320_S1x1x16x320_0_0_0_0 : ∀ a, (![0, 0, 0, 0] : Fin 4 → Nat) a + S1x1x16x320.size a ≤ S1x48x16x320.size a
  h_S1x1x16x320 : 0 < S1x1x16x320.numel
  shapeCasts_S1x1x16x320_S16x320 : S1x1x16x320.ShapeCasts S16x320
  shapeCasts_S16x320_S1x1x16x320 : S16x320.ShapeCasts S1x1x16x320
  slices_S128x16x320_o0_0_1_S128x16x319 : S128x16x320.Slices ![0, 0, 1] S128x16x319
  slices_S128x16x320_o0_0_0_S128x16x319 : S128x16x320.Slices ![0, 0, 0] S128x16x319
  reduces_S128x16x319_S16x319 : S128x16x319.Reduces [0] S16x319
  inb_S1x48x16x320_S1x1x16x319_0_1_0_1 : ∀ a, (![0, 1, 0, 1] : Fin 4 → Nat) a + S1x1x16x319.size a ≤ S1x48x16x320.size a
  h_S1x1x16x319 : 0 < S1x1x16x319.numel
  shapeCasts_S1x1x16x319_S16x319 : S1x1x16x319.ShapeCasts S16x319
  shapeCasts_S16x319_S1x1x16x319 : S16x319.ShapeCasts S1x1x16x319
  slices_S128x16x320_o0_0_2_S128x16x318 : S128x16x320.Slices ![0, 0, 2] S128x16x318
  slices_S128x16x320_o0_0_0_S128x16x318 : S128x16x320.Slices ![0, 0, 0] S128x16x318
  reduces_S128x16x318_S16x318 : S128x16x318.Reduces [0] S16x318
  inb_S1x48x16x320_S1x1x16x318_0_2_0_2 : ∀ a, (![0, 2, 0, 2] : Fin 4 → Nat) a + S1x1x16x318.size a ≤ S1x48x16x320.size a
  h_S1x1x16x318 : 0 < S1x1x16x318.numel
  shapeCasts_S1x1x16x318_S16x318 : S1x1x16x318.ShapeCasts S16x318
  shapeCasts_S16x318_S1x1x16x318 : S16x318.ShapeCasts S1x1x16x318
  slices_S128x16x320_o0_0_3_S128x16x317 : S128x16x320.Slices ![0, 0, 3] S128x16x317
  slices_S128x16x320_o0_0_0_S128x16x317 : S128x16x320.Slices ![0, 0, 0] S128x16x317
  reduces_S128x16x317_S16x317 : S128x16x317.Reduces [0] S16x317
  inb_S1x48x16x320_S1x1x16x317_0_3_0_3 : ∀ a, (![0, 3, 0, 3] : Fin 4 → Nat) a + S1x1x16x317.size a ≤ S1x48x16x320.size a
  h_S1x1x16x317 : 0 < S1x1x16x317.numel
  shapeCasts_S1x1x16x317_S16x317 : S1x1x16x317.ShapeCasts S16x317
  shapeCasts_S16x317_S1x1x16x317 : S16x317.ShapeCasts S1x1x16x317
  slices_S128x16x320_o0_0_4_S128x16x316 : S128x16x320.Slices ![0, 0, 4] S128x16x316
  slices_S128x16x320_o0_0_0_S128x16x316 : S128x16x320.Slices ![0, 0, 0] S128x16x316
  reduces_S128x16x316_S16x316 : S128x16x316.Reduces [0] S16x316
  inb_S1x48x16x320_S1x1x16x316_0_4_0_4 : ∀ a, (![0, 4, 0, 4] : Fin 4 → Nat) a + S1x1x16x316.size a ≤ S1x48x16x320.size a
  h_S1x1x16x316 : 0 < S1x1x16x316.numel
  shapeCasts_S1x1x16x316_S16x316 : S1x1x16x316.ShapeCasts S16x316
  shapeCasts_S16x316_S1x1x16x316 : S16x316.ShapeCasts S1x1x16x316
  slices_S128x16x320_o0_0_5_S128x16x315 : S128x16x320.Slices ![0, 0, 5] S128x16x315
  slices_S128x16x320_o0_0_0_S128x16x315 : S128x16x320.Slices ![0, 0, 0] S128x16x315
  reduces_S128x16x315_S16x315 : S128x16x315.Reduces [0] S16x315
  inb_S1x48x16x320_S1x1x16x315_0_5_0_5 : ∀ a, (![0, 5, 0, 5] : Fin 4 → Nat) a + S1x1x16x315.size a ≤ S1x48x16x320.size a
  h_S1x1x16x315 : 0 < S1x1x16x315.numel
  shapeCasts_S1x1x16x315_S16x315 : S1x1x16x315.ShapeCasts S16x315
  shapeCasts_S16x315_S1x1x16x315 : S16x315.ShapeCasts S1x1x16x315
  slices_S128x16x320_o0_0_6_S128x16x314 : S128x16x320.Slices ![0, 0, 6] S128x16x314
  slices_S128x16x320_o0_0_0_S128x16x314 : S128x16x320.Slices ![0, 0, 0] S128x16x314
  reduces_S128x16x314_S16x314 : S128x16x314.Reduces [0] S16x314
  inb_S1x48x16x320_S1x1x16x314_0_6_0_6 : ∀ a, (![0, 6, 0, 6] : Fin 4 → Nat) a + S1x1x16x314.size a ≤ S1x48x16x320.size a
  h_S1x1x16x314 : 0 < S1x1x16x314.numel
  shapeCasts_S1x1x16x314_S16x314 : S1x1x16x314.ShapeCasts S16x314
  shapeCasts_S16x314_S1x1x16x314 : S16x314.ShapeCasts S1x1x16x314
  slices_S128x16x320_o0_0_7_S128x16x313 : S128x16x320.Slices ![0, 0, 7] S128x16x313
  slices_S128x16x320_o0_0_0_S128x16x313 : S128x16x320.Slices ![0, 0, 0] S128x16x313
  reduces_S128x16x313_S16x313 : S128x16x313.Reduces [0] S16x313
  inb_S1x48x16x320_S1x1x16x313_0_7_0_7 : ∀ a, (![0, 7, 0, 7] : Fin 4 → Nat) a + S1x1x16x313.size a ≤ S1x48x16x320.size a
  h_S1x1x16x313 : 0 < S1x1x16x313.numel
  shapeCasts_S1x1x16x313_S16x313 : S1x1x16x313.ShapeCasts S16x313
  shapeCasts_S16x313_S1x1x16x313 : S16x313.ShapeCasts S1x1x16x313
  slices_S128x16x320_o0_0_8_S128x16x312 : S128x16x320.Slices ![0, 0, 8] S128x16x312
  slices_S128x16x320_o0_0_0_S128x16x312 : S128x16x320.Slices ![0, 0, 0] S128x16x312
  reduces_S128x16x312_S16x312 : S128x16x312.Reduces [0] S16x312
  inb_S1x48x16x320_S1x1x16x312_0_8_0_8 : ∀ a, (![0, 8, 0, 8] : Fin 4 → Nat) a + S1x1x16x312.size a ≤ S1x48x16x320.size a
  h_S1x1x16x312 : 0 < S1x1x16x312.numel
  shapeCasts_S1x1x16x312_S16x312 : S1x1x16x312.ShapeCasts S16x312
  shapeCasts_S16x312_S1x1x16x312 : S16x312.ShapeCasts S1x1x16x312
  slices_S128x16x320_o0_0_9_S128x16x311 : S128x16x320.Slices ![0, 0, 9] S128x16x311
  slices_S128x16x320_o0_0_0_S128x16x311 : S128x16x320.Slices ![0, 0, 0] S128x16x311
  reduces_S128x16x311_S16x311 : S128x16x311.Reduces [0] S16x311
  inb_S1x48x16x320_S1x1x16x311_0_9_0_9 : ∀ a, (![0, 9, 0, 9] : Fin 4 → Nat) a + S1x1x16x311.size a ≤ S1x48x16x320.size a
  h_S1x1x16x311 : 0 < S1x1x16x311.numel
  shapeCasts_S1x1x16x311_S16x311 : S1x1x16x311.ShapeCasts S16x311
  shapeCasts_S16x311_S1x1x16x311 : S16x311.ShapeCasts S1x1x16x311
  slices_S128x16x320_o0_0_10_S128x16x310 : S128x16x320.Slices ![0, 0, 10] S128x16x310
  slices_S128x16x320_o0_0_0_S128x16x310 : S128x16x320.Slices ![0, 0, 0] S128x16x310
  reduces_S128x16x310_S16x310 : S128x16x310.Reduces [0] S16x310
  inb_S1x48x16x320_S1x1x16x310_0_10_0_10 : ∀ a, (![0, 10, 0, 10] : Fin 4 → Nat) a + S1x1x16x310.size a ≤ S1x48x16x320.size a
  h_S1x1x16x310 : 0 < S1x1x16x310.numel
  shapeCasts_S1x1x16x310_S16x310 : S1x1x16x310.ShapeCasts S16x310
  shapeCasts_S16x310_S1x1x16x310 : S16x310.ShapeCasts S1x1x16x310
  slices_S128x16x320_o0_0_11_S128x16x309 : S128x16x320.Slices ![0, 0, 11] S128x16x309
  slices_S128x16x320_o0_0_0_S128x16x309 : S128x16x320.Slices ![0, 0, 0] S128x16x309
  reduces_S128x16x309_S16x309 : S128x16x309.Reduces [0] S16x309
  inb_S1x48x16x320_S1x1x16x309_0_11_0_11 : ∀ a, (![0, 11, 0, 11] : Fin 4 → Nat) a + S1x1x16x309.size a ≤ S1x48x16x320.size a
  h_S1x1x16x309 : 0 < S1x1x16x309.numel
  shapeCasts_S1x1x16x309_S16x309 : S1x1x16x309.ShapeCasts S16x309
  shapeCasts_S16x309_S1x1x16x309 : S16x309.ShapeCasts S1x1x16x309
  slices_S128x16x320_o0_0_12_S128x16x308 : S128x16x320.Slices ![0, 0, 12] S128x16x308
  slices_S128x16x320_o0_0_0_S128x16x308 : S128x16x320.Slices ![0, 0, 0] S128x16x308
  reduces_S128x16x308_S16x308 : S128x16x308.Reduces [0] S16x308
  inb_S1x48x16x320_S1x1x16x308_0_12_0_12 : ∀ a, (![0, 12, 0, 12] : Fin 4 → Nat) a + S1x1x16x308.size a ≤ S1x48x16x320.size a
  h_S1x1x16x308 : 0 < S1x1x16x308.numel
  shapeCasts_S1x1x16x308_S16x308 : S1x1x16x308.ShapeCasts S16x308
  shapeCasts_S16x308_S1x1x16x308 : S16x308.ShapeCasts S1x1x16x308
  slices_S128x16x320_o0_0_13_S128x16x307 : S128x16x320.Slices ![0, 0, 13] S128x16x307
  slices_S128x16x320_o0_0_0_S128x16x307 : S128x16x320.Slices ![0, 0, 0] S128x16x307
  reduces_S128x16x307_S16x307 : S128x16x307.Reduces [0] S16x307
  inb_S1x48x16x320_S1x1x16x307_0_13_0_13 : ∀ a, (![0, 13, 0, 13] : Fin 4 → Nat) a + S1x1x16x307.size a ≤ S1x48x16x320.size a
  h_S1x1x16x307 : 0 < S1x1x16x307.numel
  shapeCasts_S1x1x16x307_S16x307 : S1x1x16x307.ShapeCasts S16x307
  shapeCasts_S16x307_S1x1x16x307 : S16x307.ShapeCasts S1x1x16x307
  slices_S128x16x320_o0_0_14_S128x16x306 : S128x16x320.Slices ![0, 0, 14] S128x16x306
  slices_S128x16x320_o0_0_0_S128x16x306 : S128x16x320.Slices ![0, 0, 0] S128x16x306
  reduces_S128x16x306_S16x306 : S128x16x306.Reduces [0] S16x306
  inb_S1x48x16x320_S1x1x16x306_0_14_0_14 : ∀ a, (![0, 14, 0, 14] : Fin 4 → Nat) a + S1x1x16x306.size a ≤ S1x48x16x320.size a
  h_S1x1x16x306 : 0 < S1x1x16x306.numel
  shapeCasts_S1x1x16x306_S16x306 : S1x1x16x306.ShapeCasts S16x306
  shapeCasts_S16x306_S1x1x16x306 : S16x306.ShapeCasts S1x1x16x306
  slices_S128x16x320_o0_0_15_S128x16x305 : S128x16x320.Slices ![0, 0, 15] S128x16x305
  slices_S128x16x320_o0_0_0_S128x16x305 : S128x16x320.Slices ![0, 0, 0] S128x16x305
  reduces_S128x16x305_S16x305 : S128x16x305.Reduces [0] S16x305
  inb_S1x48x16x320_S1x1x16x305_0_15_0_15 : ∀ a, (![0, 15, 0, 15] : Fin 4 → Nat) a + S1x1x16x305.size a ≤ S1x48x16x320.size a
  h_S1x1x16x305 : 0 < S1x1x16x305.numel
  shapeCasts_S1x1x16x305_S16x305 : S1x1x16x305.ShapeCasts S16x305
  shapeCasts_S16x305_S1x1x16x305 : S16x305.ShapeCasts S1x1x16x305
  slices_S128x16x320_o0_0_16_S128x16x304 : S128x16x320.Slices ![0, 0, 16] S128x16x304
  slices_S128x16x320_o0_0_0_S128x16x304 : S128x16x320.Slices ![0, 0, 0] S128x16x304
  reduces_S128x16x304_S16x304 : S128x16x304.Reduces [0] S16x304
  inb_S1x48x16x320_S1x1x16x304_0_16_0_16 : ∀ a, (![0, 16, 0, 16] : Fin 4 → Nat) a + S1x1x16x304.size a ≤ S1x48x16x320.size a
  h_S1x1x16x304 : 0 < S1x1x16x304.numel
  shapeCasts_S1x1x16x304_S16x304 : S1x1x16x304.ShapeCasts S16x304
  shapeCasts_S16x304_S1x1x16x304 : S16x304.ShapeCasts S1x1x16x304
  slices_S128x16x320_o0_0_17_S128x16x303 : S128x16x320.Slices ![0, 0, 17] S128x16x303
  slices_S128x16x320_o0_0_0_S128x16x303 : S128x16x320.Slices ![0, 0, 0] S128x16x303
  reduces_S128x16x303_S16x303 : S128x16x303.Reduces [0] S16x303
  inb_S1x48x16x320_S1x1x16x303_0_17_0_17 : ∀ a, (![0, 17, 0, 17] : Fin 4 → Nat) a + S1x1x16x303.size a ≤ S1x48x16x320.size a
  h_S1x1x16x303 : 0 < S1x1x16x303.numel
  shapeCasts_S1x1x16x303_S16x303 : S1x1x16x303.ShapeCasts S16x303
  shapeCasts_S16x303_S1x1x16x303 : S16x303.ShapeCasts S1x1x16x303
  slices_S128x16x320_o0_0_18_S128x16x302 : S128x16x320.Slices ![0, 0, 18] S128x16x302
  slices_S128x16x320_o0_0_0_S128x16x302 : S128x16x320.Slices ![0, 0, 0] S128x16x302
  reduces_S128x16x302_S16x302 : S128x16x302.Reduces [0] S16x302
  inb_S1x48x16x320_S1x1x16x302_0_18_0_18 : ∀ a, (![0, 18, 0, 18] : Fin 4 → Nat) a + S1x1x16x302.size a ≤ S1x48x16x320.size a
  h_S1x1x16x302 : 0 < S1x1x16x302.numel
  shapeCasts_S1x1x16x302_S16x302 : S1x1x16x302.ShapeCasts S16x302
  shapeCasts_S16x302_S1x1x16x302 : S16x302.ShapeCasts S1x1x16x302
  slices_S128x16x320_o0_0_19_S128x16x301 : S128x16x320.Slices ![0, 0, 19] S128x16x301
  slices_S128x16x320_o0_0_0_S128x16x301 : S128x16x320.Slices ![0, 0, 0] S128x16x301
  reduces_S128x16x301_S16x301 : S128x16x301.Reduces [0] S16x301
  inb_S1x48x16x320_S1x1x16x301_0_19_0_19 : ∀ a, (![0, 19, 0, 19] : Fin 4 → Nat) a + S1x1x16x301.size a ≤ S1x48x16x320.size a
  h_S1x1x16x301 : 0 < S1x1x16x301.numel
  shapeCasts_S1x1x16x301_S16x301 : S1x1x16x301.ShapeCasts S16x301
  shapeCasts_S16x301_S1x1x16x301 : S16x301.ShapeCasts S1x1x16x301
  slices_S128x16x320_o0_0_20_S128x16x300 : S128x16x320.Slices ![0, 0, 20] S128x16x300
  slices_S128x16x320_o0_0_0_S128x16x300 : S128x16x320.Slices ![0, 0, 0] S128x16x300
  reduces_S128x16x300_S16x300 : S128x16x300.Reduces [0] S16x300
  inb_S1x48x16x320_S1x1x16x300_0_20_0_20 : ∀ a, (![0, 20, 0, 20] : Fin 4 → Nat) a + S1x1x16x300.size a ≤ S1x48x16x320.size a
  h_S1x1x16x300 : 0 < S1x1x16x300.numel
  shapeCasts_S1x1x16x300_S16x300 : S1x1x16x300.ShapeCasts S16x300
  shapeCasts_S16x300_S1x1x16x300 : S16x300.ShapeCasts S1x1x16x300
  slices_S128x16x320_o0_0_21_S128x16x299 : S128x16x320.Slices ![0, 0, 21] S128x16x299
  slices_S128x16x320_o0_0_0_S128x16x299 : S128x16x320.Slices ![0, 0, 0] S128x16x299
  reduces_S128x16x299_S16x299 : S128x16x299.Reduces [0] S16x299
  inb_S1x48x16x320_S1x1x16x299_0_21_0_21 : ∀ a, (![0, 21, 0, 21] : Fin 4 → Nat) a + S1x1x16x299.size a ≤ S1x48x16x320.size a
  h_S1x1x16x299 : 0 < S1x1x16x299.numel
  shapeCasts_S1x1x16x299_S16x299 : S1x1x16x299.ShapeCasts S16x299
  shapeCasts_S16x299_S1x1x16x299 : S16x299.ShapeCasts S1x1x16x299
  slices_S128x16x320_o0_0_22_S128x16x298 : S128x16x320.Slices ![0, 0, 22] S128x16x298
  slices_S128x16x320_o0_0_0_S128x16x298 : S128x16x320.Slices ![0, 0, 0] S128x16x298
  reduces_S128x16x298_S16x298 : S128x16x298.Reduces [0] S16x298
  inb_S1x48x16x320_S1x1x16x298_0_22_0_22 : ∀ a, (![0, 22, 0, 22] : Fin 4 → Nat) a + S1x1x16x298.size a ≤ S1x48x16x320.size a
  h_S1x1x16x298 : 0 < S1x1x16x298.numel
  shapeCasts_S1x1x16x298_S16x298 : S1x1x16x298.ShapeCasts S16x298
  shapeCasts_S16x298_S1x1x16x298 : S16x298.ShapeCasts S1x1x16x298
  slices_S128x16x320_o0_0_23_S128x16x297 : S128x16x320.Slices ![0, 0, 23] S128x16x297
  slices_S128x16x320_o0_0_0_S128x16x297 : S128x16x320.Slices ![0, 0, 0] S128x16x297
  reduces_S128x16x297_S16x297 : S128x16x297.Reduces [0] S16x297
  inb_S1x48x16x320_S1x1x16x297_0_23_0_23 : ∀ a, (![0, 23, 0, 23] : Fin 4 → Nat) a + S1x1x16x297.size a ≤ S1x48x16x320.size a
  h_S1x1x16x297 : 0 < S1x1x16x297.numel
  shapeCasts_S1x1x16x297_S16x297 : S1x1x16x297.ShapeCasts S16x297
  shapeCasts_S16x297_S1x1x16x297 : S16x297.ShapeCasts S1x1x16x297
  slices_S128x16x320_o0_0_24_S128x16x296 : S128x16x320.Slices ![0, 0, 24] S128x16x296
  slices_S128x16x320_o0_0_0_S128x16x296 : S128x16x320.Slices ![0, 0, 0] S128x16x296
  reduces_S128x16x296_S16x296 : S128x16x296.Reduces [0] S16x296
  inb_S1x48x16x320_S1x1x16x296_0_24_0_24 : ∀ a, (![0, 24, 0, 24] : Fin 4 → Nat) a + S1x1x16x296.size a ≤ S1x48x16x320.size a
  h_S1x1x16x296 : 0 < S1x1x16x296.numel
  shapeCasts_S1x1x16x296_S16x296 : S1x1x16x296.ShapeCasts S16x296
  shapeCasts_S16x296_S1x1x16x296 : S16x296.ShapeCasts S1x1x16x296
  slices_S128x16x320_o0_0_25_S128x16x295 : S128x16x320.Slices ![0, 0, 25] S128x16x295
  slices_S128x16x320_o0_0_0_S128x16x295 : S128x16x320.Slices ![0, 0, 0] S128x16x295
  reduces_S128x16x295_S16x295 : S128x16x295.Reduces [0] S16x295
  inb_S1x48x16x320_S1x1x16x295_0_25_0_25 : ∀ a, (![0, 25, 0, 25] : Fin 4 → Nat) a + S1x1x16x295.size a ≤ S1x48x16x320.size a
  h_S1x1x16x295 : 0 < S1x1x16x295.numel
  shapeCasts_S1x1x16x295_S16x295 : S1x1x16x295.ShapeCasts S16x295
  shapeCasts_S16x295_S1x1x16x295 : S16x295.ShapeCasts S1x1x16x295
  slices_S128x16x320_o0_0_26_S128x16x294 : S128x16x320.Slices ![0, 0, 26] S128x16x294
  slices_S128x16x320_o0_0_0_S128x16x294 : S128x16x320.Slices ![0, 0, 0] S128x16x294
  reduces_S128x16x294_S16x294 : S128x16x294.Reduces [0] S16x294
  inb_S1x48x16x320_S1x1x16x294_0_26_0_26 : ∀ a, (![0, 26, 0, 26] : Fin 4 → Nat) a + S1x1x16x294.size a ≤ S1x48x16x320.size a
  h_S1x1x16x294 : 0 < S1x1x16x294.numel
  shapeCasts_S1x1x16x294_S16x294 : S1x1x16x294.ShapeCasts S16x294
  shapeCasts_S16x294_S1x1x16x294 : S16x294.ShapeCasts S1x1x16x294
  slices_S128x16x320_o0_0_27_S128x16x293 : S128x16x320.Slices ![0, 0, 27] S128x16x293
  slices_S128x16x320_o0_0_0_S128x16x293 : S128x16x320.Slices ![0, 0, 0] S128x16x293
  reduces_S128x16x293_S16x293 : S128x16x293.Reduces [0] S16x293
  inb_S1x48x16x320_S1x1x16x293_0_27_0_27 : ∀ a, (![0, 27, 0, 27] : Fin 4 → Nat) a + S1x1x16x293.size a ≤ S1x48x16x320.size a
  h_S1x1x16x293 : 0 < S1x1x16x293.numel
  shapeCasts_S1x1x16x293_S16x293 : S1x1x16x293.ShapeCasts S16x293
  shapeCasts_S16x293_S1x1x16x293 : S16x293.ShapeCasts S1x1x16x293
  slices_S128x16x320_o0_0_28_S128x16x292 : S128x16x320.Slices ![0, 0, 28] S128x16x292
  slices_S128x16x320_o0_0_0_S128x16x292 : S128x16x320.Slices ![0, 0, 0] S128x16x292
  reduces_S128x16x292_S16x292 : S128x16x292.Reduces [0] S16x292
  inb_S1x48x16x320_S1x1x16x292_0_28_0_28 : ∀ a, (![0, 28, 0, 28] : Fin 4 → Nat) a + S1x1x16x292.size a ≤ S1x48x16x320.size a
  h_S1x1x16x292 : 0 < S1x1x16x292.numel
  shapeCasts_S1x1x16x292_S16x292 : S1x1x16x292.ShapeCasts S16x292
  shapeCasts_S16x292_S1x1x16x292 : S16x292.ShapeCasts S1x1x16x292
  slices_S128x16x320_o0_0_29_S128x16x291 : S128x16x320.Slices ![0, 0, 29] S128x16x291
  slices_S128x16x320_o0_0_0_S128x16x291 : S128x16x320.Slices ![0, 0, 0] S128x16x291
  reduces_S128x16x291_S16x291 : S128x16x291.Reduces [0] S16x291
  inb_S1x48x16x320_S1x1x16x291_0_29_0_29 : ∀ a, (![0, 29, 0, 29] : Fin 4 → Nat) a + S1x1x16x291.size a ≤ S1x48x16x320.size a
  h_S1x1x16x291 : 0 < S1x1x16x291.numel
  shapeCasts_S1x1x16x291_S16x291 : S1x1x16x291.ShapeCasts S16x291
  shapeCasts_S16x291_S1x1x16x291 : S16x291.ShapeCasts S1x1x16x291
  slices_S128x16x320_o0_0_30_S128x16x290 : S128x16x320.Slices ![0, 0, 30] S128x16x290
  slices_S128x16x320_o0_0_0_S128x16x290 : S128x16x320.Slices ![0, 0, 0] S128x16x290
  reduces_S128x16x290_S16x290 : S128x16x290.Reduces [0] S16x290
  inb_S1x48x16x320_S1x1x16x290_0_30_0_30 : ∀ a, (![0, 30, 0, 30] : Fin 4 → Nat) a + S1x1x16x290.size a ≤ S1x48x16x320.size a
  h_S1x1x16x290 : 0 < S1x1x16x290.numel
  shapeCasts_S1x1x16x290_S16x290 : S1x1x16x290.ShapeCasts S16x290
  shapeCasts_S16x290_S1x1x16x290 : S16x290.ShapeCasts S1x1x16x290
  slices_S128x16x320_o0_0_31_S128x16x289 : S128x16x320.Slices ![0, 0, 31] S128x16x289
  slices_S128x16x320_o0_0_0_S128x16x289 : S128x16x320.Slices ![0, 0, 0] S128x16x289
  reduces_S128x16x289_S16x289 : S128x16x289.Reduces [0] S16x289
  inb_S1x48x16x320_S1x1x16x289_0_31_0_31 : ∀ a, (![0, 31, 0, 31] : Fin 4 → Nat) a + S1x1x16x289.size a ≤ S1x48x16x320.size a
  h_S1x1x16x289 : 0 < S1x1x16x289.numel
  shapeCasts_S1x1x16x289_S16x289 : S1x1x16x289.ShapeCasts S16x289
  shapeCasts_S16x289_S1x1x16x289 : S16x289.ShapeCasts S1x1x16x289
  slices_S128x16x320_o0_0_32_S128x16x288 : S128x16x320.Slices ![0, 0, 32] S128x16x288
  slices_S128x16x320_o0_0_0_S128x16x288 : S128x16x320.Slices ![0, 0, 0] S128x16x288
  reduces_S128x16x288_S16x288 : S128x16x288.Reduces [0] S16x288
  inb_S1x48x16x320_S1x1x16x288_0_32_0_32 : ∀ a, (![0, 32, 0, 32] : Fin 4 → Nat) a + S1x1x16x288.size a ≤ S1x48x16x320.size a
  h_S1x1x16x288 : 0 < S1x1x16x288.numel
  shapeCasts_S1x1x16x288_S16x288 : S1x1x16x288.ShapeCasts S16x288
  shapeCasts_S16x288_S1x1x16x288 : S16x288.ShapeCasts S1x1x16x288
  slices_S128x16x320_o0_0_33_S128x16x287 : S128x16x320.Slices ![0, 0, 33] S128x16x287
  slices_S128x16x320_o0_0_0_S128x16x287 : S128x16x320.Slices ![0, 0, 0] S128x16x287
  reduces_S128x16x287_S16x287 : S128x16x287.Reduces [0] S16x287
  inb_S1x48x16x320_S1x1x16x287_0_33_0_33 : ∀ a, (![0, 33, 0, 33] : Fin 4 → Nat) a + S1x1x16x287.size a ≤ S1x48x16x320.size a
  h_S1x1x16x287 : 0 < S1x1x16x287.numel
  shapeCasts_S1x1x16x287_S16x287 : S1x1x16x287.ShapeCasts S16x287
  shapeCasts_S16x287_S1x1x16x287 : S16x287.ShapeCasts S1x1x16x287
  slices_S128x16x320_o0_0_34_S128x16x286 : S128x16x320.Slices ![0, 0, 34] S128x16x286
  slices_S128x16x320_o0_0_0_S128x16x286 : S128x16x320.Slices ![0, 0, 0] S128x16x286
  reduces_S128x16x286_S16x286 : S128x16x286.Reduces [0] S16x286
  inb_S1x48x16x320_S1x1x16x286_0_34_0_34 : ∀ a, (![0, 34, 0, 34] : Fin 4 → Nat) a + S1x1x16x286.size a ≤ S1x48x16x320.size a
  h_S1x1x16x286 : 0 < S1x1x16x286.numel
  shapeCasts_S1x1x16x286_S16x286 : S1x1x16x286.ShapeCasts S16x286
  shapeCasts_S16x286_S1x1x16x286 : S16x286.ShapeCasts S1x1x16x286
  slices_S128x16x320_o0_0_35_S128x16x285 : S128x16x320.Slices ![0, 0, 35] S128x16x285
  slices_S128x16x320_o0_0_0_S128x16x285 : S128x16x320.Slices ![0, 0, 0] S128x16x285
  reduces_S128x16x285_S16x285 : S128x16x285.Reduces [0] S16x285
  inb_S1x48x16x320_S1x1x16x285_0_35_0_35 : ∀ a, (![0, 35, 0, 35] : Fin 4 → Nat) a + S1x1x16x285.size a ≤ S1x48x16x320.size a
  h_S1x1x16x285 : 0 < S1x1x16x285.numel
  shapeCasts_S1x1x16x285_S16x285 : S1x1x16x285.ShapeCasts S16x285
  shapeCasts_S16x285_S1x1x16x285 : S16x285.ShapeCasts S1x1x16x285
  slices_S128x16x320_o0_0_36_S128x16x284 : S128x16x320.Slices ![0, 0, 36] S128x16x284
  slices_S128x16x320_o0_0_0_S128x16x284 : S128x16x320.Slices ![0, 0, 0] S128x16x284
  reduces_S128x16x284_S16x284 : S128x16x284.Reduces [0] S16x284
  inb_S1x48x16x320_S1x1x16x284_0_36_0_36 : ∀ a, (![0, 36, 0, 36] : Fin 4 → Nat) a + S1x1x16x284.size a ≤ S1x48x16x320.size a
  h_S1x1x16x284 : 0 < S1x1x16x284.numel
  shapeCasts_S1x1x16x284_S16x284 : S1x1x16x284.ShapeCasts S16x284
  shapeCasts_S16x284_S1x1x16x284 : S16x284.ShapeCasts S1x1x16x284
  slices_S128x16x320_o0_0_37_S128x16x283 : S128x16x320.Slices ![0, 0, 37] S128x16x283
  slices_S128x16x320_o0_0_0_S128x16x283 : S128x16x320.Slices ![0, 0, 0] S128x16x283
  reduces_S128x16x283_S16x283 : S128x16x283.Reduces [0] S16x283
  inb_S1x48x16x320_S1x1x16x283_0_37_0_37 : ∀ a, (![0, 37, 0, 37] : Fin 4 → Nat) a + S1x1x16x283.size a ≤ S1x48x16x320.size a
  h_S1x1x16x283 : 0 < S1x1x16x283.numel
  shapeCasts_S1x1x16x283_S16x283 : S1x1x16x283.ShapeCasts S16x283
  shapeCasts_S16x283_S1x1x16x283 : S16x283.ShapeCasts S1x1x16x283
  slices_S128x16x320_o0_0_38_S128x16x282 : S128x16x320.Slices ![0, 0, 38] S128x16x282
  slices_S128x16x320_o0_0_0_S128x16x282 : S128x16x320.Slices ![0, 0, 0] S128x16x282
  reduces_S128x16x282_S16x282 : S128x16x282.Reduces [0] S16x282
  inb_S1x48x16x320_S1x1x16x282_0_38_0_38 : ∀ a, (![0, 38, 0, 38] : Fin 4 → Nat) a + S1x1x16x282.size a ≤ S1x48x16x320.size a
  h_S1x1x16x282 : 0 < S1x1x16x282.numel
  shapeCasts_S1x1x16x282_S16x282 : S1x1x16x282.ShapeCasts S16x282
  shapeCasts_S16x282_S1x1x16x282 : S16x282.ShapeCasts S1x1x16x282
  slices_S128x16x320_o0_0_39_S128x16x281 : S128x16x320.Slices ![0, 0, 39] S128x16x281
  slices_S128x16x320_o0_0_0_S128x16x281 : S128x16x320.Slices ![0, 0, 0] S128x16x281
  reduces_S128x16x281_S16x281 : S128x16x281.Reduces [0] S16x281
  inb_S1x48x16x320_S1x1x16x281_0_39_0_39 : ∀ a, (![0, 39, 0, 39] : Fin 4 → Nat) a + S1x1x16x281.size a ≤ S1x48x16x320.size a
  h_S1x1x16x281 : 0 < S1x1x16x281.numel
  shapeCasts_S1x1x16x281_S16x281 : S1x1x16x281.ShapeCasts S16x281
  shapeCasts_S16x281_S1x1x16x281 : S16x281.ShapeCasts S1x1x16x281
  slices_S128x16x320_o0_0_40_S128x16x280 : S128x16x320.Slices ![0, 0, 40] S128x16x280
  slices_S128x16x320_o0_0_0_S128x16x280 : S128x16x320.Slices ![0, 0, 0] S128x16x280
  reduces_S128x16x280_S16x280 : S128x16x280.Reduces [0] S16x280
  inb_S1x48x16x320_S1x1x16x280_0_40_0_40 : ∀ a, (![0, 40, 0, 40] : Fin 4 → Nat) a + S1x1x16x280.size a ≤ S1x48x16x320.size a
  h_S1x1x16x280 : 0 < S1x1x16x280.numel
  shapeCasts_S1x1x16x280_S16x280 : S1x1x16x280.ShapeCasts S16x280
  shapeCasts_S16x280_S1x1x16x280 : S16x280.ShapeCasts S1x1x16x280
  slices_S128x16x320_o0_0_41_S128x16x279 : S128x16x320.Slices ![0, 0, 41] S128x16x279
  slices_S128x16x320_o0_0_0_S128x16x279 : S128x16x320.Slices ![0, 0, 0] S128x16x279
  reduces_S128x16x279_S16x279 : S128x16x279.Reduces [0] S16x279
  inb_S1x48x16x320_S1x1x16x279_0_41_0_41 : ∀ a, (![0, 41, 0, 41] : Fin 4 → Nat) a + S1x1x16x279.size a ≤ S1x48x16x320.size a
  h_S1x1x16x279 : 0 < S1x1x16x279.numel
  shapeCasts_S1x1x16x279_S16x279 : S1x1x16x279.ShapeCasts S16x279
  shapeCasts_S16x279_S1x1x16x279 : S16x279.ShapeCasts S1x1x16x279
  slices_S128x16x320_o0_0_42_S128x16x278 : S128x16x320.Slices ![0, 0, 42] S128x16x278
  slices_S128x16x320_o0_0_0_S128x16x278 : S128x16x320.Slices ![0, 0, 0] S128x16x278
  reduces_S128x16x278_S16x278 : S128x16x278.Reduces [0] S16x278
  inb_S1x48x16x320_S1x1x16x278_0_42_0_42 : ∀ a, (![0, 42, 0, 42] : Fin 4 → Nat) a + S1x1x16x278.size a ≤ S1x48x16x320.size a
  h_S1x1x16x278 : 0 < S1x1x16x278.numel
  shapeCasts_S1x1x16x278_S16x278 : S1x1x16x278.ShapeCasts S16x278
  shapeCasts_S16x278_S1x1x16x278 : S16x278.ShapeCasts S1x1x16x278
  slices_S128x16x320_o0_0_43_S128x16x277 : S128x16x320.Slices ![0, 0, 43] S128x16x277
  slices_S128x16x320_o0_0_0_S128x16x277 : S128x16x320.Slices ![0, 0, 0] S128x16x277
  reduces_S128x16x277_S16x277 : S128x16x277.Reduces [0] S16x277
  inb_S1x48x16x320_S1x1x16x277_0_43_0_43 : ∀ a, (![0, 43, 0, 43] : Fin 4 → Nat) a + S1x1x16x277.size a ≤ S1x48x16x320.size a
  h_S1x1x16x277 : 0 < S1x1x16x277.numel
  shapeCasts_S1x1x16x277_S16x277 : S1x1x16x277.ShapeCasts S16x277
  shapeCasts_S16x277_S1x1x16x277 : S16x277.ShapeCasts S1x1x16x277
  slices_S128x16x320_o0_0_44_S128x16x276 : S128x16x320.Slices ![0, 0, 44] S128x16x276
  slices_S128x16x320_o0_0_0_S128x16x276 : S128x16x320.Slices ![0, 0, 0] S128x16x276
  reduces_S128x16x276_S16x276 : S128x16x276.Reduces [0] S16x276
  inb_S1x48x16x320_S1x1x16x276_0_44_0_44 : ∀ a, (![0, 44, 0, 44] : Fin 4 → Nat) a + S1x1x16x276.size a ≤ S1x48x16x320.size a
  h_S1x1x16x276 : 0 < S1x1x16x276.numel
  shapeCasts_S1x1x16x276_S16x276 : S1x1x16x276.ShapeCasts S16x276
  shapeCasts_S16x276_S1x1x16x276 : S16x276.ShapeCasts S1x1x16x276
  slices_S128x16x320_o0_0_45_S128x16x275 : S128x16x320.Slices ![0, 0, 45] S128x16x275
  slices_S128x16x320_o0_0_0_S128x16x275 : S128x16x320.Slices ![0, 0, 0] S128x16x275
  reduces_S128x16x275_S16x275 : S128x16x275.Reduces [0] S16x275
  inb_S1x48x16x320_S1x1x16x275_0_45_0_45 : ∀ a, (![0, 45, 0, 45] : Fin 4 → Nat) a + S1x1x16x275.size a ≤ S1x48x16x320.size a
  h_S1x1x16x275 : 0 < S1x1x16x275.numel
  shapeCasts_S1x1x16x275_S16x275 : S1x1x16x275.ShapeCasts S16x275
  shapeCasts_S16x275_S1x1x16x275 : S16x275.ShapeCasts S1x1x16x275
  slices_S128x16x320_o0_0_46_S128x16x274 : S128x16x320.Slices ![0, 0, 46] S128x16x274
  slices_S128x16x320_o0_0_0_S128x16x274 : S128x16x320.Slices ![0, 0, 0] S128x16x274
  reduces_S128x16x274_S16x274 : S128x16x274.Reduces [0] S16x274
  inb_S1x48x16x320_S1x1x16x274_0_46_0_46 : ∀ a, (![0, 46, 0, 46] : Fin 4 → Nat) a + S1x1x16x274.size a ≤ S1x48x16x320.size a
  h_S1x1x16x274 : 0 < S1x1x16x274.numel
  shapeCasts_S1x1x16x274_S16x274 : S1x1x16x274.ShapeCasts S16x274
  shapeCasts_S16x274_S1x1x16x274 : S16x274.ShapeCasts S1x1x16x274
  slices_S128x16x320_o0_0_47_S128x16x273 : S128x16x320.Slices ![0, 0, 47] S128x16x273
  slices_S128x16x320_o0_0_0_S128x16x273 : S128x16x320.Slices ![0, 0, 0] S128x16x273
  reduces_S128x16x273_S16x273 : S128x16x273.Reduces [0] S16x273
  inb_S1x48x16x320_S1x1x16x273_0_47_0_47 : ∀ a, (![0, 47, 0, 47] : Fin 4 → Nat) a + S1x1x16x273.size a ≤ S1x48x16x320.size a
  h_S1x1x16x273 : 0 < S1x1x16x273.numel
  shapeCasts_S1x1x16x273_S16x273 : S1x1x16x273.ShapeCasts S16x273
  shapeCasts_S16x273_S1x1x16x273 : S16x273.ShapeCasts S1x1x16x273
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x320.size a ≤ S8x128x96x320.size a
  hwx0_0 : ∀ i : grid0.Coords, EltTy.bits .f32 = 32 ∨ (Rect.block (s := S8x128x96x320) S1x128x16x320.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x320.size a ≤ S8x128x96x320.size a
  hwx0_1 : ∀ i : grid0.Coords, EltTy.bits .f32 = 32 ∨ (Rect.block (s := S8x128x96x320) S1x128x16x320.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x48x16x320.size a ≤ S8x48x96x320.size a
  hwx0_2 : ∀ i : grid0.Coords, EltTy.bits .f32 = 32 ∨ (Rect.block (s := S8x48x96x320) S1x48x16x320.size (cc0_transform_2 i) (hinb0_2 i)).WholeWords (EltTy.packing .f32)

variable [Facts₀]

abbrev win0_0 : Pipeline.Window sig grid0 :=
  Pipeline.Window.ofSpec (Memref.whole main_arg0) S1x128x16x320.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x16x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x48x16x320.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x96x320 : Shape := ⟨4, ![8, 128, 96, 320]⟩
abbrev S_ : Shape := ⟨0, ![]⟩
abbrev S8x96x320 : Shape := ⟨3, ![8, 96, 320]⟩
abbrev S8x128x96x319 : Shape := ⟨4, ![8, 128, 96, 319]⟩
abbrev S8x96x319 : Shape := ⟨3, ![8, 96, 319]⟩
abbrev S8x128x96x318 : Shape := ⟨4, ![8, 128, 96, 318]⟩
abbrev S8x96x318 : Shape := ⟨3, ![8, 96, 318]⟩
abbrev S8x128x96x317 : Shape := ⟨4, ![8, 128, 96, 317]⟩
abbrev S8x96x317 : Shape := ⟨3, ![8, 96, 317]⟩
abbrev S8x128x96x316 : Shape := ⟨4, ![8, 128, 96, 316]⟩
abbrev S8x96x316 : Shape := ⟨3, ![8, 96, 316]⟩
abbrev S8x128x96x315 : Shape := ⟨4, ![8, 128, 96, 315]⟩
abbrev S8x96x315 : Shape := ⟨3, ![8, 96, 315]⟩
abbrev S8x128x96x314 : Shape := ⟨4, ![8, 128, 96, 314]⟩
abbrev S8x96x314 : Shape := ⟨3, ![8, 96, 314]⟩
abbrev S8x128x96x313 : Shape := ⟨4, ![8, 128, 96, 313]⟩
abbrev S8x96x313 : Shape := ⟨3, ![8, 96, 313]⟩
abbrev S8x128x96x312 : Shape := ⟨4, ![8, 128, 96, 312]⟩
abbrev S8x96x312 : Shape := ⟨3, ![8, 96, 312]⟩
abbrev S8x128x96x311 : Shape := ⟨4, ![8, 128, 96, 311]⟩
abbrev S8x96x311 : Shape := ⟨3, ![8, 96, 311]⟩
abbrev S8x128x96x310 : Shape := ⟨4, ![8, 128, 96, 310]⟩
abbrev S8x96x310 : Shape := ⟨3, ![8, 96, 310]⟩
abbrev S8x128x96x309 : Shape := ⟨4, ![8, 128, 96, 309]⟩
abbrev S8x96x309 : Shape := ⟨3, ![8, 96, 309]⟩
abbrev S8x128x96x308 : Shape := ⟨4, ![8, 128, 96, 308]⟩
abbrev S8x96x308 : Shape := ⟨3, ![8, 96, 308]⟩
abbrev S8x128x96x307 : Shape := ⟨4, ![8, 128, 96, 307]⟩
abbrev S8x96x307 : Shape := ⟨3, ![8, 96, 307]⟩
abbrev S8x128x96x306 : Shape := ⟨4, ![8, 128, 96, 306]⟩
abbrev S8x96x306 : Shape := ⟨3, ![8, 96, 306]⟩
abbrev S8x128x96x305 : Shape := ⟨4, ![8, 128, 96, 305]⟩
abbrev S8x96x305 : Shape := ⟨3, ![8, 96, 305]⟩
abbrev S8x128x96x304 : Shape := ⟨4, ![8, 128, 96, 304]⟩
abbrev S8x96x304 : Shape := ⟨3, ![8, 96, 304]⟩
abbrev S8x128x96x303 : Shape := ⟨4, ![8, 128, 96, 303]⟩
abbrev S8x96x303 : Shape := ⟨3, ![8, 96, 303]⟩
abbrev S8x128x96x302 : Shape := ⟨4, ![8, 128, 96, 302]⟩
abbrev S8x96x302 : Shape := ⟨3, ![8, 96, 302]⟩
abbrev S8x128x96x301 : Shape := ⟨4, ![8, 128, 96, 301]⟩
abbrev S8x96x301 : Shape := ⟨3, ![8, 96, 301]⟩
abbrev S8x128x96x300 : Shape := ⟨4, ![8, 128, 96, 300]⟩
abbrev S8x96x300 : Shape := ⟨3, ![8, 96, 300]⟩
abbrev S8x128x96x299 : Shape := ⟨4, ![8, 128, 96, 299]⟩
abbrev S8x96x299 : Shape := ⟨3, ![8, 96, 299]⟩
abbrev S8x128x96x298 : Shape := ⟨4, ![8, 128, 96, 298]⟩
abbrev S8x96x298 : Shape := ⟨3, ![8, 96, 298]⟩
abbrev S8x128x96x297 : Shape := ⟨4, ![8, 128, 96, 297]⟩
abbrev S8x96x297 : Shape := ⟨3, ![8, 96, 297]⟩
abbrev S8x128x96x296 : Shape := ⟨4, ![8, 128, 96, 296]⟩
abbrev S8x96x296 : Shape := ⟨3, ![8, 96, 296]⟩
abbrev S8x128x96x295 : Shape := ⟨4, ![8, 128, 96, 295]⟩
abbrev S8x96x295 : Shape := ⟨3, ![8, 96, 295]⟩
abbrev S8x128x96x294 : Shape := ⟨4, ![8, 128, 96, 294]⟩
abbrev S8x96x294 : Shape := ⟨3, ![8, 96, 294]⟩
abbrev S8x128x96x293 : Shape := ⟨4, ![8, 128, 96, 293]⟩
abbrev S8x96x293 : Shape := ⟨3, ![8, 96, 293]⟩
abbrev S8x128x96x292 : Shape := ⟨4, ![8, 128, 96, 292]⟩
abbrev S8x96x292 : Shape := ⟨3, ![8, 96, 292]⟩
abbrev S8x128x96x291 : Shape := ⟨4, ![8, 128, 96, 291]⟩
abbrev S8x96x291 : Shape := ⟨3, ![8, 96, 291]⟩
abbrev S8x128x96x290 : Shape := ⟨4, ![8, 128, 96, 290]⟩
abbrev S8x96x290 : Shape := ⟨3, ![8, 96, 290]⟩
abbrev S8x128x96x289 : Shape := ⟨4, ![8, 128, 96, 289]⟩
abbrev S8x96x289 : Shape := ⟨3, ![8, 96, 289]⟩
abbrev S8x128x96x288 : Shape := ⟨4, ![8, 128, 96, 288]⟩
abbrev S8x96x288 : Shape := ⟨3, ![8, 96, 288]⟩
abbrev S8x128x96x287 : Shape := ⟨4, ![8, 128, 96, 287]⟩
abbrev S8x96x287 : Shape := ⟨3, ![8, 96, 287]⟩
abbrev S8x128x96x286 : Shape := ⟨4, ![8, 128, 96, 286]⟩
abbrev S8x96x286 : Shape := ⟨3, ![8, 96, 286]⟩
abbrev S8x128x96x285 : Shape := ⟨4, ![8, 128, 96, 285]⟩
abbrev S8x96x285 : Shape := ⟨3, ![8, 96, 285]⟩
abbrev S8x128x96x284 : Shape := ⟨4, ![8, 128, 96, 284]⟩
abbrev S8x96x284 : Shape := ⟨3, ![8, 96, 284]⟩
abbrev S8x128x96x283 : Shape := ⟨4, ![8, 128, 96, 283]⟩
abbrev S8x96x283 : Shape := ⟨3, ![8, 96, 283]⟩
abbrev S8x128x96x282 : Shape := ⟨4, ![8, 128, 96, 282]⟩
abbrev S8x96x282 : Shape := ⟨3, ![8, 96, 282]⟩
abbrev S8x128x96x281 : Shape := ⟨4, ![8, 128, 96, 281]⟩
abbrev S8x96x281 : Shape := ⟨3, ![8, 96, 281]⟩
abbrev S8x128x96x280 : Shape := ⟨4, ![8, 128, 96, 280]⟩
abbrev S8x96x280 : Shape := ⟨3, ![8, 96, 280]⟩
abbrev S8x128x96x279 : Shape := ⟨4, ![8, 128, 96, 279]⟩
abbrev S8x96x279 : Shape := ⟨3, ![8, 96, 279]⟩
abbrev S8x128x96x278 : Shape := ⟨4, ![8, 128, 96, 278]⟩
abbrev S8x96x278 : Shape := ⟨3, ![8, 96, 278]⟩
abbrev S8x128x96x277 : Shape := ⟨4, ![8, 128, 96, 277]⟩
abbrev S8x96x277 : Shape := ⟨3, ![8, 96, 277]⟩
abbrev S8x128x96x276 : Shape := ⟨4, ![8, 128, 96, 276]⟩
abbrev S8x96x276 : Shape := ⟨3, ![8, 96, 276]⟩
abbrev S8x128x96x275 : Shape := ⟨4, ![8, 128, 96, 275]⟩
abbrev S8x96x275 : Shape := ⟨3, ![8, 96, 275]⟩
abbrev S8x128x96x274 : Shape := ⟨4, ![8, 128, 96, 274]⟩
abbrev S8x96x274 : Shape := ⟨3, ![8, 96, 274]⟩
abbrev S8x128x96x273 : Shape := ⟨4, ![8, 128, 96, 273]⟩
abbrev S8x96x273 : Shape := ⟨3, ![8, 96, 273]⟩
abbrev S8x1x96x320 : Shape := ⟨4, ![8, 1, 96, 320]⟩
abbrev S8x16x96x320 : Shape := ⟨4, ![8, 16, 96, 320]⟩
abbrev S8x48x96x320 : Shape := ⟨4, ![8, 48, 96, 320]⟩

abbrev nBuf : Space → Nat
  | .hbm => 580
  | .vmem => 0
  | .smem => 0
  | _ => 0

abbrev hbmTy0_0 (i : Nat) : BufTy := match i % 128 with
  | 0 => ⟨S8x128x96x320, .f32⟩
  | 1 => ⟨S8x128x96x320, .f32⟩
  | 2 => ⟨S8x128x96x320, .f32⟩
  | 3 => ⟨S_, .f32⟩
  | 4 => ⟨S8x96x320, .f32⟩
  | 5 => ⟨S_, .f32⟩
  | 6 => ⟨S8x96x320, .f32⟩
  | 7 => ⟨S8x96x320, .f32⟩
  | 8 => ⟨S_, .i32⟩
  | 9 => ⟨S_, .f32⟩
  | 10 => ⟨S8x96x320, .f32⟩
  | 11 => ⟨S8x128x96x319, .f32⟩
  | 12 => ⟨S8x128x96x319, .f32⟩
  | 13 => ⟨S8x128x96x319, .f32⟩
  | 14 => ⟨S_, .f32⟩
  | 15 => ⟨S8x96x319, .f32⟩
  | 16 => ⟨S_, .f32⟩
  | 17 => ⟨S8x96x319, .f32⟩
  | 18 => ⟨S8x96x319, .f32⟩
  | 19 => ⟨S_, .i32⟩
  | 20 => ⟨S_, .f32⟩
  | 21 => ⟨S8x96x320, .f32⟩
  | 22 => ⟨S8x128x96x318, .f32⟩
  | 23 => ⟨S8x128x96x318, .f32⟩
  | 24 => ⟨S8x128x96x318, .f32⟩
  | 25 => ⟨S_, .f32⟩
  | 26 => ⟨S8x96x318, .f32⟩
  | 27 => ⟨S_, .f32⟩
  | 28 => ⟨S8x96x318, .f32⟩
  | 29 => ⟨S8x96x318, .f32⟩
  | 30 => ⟨S_, .i32⟩
  | 31 => ⟨S_, .f32⟩
  | 32 => ⟨S8x96x320, .f32⟩
  | 33 => ⟨S8x128x96x317, .f32⟩
  | 34 => ⟨S8x128x96x317, .f32⟩
  | 35 => ⟨S8x128x96x317, .f32⟩
  | 36 => ⟨S_, .f32⟩
  | 37 => ⟨S8x96x317, .f32⟩
  | 38 => ⟨S_, .f32⟩
  | 39 => ⟨S8x96x317, .f32⟩
  | 40 => ⟨S8x96x317, .f32⟩
  | 41 => ⟨S_, .i32⟩
  | 42 => ⟨S_, .f32⟩
  | 43 => ⟨S8x96x320, .f32⟩
  | 44 => ⟨S8x128x96x316, .f32⟩
  | 45 => ⟨S8x128x96x316, .f32⟩
  | 46 => ⟨S8x128x96x316, .f32⟩
  | 47 => ⟨S_, .f32⟩
  | 48 => ⟨S8x96x316, .f32⟩
  | 49 => ⟨S_, .f32⟩
  | 50 => ⟨S8x96x316, .f32⟩
  | 51 => ⟨S8x96x316, .f32⟩
  | 52 => ⟨S_, .i32⟩
  | 53 => ⟨S_, .f32⟩
  | 54 => ⟨S8x96x320, .f32⟩
  | 55 => ⟨S8x128x96x315, .f32⟩
  | 56 => ⟨S8x128x96x315, .f32⟩
  | 57 => ⟨S8x128x96x315, .f32⟩
  | 58 => ⟨S_, .f32⟩
  | 59 => ⟨S8x96x315, .f32⟩
  | 60 => ⟨S_, .f32⟩
  | 61 => ⟨S8x96x315, .f32⟩
  | 62 => ⟨S8x96x315, .f32⟩
  | 63 => ⟨S_, .i32⟩
  | 64 => ⟨S_, .f32⟩
  | 65 => ⟨S8x96x320, .f32⟩
  | 66 => ⟨S8x128x96x314, .f32⟩
  | 67 => ⟨S8x128x96x314, .f32⟩
  | 68 => ⟨S8x128x96x314, .f32⟩
  | 69 => ⟨S_, .f32⟩
  | 70 => ⟨S8x96x314, .f32⟩
  | 71 => ⟨S_, .f32⟩
  | 72 => ⟨S8x96x314, .f32⟩
  | 73 => ⟨S8x96x314, .f32⟩
  | 74 => ⟨S_, .i32⟩
  | 75 => ⟨S_, .f32⟩
  | 76 => ⟨S8x96x320, .f32⟩
  | 77 => ⟨S8x128x96x313, .f32⟩
  | 78 => ⟨S8x128x96x313, .f32⟩
  | 79 => ⟨S8x128x96x313, .f32⟩
  | 80 => ⟨S_, .f32⟩
  | 81 => ⟨S8x96x313, .f32⟩
  | 82 => ⟨S_, .f32⟩
  | 83 => ⟨S8x96x313, .f32⟩
  | 84 => ⟨S8x96x313, .f32⟩
  | 85 => ⟨S_, .i32⟩
  | 86 => ⟨S_, .f32⟩
  | 87 => ⟨S8x96x320, .f32⟩
  | 88 => ⟨S8x128x96x312, .f32⟩
  | 89 => ⟨S8x128x96x312, .f32⟩
  | 90 => ⟨S8x128x96x312, .f32⟩
  | 91 => ⟨S_, .f32⟩
  | 92 => ⟨S8x96x312, .f32⟩
  | 93 => ⟨S_, .f32⟩
  | 94 => ⟨S8x96x312, .f32⟩
  | 95 => ⟨S8x96x312, .f32⟩
  | 96 => ⟨S_, .i32⟩
  | 97 => ⟨S_, .f32⟩
  | 98 => ⟨S8x96x320, .f32⟩
  | 99 => ⟨S8x128x96x311, .f32⟩
  | 100 => ⟨S8x128x96x311, .f32⟩
  | 101 => ⟨S8x128x96x311, .f32⟩
  | 102 => ⟨S_, .f32⟩
  | 103 => ⟨S8x96x311, .f32⟩
  | 104 => ⟨S_, .f32⟩
  | 105 => ⟨S8x96x311, .f32⟩
  | 106 => ⟨S8x96x311, .f32⟩
  | 107 => ⟨S_, .i32⟩
  | 108 => ⟨S_, .f32⟩
  | 109 => ⟨S8x96x320, .f32⟩
  | 110 => ⟨S8x128x96x310, .f32⟩
  | 111 => ⟨S8x128x96x310, .f32⟩
  | 112 => ⟨S8x128x96x310, .f32⟩
  | 113 => ⟨S_, .f32⟩
  | 114 => ⟨S8x96x310, .f32⟩
  | 115 => ⟨S_, .f32⟩
  | 116 => ⟨S8x96x310, .f32⟩
  | 117 => ⟨S8x96x310, .f32⟩
  | 118 => ⟨S_, .i32⟩
  | 119 => ⟨S_, .f32⟩
  | 120 => ⟨S8x96x320, .f32⟩
  | 121 => ⟨S8x128x96x309, .f32⟩
  | 122 => ⟨S8x128x96x309, .f32⟩
  | 123 => ⟨S8x128x96x309, .f32⟩
  | 124 => ⟨S_, .f32⟩
  | 125 => ⟨S8x96x309, .f32⟩
  | 126 => ⟨S_, .f32⟩
  | 127 => ⟨S8x96x309, .f32⟩
  | _ => ⟨S8x128x96x320, .f32⟩

abbrev hbmTy0_1 (i : Nat) : BufTy := match i % 128 with
  | 0 => ⟨S8x96x309, .f32⟩
  | 1 => ⟨S_, .i32⟩
  | 2 => ⟨S_, .f32⟩
  | 3 => ⟨S8x96x320, .f32⟩
  | 4 => ⟨S8x128x96x308, .f32⟩
  | 5 => ⟨S8x128x96x308, .f32⟩
  | 6 => ⟨S8x128x96x308, .f32⟩
  | 7 => ⟨S_, .f32⟩
  | 8 => ⟨S8x96x308, .f32⟩
  | 9 => ⟨S_, .f32⟩
  | 10 => ⟨S8x96x308, .f32⟩
  | 11 => ⟨S8x96x308, .f32⟩
  | 12 => ⟨S_, .i32⟩
  | 13 => ⟨S_, .f32⟩
  | 14 => ⟨S8x96x320, .f32⟩
  | 15 => ⟨S8x128x96x307, .f32⟩
  | 16 => ⟨S8x128x96x307, .f32⟩
  | 17 => ⟨S8x128x96x307, .f32⟩
  | 18 => ⟨S_, .f32⟩
  | 19 => ⟨S8x96x307, .f32⟩
  | 20 => ⟨S_, .f32⟩
  | 21 => ⟨S8x96x307, .f32⟩
  | 22 => ⟨S8x96x307, .f32⟩
  | 23 => ⟨S_, .i32⟩
  | 24 => ⟨S_, .f32⟩
  | 25 => ⟨S8x96x320, .f32⟩
  | 26 => ⟨S8x128x96x306, .f32⟩
  | 27 => ⟨S8x128x96x306, .f32⟩
  | 28 => ⟨S8x128x96x306, .f32⟩
  | 29 => ⟨S_, .f32⟩
  | 30 => ⟨S8x96x306, .f32⟩
  | 31 => ⟨S_, .f32⟩
  | 32 => ⟨S8x96x306, .f32⟩
  | 33 => ⟨S8x96x306, .f32⟩
  | 34 => ⟨S_, .i32⟩
  | 35 => ⟨S_, .f32⟩
  | 36 => ⟨S8x96x320, .f32⟩
  | 37 => ⟨S8x128x96x305, .f32⟩
  | 38 => ⟨S8x128x96x305, .f32⟩
  | 39 => ⟨S8x128x96x305, .f32⟩
  | 40 => ⟨S_, .f32⟩
  | 41 => ⟨S8x96x305, .f32⟩
  | 42 => ⟨S_, .f32⟩
  | 43 => ⟨S8x96x305, .f32⟩
  | 44 => ⟨S8x96x305, .f32⟩
  | 45 => ⟨S_, .i32⟩
  | 46 => ⟨S_, .f32⟩
  | 47 => ⟨S8x96x320, .f32⟩
  | 48 => ⟨S8x128x96x304, .f32⟩
  | 49 => ⟨S8x128x96x304, .f32⟩
  | 50 => ⟨S8x128x96x304, .f32⟩
  | 51 => ⟨S_, .f32⟩
  | 52 => ⟨S8x96x304, .f32⟩
  | 53 => ⟨S_, .f32⟩
  | 54 => ⟨S8x96x304, .f32⟩
  | 55 => ⟨S8x96x304, .f32⟩
  | 56 => ⟨S_, .i32⟩
  | 57 => ⟨S_, .f32⟩
  | 58 => ⟨S8x96x320, .f32⟩
  | 59 => ⟨S8x128x96x303, .f32⟩
  | 60 => ⟨S8x128x96x303, .f32⟩
  | 61 => ⟨S8x128x96x303, .f32⟩
  | 62 => ⟨S_, .f32⟩
  | 63 => ⟨S8x96x303, .f32⟩
  | 64 => ⟨S_, .f32⟩
  | 65 => ⟨S8x96x303, .f32⟩
  | 66 => ⟨S8x96x303, .f32⟩
  | 67 => ⟨S_, .i32⟩
  | 68 => ⟨S_, .f32⟩
  | 69 => ⟨S8x96x320, .f32⟩
  | 70 => ⟨S8x128x96x302, .f32⟩
  | 71 => ⟨S8x128x96x302, .f32⟩
  | 72 => ⟨S8x128x96x302, .f32⟩
  | 73 => ⟨S_, .f32⟩
  | 74 => ⟨S8x96x302, .f32⟩
  | 75 => ⟨S_, .f32⟩
  | 76 => ⟨S8x96x302, .f32⟩
  | 77 => ⟨S8x96x302, .f32⟩
  | 78 => ⟨S_, .i32⟩
  | 79 => ⟨S_, .f32⟩
  | 80 => ⟨S8x96x320, .f32⟩
  | 81 => ⟨S8x128x96x301, .f32⟩
  | 82 => ⟨S8x128x96x301, .f32⟩
  | 83 => ⟨S8x128x96x301, .f32⟩
  | 84 => ⟨S_, .f32⟩
  | 85 => ⟨S8x96x301, .f32⟩
  | 86 => ⟨S_, .f32⟩
  | 87 => ⟨S8x96x301, .f32⟩
  | 88 => ⟨S8x96x301, .f32⟩
  | 89 => ⟨S_, .i32⟩
  | 90 => ⟨S_, .f32⟩
  | 91 => ⟨S8x96x320, .f32⟩
  | 92 => ⟨S8x128x96x300, .f32⟩
  | 93 => ⟨S8x128x96x300, .f32⟩
  | 94 => ⟨S8x128x96x300, .f32⟩
  | 95 => ⟨S_, .f32⟩
  | 96 => ⟨S8x96x300, .f32⟩
  | 97 => ⟨S_, .f32⟩
  | 98 => ⟨S8x96x300, .f32⟩
  | 99 => ⟨S8x96x300, .f32⟩
  | 100 => ⟨S_, .i32⟩
  | 101 => ⟨S_, .f32⟩
  | 102 => ⟨S8x96x320, .f32⟩
  | 103 => ⟨S8x128x96x299, .f32⟩
  | 104 => ⟨S8x128x96x299, .f32⟩
  | 105 => ⟨S8x128x96x299, .f32⟩
  | 106 => ⟨S_, .f32⟩
  | 107 => ⟨S8x96x299, .f32⟩
  | 108 => ⟨S_, .f32⟩
  | 109 => ⟨S8x96x299, .f32⟩
  | 110 => ⟨S8x96x299, .f32⟩
  | 111 => ⟨S_, .i32⟩
  | 112 => ⟨S_, .f32⟩
  | 113 => ⟨S8x96x320, .f32⟩
  | 114 => ⟨S8x128x96x298, .f32⟩
  | 115 => ⟨S8x128x96x298, .f32⟩
  | 116 => ⟨S8x128x96x298, .f32⟩
  | 117 => ⟨S_, .f32⟩
  | 118 => ⟨S8x96x298, .f32⟩
  | 119 => ⟨S_, .f32⟩
  | 120 => ⟨S8x96x298, .f32⟩
  | 121 => ⟨S8x96x298, .f32⟩
  | 122 => ⟨S_, .i32⟩
  | 123 => ⟨S_, .f32⟩
  | 124 => ⟨S8x96x320, .f32⟩
  | 125 => ⟨S8x128x96x297, .f32⟩
  | 126 => ⟨S8x128x96x297, .f32⟩
  | 127 => ⟨S8x128x96x297, .f32⟩
  | _ => ⟨S8x128x96x320, .f32⟩

abbrev hbmTy0_2 (i : Nat) : BufTy := match i % 128 with
  | 0 => ⟨S_, .f32⟩
  | 1 => ⟨S8x96x297, .f32⟩
  | 2 => ⟨S_, .f32⟩
  | 3 => ⟨S8x96x297, .f32⟩
  | 4 => ⟨S8x96x297, .f32⟩
  | 5 => ⟨S_, .i32⟩
  | 6 => ⟨S_, .f32⟩
  | 7 => ⟨S8x96x320, .f32⟩
  | 8 => ⟨S8x128x96x296, .f32⟩
  | 9 => ⟨S8x128x96x296, .f32⟩
  | 10 => ⟨S8x128x96x296, .f32⟩
  | 11 => ⟨S_, .f32⟩
  | 12 => ⟨S8x96x296, .f32⟩
  | 13 => ⟨S_, .f32⟩
  | 14 => ⟨S8x96x296, .f32⟩
  | 15 => ⟨S8x96x296, .f32⟩
  | 16 => ⟨S_, .i32⟩
  | 17 => ⟨S_, .f32⟩
  | 18 => ⟨S8x96x320, .f32⟩
  | 19 => ⟨S8x128x96x295, .f32⟩
  | 20 => ⟨S8x128x96x295, .f32⟩
  | 21 => ⟨S8x128x96x295, .f32⟩
  | 22 => ⟨S_, .f32⟩
  | 23 => ⟨S8x96x295, .f32⟩
  | 24 => ⟨S_, .f32⟩
  | 25 => ⟨S8x96x295, .f32⟩
  | 26 => ⟨S8x96x295, .f32⟩
  | 27 => ⟨S_, .i32⟩
  | 28 => ⟨S_, .f32⟩
  | 29 => ⟨S8x96x320, .f32⟩
  | 30 => ⟨S8x128x96x294, .f32⟩
  | 31 => ⟨S8x128x96x294, .f32⟩
  | 32 => ⟨S8x128x96x294, .f32⟩
  | 33 => ⟨S_, .f32⟩
  | 34 => ⟨S8x96x294, .f32⟩
  | 35 => ⟨S_, .f32⟩
  | 36 => ⟨S8x96x294, .f32⟩
  | 37 => ⟨S8x96x294, .f32⟩
  | 38 => ⟨S_, .i32⟩
  | 39 => ⟨S_, .f32⟩
  | 40 => ⟨S8x96x320, .f32⟩
  | 41 => ⟨S8x128x96x293, .f32⟩
  | 42 => ⟨S8x128x96x293, .f32⟩
  | 43 => ⟨S8x128x96x293, .f32⟩
  | 44 => ⟨S_, .f32⟩
  | 45 => ⟨S8x96x293, .f32⟩
  | 46 => ⟨S_, .f32⟩
  | 47 => ⟨S8x96x293, .f32⟩
  | 48 => ⟨S8x96x293, .f32⟩
  | 49 => ⟨S_, .i32⟩
  | 50 => ⟨S_, .f32⟩
  | 51 => ⟨S8x96x320, .f32⟩
  | 52 => ⟨S8x128x96x292, .f32⟩
  | 53 => ⟨S8x128x96x292, .f32⟩
  | 54 => ⟨S8x128x96x292, .f32⟩
  | 55 => ⟨S_, .f32⟩
  | 56 => ⟨S8x96x292, .f32⟩
  | 57 => ⟨S_, .f32⟩
  | 58 => ⟨S8x96x292, .f32⟩
  | 59 => ⟨S8x96x292, .f32⟩
  | 60 => ⟨S_, .i32⟩
  | 61 => ⟨S_, .f32⟩
  | 62 => ⟨S8x96x320, .f32⟩
  | 63 => ⟨S8x128x96x291, .f32⟩
  | 64 => ⟨S8x128x96x291, .f32⟩
  | 65 => ⟨S8x128x96x291, .f32⟩
  | 66 => ⟨S_, .f32⟩
  | 67 => ⟨S8x96x291, .f32⟩
  | 68 => ⟨S_, .f32⟩
  | 69 => ⟨S8x96x291, .f32⟩
  | 70 => ⟨S8x96x291, .f32⟩
  | 71 => ⟨S_, .i32⟩
  | 72 => ⟨S_, .f32⟩
  | 73 => ⟨S8x96x320, .f32⟩
  | 74 => ⟨S8x128x96x290, .f32⟩
  | 75 => ⟨S8x128x96x290, .f32⟩
  | 76 => ⟨S8x128x96x290, .f32⟩
  | 77 => ⟨S_, .f32⟩
  | 78 => ⟨S8x96x290, .f32⟩
  | 79 => ⟨S_, .f32⟩
  | 80 => ⟨S8x96x290, .f32⟩
  | 81 => ⟨S8x96x290, .f32⟩
  | 82 => ⟨S_, .i32⟩
  | 83 => ⟨S_, .f32⟩
  | 84 => ⟨S8x96x320, .f32⟩
  | 85 => ⟨S8x128x96x289, .f32⟩
  | 86 => ⟨S8x128x96x289, .f32⟩
  | 87 => ⟨S8x128x96x289, .f32⟩
  | 88 => ⟨S_, .f32⟩
  | 89 => ⟨S8x96x289, .f32⟩
  | 90 => ⟨S_, .f32⟩
  | 91 => ⟨S8x96x289, .f32⟩
  | 92 => ⟨S8x96x289, .f32⟩
  | 93 => ⟨S_, .i32⟩
  | 94 => ⟨S_, .f32⟩
  | 95 => ⟨S8x96x320, .f32⟩
  | 96 => ⟨S8x128x96x288, .f32⟩
  | 97 => ⟨S8x128x96x288, .f32⟩
  | 98 => ⟨S8x128x96x288, .f32⟩
  | 99 => ⟨S_, .f32⟩
  | 100 => ⟨S8x96x288, .f32⟩
  | 101 => ⟨S_, .f32⟩
  | 102 => ⟨S8x96x288, .f32⟩
  | 103 => ⟨S8x96x288, .f32⟩
  | 104 => ⟨S_, .i32⟩
  | 105 => ⟨S_, .f32⟩
  | 106 => ⟨S8x96x320, .f32⟩
  | 107 => ⟨S8x128x96x287, .f32⟩
  | 108 => ⟨S8x128x96x287, .f32⟩
  | 109 => ⟨S8x128x96x287, .f32⟩
  | 110 => ⟨S_, .f32⟩
  | 111 => ⟨S8x96x287, .f32⟩
  | 112 => ⟨S_, .f32⟩
  | 113 => ⟨S8x96x287, .f32⟩
  | 114 => ⟨S8x96x287, .f32⟩
  | 115 => ⟨S_, .i32⟩
  | 116 => ⟨S_, .f32⟩
  | 117 => ⟨S8x96x320, .f32⟩
  | 118 => ⟨S8x128x96x286, .f32⟩
  | 119 => ⟨S8x128x96x286, .f32⟩
  | 120 => ⟨S8x128x96x286, .f32⟩
  | 121 => ⟨S_, .f32⟩
  | 122 => ⟨S8x96x286, .f32⟩
  | 123 => ⟨S_, .f32⟩
  | 124 => ⟨S8x96x286, .f32⟩
  | 125 => ⟨S8x96x286, .f32⟩
  | 126 => ⟨S_, .i32⟩
  | 127 => ⟨S_, .f32⟩
  | _ => ⟨S8x128x96x320, .f32⟩

abbrev hbmTy0_3 (i : Nat) : BufTy := match i % 128 with
  | 0 => ⟨S8x96x320, .f32⟩
  | 1 => ⟨S8x128x96x285, .f32⟩
  | 2 => ⟨S8x128x96x285, .f32⟩
  | 3 => ⟨S8x128x96x285, .f32⟩
  | 4 => ⟨S_, .f32⟩
  | 5 => ⟨S8x96x285, .f32⟩
  | 6 => ⟨S_, .f32⟩
  | 7 => ⟨S8x96x285, .f32⟩
  | 8 => ⟨S8x96x285, .f32⟩
  | 9 => ⟨S_, .i32⟩
  | 10 => ⟨S_, .f32⟩
  | 11 => ⟨S8x96x320, .f32⟩
  | 12 => ⟨S8x128x96x284, .f32⟩
  | 13 => ⟨S8x128x96x284, .f32⟩
  | 14 => ⟨S8x128x96x284, .f32⟩
  | 15 => ⟨S_, .f32⟩
  | 16 => ⟨S8x96x284, .f32⟩
  | 17 => ⟨S_, .f32⟩
  | 18 => ⟨S8x96x284, .f32⟩
  | 19 => ⟨S8x96x284, .f32⟩
  | 20 => ⟨S_, .i32⟩
  | 21 => ⟨S_, .f32⟩
  | 22 => ⟨S8x96x320, .f32⟩
  | 23 => ⟨S8x128x96x283, .f32⟩
  | 24 => ⟨S8x128x96x283, .f32⟩
  | 25 => ⟨S8x128x96x283, .f32⟩
  | 26 => ⟨S_, .f32⟩
  | 27 => ⟨S8x96x283, .f32⟩
  | 28 => ⟨S_, .f32⟩
  | 29 => ⟨S8x96x283, .f32⟩
  | 30 => ⟨S8x96x283, .f32⟩
  | 31 => ⟨S_, .i32⟩
  | 32 => ⟨S_, .f32⟩
  | 33 => ⟨S8x96x320, .f32⟩
  | 34 => ⟨S8x128x96x282, .f32⟩
  | 35 => ⟨S8x128x96x282, .f32⟩
  | 36 => ⟨S8x128x96x282, .f32⟩
  | 37 => ⟨S_, .f32⟩
  | 38 => ⟨S8x96x282, .f32⟩
  | 39 => ⟨S_, .f32⟩
  | 40 => ⟨S8x96x282, .f32⟩
  | 41 => ⟨S8x96x282, .f32⟩
  | 42 => ⟨S_, .i32⟩
  | 43 => ⟨S_, .f32⟩
  | 44 => ⟨S8x96x320, .f32⟩
  | 45 => ⟨S8x128x96x281, .f32⟩
  | 46 => ⟨S8x128x96x281, .f32⟩
  | 47 => ⟨S8x128x96x281, .f32⟩
  | 48 => ⟨S_, .f32⟩
  | 49 => ⟨S8x96x281, .f32⟩
  | 50 => ⟨S_, .f32⟩
  | 51 => ⟨S8x96x281, .f32⟩
  | 52 => ⟨S8x96x281, .f32⟩
  | 53 => ⟨S_, .i32⟩
  | 54 => ⟨S_, .f32⟩
  | 55 => ⟨S8x96x320, .f32⟩
  | 56 => ⟨S8x128x96x280, .f32⟩
  | 57 => ⟨S8x128x96x280, .f32⟩
  | 58 => ⟨S8x128x96x280, .f32⟩
  | 59 => ⟨S_, .f32⟩
  | 60 => ⟨S8x96x280, .f32⟩
  | 61 => ⟨S_, .f32⟩
  | 62 => ⟨S8x96x280, .f32⟩
  | 63 => ⟨S8x96x280, .f32⟩
  | 64 => ⟨S_, .i32⟩
  | 65 => ⟨S_, .f32⟩
  | 66 => ⟨S8x96x320, .f32⟩
  | 67 => ⟨S8x128x96x279, .f32⟩
  | 68 => ⟨S8x128x96x279, .f32⟩
  | 69 => ⟨S8x128x96x279, .f32⟩
  | 70 => ⟨S_, .f32⟩
  | 71 => ⟨S8x96x279, .f32⟩
  | 72 => ⟨S_, .f32⟩
  | 73 => ⟨S8x96x279, .f32⟩
  | 74 => ⟨S8x96x279, .f32⟩
  | 75 => ⟨S_, .i32⟩
  | 76 => ⟨S_, .f32⟩
  | 77 => ⟨S8x96x320, .f32⟩
  | 78 => ⟨S8x128x96x278, .f32⟩
  | 79 => ⟨S8x128x96x278, .f32⟩
  | 80 => ⟨S8x128x96x278, .f32⟩
  | 81 => ⟨S_, .f32⟩
  | 82 => ⟨S8x96x278, .f32⟩
  | 83 => ⟨S_, .f32⟩
  | 84 => ⟨S8x96x278, .f32⟩
  | 85 => ⟨S8x96x278, .f32⟩
  | 86 => ⟨S_, .i32⟩
  | 87 => ⟨S_, .f32⟩
  | 88 => ⟨S8x96x320, .f32⟩
  | 89 => ⟨S8x128x96x277, .f32⟩
  | 90 => ⟨S8x128x96x277, .f32⟩
  | 91 => ⟨S8x128x96x277, .f32⟩
  | 92 => ⟨S_, .f32⟩
  | 93 => ⟨S8x96x277, .f32⟩
  | 94 => ⟨S_, .f32⟩
  | 95 => ⟨S8x96x277, .f32⟩
  | 96 => ⟨S8x96x277, .f32⟩
  | 97 => ⟨S_, .i32⟩
  | 98 => ⟨S_, .f32⟩
  | 99 => ⟨S8x96x320, .f32⟩
  | 100 => ⟨S8x128x96x276, .f32⟩
  | 101 => ⟨S8x128x96x276, .f32⟩
  | 102 => ⟨S8x128x96x276, .f32⟩
  | 103 => ⟨S_, .f32⟩
  | 104 => ⟨S8x96x276, .f32⟩
  | 105 => ⟨S_, .f32⟩
  | 106 => ⟨S8x96x276, .f32⟩
  | 107 => ⟨S8x96x276, .f32⟩
  | 108 => ⟨S_, .i32⟩
  | 109 => ⟨S_, .f32⟩
  | 110 => ⟨S8x96x320, .f32⟩
  | 111 => ⟨S8x128x96x275, .f32⟩
  | 112 => ⟨S8x128x96x275, .f32⟩
  | 113 => ⟨S8x128x96x275, .f32⟩
  | 114 => ⟨S_, .f32⟩
  | 115 => ⟨S8x96x275, .f32⟩
  | 116 => ⟨S_, .f32⟩
  | 117 => ⟨S8x96x275, .f32⟩
  | 118 => ⟨S8x96x275, .f32⟩
  | 119 => ⟨S_, .i32⟩
  | 120 => ⟨S_, .f32⟩
  | 121 => ⟨S8x96x320, .f32⟩
  | 122 => ⟨S8x128x96x274, .f32⟩
  | 123 => ⟨S8x128x96x274, .f32⟩
  | 124 => ⟨S8x128x96x274, .f32⟩
  | 125 => ⟨S_, .f32⟩
  | 126 => ⟨S8x96x274, .f32⟩
  | 127 => ⟨S_, .f32⟩
  | _ => ⟨S8x128x96x320, .f32⟩

abbrev hbmTy0_4 (i : Nat) : BufTy := match i % 128 with
  | 0 => ⟨S8x96x274, .f32⟩
  | 1 => ⟨S8x96x274, .f32⟩
  | 2 => ⟨S_, .i32⟩
  | 3 => ⟨S_, .f32⟩
  | 4 => ⟨S8x96x320, .f32⟩
  | 5 => ⟨S8x128x96x273, .f32⟩
  | 6 => ⟨S8x128x96x273, .f32⟩
  | 7 => ⟨S8x128x96x273, .f32⟩
  | 8 => ⟨S_, .f32⟩
  | 9 => ⟨S8x96x273, .f32⟩
  | 10 => ⟨S_, .f32⟩
  | 11 => ⟨S8x96x273, .f32⟩
  | 12 => ⟨S8x96x273, .f32⟩
  | 13 => ⟨S_, .i32⟩
  | 14 => ⟨S_, .f32⟩
  | 15 => ⟨S8x96x320, .f32⟩
  | 16 => ⟨S8x1x96x320, .f32⟩
  | 17 => ⟨S8x1x96x320, .f32⟩
  | 18 => ⟨S8x1x96x320, .f32⟩
  | 19 => ⟨S8x1x96x320, .f32⟩
  | 20 => ⟨S8x1x96x320, .f32⟩
  | 21 => ⟨S8x1x96x320, .f32⟩
  | 22 => ⟨S8x1x96x320, .f32⟩
  | 23 => ⟨S8x1x96x320, .f32⟩
  | 24 => ⟨S8x1x96x320, .f32⟩
  | 25 => ⟨S8x1x96x320, .f32⟩
  | 26 => ⟨S8x1x96x320, .f32⟩
  | 27 => ⟨S8x1x96x320, .f32⟩
  | 28 => ⟨S8x1x96x320, .f32⟩
  | 29 => ⟨S8x1x96x320, .f32⟩
  | 30 => ⟨S8x1x96x320, .f32⟩
  | 31 => ⟨S8x1x96x320, .f32⟩
  | 32 => ⟨S8x1x96x320, .f32⟩
  | 33 => ⟨S8x1x96x320, .f32⟩
  | 34 => ⟨S8x1x96x320, .f32⟩
  | 35 => ⟨S8x1x96x320, .f32⟩
  | 36 => ⟨S8x1x96x320, .f32⟩
  | 37 => ⟨S8x1x96x320, .f32⟩
  | 38 => ⟨S8x1x96x320, .f32⟩
  | 39 => ⟨S8x1x96x320, .f32⟩
  | 40 => ⟨S8x1x96x320, .f32⟩
  | 41 => ⟨S8x1x96x320, .f32⟩
  | 42 => ⟨S8x1x96x320, .f32⟩
  | 43 => ⟨S8x1x96x320, .f32⟩
  | 44 => ⟨S8x1x96x320, .f32⟩
  | 45 => ⟨S8x1x96x320, .f32⟩
  | 46 => ⟨S8x1x96x320, .f32⟩
  | 47 => ⟨S8x1x96x320, .f32⟩
  | 48 => ⟨S8x1x96x320, .f32⟩
  | 49 => ⟨S8x1x96x320, .f32⟩
  | 50 => ⟨S8x1x96x320, .f32⟩
  | 51 => ⟨S8x1x96x320, .f32⟩
  | 52 => ⟨S8x1x96x320, .f32⟩
  | 53 => ⟨S8x1x96x320, .f32⟩
  | 54 => ⟨S8x1x96x320, .f32⟩
  | 55 => ⟨S8x1x96x320, .f32⟩
  | 56 => ⟨S8x1x96x320, .f32⟩
  | 57 => ⟨S8x1x96x320, .f32⟩
  | 58 => ⟨S8x1x96x320, .f32⟩
  | 59 => ⟨S8x1x96x320, .f32⟩
  | 60 => ⟨S8x1x96x320, .f32⟩
  | 61 => ⟨S8x1x96x320, .f32⟩
  | 62 => ⟨S8x1x96x320, .f32⟩
  | 63 => ⟨S8x1x96x320, .f32⟩
  | 64 => ⟨S8x16x96x320, .f32⟩
  | 65 => ⟨S8x16x96x320, .f32⟩
  | 66 => ⟨S8x16x96x320, .f32⟩
  | 67 => ⟨S8x48x96x320, .f32⟩
  | _ => ⟨S8x128x96x320, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x128x96x320, .f32⟩

abbrev bufTy : (tb : Table) → Fin (tcTables nBuf tb) → BufTy
  | .hbm, ⟨i, _⟩ => hbmTy i
  | _, _ => ⟨S8x128x96x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_c_6 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_v22 : Ref sig .tc := ⟨.hbm, 37, rfl⟩
abbrev main_cst_8 : Ref sig .tc := ⟨.hbm, 38, rfl⟩
abbrev main_v23 : Ref sig .tc := ⟨.hbm, 39, rfl⟩
abbrev main_v24 : Ref sig .tc := ⟨.hbm, 40, rfl⟩
abbrev main_c_9 : Ref sig .tc := ⟨.hbm, 41, rfl⟩
abbrev main_call3_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_10 : Ref sig .tc := ⟨.hbm, 47, rfl⟩
abbrev main_v29 : Ref sig .tc := ⟨.hbm, 48, rfl⟩
abbrev main_cst_11 : Ref sig .tc := ⟨.hbm, 49, rfl⟩
abbrev main_v30 : Ref sig .tc := ⟨.hbm, 50, rfl⟩
abbrev main_v31 : Ref sig .tc := ⟨.hbm, 51, rfl⟩
abbrev main_c_12 : Ref sig .tc := ⟨.hbm, 52, rfl⟩
abbrev main_call4_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_13 : Ref sig .tc := ⟨.hbm, 58, rfl⟩
abbrev main_v36 : Ref sig .tc := ⟨.hbm, 59, rfl⟩
abbrev main_cst_14 : Ref sig .tc := ⟨.hbm, 60, rfl⟩
abbrev main_v37 : Ref sig .tc := ⟨.hbm, 61, rfl⟩
abbrev main_v38 : Ref sig .tc := ⟨.hbm, 62, rfl⟩
abbrev main_c_15 : Ref sig .tc := ⟨.hbm, 63, rfl⟩
abbrev main_call5_v0 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_16 : Ref sig .tc := ⟨.hbm, 69, rfl⟩
abbrev main_v43 : Ref sig .tc := ⟨.hbm, 70, rfl⟩
abbrev main_cst_17 : Ref sig .tc := ⟨.hbm, 71, rfl⟩
abbrev main_v44 : Ref sig .tc := ⟨.hbm, 72, rfl⟩
abbrev main_v45 : Ref sig .tc := ⟨.hbm, 73, rfl⟩
abbrev main_c_18 : Ref sig .tc := ⟨.hbm, 74, rfl⟩
abbrev main_call6_v0 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_19 : Ref sig .tc := ⟨.hbm, 80, rfl⟩
abbrev main_v50 : Ref sig .tc := ⟨.hbm, 81, rfl⟩
abbrev main_cst_20 : Ref sig .tc := ⟨.hbm, 82, rfl⟩
abbrev main_v51 : Ref sig .tc := ⟨.hbm, 83, rfl⟩
abbrev main_v52 : Ref sig .tc := ⟨.hbm, 84, rfl⟩
abbrev main_c_21 : Ref sig .tc := ⟨.hbm, 85, rfl⟩
abbrev main_call7_v0 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_22 : Ref sig .tc := ⟨.hbm, 91, rfl⟩
abbrev main_v57 : Ref sig .tc := ⟨.hbm, 92, rfl⟩
abbrev main_cst_23 : Ref sig .tc := ⟨.hbm, 93, rfl⟩
abbrev main_v58 : Ref sig .tc := ⟨.hbm, 94, rfl⟩
abbrev main_v59 : Ref sig .tc := ⟨.hbm, 95, rfl⟩
abbrev main_c_24 : Ref sig .tc := ⟨.hbm, 96, rfl⟩
abbrev main_call8_v0 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_cst_25 : Ref sig .tc := ⟨.hbm, 102, rfl⟩
abbrev main_v64 : Ref sig .tc := ⟨.hbm, 103, rfl⟩
abbrev main_cst_26 : Ref sig .tc := ⟨.hbm, 104, rfl⟩
abbrev main_v65 : Ref sig .tc := ⟨.hbm, 105, rfl⟩
abbrev main_v66 : Ref sig .tc := ⟨.hbm, 106, rfl⟩
abbrev main_c_27 : Ref sig .tc := ⟨.hbm, 107, rfl⟩
abbrev main_call9_v0 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_cst_28 : Ref sig .tc := ⟨.hbm, 113, rfl⟩
abbrev main_v71 : Ref sig .tc := ⟨.hbm, 114, rfl⟩
abbrev main_cst_29 : Ref sig .tc := ⟨.hbm, 115, rfl⟩
abbrev main_v72 : Ref sig .tc := ⟨.hbm, 116, rfl⟩
abbrev main_v73 : Ref sig .tc := ⟨.hbm, 117, rfl⟩
abbrev main_c_30 : Ref sig .tc := ⟨.hbm, 118, rfl⟩
abbrev main_call10_v0 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_cst_31 : Ref sig .tc := ⟨.hbm, 124, rfl⟩
abbrev main_v78 : Ref sig .tc := ⟨.hbm, 125, rfl⟩
abbrev main_cst_32 : Ref sig .tc := ⟨.hbm, 126, rfl⟩
abbrev main_v79 : Ref sig .tc := ⟨.hbm, 127, rfl⟩
abbrev main_v80 : Ref sig .tc := ⟨.hbm, 128, rfl⟩
abbrev main_c_33 : Ref sig .tc := ⟨.hbm, 129, rfl⟩
abbrev main_call11_v0 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_34 : Ref sig .tc := ⟨.hbm, 135, rfl⟩
abbrev main_v85 : Ref sig .tc := ⟨.hbm, 136, rfl⟩
abbrev main_cst_35 : Ref sig .tc := ⟨.hbm, 137, rfl⟩
abbrev main_v86 : Ref sig .tc := ⟨.hbm, 138, rfl⟩
abbrev main_v87 : Ref sig .tc := ⟨.hbm, 139, rfl⟩
abbrev main_c_36 : Ref sig .tc := ⟨.hbm, 140, rfl⟩
abbrev main_call12_v0 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_37 : Ref sig .tc := ⟨.hbm, 146, rfl⟩
abbrev main_v92 : Ref sig .tc := ⟨.hbm, 147, rfl⟩
abbrev main_cst_38 : Ref sig .tc := ⟨.hbm, 148, rfl⟩
abbrev main_v93 : Ref sig .tc := ⟨.hbm, 149, rfl⟩
abbrev main_v94 : Ref sig .tc := ⟨.hbm, 150, rfl⟩
abbrev main_c_39 : Ref sig .tc := ⟨.hbm, 151, rfl⟩
abbrev main_call13_v0 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_cst_40 : Ref sig .tc := ⟨.hbm, 157, rfl⟩
abbrev main_v99 : Ref sig .tc := ⟨.hbm, 158, rfl⟩
abbrev main_cst_41 : Ref sig .tc := ⟨.hbm, 159, rfl⟩
abbrev main_v100 : Ref sig .tc := ⟨.hbm, 160, rfl⟩
abbrev main_v101 : Ref sig .tc := ⟨.hbm, 161, rfl⟩
abbrev main_c_42 : Ref sig .tc := ⟨.hbm, 162, rfl⟩
abbrev main_call14_v0 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_cst_43 : Ref sig .tc := ⟨.hbm, 168, rfl⟩
abbrev main_v106 : Ref sig .tc := ⟨.hbm, 169, rfl⟩
abbrev main_cst_44 : Ref sig .tc := ⟨.hbm, 170, rfl⟩
abbrev main_v107 : Ref sig .tc := ⟨.hbm, 171, rfl⟩
abbrev main_v108 : Ref sig .tc := ⟨.hbm, 172, rfl⟩
abbrev main_c_45 : Ref sig .tc := ⟨.hbm, 173, rfl⟩
abbrev main_call15_v0 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_cst_46 : Ref sig .tc := ⟨.hbm, 179, rfl⟩
abbrev main_v113 : Ref sig .tc := ⟨.hbm, 180, rfl⟩
abbrev main_cst_47 : Ref sig .tc := ⟨.hbm, 181, rfl⟩
abbrev main_v114 : Ref sig .tc := ⟨.hbm, 182, rfl⟩
abbrev main_v115 : Ref sig .tc := ⟨.hbm, 183, rfl⟩
abbrev main_c_48 : Ref sig .tc := ⟨.hbm, 184, rfl⟩
abbrev main_call16_v0 : Ref sig .tc := ⟨.hbm, 185, rfl⟩
abbrev main_v116 : Ref sig .tc := ⟨.hbm, 186, rfl⟩
abbrev main_v117 : Ref sig .tc := ⟨.hbm, 187, rfl⟩
abbrev main_v118 : Ref sig .tc := ⟨.hbm, 188, rfl⟩
abbrev main_v119 : Ref sig .tc := ⟨.hbm, 189, rfl⟩
abbrev main_cst_49 : Ref sig .tc := ⟨.hbm, 190, rfl⟩
abbrev main_v120 : Ref sig .tc := ⟨.hbm, 191, rfl⟩
abbrev main_cst_50 : Ref sig .tc := ⟨.hbm, 192, rfl⟩
abbrev main_v121 : Ref sig .tc := ⟨.hbm, 193, rfl⟩
abbrev main_v122 : Ref sig .tc := ⟨.hbm, 194, rfl⟩
abbrev main_c_51 : Ref sig .tc := ⟨.hbm, 195, rfl⟩
abbrev main_call17_v0 : Ref sig .tc := ⟨.hbm, 196, rfl⟩
abbrev main_v123 : Ref sig .tc := ⟨.hbm, 197, rfl⟩
abbrev main_v124 : Ref sig .tc := ⟨.hbm, 198, rfl⟩
abbrev main_v125 : Ref sig .tc := ⟨.hbm, 199, rfl⟩
abbrev main_v126 : Ref sig .tc := ⟨.hbm, 200, rfl⟩
abbrev main_cst_52 : Ref sig .tc := ⟨.hbm, 201, rfl⟩
abbrev main_v127 : Ref sig .tc := ⟨.hbm, 202, rfl⟩
abbrev main_cst_53 : Ref sig .tc := ⟨.hbm, 203, rfl⟩
abbrev main_v128 : Ref sig .tc := ⟨.hbm, 204, rfl⟩
abbrev main_v129 : Ref sig .tc := ⟨.hbm, 205, rfl⟩
abbrev main_c_54 : Ref sig .tc := ⟨.hbm, 206, rfl⟩
abbrev main_call18_v0 : Ref sig .tc := ⟨.hbm, 207, rfl⟩
abbrev main_v130 : Ref sig .tc := ⟨.hbm, 208, rfl⟩
abbrev main_v131 : Ref sig .tc := ⟨.hbm, 209, rfl⟩
abbrev main_v132 : Ref sig .tc := ⟨.hbm, 210, rfl⟩
abbrev main_v133 : Ref sig .tc := ⟨.hbm, 211, rfl⟩
abbrev main_cst_55 : Ref sig .tc := ⟨.hbm, 212, rfl⟩
abbrev main_v134 : Ref sig .tc := ⟨.hbm, 213, rfl⟩
abbrev main_cst_56 : Ref sig .tc := ⟨.hbm, 214, rfl⟩
abbrev main_v135 : Ref sig .tc := ⟨.hbm, 215, rfl⟩
abbrev main_v136 : Ref sig .tc := ⟨.hbm, 216, rfl⟩
abbrev main_c_57 : Ref sig .tc := ⟨.hbm, 217, rfl⟩
abbrev main_call19_v0 : Ref sig .tc := ⟨.hbm, 218, rfl⟩
abbrev main_v137 : Ref sig .tc := ⟨.hbm, 219, rfl⟩
abbrev main_v138 : Ref sig .tc := ⟨.hbm, 220, rfl⟩
abbrev main_v139 : Ref sig .tc := ⟨.hbm, 221, rfl⟩
abbrev main_v140 : Ref sig .tc := ⟨.hbm, 222, rfl⟩
abbrev main_cst_58 : Ref sig .tc := ⟨.hbm, 223, rfl⟩
abbrev main_v141 : Ref sig .tc := ⟨.hbm, 224, rfl⟩
abbrev main_cst_59 : Ref sig .tc := ⟨.hbm, 225, rfl⟩
abbrev main_v142 : Ref sig .tc := ⟨.hbm, 226, rfl⟩
abbrev main_v143 : Ref sig .tc := ⟨.hbm, 227, rfl⟩
abbrev main_c_60 : Ref sig .tc := ⟨.hbm, 228, rfl⟩
abbrev main_call20_v0 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_cst_61 : Ref sig .tc := ⟨.hbm, 234, rfl⟩
abbrev main_v148 : Ref sig .tc := ⟨.hbm, 235, rfl⟩
abbrev main_cst_62 : Ref sig .tc := ⟨.hbm, 236, rfl⟩
abbrev main_v149 : Ref sig .tc := ⟨.hbm, 237, rfl⟩
abbrev main_v150 : Ref sig .tc := ⟨.hbm, 238, rfl⟩
abbrev main_c_63 : Ref sig .tc := ⟨.hbm, 239, rfl⟩
abbrev main_call21_v0 : Ref sig .tc := ⟨.hbm, 240, rfl⟩
abbrev main_v151 : Ref sig .tc := ⟨.hbm, 241, rfl⟩
abbrev main_v152 : Ref sig .tc := ⟨.hbm, 242, rfl⟩
abbrev main_v153 : Ref sig .tc := ⟨.hbm, 243, rfl⟩
abbrev main_v154 : Ref sig .tc := ⟨.hbm, 244, rfl⟩
abbrev main_cst_64 : Ref sig .tc := ⟨.hbm, 245, rfl⟩
abbrev main_v155 : Ref sig .tc := ⟨.hbm, 246, rfl⟩
abbrev main_cst_65 : Ref sig .tc := ⟨.hbm, 247, rfl⟩
abbrev main_v156 : Ref sig .tc := ⟨.hbm, 248, rfl⟩
abbrev main_v157 : Ref sig .tc := ⟨.hbm, 249, rfl⟩
abbrev main_c_66 : Ref sig .tc := ⟨.hbm, 250, rfl⟩
abbrev main_call22_v0 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_cst_67 : Ref sig .tc := ⟨.hbm, 256, rfl⟩
abbrev main_v162 : Ref sig .tc := ⟨.hbm, 257, rfl⟩
abbrev main_cst_68 : Ref sig .tc := ⟨.hbm, 258, rfl⟩
abbrev main_v163 : Ref sig .tc := ⟨.hbm, 259, rfl⟩
abbrev main_v164 : Ref sig .tc := ⟨.hbm, 260, rfl⟩
abbrev main_c_69 : Ref sig .tc := ⟨.hbm, 261, rfl⟩
abbrev main_call23_v0 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_cst_70 : Ref sig .tc := ⟨.hbm, 267, rfl⟩
abbrev main_v169 : Ref sig .tc := ⟨.hbm, 268, rfl⟩
abbrev main_cst_71 : Ref sig .tc := ⟨.hbm, 269, rfl⟩
abbrev main_v170 : Ref sig .tc := ⟨.hbm, 270, rfl⟩
abbrev main_v171 : Ref sig .tc := ⟨.hbm, 271, rfl⟩
abbrev main_c_72 : Ref sig .tc := ⟨.hbm, 272, rfl⟩
abbrev main_call24_v0 : Ref sig .tc := ⟨.hbm, 273, rfl⟩
abbrev main_v172 : Ref sig .tc := ⟨.hbm, 274, rfl⟩
abbrev main_v173 : Ref sig .tc := ⟨.hbm, 275, rfl⟩
abbrev main_v174 : Ref sig .tc := ⟨.hbm, 276, rfl⟩
abbrev main_v175 : Ref sig .tc := ⟨.hbm, 277, rfl⟩
abbrev main_cst_73 : Ref sig .tc := ⟨.hbm, 278, rfl⟩
abbrev main_v176 : Ref sig .tc := ⟨.hbm, 279, rfl⟩
abbrev main_cst_74 : Ref sig .tc := ⟨.hbm, 280, rfl⟩
abbrev main_v177 : Ref sig .tc := ⟨.hbm, 281, rfl⟩
abbrev main_v178 : Ref sig .tc := ⟨.hbm, 282, rfl⟩
abbrev main_c_75 : Ref sig .tc := ⟨.hbm, 283, rfl⟩
abbrev main_call25_v0 : Ref sig .tc := ⟨.hbm, 284, rfl⟩
abbrev main_v179 : Ref sig .tc := ⟨.hbm, 285, rfl⟩
abbrev main_v180 : Ref sig .tc := ⟨.hbm, 286, rfl⟩
abbrev main_v181 : Ref sig .tc := ⟨.hbm, 287, rfl⟩
abbrev main_v182 : Ref sig .tc := ⟨.hbm, 288, rfl⟩
abbrev main_cst_76 : Ref sig .tc := ⟨.hbm, 289, rfl⟩
abbrev main_v183 : Ref sig .tc := ⟨.hbm, 290, rfl⟩
abbrev main_cst_77 : Ref sig .tc := ⟨.hbm, 291, rfl⟩
abbrev main_v184 : Ref sig .tc := ⟨.hbm, 292, rfl⟩
abbrev main_v185 : Ref sig .tc := ⟨.hbm, 293, rfl⟩
abbrev main_c_78 : Ref sig .tc := ⟨.hbm, 294, rfl⟩
abbrev main_call26_v0 : Ref sig .tc := ⟨.hbm, 295, rfl⟩
abbrev main_v186 : Ref sig .tc := ⟨.hbm, 296, rfl⟩
abbrev main_v187 : Ref sig .tc := ⟨.hbm, 297, rfl⟩
abbrev main_v188 : Ref sig .tc := ⟨.hbm, 298, rfl⟩
abbrev main_v189 : Ref sig .tc := ⟨.hbm, 299, rfl⟩
abbrev main_cst_79 : Ref sig .tc := ⟨.hbm, 300, rfl⟩
abbrev main_v190 : Ref sig .tc := ⟨.hbm, 301, rfl⟩
abbrev main_cst_80 : Ref sig .tc := ⟨.hbm, 302, rfl⟩
abbrev main_v191 : Ref sig .tc := ⟨.hbm, 303, rfl⟩
abbrev main_v192 : Ref sig .tc := ⟨.hbm, 304, rfl⟩
abbrev main_c_81 : Ref sig .tc := ⟨.hbm, 305, rfl⟩
abbrev main_call27_v0 : Ref sig .tc := ⟨.hbm, 306, rfl⟩
abbrev main_v193 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_82 : Ref sig .tc := ⟨.hbm, 311, rfl⟩
abbrev main_v197 : Ref sig .tc := ⟨.hbm, 312, rfl⟩
abbrev main_cst_83 : Ref sig .tc := ⟨.hbm, 313, rfl⟩
abbrev main_v198 : Ref sig .tc := ⟨.hbm, 314, rfl⟩
abbrev main_v199 : Ref sig .tc := ⟨.hbm, 315, rfl⟩
abbrev main_c_84 : Ref sig .tc := ⟨.hbm, 316, rfl⟩
abbrev main_call28_v0 : Ref sig .tc := ⟨.hbm, 317, rfl⟩
abbrev main_v200 : Ref sig .tc := ⟨.hbm, 318, rfl⟩
abbrev main_v201 : Ref sig .tc := ⟨.hbm, 319, rfl⟩
abbrev main_v202 : Ref sig .tc := ⟨.hbm, 320, rfl⟩
abbrev main_v203 : Ref sig .tc := ⟨.hbm, 321, rfl⟩
abbrev main_cst_85 : Ref sig .tc := ⟨.hbm, 322, rfl⟩
abbrev main_v204 : Ref sig .tc := ⟨.hbm, 323, rfl⟩
abbrev main_cst_86 : Ref sig .tc := ⟨.hbm, 324, rfl⟩
abbrev main_v205 : Ref sig .tc := ⟨.hbm, 325, rfl⟩
abbrev main_v206 : Ref sig .tc := ⟨.hbm, 326, rfl⟩
abbrev main_c_87 : Ref sig .tc := ⟨.hbm, 327, rfl⟩
abbrev main_call29_v0 : Ref sig .tc := ⟨.hbm, 328, rfl⟩
abbrev main_v207 : Ref sig .tc := ⟨.hbm, 329, rfl⟩
abbrev main_v208 : Ref sig .tc := ⟨.hbm, 330, rfl⟩
abbrev main_v209 : Ref sig .tc := ⟨.hbm, 331, rfl⟩
abbrev main_v210 : Ref sig .tc := ⟨.hbm, 332, rfl⟩
abbrev main_cst_88 : Ref sig .tc := ⟨.hbm, 333, rfl⟩
abbrev main_v211 : Ref sig .tc := ⟨.hbm, 334, rfl⟩
abbrev main_cst_89 : Ref sig .tc := ⟨.hbm, 335, rfl⟩
abbrev main_v212 : Ref sig .tc := ⟨.hbm, 336, rfl⟩
abbrev main_v213 : Ref sig .tc := ⟨.hbm, 337, rfl⟩
abbrev main_c_90 : Ref sig .tc := ⟨.hbm, 338, rfl⟩
abbrev main_call30_v0 : Ref sig .tc := ⟨.hbm, 339, rfl⟩
abbrev main_v214 : Ref sig .tc := ⟨.hbm, 340, rfl⟩
abbrev main_v215 : Ref sig .tc := ⟨.hbm, 341, rfl⟩
abbrev main_v216 : Ref sig .tc := ⟨.hbm, 342, rfl⟩
abbrev main_v217 : Ref sig .tc := ⟨.hbm, 343, rfl⟩
abbrev main_cst_91 : Ref sig .tc := ⟨.hbm, 344, rfl⟩
abbrev main_v218 : Ref sig .tc := ⟨.hbm, 345, rfl⟩
abbrev main_cst_92 : Ref sig .tc := ⟨.hbm, 346, rfl⟩
abbrev main_v219 : Ref sig .tc := ⟨.hbm, 347, rfl⟩
abbrev main_v220 : Ref sig .tc := ⟨.hbm, 348, rfl⟩
abbrev main_c_93 : Ref sig .tc := ⟨.hbm, 349, rfl⟩
abbrev main_call31_v0 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_cst_94 : Ref sig .tc := ⟨.hbm, 355, rfl⟩
abbrev main_v225 : Ref sig .tc := ⟨.hbm, 356, rfl⟩
abbrev main_cst_95 : Ref sig .tc := ⟨.hbm, 357, rfl⟩
abbrev main_v226 : Ref sig .tc := ⟨.hbm, 358, rfl⟩
abbrev main_v227 : Ref sig .tc := ⟨.hbm, 359, rfl⟩
abbrev main_c_96 : Ref sig .tc := ⟨.hbm, 360, rfl⟩
abbrev main_call32_v0 : Ref sig .tc := ⟨.hbm, 361, rfl⟩
abbrev main_v228 : Ref sig .tc := ⟨.hbm, 362, rfl⟩
abbrev main_v229 : Ref sig .tc := ⟨.hbm, 363, rfl⟩
abbrev main_v230 : Ref sig .tc := ⟨.hbm, 364, rfl⟩
abbrev main_v231 : Ref sig .tc := ⟨.hbm, 365, rfl⟩
abbrev main_cst_97 : Ref sig .tc := ⟨.hbm, 366, rfl⟩
abbrev main_v232 : Ref sig .tc := ⟨.hbm, 367, rfl⟩
abbrev main_cst_98 : Ref sig .tc := ⟨.hbm, 368, rfl⟩
abbrev main_v233 : Ref sig .tc := ⟨.hbm, 369, rfl⟩
abbrev main_v234 : Ref sig .tc := ⟨.hbm, 370, rfl⟩
abbrev main_c_99 : Ref sig .tc := ⟨.hbm, 371, rfl⟩
abbrev main_call33_v0 : Ref sig .tc := ⟨.hbm, 372, rfl⟩
abbrev main_v235 : Ref sig .tc := ⟨.hbm, 373, rfl⟩
abbrev main_v236 : Ref sig .tc := ⟨.hbm, 374, rfl⟩
abbrev main_v237 : Ref sig .tc := ⟨.hbm, 375, rfl⟩
abbrev main_v238 : Ref sig .tc := ⟨.hbm, 376, rfl⟩
abbrev main_cst_100 : Ref sig .tc := ⟨.hbm, 377, rfl⟩
abbrev main_v239 : Ref sig .tc := ⟨.hbm, 378, rfl⟩
abbrev main_cst_101 : Ref sig .tc := ⟨.hbm, 379, rfl⟩
abbrev main_v240 : Ref sig .tc := ⟨.hbm, 380, rfl⟩
abbrev main_v241 : Ref sig .tc := ⟨.hbm, 381, rfl⟩
abbrev main_c_102 : Ref sig .tc := ⟨.hbm, 382, rfl⟩
abbrev main_call34_v0 : Ref sig .tc := ⟨.hbm, 383, rfl⟩
abbrev main_v242 : Ref sig .tc := ⟨.hbm, 384, rfl⟩
abbrev main_v243 : Ref sig .tc := ⟨.hbm, 385, rfl⟩
abbrev main_v244 : Ref sig .tc := ⟨.hbm, 386, rfl⟩
abbrev main_v245 : Ref sig .tc := ⟨.hbm, 387, rfl⟩
abbrev main_cst_103 : Ref sig .tc := ⟨.hbm, 388, rfl⟩
abbrev main_v246 : Ref sig .tc := ⟨.hbm, 389, rfl⟩
abbrev main_cst_104 : Ref sig .tc := ⟨.hbm, 390, rfl⟩
abbrev main_v247 : Ref sig .tc := ⟨.hbm, 391, rfl⟩
abbrev main_v248 : Ref sig .tc := ⟨.hbm, 392, rfl⟩
abbrev main_c_105 : Ref sig .tc := ⟨.hbm, 393, rfl⟩
abbrev main_call35_v0 : Ref sig .tc := ⟨.hbm, 394, rfl⟩
abbrev main_v249 : Ref sig .tc := ⟨.hbm, 395, rfl⟩
abbrev main_v250 : Ref sig .tc := ⟨.hbm, 396, rfl⟩
abbrev main_v251 : Ref sig .tc := ⟨.hbm, 397, rfl⟩
abbrev main_v252 : Ref sig .tc := ⟨.hbm, 398, rfl⟩
abbrev main_cst_106 : Ref sig .tc := ⟨.hbm, 399, rfl⟩
abbrev main_v253 : Ref sig .tc := ⟨.hbm, 400, rfl⟩
abbrev main_cst_107 : Ref sig .tc := ⟨.hbm, 401, rfl⟩
abbrev main_v254 : Ref sig .tc := ⟨.hbm, 402, rfl⟩
abbrev main_v255 : Ref sig .tc := ⟨.hbm, 403, rfl⟩
abbrev main_c_108 : Ref sig .tc := ⟨.hbm, 404, rfl⟩
abbrev main_call36_v0 : Ref sig .tc := ⟨.hbm, 405, rfl⟩
abbrev main_v256 : Ref sig .tc := ⟨.hbm, 406, rfl⟩
abbrev main_v257 : Ref sig .tc := ⟨.hbm, 407, rfl⟩
abbrev main_v258 : Ref sig .tc := ⟨.hbm, 408, rfl⟩
abbrev main_v259 : Ref sig .tc := ⟨.hbm, 409, rfl⟩
abbrev main_cst_109 : Ref sig .tc := ⟨.hbm, 410, rfl⟩
abbrev main_v260 : Ref sig .tc := ⟨.hbm, 411, rfl⟩
abbrev main_cst_110 : Ref sig .tc := ⟨.hbm, 412, rfl⟩
abbrev main_v261 : Ref sig .tc := ⟨.hbm, 413, rfl⟩
abbrev main_v262 : Ref sig .tc := ⟨.hbm, 414, rfl⟩
abbrev main_c_111 : Ref sig .tc := ⟨.hbm, 415, rfl⟩
abbrev main_call37_v0 : Ref sig .tc := ⟨.hbm, 416, rfl⟩
abbrev main_v263 : Ref sig .tc := ⟨.hbm, 417, rfl⟩
abbrev main_v264 : Ref sig .tc := ⟨.hbm, 418, rfl⟩
abbrev main_v265 : Ref sig .tc := ⟨.hbm, 419, rfl⟩
abbrev main_v266 : Ref sig .tc := ⟨.hbm, 420, rfl⟩
abbrev main_cst_112 : Ref sig .tc := ⟨.hbm, 421, rfl⟩
abbrev main_v267 : Ref sig .tc := ⟨.hbm, 422, rfl⟩
abbrev main_cst_113 : Ref sig .tc := ⟨.hbm, 423, rfl⟩
abbrev main_v268 : Ref sig .tc := ⟨.hbm, 424, rfl⟩
abbrev main_v269 : Ref sig .tc := ⟨.hbm, 425, rfl⟩
abbrev main_c_114 : Ref sig .tc := ⟨.hbm, 426, rfl⟩
abbrev main_call38_v0 : Ref sig .tc := ⟨.hbm, 427, rfl⟩
abbrev main_v270 : Ref sig .tc := ⟨.hbm, 428, rfl⟩
abbrev main_v271 : Ref sig .tc := ⟨.hbm, 429, rfl⟩
abbrev main_v272 : Ref sig .tc := ⟨.hbm, 430, rfl⟩
abbrev main_v273 : Ref sig .tc := ⟨.hbm, 431, rfl⟩
abbrev main_cst_115 : Ref sig .tc := ⟨.hbm, 432, rfl⟩
abbrev main_v274 : Ref sig .tc := ⟨.hbm, 433, rfl⟩
abbrev main_cst_116 : Ref sig .tc := ⟨.hbm, 434, rfl⟩
abbrev main_v275 : Ref sig .tc := ⟨.hbm, 435, rfl⟩
abbrev main_v276 : Ref sig .tc := ⟨.hbm, 436, rfl⟩
abbrev main_c_117 : Ref sig .tc := ⟨.hbm, 437, rfl⟩
abbrev main_call39_v0 : Ref sig .tc := ⟨.hbm, 438, rfl⟩
abbrev main_v277 : Ref sig .tc := ⟨.hbm, 439, rfl⟩
abbrev main_v278 : Ref sig .tc := ⟨.hbm, 440, rfl⟩
abbrev main_v279 : Ref sig .tc := ⟨.hbm, 441, rfl⟩
abbrev main_v280 : Ref sig .tc := ⟨.hbm, 442, rfl⟩
abbrev main_cst_118 : Ref sig .tc := ⟨.hbm, 443, rfl⟩
abbrev main_v281 : Ref sig .tc := ⟨.hbm, 444, rfl⟩
abbrev main_cst_119 : Ref sig .tc := ⟨.hbm, 445, rfl⟩
abbrev main_v282 : Ref sig .tc := ⟨.hbm, 446, rfl⟩
abbrev main_v283 : Ref sig .tc := ⟨.hbm, 447, rfl⟩
abbrev main_c_120 : Ref sig .tc := ⟨.hbm, 448, rfl⟩
abbrev main_call40_v0 : Ref sig .tc := ⟨.hbm, 449, rfl⟩
abbrev main_v284 : Ref sig .tc := ⟨.hbm, 450, rfl⟩
abbrev main_v285 : Ref sig .tc := ⟨.hbm, 451, rfl⟩
abbrev main_v286 : Ref sig .tc := ⟨.hbm, 452, rfl⟩
abbrev main_v287 : Ref sig .tc := ⟨.hbm, 453, rfl⟩
abbrev main_cst_121 : Ref sig .tc := ⟨.hbm, 454, rfl⟩
abbrev main_v288 : Ref sig .tc := ⟨.hbm, 455, rfl⟩
abbrev main_cst_122 : Ref sig .tc := ⟨.hbm, 456, rfl⟩
abbrev main_v289 : Ref sig .tc := ⟨.hbm, 457, rfl⟩
abbrev main_v290 : Ref sig .tc := ⟨.hbm, 458, rfl⟩
abbrev main_c_123 : Ref sig .tc := ⟨.hbm, 459, rfl⟩
abbrev main_call41_v0 : Ref sig .tc := ⟨.hbm, 460, rfl⟩
abbrev main_v291 : Ref sig .tc := ⟨.hbm, 461, rfl⟩
abbrev main_v292 : Ref sig .tc := ⟨.hbm, 462, rfl⟩
abbrev main_v293 : Ref sig .tc := ⟨.hbm, 463, rfl⟩
abbrev main_v294 : Ref sig .tc := ⟨.hbm, 464, rfl⟩
abbrev main_cst_124 : Ref sig .tc := ⟨.hbm, 465, rfl⟩
abbrev main_v295 : Ref sig .tc := ⟨.hbm, 466, rfl⟩
abbrev main_cst_125 : Ref sig .tc := ⟨.hbm, 467, rfl⟩
abbrev main_v296 : Ref sig .tc := ⟨.hbm, 468, rfl⟩
abbrev main_v297 : Ref sig .tc := ⟨.hbm, 469, rfl⟩
abbrev main_c_126 : Ref sig .tc := ⟨.hbm, 470, rfl⟩
abbrev main_call42_v0 : Ref sig .tc := ⟨.hbm, 471, rfl⟩
abbrev main_v298 : Ref sig .tc := ⟨.hbm, 472, rfl⟩
abbrev main_v299 : Ref sig .tc := ⟨.hbm, 473, rfl⟩
abbrev main_v300 : Ref sig .tc := ⟨.hbm, 474, rfl⟩
abbrev main_v301 : Ref sig .tc := ⟨.hbm, 475, rfl⟩
abbrev main_cst_127 : Ref sig .tc := ⟨.hbm, 476, rfl⟩
abbrev main_v302 : Ref sig .tc := ⟨.hbm, 477, rfl⟩
abbrev main_cst_128 : Ref sig .tc := ⟨.hbm, 478, rfl⟩
abbrev main_v303 : Ref sig .tc := ⟨.hbm, 479, rfl⟩
abbrev main_v304 : Ref sig .tc := ⟨.hbm, 480, rfl⟩
abbrev main_c_129 : Ref sig .tc := ⟨.hbm, 481, rfl⟩
abbrev main_call43_v0 : Ref sig .tc := ⟨.hbm, 482, rfl⟩
abbrev main_v305 : Ref sig .tc := ⟨.hbm, 483, rfl⟩
abbrev main_v306 : Ref sig .tc := ⟨.hbm, 484, rfl⟩
abbrev main_v307 : Ref sig .tc := ⟨.hbm, 485, rfl⟩
abbrev main_v308 : Ref sig .tc := ⟨.hbm, 486, rfl⟩
abbrev main_cst_130 : Ref sig .tc := ⟨.hbm, 487, rfl⟩
abbrev main_v309 : Ref sig .tc := ⟨.hbm, 488, rfl⟩
abbrev main_cst_131 : Ref sig .tc := ⟨.hbm, 489, rfl⟩
abbrev main_v310 : Ref sig .tc := ⟨.hbm, 490, rfl⟩
abbrev main_v311 : Ref sig .tc := ⟨.hbm, 491, rfl⟩
abbrev main_c_132 : Ref sig .tc := ⟨.hbm, 492, rfl⟩
abbrev main_call44_v0 : Ref sig .tc := ⟨.hbm, 493, rfl⟩
abbrev main_v312 : Ref sig .tc := ⟨.hbm, 494, rfl⟩
abbrev main_v313 : Ref sig .tc := ⟨.hbm, 495, rfl⟩
abbrev main_v314 : Ref sig .tc := ⟨.hbm, 496, rfl⟩
abbrev main_v315 : Ref sig .tc := ⟨.hbm, 497, rfl⟩
abbrev main_cst_133 : Ref sig .tc := ⟨.hbm, 498, rfl⟩
abbrev main_v316 : Ref sig .tc := ⟨.hbm, 499, rfl⟩
abbrev main_cst_134 : Ref sig .tc := ⟨.hbm, 500, rfl⟩
abbrev main_v317 : Ref sig .tc := ⟨.hbm, 501, rfl⟩
abbrev main_v318 : Ref sig .tc := ⟨.hbm, 502, rfl⟩
abbrev main_c_135 : Ref sig .tc := ⟨.hbm, 503, rfl⟩
abbrev main_call45_v0 : Ref sig .tc := ⟨.hbm, 504, rfl⟩
abbrev main_v319 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_cst_136 : Ref sig .tc := ⟨.hbm, 509, rfl⟩
abbrev main_v323 : Ref sig .tc := ⟨.hbm, 510, rfl⟩
abbrev main_cst_137 : Ref sig .tc := ⟨.hbm, 511, rfl⟩
abbrev main_v324 : Ref sig .tc := ⟨.hbm, 512, rfl⟩
abbrev main_v325 : Ref sig .tc := ⟨.hbm, 513, rfl⟩
abbrev main_c_138 : Ref sig .tc := ⟨.hbm, 514, rfl⟩
abbrev main_call46_v0 : Ref sig .tc := ⟨.hbm, 515, rfl⟩
abbrev main_v326 : Ref sig .tc := ⟨.hbm, 516, rfl⟩
abbrev main_v327 : Ref sig .tc := ⟨.hbm, 517, rfl⟩
abbrev main_v328 : Ref sig .tc := ⟨.hbm, 518, rfl⟩
abbrev main_v329 : Ref sig .tc := ⟨.hbm, 519, rfl⟩
abbrev main_cst_139 : Ref sig .tc := ⟨.hbm, 520, rfl⟩
abbrev main_v330 : Ref sig .tc := ⟨.hbm, 521, rfl⟩
abbrev main_cst_140 : Ref sig .tc := ⟨.hbm, 522, rfl⟩
abbrev main_v331 : Ref sig .tc := ⟨.hbm, 523, rfl⟩
abbrev main_v332 : Ref sig .tc := ⟨.hbm, 524, rfl⟩
abbrev main_c_141 : Ref sig .tc := ⟨.hbm, 525, rfl⟩
abbrev main_call47_v0 : Ref sig .tc := ⟨.hbm, 526, rfl⟩
abbrev main_v333 : Ref sig .tc := ⟨.hbm, 527, rfl⟩
abbrev main_v334 : Ref sig .tc := ⟨.hbm, 528, rfl⟩
abbrev main_v335 : Ref sig .tc := ⟨.hbm, 529, rfl⟩
abbrev main_v336 : Ref sig .tc := ⟨.hbm, 530, rfl⟩
abbrev main_v337 : Ref sig .tc := ⟨.hbm, 531, rfl⟩
abbrev main_v338 : Ref sig .tc := ⟨.hbm, 532, rfl⟩
abbrev main_v339 : Ref sig .tc := ⟨.hbm, 533, rfl⟩
abbrev main_v340 : Ref sig .tc := ⟨.hbm, 534, rfl⟩
abbrev main_v341 : Ref sig .tc := ⟨.hbm, 535, rfl⟩
abbrev main_v342 : Ref sig .tc := ⟨.hbm, 536, rfl⟩
abbrev main_v343 : Ref sig .tc := ⟨.hbm, 537, rfl⟩
abbrev main_v344 : Ref sig .tc := ⟨.hbm, 538, rfl⟩
abbrev main_v345 : Ref sig .tc := ⟨.hbm, 539, rfl⟩
abbrev main_v346 : Ref sig .tc := ⟨.hbm, 540, rfl⟩
abbrev main_v347 : Ref sig .tc := ⟨.hbm, 541, rfl⟩
abbrev main_v348 : Ref sig .tc := ⟨.hbm, 542, rfl⟩
abbrev main_v349 : Ref sig .tc := ⟨.hbm, 543, rfl⟩
abbrev main_v350 : Ref sig .tc := ⟨.hbm, 544, rfl⟩
abbrev main_v351 : Ref sig .tc := ⟨.hbm, 545, rfl⟩
abbrev main_v352 : Ref sig .tc := ⟨.hbm, 546, rfl⟩
abbrev main_v353 : Ref sig .tc := ⟨.hbm, 547, rfl⟩
abbrev main_v354 : Ref sig .tc := ⟨.hbm, 548, rfl⟩
abbrev main_v355 : Ref sig .tc := ⟨.hbm, 549, rfl⟩
abbrev main_v356 : Ref sig .tc := ⟨.hbm, 550, rfl⟩
abbrev main_v357 : Ref sig .tc := ⟨.hbm, 551, rfl⟩
abbrev main_v358 : Ref sig .tc := ⟨.hbm, 552, rfl⟩
abbrev main_v359 : Ref sig .tc := ⟨.hbm, 553, rfl⟩
abbrev main_v360 : Ref sig .tc := ⟨.hbm, 554, rfl⟩
abbrev main_v361 : Ref sig .tc := ⟨.hbm, 555, rfl⟩
abbrev main_v362 : Ref sig .tc := ⟨.hbm, 556, rfl⟩
abbrev main_v363 : Ref sig .tc := ⟨.hbm, 557, rfl⟩
abbrev main_v364 : Ref sig .tc := ⟨.hbm, 558, rfl⟩
abbrev main_v365 : Ref sig .tc := ⟨.hbm, 559, rfl⟩
abbrev main_v366 : Ref sig .tc := ⟨.hbm, 560, rfl⟩
abbrev main_v367 : Ref sig .tc := ⟨.hbm, 561, rfl⟩
abbrev main_v368 : Ref sig .tc := ⟨.hbm, 562, rfl⟩
abbrev main_v369 : Ref sig .tc := ⟨.hbm, 563, rfl⟩
abbrev main_v370 : Ref sig .tc := ⟨.hbm, 564, rfl⟩
abbrev main_v371 : Ref sig .tc := ⟨.hbm, 565, rfl⟩
abbrev main_v372 : Ref sig .tc := ⟨.hbm, 566, rfl⟩
abbrev main_v373 : Ref sig .tc := ⟨.hbm, 567, rfl⟩
abbrev main_v374 : Ref sig .tc := ⟨.hbm, 568, rfl⟩
abbrev main_v375 : Ref sig .tc := ⟨.hbm, 569, rfl⟩
abbrev main_v376 : Ref sig .tc := ⟨.hbm, 570, rfl⟩
abbrev main_v377 : Ref sig .tc := ⟨.hbm, 571, rfl⟩
abbrev main_v378 : Ref sig .tc := ⟨.hbm, 572, rfl⟩
abbrev main_v379 : Ref sig .tc := ⟨.hbm, 573, rfl⟩
abbrev main_v380 : Ref sig .tc := ⟨.hbm, 574, rfl⟩
abbrev main_v381 : Ref sig .tc := ⟨.hbm, 575, rfl⟩
abbrev main_v382 : Ref sig .tc := ⟨.hbm, 576, rfl⟩
abbrev main_v383 : Ref sig .tc := ⟨.hbm, 577, rfl⟩
abbrev main_v384 : Ref sig .tc := ⟨.hbm, 578, rfl⟩
abbrev main_v385 : Ref sig .tc := ⟨.hbm, 579, rfl⟩

abbrev nD : Nat := 1
abbrev τ : Topo := Topo.v7x

variable {F : FTy → Type} [FloatOps F]

class Facts₀ : Prop where
  reducesTo_S8x128x96x320_S8x96x320_d1 : S8x128x96x320.ReducesTo [1] S8x96x320
  h_S_ : 0 < S_.numel
  bcast_S_S8x96x320 : S_.BroadcastsInDim S8x96x320 (![] : Fin 0 → Fin S8x96x320.rank)
  pads_S8x96x320_S8x96x320_000_000_000 : S8x96x320.Pads (![0, 0, 0] : Fin 3 → Nat) ![0, 0, 0] ![0, 0, 0] S8x96x320
  slices_S8x128x96x320_S8x128x96x319_0_0_0_1 : S8x128x96x320.Slices ![0, 0, 0, 1] S8x128x96x319
  slices_S8x128x96x320_S8x128x96x319_0_0_0_0 : S8x128x96x320.Slices ![0, 0, 0, 0] S8x128x96x319
  reducesTo_S8x128x96x319_S8x96x319_d1 : S8x128x96x319.ReducesTo [1] S8x96x319
  bcast_S_S8x96x319 : S_.BroadcastsInDim S8x96x319 (![] : Fin 0 → Fin S8x96x319.rank)
  pads_S8x96x319_S8x96x320_000_000_100 : S8x96x319.Pads (![0, 0, 1] : Fin 3 → Nat) ![0, 0, 0] ![0, 0, 0] S8x96x320
  slices_S8x128x96x320_S8x128x96x318_0_0_0_2 : S8x128x96x320.Slices ![0, 0, 0, 2] S8x128x96x318
  slices_S8x128x96x320_S8x128x96x318_0_0_0_0 : S8x128x96x320.Slices ![0, 0, 0, 0] S8x128x96x318
  reducesTo_S8x128x96x318_S8x96x318_d1 : S8x128x96x318.ReducesTo [1] S8x96x318
  bcast_S_S8x96x318 : S_.BroadcastsInDim S8x96x318 (![] : Fin 0 → Fin S8x96x318.rank)
  pads_S8x96x318_S8x96x320_000_000_200 : S8x96x318.Pads (![0, 0, 2] : Fin 3 → Nat) ![0, 0, 0] ![0, 0, 0] S8x96x320
  slices_S8x128x96x320_S8x128x96x317_0_0_0_3 : S8x128x96x320.Slices ![0, 0, 0, 3] S8x128x96x317
  slices_S8x128x96x320_S8x128x96x317_0_0_0_0 : S8x128x96x320.Slices ![0, 0, 0, 0] S8x128x96x317
  reducesTo_S8x128x96x317_S8x96x317_d1 : S8x128x96x317.ReducesTo [1] S8x96x317
  bcast_S_S8x96x317 : S_.BroadcastsInDim S8x96x317 (![] : Fin 0 → Fin S8x96x317.rank)
  pads_S8x96x317_S8x96x320_000_000_300 : S8x96x317.Pads (![0, 0, 3] : Fin 3 → Nat) ![0, 0, 0] ![0, 0, 0] S8x96x320
  slices_S8x128x96x320_S8x128x96x316_0_0_0_4 : S8x128x96x320.Slices ![0, 0, 0, 4] S8x128x96x316
  slices_S8x128x96x320_S8x128x96x316_0_0_0_0 : S8x128x96x320.Slices ![0, 0, 0, 0] S8x128x96x316
  reducesTo_S8x128x96x316_S8x96x316_d1 : S8x128x96x316.ReducesTo [1] S8x96x316
  bcast_S_S8x96x316 : S_.BroadcastsInDim S8x96x316 (![] : Fin 0 → Fin S8x96x316.rank)
  pads_S8x96x316_S8x96x320_000_000_400 : S8x96x316.Pads (![0, 0, 4] : Fin 3 → Nat) ![0, 0, 0] ![0, 0, 0] S8x96x320
  slices_S8x128x96x320_S8x128x96x315_0_0_0_5 : S8x128x96x320.Slices ![0, 0, 0, 5] S8x128x96x315
  slices_S8x128x96x320_S8x128x96x315_0_0_0_0 : S8x128x96x320.Slices ![0, 0, 0, 0] S8x128x96x315
  reducesTo_S8x128x96x315_S8x96x315_d1 : S8x128x96x315.ReducesTo [1] S8x96x315
  bcast_S_S8x96x315 : S_.BroadcastsInDim S8x96x315 (![] : Fin 0 → Fin S8x96x315.rank)
  pads_S8x96x315_S8x96x320_000_000_500 : S8x96x315.Pads (![0, 0, 5] : Fin 3 → Nat) ![0, 0, 0] ![0, 0, 0] S8x96x320
  slices_S8x128x96x320_S8x128x96x314_0_0_0_6 : S8x128x96x320.Slices ![0, 0, 0, 6] S8x128x96x314
  slices_S8x128x96x320_S8x128x96x314_0_0_0_0 : S8x128x96x320.Slices ![0, 0, 0, 0] S8x128x96x314
  reducesTo_S8x128x96x314_S8x96x314_d1 : S8x128x96x314.ReducesTo [1] S8x96x314
  bcast_S_S8x96x314 : S_.BroadcastsInDim S8x96x314 (![] : Fin 0 → Fin S8x96x314.rank)
  pads_S8x96x314_S8x96x320_000_000_600 : S8x96x314.Pads (![0, 0, 6] : Fin 3 → Nat) ![0, 0, 0] ![0, 0, 0] S8x96x320
  slices_S8x128x96x320_S8x128x96x313_0_0_0_7 : S8x128x96x320.Slices ![0, 0, 0, 7] S8x128x96x313
  slices_S8x128x96x320_S8x128x96x313_0_0_0_0 : S8x128x96x320.Slices ![0, 0, 0, 0] S8x128x96x313
  reducesTo_S8x128x96x313_S8x96x313_d1 : S8x128x96x313.ReducesTo [1] S8x96x313
  bcast_S_S8x96x313 : S_.BroadcastsInDim S8x96x313 (![] : Fin 0 → Fin S8x96x313.rank)
  pads_S8x96x313_S8x96x320_000_000_700 : S8x96x313.Pads (![0, 0, 7] : Fin 3 → Nat) ![0, 0, 0] ![0, 0, 0] S8x96x320
  slices_S8x128x96x320_S8x128x96x312_0_0_0_8 : S8x128x96x320.Slices ![0, 0, 0, 8] S8x128x96x312
  slices_S8x128x96x320_S8x128x96x312_0_0_0_0 : S8x128x96x320.Slices ![0, 0, 0, 0] S8x128x96x312
  reducesTo_S8x128x96x312_S8x96x312_d1 : S8x128x96x312.ReducesTo [1] S8x96x312
  bcast_S_S8x96x312 : S_.BroadcastsInDim S8x96x312 (![] : Fin 0 → Fin S8x96x312.rank)
  pads_S8x96x312_S8x96x320_000_000_800 : S8x96x312.Pads (![0, 0, 8] : Fin 3 → Nat) ![0, 0, 0] ![0, 0, 0] S8x96x320
  slices_S8x128x96x320_S8x128x96x311_0_0_0_9 : S8x128x96x320.Slices ![0, 0, 0, 9] S8x128x96x311
  slices_S8x128x96x320_S8x128x96x311_0_0_0_0 : S8x128x96x320.Slices ![0, 0, 0, 0] S8x128x96x311
  reducesTo_S8x128x96x311_S8x96x311_d1 : S8x128x96x311.ReducesTo [1] S8x96x311
  bcast_S_S8x96x311 : S_.BroadcastsInDim S8x96x311 (![] : Fin 0 → Fin S8x96x311.rank)
  pads_S8x96x311_S8x96x320_000_000_900 : S8x96x311.Pads (![0, 0, 9] : Fin 3 → Nat) ![0, 0, 0] ![0, 0, 0] S8x96x320
  slices_S8x128x96x320_S8x128x96x310_0_0_0_10 : S8x128x96x320.Slices ![0, 0, 0, 10] S8x128x96x310
  slices_S8x128x96x320_S8x128x96x310_0_0_0_0 : S8x128x96x320.Slices ![0, 0, 0, 0] S8x128x96x310
  reducesTo_S8x128x96x310_S8x96x310_d1 : S8x128x96x310.ReducesTo [1] S8x96x310
  bcast_S_S8x96x310 : S_.BroadcastsInDim S8x96x310 (![] : Fin 0 → Fin S8x96x310.rank)
  pads_S8x96x310_S8x96x320_000_000_1000 : S8x96x310.Pads (![0, 0, 10] : Fin 3 → Nat) ![0, 0, 0] ![0, 0, 0] S8x96x320
  slices_S8x128x96x320_S8x128x96x309_0_0_0_11 : S8x128x96x320.Slices ![0, 0, 0, 11] S8x128x96x309
  slices_S8x128x96x320_S8x128x96x309_0_0_0_0 : S8x128x96x320.Slices ![0, 0, 0, 0] S8x128x96x309
  reducesTo_S8x128x96x309_S8x96x309_d1 : S8x128x96x309.ReducesTo [1] S8x96x309
  bcast_S_S8x96x309 : S_.BroadcastsInDim S8x96x309 (![] : Fin 0 → Fin S8x96x309.rank)
  pads_S8x96x309_S8x96x320_000_000_1100 : S8x96x309.Pads (![0, 0, 11] : Fin 3 → Nat) ![0, 0, 0] ![0, 0, 0] S8x96x320
  slices_S8x128x96x320_S8x128x96x308_0_0_0_12 : S8x128x96x320.Slices ![0, 0, 0, 12] S8x128x96x308
  slices_S8x128x96x320_S8x128x96x308_0_0_0_0 : S8x128x96x320.Slices ![0, 0, 0, 0] S8x128x96x308
  reducesTo_S8x128x96x308_S8x96x308_d1 : S8x128x96x308.ReducesTo [1] S8x96x308
  bcast_S_S8x96x308 : S_.BroadcastsInDim S8x96x308 (![] : Fin 0 → Fin S8x96x308.rank)
  pads_S8x96x308_S8x96x320_000_000_1200 : S8x96x308.Pads (![0, 0, 12] : Fin 3 → Nat) ![0, 0, 0] ![0, 0, 0] S8x96x320
  slices_S8x128x96x320_S8x128x96x307_0_0_0_13 : S8x128x96x320.Slices ![0, 0, 0, 13] S8x128x96x307
  slices_S8x128x96x320_S8x128x96x307_0_0_0_0 : S8x128x96x320.Slices ![0, 0, 0, 0] S8x128x96x307
  reducesTo_S8x128x96x307_S8x96x307_d1 : S8x128x96x307.ReducesTo [1] S8x96x307
  bcast_S_S8x96x307 : S_.BroadcastsInDim S8x96x307 (![] : Fin 0 → Fin S8x96x307.rank)
  pads_S8x96x307_S8x96x320_000_000_1300 : S8x96x307.Pads (![0, 0, 13] : Fin 3 → Nat) ![0, 0, 0] ![0, 0, 0] S8x96x320
  slices_S8x128x96x320_S8x128x96x306_0_0_0_14 : S8x128x96x320.Slices ![0, 0, 0, 14] S8x128x96x306
  slices_S8x128x96x320_S8x128x96x306_0_0_0_0 : S8x128x96x320.Slices ![0, 0, 0, 0] S8x128x96x306
  reducesTo_S8x128x96x306_S8x96x306_d1 : S8x128x96x306.ReducesTo [1] S8x96x306
  bcast_S_S8x96x306 : S_.BroadcastsInDim S8x96x306 (![] : Fin 0 → Fin S8x96x306.rank)
  pads_S8x96x306_S8x96x320_000_000_1400 : S8x96x306.Pads (![0, 0, 14] : Fin 3 → Nat) ![0, 0, 0] ![0, 0, 0] S8x96x320
  slices_S8x128x96x320_S8x128x96x305_0_0_0_15 : S8x128x96x320.Slices ![0, 0, 0, 15] S8x128x96x305
  slices_S8x128x96x320_S8x128x96x305_0_0_0_0 : S8x128x96x320.Slices ![0, 0, 0, 0] S8x128x96x305
  reducesTo_S8x128x96x305_S8x96x305_d1 : S8x128x96x305.ReducesTo [1] S8x96x305
  bcast_S_S8x96x305 : S_.BroadcastsInDim S8x96x305 (![] : Fin 0 → Fin S8x96x305.rank)
  pads_S8x96x305_S8x96x320_000_000_1500 : S8x96x305.Pads (![0, 0, 15] : Fin 3 → Nat) ![0, 0, 0] ![0, 0, 0] S8x96x320
  slices_S8x128x96x320_S8x128x96x304_0_0_0_16 : S8x128x96x320.Slices ![0, 0, 0, 16] S8x128x96x304
  slices_S8x128x96x320_S8x128x96x304_0_0_0_0 : S8x128x96x320.Slices ![0, 0, 0, 0] S8x128x96x304
  reducesTo_S8x128x96x304_S8x96x304_d1 : S8x128x96x304.ReducesTo [1] S8x96x304
  bcast_S_S8x96x304 : S_.BroadcastsInDim S8x96x304 (![] : Fin 0 → Fin S8x96x304.rank)
  pads_S8x96x304_S8x96x320_000_000_1600 : S8x96x304.Pads (![0, 0, 16] : Fin 3 → Nat) ![0, 0, 0] ![0, 0, 0] S8x96x320
  slices_S8x128x96x320_S8x128x96x303_0_0_0_17 : S8x128x96x320.Slices ![0, 0, 0, 17] S8x128x96x303
  slices_S8x128x96x320_S8x128x96x303_0_0_0_0 : S8x128x96x320.Slices ![0, 0, 0, 0] S8x128x96x303
  reducesTo_S8x128x96x303_S8x96x303_d1 : S8x128x96x303.ReducesTo [1] S8x96x303
  bcast_S_S8x96x303 : S_.BroadcastsInDim S8x96x303 (![] : Fin 0 → Fin S8x96x303.rank)
  pads_S8x96x303_S8x96x320_000_000_1700 : S8x96x303.Pads (![0, 0, 17] : Fin 3 → Nat) ![0, 0, 0] ![0, 0, 0] S8x96x320
  slices_S8x128x96x320_S8x128x96x302_0_0_0_18 : S8x128x96x320.Slices ![0, 0, 0, 18] S8x128x96x302
  slices_S8x128x96x320_S8x128x96x302_0_0_0_0 : S8x128x96x320.Slices ![0, 0, 0, 0] S8x128x96x302
  reducesTo_S8x128x96x302_S8x96x302_d1 : S8x128x96x302.ReducesTo [1] S8x96x302
  bcast_S_S8x96x302 : S_.BroadcastsInDim S8x96x302 (![] : Fin 0 → Fin S8x96x302.rank)
  pads_S8x96x302_S8x96x320_000_000_1800 : S8x96x302.Pads (![0, 0, 18] : Fin 3 → Nat) ![0, 0, 0] ![0, 0, 0] S8x96x320
  slices_S8x128x96x320_S8x128x96x301_0_0_0_19 : S8x128x96x320.Slices ![0, 0, 0, 19] S8x128x96x301
  slices_S8x128x96x320_S8x128x96x301_0_0_0_0 : S8x128x96x320.Slices ![0, 0, 0, 0] S8x128x96x301
  reducesTo_S8x128x96x301_S8x96x301_d1 : S8x128x96x301.ReducesTo [1] S8x96x301
  bcast_S_S8x96x301 : S_.BroadcastsInDim S8x96x301 (![] : Fin 0 → Fin S8x96x301.rank)
  pads_S8x96x301_S8x96x320_000_000_1900 : S8x96x301.Pads (![0, 0, 19] : Fin 3 → Nat) ![0, 0, 0] ![0, 0, 0] S8x96x320
  slices_S8x128x96x320_S8x128x96x300_0_0_0_20 : S8x128x96x320.Slices ![0, 0, 0, 20] S8x128x96x300
  slices_S8x128x96x320_S8x128x96x300_0_0_0_0 : S8x128x96x320.Slices ![0, 0, 0, 0] S8x128x96x300
  reducesTo_S8x128x96x300_S8x96x300_d1 : S8x128x96x300.ReducesTo [1] S8x96x300
  bcast_S_S8x96x300 : S_.BroadcastsInDim S8x96x300 (![] : Fin 0 → Fin S8x96x300.rank)
  pads_S8x96x300_S8x96x320_000_000_2000 : S8x96x300.Pads (![0, 0, 20] : Fin 3 → Nat) ![0, 0, 0] ![0, 0, 0] S8x96x320
  slices_S8x128x96x320_S8x128x96x299_0_0_0_21 : S8x128x96x320.Slices ![0, 0, 0, 21] S8x128x96x299
  slices_S8x128x96x320_S8x128x96x299_0_0_0_0 : S8x128x96x320.Slices ![0, 0, 0, 0] S8x128x96x299
  reducesTo_S8x128x96x299_S8x96x299_d1 : S8x128x96x299.ReducesTo [1] S8x96x299
  bcast_S_S8x96x299 : S_.BroadcastsInDim S8x96x299 (![] : Fin 0 → Fin S8x96x299.rank)
  pads_S8x96x299_S8x96x320_000_000_2100 : S8x96x299.Pads (![0, 0, 21] : Fin 3 → Nat) ![0, 0, 0] ![0, 0, 0] S8x96x320
  slices_S8x128x96x320_S8x128x96x298_0_0_0_22 : S8x128x96x320.Slices ![0, 0, 0, 22] S8x128x96x298
  slices_S8x128x96x320_S8x128x96x298_0_0_0_0 : S8x128x96x320.Slices ![0, 0, 0, 0] S8x128x96x298
  reducesTo_S8x128x96x298_S8x96x298_d1 : S8x128x96x298.ReducesTo [1] S8x96x298
  bcast_S_S8x96x298 : S_.BroadcastsInDim S8x96x298 (![] : Fin 0 → Fin S8x96x298.rank)
  pads_S8x96x298_S8x96x320_000_000_2200 : S8x96x298.Pads (![0, 0, 22] : Fin 3 → Nat) ![0, 0, 0] ![0, 0, 0] S8x96x320
  slices_S8x128x96x320_S8x128x96x297_0_0_0_23 : S8x128x96x320.Slices ![0, 0, 0, 23] S8x128x96x297
  slices_S8x128x96x320_S8x128x96x297_0_0_0_0 : S8x128x96x320.Slices ![0, 0, 0, 0] S8x128x96x297
  reducesTo_S8x128x96x297_S8x96x297_d1 : S8x128x96x297.ReducesTo [1] S8x96x297
  bcast_S_S8x96x297 : S_.BroadcastsInDim S8x96x297 (![] : Fin 0 → Fin S8x96x297.rank)
  pads_S8x96x297_S8x96x320_000_000_2300 : S8x96x297.Pads (![0, 0, 23] : Fin 3 → Nat) ![0, 0, 0] ![0, 0, 0] S8x96x320
  slices_S8x128x96x320_S8x128x96x296_0_0_0_24 : S8x128x96x320.Slices ![0, 0, 0, 24] S8x128x96x296
  slices_S8x128x96x320_S8x128x96x296_0_0_0_0 : S8x128x96x320.Slices ![0, 0, 0, 0] S8x128x96x296
  reducesTo_S8x128x96x296_S8x96x296_d1 : S8x128x96x296.ReducesTo [1] S8x96x296
  bcast_S_S8x96x296 : S_.BroadcastsInDim S8x96x296 (![] : Fin 0 → Fin S8x96x296.rank)
  pads_S8x96x296_S8x96x320_000_000_2400 : S8x96x296.Pads (![0, 0, 24] : Fin 3 → Nat) ![0, 0, 0] ![0, 0, 0] S8x96x320
  slices_S8x128x96x320_S8x128x96x295_0_0_0_25 : S8x128x96x320.Slices ![0, 0, 0, 25] S8x128x96x295
  slices_S8x128x96x320_S8x128x96x295_0_0_0_0 : S8x128x96x320.Slices ![0, 0, 0, 0] S8x128x96x295
  reducesTo_S8x128x96x295_S8x96x295_d1 : S8x128x96x295.ReducesTo [1] S8x96x295
  bcast_S_S8x96x295 : S_.BroadcastsInDim S8x96x295 (![] : Fin 0 → Fin S8x96x295.rank)
  pads_S8x96x295_S8x96x320_000_000_2500 : S8x96x295.Pads (![0, 0, 25] : Fin 3 → Nat) ![0, 0, 0] ![0, 0, 0] S8x96x320
  slices_S8x128x96x320_S8x128x96x294_0_0_0_26 : S8x128x96x320.Slices ![0, 0, 0, 26] S8x128x96x294
  slices_S8x128x96x320_S8x128x96x294_0_0_0_0 : S8x128x96x320.Slices ![0, 0, 0, 0] S8x128x96x294
  reducesTo_S8x128x96x294_S8x96x294_d1 : S8x128x96x294.ReducesTo [1] S8x96x294
  bcast_S_S8x96x294 : S_.BroadcastsInDim S8x96x294 (![] : Fin 0 → Fin S8x96x294.rank)
  pads_S8x96x294_S8x96x320_000_000_2600 : S8x96x294.Pads (![0, 0, 26] : Fin 3 → Nat) ![0, 0, 0] ![0, 0, 0] S8x96x320
  slices_S8x128x96x320_S8x128x96x293_0_0_0_27 : S8x128x96x320.Slices ![0, 0, 0, 27] S8x128x96x293
  slices_S8x128x96x320_S8x128x96x293_0_0_0_0 : S8x128x96x320.Slices ![0, 0, 0, 0] S8x128x96x293
  reducesTo_S8x128x96x293_S8x96x293_d1 : S8x128x96x293.ReducesTo [1] S8x96x293
  bcast_S_S8x96x293 : S_.BroadcastsInDim S8x96x293 (![] : Fin 0 → Fin S8x96x293.rank)
  pads_S8x96x293_S8x96x320_000_000_2700 : S8x96x293.Pads (![0, 0, 27] : Fin 3 → Nat) ![0, 0, 0] ![0, 0, 0] S8x96x320
  slices_S8x128x96x320_S8x128x96x292_0_0_0_28 : S8x128x96x320.Slices ![0, 0, 0, 28] S8x128x96x292
  slices_S8x128x96x320_S8x128x96x292_0_0_0_0 : S8x128x96x320.Slices ![0, 0, 0, 0] S8x128x96x292
  reducesTo_S8x128x96x292_S8x96x292_d1 : S8x128x96x292.ReducesTo [1] S8x96x292
  bcast_S_S8x96x292 : S_.BroadcastsInDim S8x96x292 (![] : Fin 0 → Fin S8x96x292.rank)
  pads_S8x96x292_S8x96x320_000_000_2800 : S8x96x292.Pads (![0, 0, 28] : Fin 3 → Nat) ![0, 0, 0] ![0, 0, 0] S8x96x320
  slices_S8x128x96x320_S8x128x96x291_0_0_0_29 : S8x128x96x320.Slices ![0, 0, 0, 29] S8x128x96x291
  slices_S8x128x96x320_S8x128x96x291_0_0_0_0 : S8x128x96x320.Slices ![0, 0, 0, 0] S8x128x96x291
  reducesTo_S8x128x96x291_S8x96x291_d1 : S8x128x96x291.ReducesTo [1] S8x96x291
  bcast_S_S8x96x291 : S_.BroadcastsInDim S8x96x291 (![] : Fin 0 → Fin S8x96x291.rank)
  pads_S8x96x291_S8x96x320_000_000_2900 : S8x96x291.Pads (![0, 0, 29] : Fin 3 → Nat) ![0, 0, 0] ![0, 0, 0] S8x96x320
  slices_S8x128x96x320_S8x128x96x290_0_0_0_30 : S8x128x96x320.Slices ![0, 0, 0, 30] S8x128x96x290
  slices_S8x128x96x320_S8x128x96x290_0_0_0_0 : S8x128x96x320.Slices ![0, 0, 0, 0] S8x128x96x290
  reducesTo_S8x128x96x290_S8x96x290_d1 : S8x128x96x290.ReducesTo [1] S8x96x290
  bcast_S_S8x96x290 : S_.BroadcastsInDim S8x96x290 (![] : Fin 0 → Fin S8x96x290.rank)
  pads_S8x96x290_S8x96x320_000_000_3000 : S8x96x290.Pads (![0, 0, 30] : Fin 3 → Nat) ![0, 0, 0] ![0, 0, 0] S8x96x320
  slices_S8x128x96x320_S8x128x96x289_0_0_0_31 : S8x128x96x320.Slices ![0, 0, 0, 31] S8x128x96x289
  slices_S8x128x96x320_S8x128x96x289_0_0_0_0 : S8x128x96x320.Slices ![0, 0, 0, 0] S8x128x96x289
  reducesTo_S8x128x96x289_S8x96x289_d1 : S8x128x96x289.ReducesTo [1] S8x96x289
  bcast_S_S8x96x289 : S_.BroadcastsInDim S8x96x289 (![] : Fin 0 → Fin S8x96x289.rank)
  pads_S8x96x289_S8x96x320_000_000_3100 : S8x96x289.Pads (![0, 0, 31] : Fin 3 → Nat) ![0, 0, 0] ![0, 0, 0] S8x96x320
  slices_S8x128x96x320_S8x128x96x288_0_0_0_32 : S8x128x96x320.Slices ![0, 0, 0, 32] S8x128x96x288
  slices_S8x128x96x320_S8x128x96x288_0_0_0_0 : S8x128x96x320.Slices ![0, 0, 0, 0] S8x128x96x288
  reducesTo_S8x128x96x288_S8x96x288_d1 : S8x128x96x288.ReducesTo [1] S8x96x288
  bcast_S_S8x96x288 : S_.BroadcastsInDim S8x96x288 (![] : Fin 0 → Fin S8x96x288.rank)
  pads_S8x96x288_S8x96x320_000_000_3200 : S8x96x288.Pads (![0, 0, 32] : Fin 3 → Nat) ![0, 0, 0] ![0, 0, 0] S8x96x320
  slices_S8x128x96x320_S8x128x96x287_0_0_0_33 : S8x128x96x320.Slices ![0, 0, 0, 33] S8x128x96x287
  slices_S8x128x96x320_S8x128x96x287_0_0_0_0 : S8x128x96x320.Slices ![0, 0, 0, 0] S8x128x96x287
  reducesTo_S8x128x96x287_S8x96x287_d1 : S8x128x96x287.ReducesTo [1] S8x96x287
  bcast_S_S8x96x287 : S_.BroadcastsInDim S8x96x287 (![] : Fin 0 → Fin S8x96x287.rank)
  pads_S8x96x287_S8x96x320_000_000_3300 : S8x96x287.Pads (![0, 0, 33] : Fin 3 → Nat) ![0, 0, 0] ![0, 0, 0] S8x96x320
  slices_S8x128x96x320_S8x128x96x286_0_0_0_34 : S8x128x96x320.Slices ![0, 0, 0, 34] S8x128x96x286
  slices_S8x128x96x320_S8x128x96x286_0_0_0_0 : S8x128x96x320.Slices ![0, 0, 0, 0] S8x128x96x286
  reducesTo_S8x128x96x286_S8x96x286_d1 : S8x128x96x286.ReducesTo [1] S8x96x286
  bcast_S_S8x96x286 : S_.BroadcastsInDim S8x96x286 (![] : Fin 0 → Fin S8x96x286.rank)
  pads_S8x96x286_S8x96x320_000_000_3400 : S8x96x286.Pads (![0, 0, 34] : Fin 3 → Nat) ![0, 0, 0] ![0, 0, 0] S8x96x320
  slices_S8x128x96x320_S8x128x96x285_0_0_0_35 : S8x128x96x320.Slices ![0, 0, 0, 35] S8x128x96x285
  slices_S8x128x96x320_S8x128x96x285_0_0_0_0 : S8x128x96x320.Slices ![0, 0, 0, 0] S8x128x96x285
  reducesTo_S8x128x96x285_S8x96x285_d1 : S8x128x96x285.ReducesTo [1] S8x96x285
  bcast_S_S8x96x285 : S_.BroadcastsInDim S8x96x285 (![] : Fin 0 → Fin S8x96x285.rank)
  pads_S8x96x285_S8x96x320_000_000_3500 : S8x96x285.Pads (![0, 0, 35] : Fin 3 → Nat) ![0, 0, 0] ![0, 0, 0] S8x96x320
  slices_S8x128x96x320_S8x128x96x284_0_0_0_36 : S8x128x96x320.Slices ![0, 0, 0, 36] S8x128x96x284
  slices_S8x128x96x320_S8x128x96x284_0_0_0_0 : S8x128x96x320.Slices ![0, 0, 0, 0] S8x128x96x284
  reducesTo_S8x128x96x284_S8x96x284_d1 : S8x128x96x284.ReducesTo [1] S8x96x284
  bcast_S_S8x96x284 : S_.BroadcastsInDim S8x96x284 (![] : Fin 0 → Fin S8x96x284.rank)
  pads_S8x96x284_S8x96x320_000_000_3600 : S8x96x284.Pads (![0, 0, 36] : Fin 3 → Nat) ![0, 0, 0] ![0, 0, 0] S8x96x320
  slices_S8x128x96x320_S8x128x96x283_0_0_0_37 : S8x128x96x320.Slices ![0, 0, 0, 37] S8x128x96x283
  slices_S8x128x96x320_S8x128x96x283_0_0_0_0 : S8x128x96x320.Slices ![0, 0, 0, 0] S8x128x96x283
  reducesTo_S8x128x96x283_S8x96x283_d1 : S8x128x96x283.ReducesTo [1] S8x96x283
  bcast_S_S8x96x283 : S_.BroadcastsInDim S8x96x283 (![] : Fin 0 → Fin S8x96x283.rank)
  pads_S8x96x283_S8x96x320_000_000_3700 : S8x96x283.Pads (![0, 0, 37] : Fin 3 → Nat) ![0, 0, 0] ![0, 0, 0] S8x96x320
  slices_S8x128x96x320_S8x128x96x282_0_0_0_38 : S8x128x96x320.Slices ![0, 0, 0, 38] S8x128x96x282
  slices_S8x128x96x320_S8x128x96x282_0_0_0_0 : S8x128x96x320.Slices ![0, 0, 0, 0] S8x128x96x282
  reducesTo_S8x128x96x282_S8x96x282_d1 : S8x128x96x282.ReducesTo [1] S8x96x282
  bcast_S_S8x96x282 : S_.BroadcastsInDim S8x96x282 (![] : Fin 0 → Fin S8x96x282.rank)
  pads_S8x96x282_S8x96x320_000_000_3800 : S8x96x282.Pads (![0, 0, 38] : Fin 3 → Nat) ![0, 0, 0] ![0, 0, 0] S8x96x320
  slices_S8x128x96x320_S8x128x96x281_0_0_0_39 : S8x128x96x320.Slices ![0, 0, 0, 39] S8x128x96x281
  slices_S8x128x96x320_S8x128x96x281_0_0_0_0 : S8x128x96x320.Slices ![0, 0, 0, 0] S8x128x96x281
  reducesTo_S8x128x96x281_S8x96x281_d1 : S8x128x96x281.ReducesTo [1] S8x96x281
  bcast_S_S8x96x281 : S_.BroadcastsInDim S8x96x281 (![] : Fin 0 → Fin S8x96x281.rank)
  pads_S8x96x281_S8x96x320_000_000_3900 : S8x96x281.Pads (![0, 0, 39] : Fin 3 → Nat) ![0, 0, 0] ![0, 0, 0] S8x96x320
  slices_S8x128x96x320_S8x128x96x280_0_0_0_40 : S8x128x96x320.Slices ![0, 0, 0, 40] S8x128x96x280
  slices_S8x128x96x320_S8x128x96x280_0_0_0_0 : S8x128x96x320.Slices ![0, 0, 0, 0] S8x128x96x280
  reducesTo_S8x128x96x280_S8x96x280_d1 : S8x128x96x280.ReducesTo [1] S8x96x280
  bcast_S_S8x96x280 : S_.BroadcastsInDim S8x96x280 (![] : Fin 0 → Fin S8x96x280.rank)
  pads_S8x96x280_S8x96x320_000_000_4000 : S8x96x280.Pads (![0, 0, 40] : Fin 3 → Nat) ![0, 0, 0] ![0, 0, 0] S8x96x320
  slices_S8x128x96x320_S8x128x96x279_0_0_0_41 : S8x128x96x320.Slices ![0, 0, 0, 41] S8x128x96x279
  slices_S8x128x96x320_S8x128x96x279_0_0_0_0 : S8x128x96x320.Slices ![0, 0, 0, 0] S8x128x96x279
  reducesTo_S8x128x96x279_S8x96x279_d1 : S8x128x96x279.ReducesTo [1] S8x96x279
  bcast_S_S8x96x279 : S_.BroadcastsInDim S8x96x279 (![] : Fin 0 → Fin S8x96x279.rank)
  pads_S8x96x279_S8x96x320_000_000_4100 : S8x96x279.Pads (![0, 0, 41] : Fin 3 → Nat) ![0, 0, 0] ![0, 0, 0] S8x96x320
  slices_S8x128x96x320_S8x128x96x278_0_0_0_42 : S8x128x96x320.Slices ![0, 0, 0, 42] S8x128x96x278
  slices_S8x128x96x320_S8x128x96x278_0_0_0_0 : S8x128x96x320.Slices ![0, 0, 0, 0] S8x128x96x278
  reducesTo_S8x128x96x278_S8x96x278_d1 : S8x128x96x278.ReducesTo [1] S8x96x278
  bcast_S_S8x96x278 : S_.BroadcastsInDim S8x96x278 (![] : Fin 0 → Fin S8x96x278.rank)
  pads_S8x96x278_S8x96x320_000_000_4200 : S8x96x278.Pads (![0, 0, 42] : Fin 3 → Nat) ![0, 0, 0] ![0, 0, 0] S8x96x320
  slices_S8x128x96x320_S8x128x96x277_0_0_0_43 : S8x128x96x320.Slices ![0, 0, 0, 43] S8x128x96x277
  slices_S8x128x96x320_S8x128x96x277_0_0_0_0 : S8x128x96x320.Slices ![0, 0, 0, 0] S8x128x96x277
  reducesTo_S8x128x96x277_S8x96x277_d1 : S8x128x96x277.ReducesTo [1] S8x96x277
  bcast_S_S8x96x277 : S_.BroadcastsInDim S8x96x277 (![] : Fin 0 → Fin S8x96x277.rank)
  pads_S8x96x277_S8x96x320_000_000_4300 : S8x96x277.Pads (![0, 0, 43] : Fin 3 → Nat) ![0, 0, 0] ![0, 0, 0] S8x96x320
  slices_S8x128x96x320_S8x128x96x276_0_0_0_44 : S8x128x96x320.Slices ![0, 0, 0, 44] S8x128x96x276
  slices_S8x128x96x320_S8x128x96x276_0_0_0_0 : S8x128x96x320.Slices ![0, 0, 0, 0] S8x128x96x276
  reducesTo_S8x128x96x276_S8x96x276_d1 : S8x128x96x276.ReducesTo [1] S8x96x276
  bcast_S_S8x96x276 : S_.BroadcastsInDim S8x96x276 (![] : Fin 0 → Fin S8x96x276.rank)
  pads_S8x96x276_S8x96x320_000_000_4400 : S8x96x276.Pads (![0, 0, 44] : Fin 3 → Nat) ![0, 0, 0] ![0, 0, 0] S8x96x320
  slices_S8x128x96x320_S8x128x96x275_0_0_0_45 : S8x128x96x320.Slices ![0, 0, 0, 45] S8x128x96x275
  slices_S8x128x96x320_S8x128x96x275_0_0_0_0 : S8x128x96x320.Slices ![0, 0, 0, 0] S8x128x96x275
  reducesTo_S8x128x96x275_S8x96x275_d1 : S8x128x96x275.ReducesTo [1] S8x96x275
  bcast_S_S8x96x275 : S_.BroadcastsInDim S8x96x275 (![] : Fin 0 → Fin S8x96x275.rank)
  pads_S8x96x275_S8x96x320_000_000_4500 : S8x96x275.Pads (![0, 0, 45] : Fin 3 → Nat) ![0, 0, 0] ![0, 0, 0] S8x96x320
  slices_S8x128x96x320_S8x128x96x274_0_0_0_46 : S8x128x96x320.Slices ![0, 0, 0, 46] S8x128x96x274
  slices_S8x128x96x320_S8x128x96x274_0_0_0_0 : S8x128x96x320.Slices ![0, 0, 0, 0] S8x128x96x274
  reducesTo_S8x128x96x274_S8x96x274_d1 : S8x128x96x274.ReducesTo [1] S8x96x274
  bcast_S_S8x96x274 : S_.BroadcastsInDim S8x96x274 (![] : Fin 0 → Fin S8x96x274.rank)
  pads_S8x96x274_S8x96x320_000_000_4600 : S8x96x274.Pads (![0, 0, 46] : Fin 3 → Nat) ![0, 0, 0] ![0, 0, 0] S8x96x320
  slices_S8x128x96x320_S8x128x96x273_0_0_0_47 : S8x128x96x320.Slices ![0, 0, 0, 47] S8x128x96x273
  slices_S8x128x96x320_S8x128x96x273_0_0_0_0 : S8x128x96x320.Slices ![0, 0, 0, 0] S8x128x96x273
  reducesTo_S8x128x96x273_S8x96x273_d1 : S8x128x96x273.ReducesTo [1] S8x96x273
  bcast_S_S8x96x273 : S_.BroadcastsInDim S8x96x273 (![] : Fin 0 → Fin S8x96x273.rank)
  pads_S8x96x273_S8x96x320_000_000_4700 : S8x96x273.Pads (![0, 0, 47] : Fin 3 → Nat) ![0, 0, 0] ![0, 0, 0] S8x96x320
  bcast_S8x96x320_S8x1x96x320_0_2_3 : S8x96x320.BroadcastsInDim S8x1x96x320 (![0, 2, 3] : Fin 3 → Fin S8x1x96x320.rank)
  concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1 : Shape.Concatenates [S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320, S8x1x96x320] S8x16x96x320 1
  concatenates_S8x16x96x320_S8x16x96x320_S8x16x96x320_S8x48x96x320_d1 : Shape.Concatenates [S8x16x96x320, S8x16x96x320, S8x16x96x320] S8x48x96x320 1

variable [Facts₀]

class Facts : Prop extends Facts₀ where

variable [Facts]
-- ==== Proof.Spec.lean ====
/-
  The cost volume, as one function of the two feature stacks.

  For feature stacks `L`, `R` of shape [B, 128, H, 320] (batch, channel, row, column) the cost volume has shape
  [B, 48, H, 320]: its plane `d` (a disparity) holds, at row `h` and column `w`,
      the mean over the 128 channels `c` of  L[b, c, h, w] · R[b, c, h, w - d]      when d ≤ w,
      0                                                                          when w < d
  (the first `d` columns of plane `d` have no partner column in `R`). The mean is written as the channel sum times the f32
  word of 1/128 (Scale.lean: that word is exactly 2⁻⁷, and dividing the sum by 128 is the same function).
  Stated for any batch extent `B` and row extent `H`: the whole arrays have B = 8 and H = 96, a kernel block B = 1 and H = 16.
-/
import Idealize.ShloMosaic.PureOps.Ideal
import Idealize.ShloMosaic.Lib.ValueIdx

noncomputable section

namespace Cert.CostVolume

open Idealize.ShloMosaic Idealize.ShloMosaic.ValueIdx

/-- Entry (b, d, h, w) of the cost volume of `L` and `R`. -/
def costAt {B H : ℕ} (L R : (⟨4, ![B, 128, H, 320]⟩ : Shape).Idx → EReal) (b : Fin B) (d : Fin 48) (h : Fin H)
    (w : Fin 320) : EReal :=
  if d.val ≤ w.val then
    (∑ c : Fin 128, L (ix4 b c h w) * R (ix4 b c h ⟨w.val - d.val, lt_of_le_of_lt (Nat.sub_le _ _) w.isLt⟩))
      * Ideal.ofBits .f32 0x3C000000#32
  else 0

/-- The cost volume of `L` and `R`, index by index. -/
def cost {B H : ℕ} (L R : (⟨4, ![B, 128, H, 320]⟩ : Shape).Idx → EReal) : (⟨4, ![B, 48, H, 320]⟩ : Shape).Idx → EReal :=
  fun j => costAt L R (j 0) (j 1) (j 2) (j 3)

/-- At or right of the diagonal column the entry is the scaled channel sum, the partner column given by its value. -/
theorem costAt_of_le {B H : ℕ} (L R : (⟨4, ![B, 128, H, 320]⟩ : Shape).Idx → EReal) (b : Fin B) (d : Fin 48) (h : Fin H)
    (w w' : Fin 320) (hw : w.val = d.val + w'.val) :
    costAt L R b d h w
      = (∑ c : Fin 128, L (ix4 b c h w) * R (ix4 b c h w')) * Ideal.ofBits .f32 0x3C000000#32 := by
  unfold costAt
  rw [if_pos (by omega)]
  have e : (⟨w.val - d.val, lt_of_le_of_lt (Nat.sub_le _ _) w.isLt⟩ : Fin 320) = w' := Fin.ext (by show w.val - d.val = w'.val; omega)
  rw [e]

/-- Left of the diagonal column the entry is 0. -/
theorem costAt_of_lt {B H : ℕ} (L R : (⟨4, ![B, 128, H, 320]⟩ : Shape).Idx → EReal) (b : Fin B) (d : Fin 48) (h : Fin H)
    (w : Fin 320) (hw : w.val < d.val) : costAt L R b d h w = 0 := by
  unfold costAt
  rw [if_neg (by omega)]

/-- An entry depends on the two stacks only through ONE batch entry and ONE row: stacks (of any batch and row extents) that
    agree there, channel by channel and column by column, have the same entry. -/
theorem costAt_congr {B H B' H' : ℕ} (L R : (⟨4, ![B, 128, H, 320]⟩ : Shape).Idx → EReal)
    (L' R' : (⟨4, ![B', 128, H', 320]⟩ : Shape).Idx → EReal) (b : Fin B) (b' : Fin B') (h : Fin H) (h' : Fin H')
    (d : Fin 48) (w : Fin 320)
    (hL : ∀ (c : Fin 128) (v : Fin 320), L (ix4 b c h v) = L' (ix4 b' c h' v))
    (hR : ∀ (c : Fin 128) (v : Fin 320), R (ix4 b c h v) = R' (ix4 b' c h' v)) :
    costAt L R b d h w = costAt L' R' b' d h' w := by
  unfold costAt
  simp only [hL, hR]

end Cert.CostVolume

end
-- ==== Proof.KernelPlane.lean ====
/-
  One plane of a kernel block, read at an index.

  The kernel's body holds the two [1, 128, 16, 320] blocks as [128, 16, 320] stacks `v1`, `v3`, and for the plane of
  disparity `j` it cuts columns `j …` out of `v1` and columns `0 … 320 - j` out of `v3` (both of width W = 320 - j), multiplies
  them entry by entry, sums over the channel axis and scales by the word of 1/128; the [16, W] result is stored as a
  [1, 1, 16, W] piece. So the piece's entry at local position (·, ·, r, q) is
      (∑ c, v1[c, r, j + q] · v3[c, r, q]) · (1/128),
  which is the cost volume's entry (d = j, row r, column w = j + q) of the two blocks: the partner column of `w` is `w - j = q`.
  Everything here is stated for ANY width `W` and offset `j`, the facts about the shapes taken as hypotheses, so that the 48
  planes of the body, each of its own width, are instances of one statement. Plane 0 has no cut and is stated apart.
-/
import Idealize.ShloMosaic.PureOps.Ideal.Laws
import Idealize.ShloMosaic.Lib.ValueIdx
import Idealize.ShloMosaic.Lib.Pipeline.Value
import Idealize.ShloMosaic.Lib.ValueLayout
import proofs.«167814_j57853209477697_1_alg».proof.Proof.Spec

noncomputable section

namespace Cert.CostVolume

open Idealize.ShloMosaic Idealize.ShloMosaic.ValueIdx

/-- A [16, W] matrix cast to [1, 1, 16, W] reads, at `x`, the matrix at row `x 2`, column `x 3`: the two leading
    coordinates of `x` are 0. -/
theorem cast_plane_apply {α : Type} {W : ℕ} (u : (⟨2, ![16, W]⟩ : Shape).Idx → α)
    (hsc : (⟨2, ![16, W]⟩ : Shape).ShapeCasts ⟨4, ![1, 1, 16, W]⟩) (x : (⟨4, ![1, 1, 16, W]⟩ : Shape).Idx) :
    shapeCast ⟨4, ![1, 1, 16, W]⟩ u hsc x = u (ix2 (x 2) (x 3)) :=
  shapeCast_apply u hsc x _ (by
    rw [Shape.rowMajor_val_two, Shape.rowMajor_val_four]
    have h0 : (x 0).val = 0 := Nat.lt_one_iff.mp (x 0).isLt
    have h1 : (x 1).val = 0 := Nat.lt_one_iff.mp (x 1).isLt
    show (x 2).val * W + (x 3).val = (((x 0).val * 1 + (x 1).val) * 16 + (x 2).val) * W + (x 3).val
    simp only [h0, h1, Nat.zero_mul, Nat.zero_add, Nat.mul_one])

/-- The channel sum of the shifted product at row `r`, local column `q`: the sum over the 128 channels of `v1` at column
    `j + q` times `v3` at column `q`. -/
theorem shiftedChannelSum_apply {W : ℕ} (j : ℕ) (v1 v3 : FVec Ideal (⟨3, ![128, 16, 320]⟩ : Shape) .f32)
    (hs1 : (⟨3, ![128, 16, 320]⟩ : Shape).Slices ![0, 0, j] ⟨3, ![128, 16, W]⟩)
    (hs0 : (⟨3, ![128, 16, 320]⟩ : Shape).Slices ![0, 0, 0] ⟨3, ![128, 16, W]⟩)
    (hred : (⟨3, ![128, 16, W]⟩ : Shape).Reduces [0] ⟨2, ![16, W]⟩)
    (hφ : FKind.Formats .f32) (hacc : (0x00000000#32 : BitVec 32) = FKind.add.neutral .f32 hφ)
    (r : Fin 16) (q : Fin W) (w w' : Fin 320) (hw : w.val = j + q.val) (hw' : w'.val = q.val) :
    multiReduction .add [0] ⟨2, ![16, W]⟩
        (mulf (extractStridedSlice ⟨3, ![128, 16, W]⟩ ![0, 0, j] v1 hs1)
          (extractStridedSlice ⟨3, ![128, 16, W]⟩ ![0, 0, 0] v3 hs0))
        0x00000000#32 hred hφ hacc (ix2 r q)
      = ∑ c : Fin 128, v1 (ix3 c r w) * v3 (ix3 c r w') := by
  refine (Ideal.multiReduction_add_single _ _ hred hφ hacc (ix2 r q)).trans ?_
  show ∑ c : Fin 128, _ = _
  refine Finset.sum_congr rfl fun c _ => ?_
  have e1 := extractStridedSlice_apply ![0, 0, j] v1 hs1 (hred.lift (ix2 r q) c) (ix3 c r w) (fun a => by
    match a with
    | ⟨0, _⟩ => exact (Nat.zero_add _).symm
    | ⟨1, _⟩ => exact (Nat.zero_add _).symm
    | ⟨2, _⟩ => exact hw)
  have e3 := extractStridedSlice_apply ![0, 0, 0] v3 hs0 (hred.lift (ix2 r q) c) (ix3 c r w') (fun a => by
    match a with
    | ⟨0, _⟩ => exact (Nat.zero_add _).symm
    | ⟨1, _⟩ => exact (Nat.zero_add _).symm
    | ⟨2, _⟩ => exact hw'.trans (Nat.zero_add _).symm)
  show extractStridedSlice _ _ v1 hs1 (hred.lift (ix2 r q) c) * extractStridedSlice _ _ v3 hs0 (hred.lift (ix2 r q) c) = _
  rw [e1, e3]

/-- The channel sum of the product with no shift (plane 0) at row `r`, column `q`. -/
theorem channelSum_apply (v1 v3 : FVec Ideal (⟨3, ![128, 16, 320]⟩ : Shape) .f32)
    (hred : (⟨3, ![128, 16, 320]⟩ : Shape).Reduces [0] ⟨2, ![16, 320]⟩)
    (hφ : FKind.Formats .f32) (hacc : (0x00000000#32 : BitVec 32) = FKind.add.neutral .f32 hφ)
    (r : Fin 16) (q : Fin 320) :
    multiReduction .add [0] ⟨2, ![16, 320]⟩ (mulf v1 v3) 0x00000000#32 hred hφ hacc (ix2 r q)
      = ∑ c : Fin 128, v1 (ix3 c r q) * v3 (ix3 c r q) := by
  refine (Ideal.multiReduction_add_single _ _ hred hφ hacc (ix2 r q)).trans ?_
  show ∑ c : Fin 128, _ = _
  refine Finset.sum_congr rfl fun c _ => ?_
  have e : hred.lift (ix2 r q) c = ix3 c r q := funext fun a => Fin.ext (by
    match a with
    | ⟨0, _⟩ => rfl
    | ⟨1, _⟩ => rfl
    | ⟨2, _⟩ => rfl)
  show v1 (hred.lift (ix2 r q) c) * v3 (hred.lift (ix2 r q) c) = _
  rw [e]

/-- The stored piece of plane `j ≥ 1`, at local position `x`, is the cost volume's entry of the two blocks at disparity `d`,
    row `r`, column `w`, when these are the position `x` moved by the piece's offsets (0, j, 0, j) — stated with the
    offsets as sums `offset + 1 · coordinate`, the form in which a unit-stride rectangle embeds its positions. -/
theorem planePayload_apply {W : ℕ} (j : ℕ) (x0 x1 : FVec Ideal (⟨4, ![1, 128, 16, 320]⟩ : Shape) .f32)
    (hc : (⟨4, ![1, 128, 16, 320]⟩ : Shape).ShapeCasts ⟨3, ![128, 16, 320]⟩)
    (hs1 : (⟨3, ![128, 16, 320]⟩ : Shape).Slices ![0, 0, j] ⟨3, ![128, 16, W]⟩)
    (hs0 : (⟨3, ![128, 16, 320]⟩ : Shape).Slices ![0, 0, 0] ⟨3, ![128, 16, W]⟩)
    (hred : (⟨3, ![128, 16, W]⟩ : Shape).Reduces [0] ⟨2, ![16, W]⟩)
    (hφ : FKind.Formats .f32) (hacc : (0x00000000#32 : BitVec 32) = FKind.add.neutral .f32 hφ)
    (hsc : (⟨2, ![16, W]⟩ : Shape).ShapeCasts ⟨4, ![1, 1, 16, W]⟩)
    (x : (⟨4, ![1, 1, 16, W]⟩ : Shape).Idx) (b : Fin 1) (d : Fin 48) (r : Fin 16) (w : Fin 320)
    (hd : d.val = j + 1 * (x 1).val) (hr : r.val = 0 + 1 * (x 2).val) (hw : w.val = j + 1 * (x 3).val) :
    shapeCast ⟨4, ![1, 1, 16, W]⟩
        (mulf
          (multiReduction .add [0] ⟨2, ![16, W]⟩
            (mulf (extractStridedSlice ⟨3, ![128, 16, W]⟩ ![0, 0, j] (shapeCast ⟨3, ![128, 16, 320]⟩ x0 hc) hs1)
              (extractStridedSlice ⟨3, ![128, 16, W]⟩ ![0, 0, 0] (shapeCast ⟨3, ![128, 16, 320]⟩ x1 hc) hs0))
            0x00000000#32 hred hφ hacc)
          (broadcast ⟨2, ![16, W]⟩ (Scalar.ofBits (F := Ideal) .f32 0x3C000000#32)))
        hsc x
      = costAt x0 x1 b d r w := by
  have h1 : (x 1).val = 0 := Nat.lt_one_iff.mp (x 1).isLt
  have hq : (x 3).val < 320 := by have := w.isLt; omega
  have hb : b = 0 := Subsingleton.elim _ _
  have hr' : r = x 2 := Fin.ext (by rw [hr]; omega)
  subst hb hr'
  have eq3 : ((⟨(x 3).val, hq⟩ : Fin 320) : ℕ) = (x 3).val := rfl
  rw [cast_plane_apply, costAt_of_le x0 x1 0 d (x 2) w ⟨(x 3).val, hq⟩ (by omega)]
  show multiReduction .add [0] ⟨2, ![16, W]⟩ _ 0x00000000#32 hred hφ hacc (ix2 (x 2) (x 3)) * Ideal.ofBits .f32 0x3C000000#32 = _
  rw [shiftedChannelSum_apply j _ _ hs1 hs0 hred hφ hacc (x 2) (x 3) w ⟨(x 3).val, hq⟩ (by omega) rfl]
  refine congrArg (· * Ideal.ofBits .f32 0x3C000000#32) (Finset.sum_congr rfl fun c _ => ?_)
  exact congrArg₂ (· * ·) (shapeCast_1abc_abc_apply x0 hc c (x 2) w) (shapeCast_1abc_abc_apply x1 hc c (x 2) ⟨(x 3).val, hq⟩)

/-- The stored piece of plane 0 (no cut), at local position `x`. -/
theorem plane0Payload_apply (x0 x1 : FVec Ideal (⟨4, ![1, 128, 16, 320]⟩ : Shape) .f32)
    (hc : (⟨4, ![1, 128, 16, 320]⟩ : Shape).ShapeCasts ⟨3, ![128, 16, 320]⟩)
    (hred : (⟨3, ![128, 16, 320]⟩ : Shape).Reduces [0] ⟨2, ![16, 320]⟩)
    (hφ : FKind.Formats .f32) (hacc : (0x00000000#32 : BitVec 32) = FKind.add.neutral .f32 hφ)
    (hsc : (⟨2, ![16, 320]⟩ : Shape).ShapeCasts ⟨4, ![1, 1, 16, 320]⟩)
    (x : (⟨4, ![1, 1, 16, 320]⟩ : Shape).Idx) (b : Fin 1) (d : Fin 48) (r : Fin 16) (w : Fin 320)
    (hd : d.val = 0 + 1 * (x 1).val) (hr : r.val = 0 + 1 * (x 2).val) (hw : w.val = 0 + 1 * (x 3).val) :
    shapeCast ⟨4, ![1, 1, 16, 320]⟩
        (mulf
          (multiReduction .add [0] ⟨2, ![16, 320]⟩
            (mulf (shapeCast ⟨3, ![128, 16, 320]⟩ x0 hc) (shapeCast ⟨3, ![128, 16, 320]⟩ x1 hc))
            0x00000000#32 hred hφ hacc)
          (broadcast ⟨2, ![16, 320]⟩ (Scalar.ofBits (F := Ideal) .f32 0x3C000000#32)))
        hsc x
      = costAt x0 x1 b d r w := by
  have h1 : (x 1).val = 0 := Nat.lt_one_iff.mp (x 1).isLt
  have hb : b = 0 := Subsingleton.elim _ _
  have hr' : r = x 2 := Fin.ext (by rw [hr]; omega)
  have hw' : w = x 3 := Fin.ext (by rw [hw]; omega)
  subst hb hr' hw'
  rw [cast_plane_apply, costAt_of_le x0 x1 0 d (x 2) (x 3) (x 3) (by rw [hd, h1]; omega)]
  show multiReduction .add [0] ⟨2, ![16, 320]⟩ _ 0x00000000#32 hred hφ hacc (ix2 (x 2) (x 3)) * Ideal.ofBits .f32 0x3C000000#32 = _
  rw [channelSum_apply _ _ hred hφ hacc (x 2) (x 3)]
  refine congrArg (· * Ideal.ofBits .f32 0x3C000000#32) (Finset.sum_congr rfl fun c _ => ?_)
  exact congrArg₂ (· * ·) (shapeCast_1abc_abc_apply x0 hc c (x 2) (x 3)) (shapeCast_1abc_abc_apply x1 hc c (x 2) (x 3))

/-- The block's first store: the zero word everywhere. -/
theorem zeroFill_apply (hsc : (⟨3, ![48, 16, 320]⟩ : Shape).ShapeCasts ⟨4, ![1, 48, 16, 320]⟩)
    (y : (⟨4, ![1, 48, 16, 320]⟩ : Shape).Idx) :
    shapeCast ⟨4, ![1, 48, 16, 320]⟩ (broadcast ⟨3, ![48, 16, 320]⟩ (Scalar.ofBits (F := Ideal) .f32 0x00000000#32)) hsc y
      = Ideal.ofBits .f32 0x00000000#32 := by
  unfold shapeCast
  rfl

end Cert.CostVolume

end
-- ==== Proof.LibCanonStep.lean ====
/-
  A list of stores read back ONE STORE AT A TIME against one target function.

  The contents a list of stores leaves (the newest store first in the list) are, at each index, the payload of the first
  store of the list whose rectangle holds the index. To show that these contents are a given function `G` at an index
  `y` it is therefore enough to go down the list once: the newest store's payload must be `G` on that store's own
  rectangle, and, in case `y` lies OUTSIDE that rectangle, the remaining (earlier) stores must leave `G` at `y`. Nothing is
  asked of the earlier stores at indices the newest one covers, so the stores may overlap, and a later store may overwrite
  an earlier one with different values (a buffer first filled with a constant and then overwritten piece by piece).
  The second form states the miss on the coordinates, for a store through a unit-stride rectangle.
-/
import Idealize.ShloMosaic.Lib.Pipeline.Value

noncomputable section

namespace Cert.CanonStep

open Idealize.ShloMosaic Idealize.ShloMosaic.View

variable {Val : EltTy → Type} {S : Shape} {e : EltTy}

/-- The contents left by `p :: L` are `G` at `y` when `p`'s payload is `G` on `p`'s rectangle and, if `y` is outside that
    rectangle, the contents left by `L` are `G` at `y`. -/
theorem canon_cons_eq_of [∀ e, Nonempty (Val e)] (G : S.Idx → Val e) (p : Piece Val S e) (L : List (Piece Val S e))
    (y : S.Idx) (hp : ∀ x : p.1.shape.Idx, p.2 x = G (p.1.emb x)) (hL : y ∉ p.1.set → canon L y = G y) :
    canon (p :: L) y = G y := by
  by_cases hm : y ∈ p.1.set
  · obtain ⟨x, rfl⟩ := p.1.exists_idx_of_mem hm
    rw [show p.1.idx x = p.1.emb x from rfl, canon_cons_emb]
    exact hp x
  · rw [canon_cons_of_not_mem _ _ hm]
    exact hL hm

/-- The same for a newest store through the unit-stride rectangle of sizes `size` at offsets `off`: `y` is outside it
    exactly when some coordinate of `y` is not in `[off a, off a + size a)`. -/
theorem canon_cons_unit_eq_of [∀ e, Nonempty (Val e)] (G : S.Idx → Val e) {off size : Fin S.rank → ℕ}
    (inb : ∀ a, off a + size a ≤ S.size a) (w : (Rect.unit off size inb).shape.Idx → Val e)
    (L : List (Piece Val S e)) (y : S.Idx)
    (hp : ∀ x : (Rect.unit off size inb).shape.Idx, w x = G ((Rect.unit off size inb).emb x))
    (hL : ¬ (∀ a, off a ≤ (y a).val ∧ (y a).val < off a + size a) → canon L y = G y) :
    canon ((⟨Rect.unit off size inb, w⟩ : Piece Val S e) :: L) y = G y :=
  canon_cons_eq_of G ⟨Rect.unit off size inb, w⟩ L y hp fun hm => hL fun h => hm ((Rect.mem_set_unit (inb := inb)).mpr h)

end Cert.CanonStep

end
-- ==== Proof.Scale.lean ====
/-
  The two scale constants of the cost volume. A plane of the volume is a MEAN over the 128 channels: the kernel takes the
  channel sum times the f32 word 0x3C000000, the reference divides the channel sum by the f32 word 0x43000000. The first word
  is 2⁻⁷ = 1/128 exactly (a power of two has an exact binary form), the second is 128, and on the extended reals dividing
  by a nonzero real is multiplying by its reciprocal at EVERY argument, the two infinities included: the two means are one
  function, and no finiteness of the inputs is used.
-/
import Idealize.ShloMosaic.PureOps.Ideal

noncomputable section

namespace Cert.CostVolume

open Idealize.ShloMosaic

/-- The f32 word 0x43000000 denotes the real number 128. -/
theorem ofBits_128 : Ideal.ofBits .f32 0x43000000#32 = ((128 : ℝ) : EReal) := by
  simp [Ideal.ofBits, Ideal.ieee, -EReal.coe_mul]; norm_num

/-- The f32 word 0x3C000000 denotes the real number 1/128. -/
theorem ofBits_inv128 : Ideal.ofBits .f32 0x3C000000#32 = ((1 / 128 : ℝ) : EReal) := by
  simp [Ideal.ofBits, Ideal.ieee, -EReal.coe_mul]; norm_num

/-- The f32 word of +0.0 denotes 0. -/
theorem ofBits_zero : Ideal.ofBits .f32 0x00000000#32 = 0 := by
  simp [Ideal.ofBits, Ideal.ieee]

/-- Dividing by 128 is multiplying by 1/128, at every extended real. -/
theorem div_128 (x : EReal) :
    Ideal.div x (Ideal.ofBits .f32 0x43000000#32) = x * Ideal.ofBits .f32 0x3C000000#32 := by
  rw [ofBits_128, ofBits_inv128]
  exact Ideal.div_coe (by norm_num) x

end Cert.CostVolume

end
-- ==== Proof.KernelBlock.lean ====
/-
  What one grid point of the kernel leaves in its output block: the cost volume of the point's two input blocks.

  The body first fills the whole [1, 48, 16, 320] block with the zero word and then, for each disparity d = 0 … 47,
  overwrites plane d from column d on (the rectangle at offsets (0, d, 0, d) of sizes (1, 1, 16, 320 - d)) with the scaled
  channel sums of that plane. Read back, newest store first, an index (0, d, r, w) therefore
    * is missed by every plane store of another disparity (wrong plane coordinate),
    * is hit by plane d's store exactly when d ≤ w, and there holds the cost volume's entry (KernelPlane.lean),
    * and otherwise (w < d) falls through to the first store and holds 0 — the cost volume's value left of the diagonal.
  The list is gone down once (LibCanonStep.lean), carrying the fact "the index's plane is ≥ j ⇒ its column is left of the
  diagonal" from plane j + 1 to plane j: it starts vacuously above plane 47 and, below plane 0, says that an index no plane
  store took has w < d.
-/
import proofs.«167814_j57853209477697_1_alg».proof.Proof.FrameIdealP
import proofs.«167814_j57853209477697_1_alg».proof.Proof.KernelPlane
import proofs.«167814_j57853209477697_1_alg».proof.Proof.LibCanonStep
import proofs.«167814_j57853209477697_1_alg».proof.Proof.Scale

set_option maxRecDepth 16384

noncomputable section

namespace Cert.KernelIdeal.BlockValue

open Cert.KernelIdeal Cert.KernelIdeal.Gen Cert.KernelIdeal.GenP Cert.CostVolume Cert.CanonStep
open Idealize.ShloMosaic Idealize.ShloMosaic.TcCoe Idealize.ShloMosaic.Tactic Idealize.ShloMosaic.ValueIdx Idealize.ShloMosaic.View

/-- The zero offsets of a rank-4 rectangle. -/
theorem hz4 : (![0, 0, 0, 0] : Fin 4 → ℕ) = fun _ => 0 := funext fun a => by fin_cases a <;> rfl

/-- ONE PLANE STORE passed on the way down the list: the newest store is plane `j`'s (offsets (0, j, 0, j), sizes
    (1, 1, 16, 320 - j)) and holds `G` on its rectangle; an index it misses either has another plane coordinate or, on plane
    `j`, a column left of `j` — so the fact carried for planes above `j` extends to plane `j` for the rest of the list. -/
theorem plane_step (G : S1x48x16x320.Idx → Elt Ideal .f32) (j : ℕ) {size : Fin S1x48x16x320.rank → ℕ}
    (inb : ∀ a, (![0, j, 0, j] : Fin S1x48x16x320.rank → ℕ) a + size a ≤ S1x48x16x320.size a)
    (w : (Rect.unit (s := S1x48x16x320) ![0, j, 0, j] size inb).shape.Idx → Elt Ideal .f32)
    (L : List (Piece (Elt Ideal) S1x48x16x320 .f32)) (y : S1x48x16x320.Idx)
    (h0 : size 0 = 1) (h1 : size 1 = 1) (h2 : size 2 = 16) (h3 : j + size 3 = 320)
    (hprev : j + 1 ≤ (y 1).val → (y 3).val < (y 1).val)
    (hp : ∀ x, w x = G ((Rect.unit (s := S1x48x16x320) ![0, j, 0, j] size inb).emb x))
    (hL : (j ≤ (y 1).val → (y 3).val < (y 1).val) → canon L y = G y) :
    canon ((⟨Rect.unit (s := S1x48x16x320) ![0, j, 0, j] size inb, w⟩ : Piece (Elt Ideal) S1x48x16x320 .f32) :: L) y = G y := by
  refine canon_cons_unit_eq_of G inb w L y hp fun hmiss => hL fun hj => ?_
  by_cases e : (y 1).val = j
  · by_contra hc
    refine hmiss fun a => ?_
    have y0 : (y 0).val < 1 := (y 0).isLt
    have y2 : (y 2).val < 16 := (y 2).isLt
    have y3 : (y 3).val < 320 := (y 3).isLt
    match a with
    | ⟨0, _⟩ => show 0 ≤ (y 0).val ∧ (y 0).val < 0 + size 0; omega
    | ⟨1, _⟩ => show j ≤ (y 1).val ∧ (y 1).val < j + size 1; omega
    | ⟨2, _⟩ => show 0 ≤ (y 2).val ∧ (y 2).val < 0 + size 2; omega
    | ⟨3, _⟩ => show j ≤ (y 3).val ∧ (y 3).val < j + size 3; omega
  · exact hprev (by omega)

/-- One step of the walk over the planes 47 … 1: the plane's payload is the cost volume on its rectangle. -/
local macro "plane_down" : tactic => `(tactic|
  (refine plane_step _ _ _ _ _ _ rfl rfl rfl rfl (by assumption) (fun x => ?_) (fun hprev => ?_)
   · exact planePayload_apply _ _ _ (by decide) (by decide) (by decide) (by decide) (.inl rfl) rfl (by decide) x _ _ _ _ rfl rfl rfl))

/-- WHAT A POINT LEAVES IN ITS OUTPUT BLOCK: the cost volume of its two input blocks. -/
theorem block_eq (c : Dev nD) (i : grid0.Coords) (arg2 : Memref sig .tc .vmem S1x128x16x320 .f32) (harg2 : arg2.IsWhole)
    (arg3 : Memref sig .tc .vmem S1x128x16x320 .f32) (harg3 : arg3.IsWhole)
    (arg4 : Memref sig .tc .vmem S1x48x16x320 .f32) (harg4 : arg4.IsWhole)
    (x0 x1 : Vec Ideal S1x128x16x320 .f32) :
    out0_A_2 (F := Ideal) c i arg2 harg2 arg3 harg3 arg4 harg4 x0 x1 = cost (B := 1) (H := 16) x0 x1 := by
  unfold out0_A_2
  rw [View.read_writes_junk_eq_canon]
  funext y
  unfold kernelRun0_A
  dsimp only
  sl_unfold_words
  simp only [View.readAt_eq_ld, harg2.read_unread, harg3.read_unread, View.ld_unit_zero (S := S1x128x16x320) hz4]
  have hprev : 47 + 1 ≤ (y 1).val → (y 3).val < (y 1).val := fun h => absurd (y 1).isLt (by
    show ¬ (y 1).val < 48; omega)
  iterate 47 plane_down
  refine plane_step _ _ _ _ _ _ rfl rfl rfl rfl (by assumption) (fun x => ?_) (fun hprev => ?_)
  · exact plane0Payload_apply _ _ (by decide) (by decide) (.inl rfl) rfl (by decide) x _ _ _ _ rfl rfl rfl
  rw [View.canon_unit_zero hz4]
  show _ = costAt x0 x1 (y 0) (y 1) (y 2) (y 3)
  rw [costAt_of_lt x0 x1 (y 0) (y 1) (y 2) (y 3) (hprev (Nat.zero_le _))]
  exact (zeroFill_apply _ y).trans ofBits_zero

end Cert.KernelIdeal.BlockValue

end
-- ==== Proof.KernelArray.lean ====
/-
  From the kernel's blocks to its result array.

  The grid has 8 × 6 points (b, k): point (b, k) stages, of each feature stack, batch entry `b`, all 128 channels, rows
  16k … 16k + 15 and all 320 columns, and writes back, of the result, batch entry `b`, all 48 planes, the same 16 rows and all
  columns. What it writes is the cost volume of its two input blocks (KernelBlock.lean), and an entry of the cost volume
  depends on the stacks only through one batch entry and one row (Spec.lean): so the written block is the block of the cost
  volume OF THE WHOLE STACKS. The 48 output blocks partition the result array (its row h lies in block k = h / 16), so after the
  run the result array is the cost volume of the two argument arrays, and the arguments are as launched.
-/
import proofs.«167814_j57853209477697_1_alg».proof.Proof.KernelBlock

set_option maxRecDepth 16384

noncomputable section

namespace Cert.KernelIdeal.ArrayValue

open Cert.KernelIdeal Cert.KernelIdeal.Gen Cert.KernelIdeal.GenP Cert.KernelIdeal.BlockValue Cert.CostVolume
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Two entries agree when their disparities and columns agree AS NUMBERS and the stacks agree on the batch entry and row
    they read (Spec.lean's `costAt_congr` with the two index coordinates given by value). -/
theorem costAt_congr_val {B H B' H' : ℕ} (L R : (⟨4, ![B, 128, H, 320]⟩ : Shape).Idx → EReal)
    (L' R' : (⟨4, ![B', 128, H', 320]⟩ : Shape).Idx → EReal) (b : Fin B) (b' : Fin B') (h : Fin H) (h' : Fin H')
    (d d' : Fin 48) (w w' : Fin 320) (hd : d.val = d'.val) (hw : w.val = w'.val)
    (hL : ∀ (c : Fin 128) (v : Fin 320), L (ix4 b c h v) = L' (ix4 b' c h' v))
    (hR : ∀ (c : Fin 128) (v : Fin 320), R (ix4 b c h v) = R' (ix4 b' c h' v)) :
    costAt L R b d h w = costAt L' R' b' d' h' w' := by
  obtain rfl : d = d' := Fin.ext hd
  obtain rfl : w = w' := Fin.ext hw
  exact costAt_congr L R L' R' b b' h h' d w hL hR

/-- The printed index maps, decided over the 48 grid points: the two input windows sit on the output window's batch entry
    and row block, on channel block 0 and column block 0; the output window on plane block 0 and column block 0. -/
theorem idx_facts : ∀ t : Fin cfg0.N,
    win0_0.index t (0 : Fin 4) = win0_2.index t (0 : Fin 4) ∧ win0_0.index t (1 : Fin 4) = 0
    ∧ win0_0.index t (2 : Fin 4) = win0_2.index t (2 : Fin 4) ∧ win0_0.index t (3 : Fin 4) = 0
    ∧ win0_1.index t (0 : Fin 4) = win0_2.index t (0 : Fin 4) ∧ win0_1.index t (1 : Fin 4) = 0
    ∧ win0_1.index t (2 : Fin 4) = win0_2.index t (2 : Fin 4) ∧ win0_1.index t (3 : Fin 4) = 0
    ∧ win0_2.index t (1 : Fin 4) = 0 ∧ win0_2.index t (3 : Fin 4) = 0
    ∧ win0_2.index t (0 : Fin 4) ≤ 7 ∧ win0_2.index t (2 : Fin 4) ≤ 5 :=
  (by decide +kernel : ∀ t : Fin grid0.N, _)

/-- Every (batch entry, row block) is some grid point's. -/
theorem idx_onto : ∀ (q0 : Fin 8) (q2 : Fin 6), ∃ t : Fin cfg0.N, win0_2.index t = ![q0.val, 0, q2.val, 0] :=
  (by decide +kernel : ∀ (q0 : Fin 8) (q2 : Fin 6), ∃ t : Fin grid0.N, win0_2.index t = ![q0.val, 0, q2.val, 0])

/-- What point `t` writes back to the result array: what the body left in the output's staging buffer, through the block. -/
theorem flushed2 (c : Dev nD) (t : Fin cfg0.N) :
    (dats m 0 c).flushed 2 t = (cfg0.win 2).cut (grid0.coords t) (outsAt0 m c t) := by
  show (cfg0.win 2).cut (grid0.coords t) ((dats m 0 c).after 2 t) = _
  rw [after0_2]

/-- WHAT POINT `t` WRITES BACK is block `t` of the cost volume of the two stacks as the region finds them. -/
theorem flushed_eq (c : Dev nD) (t : Fin cfg0.N) :
    (dats m 0 c).flushed 2 t
      = ((cfg0.win 2).blk t).view.read (Elt Ideal)
          (cost (B := 8) (H := 96) (V m c main_arg0 : S8x128x96x320.Idx → Elt Ideal .f32)
            (V m c main_arg1 : S8x128x96x320.Idx → Elt Ideal .f32)) := by
  rw [flushed2]
  unfold outsAt0
  rw [block_eq]
  obtain ⟨e00, e01, e02, e03, e10, e11, e12, e13, e21, e23, -, -⟩ := idx_facts t
  funext y
  show costAt (iblk m c 0 t) (iblk m c 1 t) (y 0) (y 1) (y 2) (y 3)
    = costAt (V m c main_arg0 : S8x128x96x320.Idx → Elt Ideal .f32) (V m c main_arg1 : S8x128x96x320.Idx → Elt Ideal .f32)
        ((((cfg0.win 2).blk t).view.emb y) 0) ((((cfg0.win 2).blk t).view.emb y) 1)
        ((((cfg0.win 2).blk t).view.emb y) 2) ((((cfg0.win 2).blk t).view.emb y) 3)
  have y0 : (y 0).val < 1 := (y 0).isLt
  refine costAt_congr_val _ _ _ _ (y 0) _ (y 2) _ (y 1) _ (y 3) _ ?_ ?_ (fun cc v => ?_) (fun cc v => ?_)
  · show (y 1).val = win0_2.index t (1 : Fin 4) * 48 + 1 * (y 1).val
    omega
  · show (y 3).val = win0_2.index t (3 : Fin 4) * 320 + 1 * (y 3).val
    omega
  · show V m c main_arg0 (((cfg0.win 0).blk t).view.emb (ix4 (y 0) cc (y 2) v)) = V m c main_arg0 _
    refine congrArg _ (funext fun a => Fin.ext ?_)
    match a with
    | ⟨0, _⟩ => show win0_0.index t (0 : Fin 4) * 1 + 1 * (y 0).val = win0_2.index t (0 : Fin 4) * 1 + 1 * (y 0).val; omega
    | ⟨1, _⟩ => show win0_0.index t (1 : Fin 4) * 128 + 1 * cc.val = cc.val; omega
    | ⟨2, _⟩ => show win0_0.index t (2 : Fin 4) * 16 + 1 * (y 2).val = win0_2.index t (2 : Fin 4) * 16 + 1 * (y 2).val; omega
    | ⟨3, _⟩ => show win0_0.index t (3 : Fin 4) * 320 + 1 * v.val = v.val; omega
  · show V m c main_arg1 (((cfg0.win 1).blk t).view.emb (ix4 (y 0) cc (y 2) v)) = V m c main_arg1 _
    refine congrArg _ (funext fun a => Fin.ext ?_)
    match a with
    | ⟨0, _⟩ => show win0_1.index t (0 : Fin 4) * 1 + 1 * (y 0).val = win0_2.index t (0 : Fin 4) * 1 + 1 * (y 0).val; omega
    | ⟨1, _⟩ => show win0_1.index t (1 : Fin 4) * 128 + 1 * cc.val = cc.val; omega
    | ⟨2, _⟩ => show win0_1.index t (2 : Fin 4) * 16 + 1 * (y 2).val = win0_2.index t (2 : Fin 4) * 16 + 1 * (y 2).val; omega
    | ⟨3, _⟩ => show win0_1.index t (3 : Fin 4) * 320 + 1 * v.val = v.val; omega

/-- An index of the result array is in point `t`'s block iff each coordinate is in the block's range on its axis. -/
theorem mem_blk (t : Fin cfg0.N) (i : S8x48x96x320.Idx) :
    i ∈ ((cfg0.win 2).blk t).view.set ↔ ∀ a : Fin 4, win0_2.index t a * S1x48x16x320.size a ≤ (i a).val
      ∧ (i a).val < win0_2.index t a * S1x48x16x320.size a + S1x48x16x320.size a := by
  show i ∈ ((View.whole main_v0).slice (win0_2.rect t)).set ↔ _
  rw [View.set_slice_whole, Rect.mem_set_unit]
  exact Iff.rfl

/-- THE RESULT ARRAY after the run: the cost volume of the two stacks as the region finds them. -/
theorem final_V (c : Dev nD) :
    (dats m 0 c).arrAt 2 cfg0.N
      = cost (B := 8) (H := 96) (V m c main_arg0 : S8x128x96x320.Idx → Elt Ideal .f32)
          (V m c main_arg1 : S8x128x96x320.Idx → Elt Ideal .f32) :=
  (dats m 0 c).arrAt_eq_of_cover 2 _ (fun t _ => flushed_eq m c t) fun i => by
    have hi0 : (i 0).val < 8 := (i 0).isLt
    have hi1 : (i 1).val < 48 := (i 1).isLt
    have hi2 : (i 2).val < 96 := (i 2).isLt
    have hi3 : (i 3).val < 320 := (i 3).isLt
    obtain ⟨t, ht⟩ := idx_onto ⟨(i 0).val, hi0⟩ ⟨(i 2).val / 16, by omega⟩
    have q0 : win0_2.index t (0 : Fin 4) = (i 0).val := congrFun ht 0
    have q1 : win0_2.index t (1 : Fin 4) = 0 := congrFun ht 1
    have q2 : win0_2.index t (2 : Fin 4) = (i 2).val / 16 := congrFun ht 2
    have q3 : win0_2.index t (3 : Fin 4) = 0 := congrFun ht 3
    refine ⟨t, flush0_2 t, ?_⟩
    rw [mem_blk]
    intro a
    match a with
    | ⟨0, _⟩ => show win0_2.index t (0 : Fin 4) * 1 ≤ (i 0).val ∧ (i 0).val < win0_2.index t (0 : Fin 4) * 1 + 1; omega
    | ⟨1, _⟩ => show win0_2.index t (1 : Fin 4) * 48 ≤ (i 1).val ∧ (i 1).val < win0_2.index t (1 : Fin 4) * 48 + 48; omega
    | ⟨2, _⟩ => show win0_2.index t (2 : Fin 4) * 16 ≤ (i 2).val ∧ (i 2).val < win0_2.index t (2 : Fin 4) * 16 + 16; omega
    | ⟨3, _⟩ => show win0_2.index t (3 : Fin 4) * 320 ≤ (i 3).val ∧ (i 3).val < win0_2.index t (3 : Fin 4) * 320 + 320; omega

/-- After the frame run the result array is `(dats m 0 c).arrAt 2 N`, -/
theorem post2 (r : PUnit × MemSt nD τ sig (Elt Ideal)) (h : Pipeline.FramePost cfgs (dats m) 0 (V m) r) (c : Dev nD) :
    r.2.mem ((c : Thread nD τ).loc main_v0) = (dats m 0 c).arrAt 2 cfg0.N :=
  (h c).1 2

/-- and each argument is as launched: an input window stages its array and never writes it back. -/
theorem kept_main_arg0 (r : PUnit × MemSt nD τ sig (Elt Ideal)) (h : Pipeline.FramePost cfgs (dats m) 0 (V m) r)
    (c : Dev nD) : r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt Ideal)) (h : Pipeline.FramePost cfgs (dats m) 0 (V m) r)
    (c : Dev nD) : r.2.mem ((c : Thread nD τ).loc main_arg1) = m ((c : Thread nD τ).loc main_arg1) :=
  ((h c).1 1).trans (((dats m 0 c).arrAt_in 1 rfl _).trans ((A_eq m c 1).trans (V_main_arg1 m c)))

/-- THE KERNEL'S RUN, READ: every weakly fair execution terminates with the result array at the cost volume of the two
    argument arrays as launched, and the arguments unchanged. -/
theorem run : θ_run defs (onTc (τ := τ) (main (F := Ideal))) ⟨m, fun _ => 0, ρ⟩ fun r => ∀ c : Dev nD,
      r.2.mem ((c : Thread nD τ).loc main_v0)
        = cost (B := 8) (H := 96) (m ((c : Thread nD τ).loc main_arg0) : S8x128x96x320.Idx → Elt Ideal .f32)
            (m ((c : Thread nD τ).loc main_arg1) : S8x128x96x320.Idx → Elt Ideal .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post2 m r h c).trans (final_V m c),
      kept_main_arg0 m r h c, kept_main_arg1 m r h c⟩)
    (run_main m ρ)

end Cert.KernelIdeal.ArrayValue

end
-- ==== Proof.RefOpsLists.lean ====
/- THE REFERENCE'S 578 OPERATIONS AS THIRTEEN SHORT LISTS, cut out of the text of the reference-run module that the certificate's
   generator writes for this program: the operations are copied unchanged and in order — twelve lists of four planes of the cost
   volume each, every plane up to its padded [8, 96, 320] form, and the last 52 operations, which lay each plane out as
   [8, 1, 96, 320] and join them — and, list by list, that every operation touches TensorCore buffers only (the generated proof,
   entry by entry, cut at the same places) and that no operation leaves a buffer undetermined (the library's own case analysis). -/
import proofs.«167814_j57853209477697_1_alg».proof.Proof.Gen.ReferenceIdeal
import Idealize.ShloMosaic.Lib.StableHlo.Run

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 to 42: planes 0 to 3. -/
def c0 : List (HloOp τ sig (Elt F)) :=
  [ binary main_arg0 main_arg1 main_v0 (mulf : (⟨S8x128x96x320, .f32⟩ : BufTy).Contents (Elt F) → (⟨S8x128x96x320, .f32⟩ : BufTy).Contents (Elt F) → (⟨S8x128x96x320, .f32⟩ : BufTy).Contents (Elt F)),
    nullary main_cst (constant S_ .f32 0x00000000#32),
    binary main_v0 main_cst main_v1 ((fun x v => Host.reduceAdd x v reducesTo_S8x128x96x320_S8x96x320_d1 h_S_) : (⟨S8x128x96x320, .f32⟩ : BufTy).Contents (Elt F) → (⟨S_, .f32⟩ : BufTy).Contents (Elt F) → (⟨S8x96x320, .f32⟩ : BufTy).Contents (Elt F)),
    nullary main_cst_0 (constant S_ .f32 0x43000000#32),
    unary main_cst_0 main_v2 (broadcastInDim S8x96x320 ![] bcast_S_S8x96x320 : (⟨S_, .f32⟩ : BufTy).Contents (Elt F) → (⟨S8x96x320, .f32⟩ : BufTy).Contents (Elt F)),
    binary main_v1 main_v2 main_v3 (Host.divf : (⟨S8x96x320, .f32⟩ : BufTy).Contents (Elt F) → (⟨S8x96x320, .f32⟩ : BufTy).Contents (Elt F) → (⟨S8x96x320, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S8x96x320, .f32⟩) main_v3) (TRef.of (T := ⟨S_, .f32⟩) main_call0_v0) (TRef.of (T := ⟨S8x96x320, .f32⟩) main_v4) (fun x v => pad S8x96x320 ![0, 0, 0] ![0, 0, 0] ![0, 0, 0] x v pads_S8x96x320_S8x96x320_000_000_000 h_S_),
    unary main_arg0 main_v5 ((extractStridedSlice S8x128x96x319 ![0, 0, 0, 1] · slices_S8x128x96x320_S8x128x96x319_0_0_0_1) : (⟨S8x128x96x320, .f32⟩ : BufTy).Contents (Elt F) → (⟨S8x128x96x319, .f32⟩ : BufTy).Contents (Elt F)),
    unary main_arg1 main_v6 ((extractStridedSlice S8x128x96x319 ![0, 0, 0, 0] · slices_S8x128x96x320_S8x128x96x319_0_0_0_0) : (⟨S8x128x96x320, .f32⟩ : BufTy).Contents (Elt F) → (⟨S8x128x96x319, .f32⟩ : BufTy).Contents (Elt F)),
    binary main_v5 main_v6 main_v7 (mulf : (⟨S8x128x96x319, .f32⟩ : BufTy).Contents (Elt F) → (⟨S8x128x96x319, .f32⟩ : BufTy).Contents (Elt F) → (⟨S8x128x96x319, .f32⟩ : BufTy).Contents (Elt F)),
    nullary main_cst_1 (constant S_ .f32 0x00000000#32),
    binary main_v7 main_cst_1 main_v8 ((fun x v => Host.reduceAdd x v reducesTo_S8x128x96x319_S8x96x319_d1 h_S_) : (⟨S8x128x96x319, .f32⟩ : BufTy).Contents (Elt F) → (⟨S_, .f32⟩ : BufTy).Contents (Elt F) → (⟨S8x96x319, .f32⟩ : BufTy).Contents (Elt F)),
    nullary main_cst_2 (constant S_ .f32 0x43000000#32),
    unary main_cst_2 main_v9 (broadcastInDim S8x96x319 ![] bcast_S_S8x96x319 : (⟨S_, .f32⟩ : BufTy).Contents (Elt F) → (⟨S8x96x319, .f32⟩ : BufTy).Contents (Elt F)),
    binary main_v8 main_v9 main_v10 (Host.divf : (⟨S8x96x319, .f32⟩ : BufTy).Contents (Elt F) → (⟨S8x96x319, .f32⟩ : BufTy).Contents (Elt F) → (⟨S8x96x319, .f32⟩ : BufTy).Contents (Elt F)),
    nullary main_c_3 (constantI S_ 32 0#32),
    TRef.unary (TRef.of (T := ⟨S_, .i32⟩) main_c_3) (TRef.of (T := ⟨S_, .f32⟩) main_call1_v0) (sitofp .f32),
    TRef.binary (TRef.of (T := ⟨S8x96x319, .f32⟩) main_v10) (TRef.of (T := ⟨S_, .f32⟩) main_call1_v0) (TRef.of (T := ⟨S8x96x320, .f32⟩) main_v11) (fun x v => pad S8x96x320 ![0, 0, 1] ![0, 0, 0] ![0, 0, 0] x v pads_S8x96x319_S8x96x320_000_000_100 h_S_),
    unary main_arg0 main_v12 ((extractStridedSlice S8x128x96x318 ![0, 0, 0, 2] · slices_S8x128x96x320_S8x128x96x318_0_0_0_2) : (⟨S8x128x96x320, .f32⟩ : BufTy).Contents (Elt F) → (⟨S8x128x96x318, .f32⟩ : BufTy).Contents (Elt F)),
    unary main_arg1 main_v13 ((extractStridedSlice S8x128x96x318 ![0, 0, 0, 0] · slices_S8x128x96x320_S8x128x96x318_0_0_0_0) : (⟨S8x128x96x320, .f32⟩ : BufTy).Contents (Elt F) → (⟨S8x128x96x318, .f32⟩ : BufTy).Contents (Elt F)),
    binary main_v12 main_v13 main_v14 (mulf : (⟨S8x128x96x318, .f32⟩ : BufTy).Contents (Elt F) → (⟨S8x128x96x318, .f32⟩ : BufTy).Contents (Elt F) → (⟨S8x128x96x318, .f32⟩ : BufTy).Contents (Elt F)),
    nullary main_cst_4 (constant S_ .f32 0x00000000#32),
    binary main_v14 main_cst_4 main_v15 ((fun x v => Host.reduceAdd x v reducesTo_S8x128x96x318_S8x96x318_d1 h_S_) : (⟨S8x128x96x318, .f32⟩ : BufTy).Contents (Elt F) → (⟨S_, .f32⟩ : BufTy).Contents (Elt F) → (⟨S8x96x318, .f32⟩ : BufTy).Contents (Elt F)),
    nullary main_cst_5 (constant S_ .f32 0x43000000#32),
    unary main_cst_5 main_v16 (broadcastInDim S8x96x318 ![] bcast_S_S8x96x318 : (⟨S_, .f32⟩ : BufTy).Contents (Elt F) → (⟨S8x96x318, .f32⟩ : BufTy).Contents (Elt F)),
    binary main_v15 main_v16 main_v17 (Host.divf : (⟨S8x96x318, .f32⟩ : BufTy).Contents (Elt F) → (⟨S8x96x318, .f32⟩ : BufTy).Contents (Elt F) → (⟨S8x96x318, .f32⟩ : BufTy).Contents (Elt F)),
    nullary main_c_6 (constantI S_ 32 0#32),
    TRef.unary (TRef.of (T := ⟨S_, .i32⟩) main_c_6) (TRef.of (T := ⟨S_, .f32⟩) main_call2_v0) (sitofp .f32),
    TRef.binary (TRef.of (T := ⟨S8x96x318, .f32⟩) main_v17) (TRef.of (T := ⟨S_, .f32⟩) main_call2_v0) (TRef.of (T := ⟨S8x96x320, .f32⟩) main_v18) (fun x v => pad S8x96x320 ![0, 0, 2] ![0, 0, 0] ![0, 0, 0] x v pads_S8x96x318_S8x96x320_000_000_200 h_S_),
    unary main_arg0 main_v19 ((extractStridedSlice S8x128x96x317 ![0, 0, 0, 3] · slices_S8x128x96x320_S8x128x96x317_0_0_0_3) : (⟨S8x128x96x320, .f32⟩ : BufTy).Contents (Elt F) → (⟨S8x128x96x317, .f32⟩ : BufTy).Contents (Elt F)),
    unary main_arg1 main_v20 ((extractStridedSlice S8x128x96x317 ![0, 0, 0, 0] · slices_S8x128x96x320_S8x128x96x317_0_0_0_0) : (⟨S8x128x96x320, .f32⟩ : BufTy).Contents (Elt F) → (⟨S8x128x96x317, .f32⟩ : BufTy).Contents (Elt F)),
    binary main_v19 main_v20 main_v21 (mulf : (⟨S8x128x96x317, .f32⟩ : BufTy).Contents (Elt F) → (⟨S8x128x96x317, .f32⟩ : BufTy).Contents (Elt F) → (⟨S8x128x96x317, .f32⟩ : BufTy).Contents (Elt F)),
    nullary main_cst_7 (constant S_ .f32 0x00000000#32),
    binary main_v21 main_cst_7 main_v22 ((fun x v => Host.reduceAdd x v reducesTo_S8x128x96x317_S8x96x317_d1 h_S_) : (⟨S8x128x96x317, .f32⟩ : BufTy).Contents (Elt F) → (⟨S_, .f32⟩ : BufTy).Contents (Elt F) → (⟨S8x96x317, .f32⟩ : BufTy).Contents (Elt F)),
    nullary main_cst_8 (constant S_ .f32 0x43000000#32),
    unary main_cst_8 main_v23 (broadcastInDim S8x96x317 ![] bcast_S_S8x96x317 : (⟨S_, .f32⟩ : BufTy).Contents (Elt F) → (⟨S8x96x317, .f32⟩ : BufTy).Contents (Elt F)),
    binary main_v22 main_v23 main_v24 (Host.divf : (⟨S8x96x317, .f32⟩ : BufTy).Contents (Elt F) → (⟨S8x96x317, .f32⟩ : BufTy).Contents (Elt F) → (⟨S8x96x317, .f32⟩ : BufTy).Contents (Elt F)),
    nullary main_c_9 (constantI S_ 32 0#32),
    TRef.unary (TRef.of (T := ⟨S_, .i32⟩) main_c_9) (TRef.of (T := ⟨S_, .f32⟩) main_call3_v0) (sitofp .f32),
    TRef.binary (TRef.of (T := ⟨S8x96x317, .f32⟩) main_v24) (TRef.of (T := ⟨S_, .f32⟩) main_call3_v0) (TRef.of (T := ⟨S8x96x320, .f32⟩) main_v25) (fun x v => pad S8x96x320 ![0, 0, 3] ![0, 0, 0] ![0, 0, 0] x v pads_S8x96x317_S8x96x320_000_000_300 h_S_) ]

set_option maxHeartbeats 4000000 in
/-- Operations 43 to 86: planes 4 to 7. -/
def c1 : List (HloOp τ sig (Elt F)) :=
  [ unary main_arg0 main_v26 ((extractStridedSlice S8x128x96x316 ![0, 0, 0, 4] · slices_S8x128x96x320_S8x128x96x316_0_0_0_4) : (⟨S8x128x96x320, .f32⟩ : BufTy).Contents (Elt F) → (⟨S8x128x96x316, .f32⟩ : BufTy).Contents (Elt F)),
    unary main_arg1 main_v27 ((extractStridedSlice S8x128x96x316 ![0, 0, 0, 0] · slices_S8x128x96x320_S8x128x96x316_0_0_0_0) : (⟨S8x128x96x320, .f32⟩ : BufTy).Contents (Elt F) → (⟨S8x128x96x316, .f32⟩ : BufTy).Contents (Elt F)),
    binary main_v26 main_v27 main_v28 (mulf : (⟨S8x128x96x316, .f32⟩ : BufTy).Contents (Elt F) → (⟨S8x128x96x316, .f32⟩ : BufTy).Contents (Elt F) → (⟨S8x128x96x316, .f32⟩ : BufTy).Contents (Elt F)),
    nullary main_cst_10 (constant S_ .f32 0x00000000#32),
    binary main_v28 main_cst_10 main_v29 ((fun x v => Host.reduceAdd x v reducesTo_S8x128x96x316_S8x96x316_d1 h_S_) : (⟨S8x128x96x316, .f32⟩ : BufTy).Contents (Elt F) → (⟨S_, .f32⟩ : BufTy).Contents (Elt F) → (⟨S8x96x316, .f32⟩ : BufTy).Contents (Elt F)),
    nullary main_cst_11 (constant S_ .f32 0x43000000#32),
    unary main_cst_11 main_v30 (broadcastInDim S8x96x316 ![] bcast_S_S8x96x316 : (⟨S_, .f32⟩ : BufTy).Contents (Elt F) → (⟨S8x96x316, .f32⟩ : BufTy).Contents (Elt F)),
    binary main_v29 main_v30 main_v31 (Host.divf : (⟨S8x96x316, .f32⟩ : BufTy).Contents (Elt F) → (⟨S8x96x316, .f32⟩ : BufTy).Contents (Elt F) → (⟨S8x96x316, .f32⟩ : BufTy).Contents (Elt F)),
    nullary main_c_12 (constantI S_ 32 0#32),
    TRef.unary (TRef.of (T := ⟨S_, .i32⟩) main_c_12) (TRef.of (T := ⟨S_, .f32⟩) main_call4_v0) (sitofp .f32),
    TRef.binary (TRef.of (T := ⟨S8x96x316, .f32⟩) main_v31) (TRef.of (T := ⟨S_, .f32⟩) main_call4_v0) (TRef.of (T := ⟨S8x96x320, .f32⟩) main_v32) (fun x v => pad S8x96x320 ![0, 0, 4] ![0, 0, 0] ![0, 0, 0] x v pads_S8x96x316_S8x96x320_000_000_400 h_S_),
    unary main_arg0 main_v33 ((extractStridedSlice S8x128x96x315 ![0, 0, 0, 5] · slices_S8x128x96x320_S8x128x96x315_0_0_0_5) : (⟨S8x128x96x320, .f32⟩ : BufTy).Contents (Elt F) → (⟨S8x128x96x315, .f32⟩ : BufTy).Contents (Elt F)),
    unary main_arg1 main_v34 ((extractStridedSlice S8x128x96x315 ![0, 0, 0, 0] · slices_S8x128x96x320_S8x128x96x315_0_0_0_0) : (⟨S8x128x96x320, .f32⟩ : BufTy).Contents (Elt F) → (⟨S8x128x96x315, .f32⟩ : BufTy).Contents (Elt F)),
    binary main_v33 main_v34 main_v35 (mulf : (⟨S8x128x96x315, .f32⟩ : BufTy).Contents (Elt F) → (⟨S8x128x96x315, .f32⟩ : BufTy).Contents (Elt F) → (⟨S8x128x96x315, .f32⟩ : BufTy).Contents (Elt F)),
    nullary main_cst_13 (constant S_ .f32 0x00000000#32),
    binary main_v35 main_cst_13 main_v36 ((fun x v => Host.reduceAdd x v reducesTo_S8x128x96x315_S8x96x315_d1 h_S_) : (⟨S8x128x96x315, .f32⟩ : BufTy).Contents (Elt F) → (⟨S_, .f32⟩ : BufTy).Contents (Elt F) → (⟨S8x96x315, .f32⟩ : BufTy).Contents (Elt F)),
    nullary main_cst_14 (constant S_ .f32 0x43000000#32),
    unary main_cst_14 main_v37 (broadcastInDim S8x96x315 ![] bcast_S_S8x96x315 : (⟨S_, .f32⟩ : BufTy).Contents (Elt F) → (⟨S8x96x315, .f32⟩ : BufTy).Contents (Elt F)),
    binary main_v36 main_v37 main_v38 (Host.divf : (⟨S8x96x315, .f32⟩ : BufTy).Contents (Elt F) → (⟨S8x96x315, .f32⟩ : BufTy).Contents (Elt F) → (⟨S8x96x315, .f32⟩ : BufTy).Contents (Elt F)),
    nullary main_c_15 (constantI S_ 32 0#32),
    TRef.unary (TRef.of (T := ⟨S_, .i32⟩) main_c_15) (TRef.of (T := ⟨S_, .f32⟩) main_call5_v0) (sitofp .f32),
    TRef.binary (TRef.of (T := ⟨S8x96x315, .f32⟩) main_v38) (TRef.of (T := ⟨S_, .f32⟩) main_call5_v0) (TRef.of (T := ⟨S8x96x320, .f32⟩) main_v39) (fun x v => pad S8x96x320 ![0, 0, 5] ![0, 0, 0] ![0, 0, 0] x v pads_S8x96x315_S8x96x320_000_000_500 h_S_),
    unary main_arg0 main_v40 ((extractStridedSlice S8x128x96x314 ![0, 0, 0, 6] · slices_S8x128x96x320_S8x128x96x314_0_0_0_6) : (⟨S8x128x96x320, .f32⟩ : BufTy).Contents (Elt F) → (⟨S8x128x96x314, .f32⟩ : BufTy).Contents (Elt F)),
    unary main_arg1 main_v41 ((extractStridedSlice S8x128x96x314 ![0, 0, 0, 0] · slices_S8x128x96x320_S8x128x96x314_0_0_0_0) : (⟨S8x128x96x320, .f32⟩ : BufTy).Contents (Elt F) → (⟨S8x128x96x314, .f32⟩ : BufTy).Contents (Elt F)),
    binary main_v40 main_v41 main_v42 (mulf : (⟨S8x128x96x314, .f32⟩ : BufTy).Contents (Elt F) → (⟨S8x128x96x314, .f32⟩ : BufTy).Contents (Elt F) → (⟨S8x128x96x314, .f32⟩ : BufTy).Contents (Elt F)),
    nullary main_cst_16 (constant S_ .f32 0x00000000#32),
    binary main_v42 main_cst_16 main_v43 ((fun x v => Host.reduceAdd x v reducesTo_S8x128x96x314_S8x96x314_d1 h_S_) : (⟨S8x128x96x314, .f32⟩ : BufTy).Contents (Elt F) → (⟨S_, .f32⟩ : BufTy).Contents (Elt F) → (⟨S8x96x314, .f32⟩ : BufTy).Contents (Elt F)),
    nullary main_cst_17 (constant S_ .f32 0x43000000#32),
    unary main_cst_17 main_v44 (broadcastInDim S8x96x314 ![] bcast_S_S8x96x314 : (⟨S_, .f32⟩ : BufTy).Contents (Elt F) → (⟨S8x96x314, .f32⟩ : BufTy).Contents (Elt F)),
    binary main_v43 main_v44 main_v45 (Host.divf : (⟨S8x96x314, .f32⟩ : BufTy).Contents (Elt F) → (⟨S8x96x314, .f32⟩ : BufTy).Contents (Elt F) → (⟨S8x96x314, .f32⟩ : BufTy).Contents (Elt F)),
    nullary main_c_18 (constantI S_ 32 0#32),
    TRef.unary (TRef.of (T := ⟨S_, .i32⟩) main_c_18) (TRef.of (T := ⟨S_, .f32⟩) main_call6_v0) (sitofp .f32),
    TRef.binary (TRef.of (T := ⟨S8x96x314, .f32⟩) main_v45) (TRef.of (T := ⟨S_, .f32⟩) main_call6_v0) (TRef.of (T := ⟨S8x96x320, .f32⟩) main_v46) (fun x v => pad S8x96x320 ![0, 0, 6] ![0, 0, 0] ![0, 0, 0] x v pads_S8x96x314_S8x96x320_000_000_600 h_S_),
    unary main_arg0 main_v47 ((extractStridedSlice S8x128x96x313 ![0, 0, 0, 7] · slices_S8x128x96x320_S8x128x96x313_0_0_0_7) : (⟨S8x128x96x320, .f32⟩ : BufTy).Contents (Elt F) → (⟨S8x128x96x313, .f32⟩ : BufTy).Contents (Elt F)),
    unary main_arg1 main_v48 ((extractStridedSlice S8x128x96x313 ![0, 0, 0, 0] · slices_S8x128x96x320_S8x128x96x313_0_0_0_0) : (⟨S8x128x96x320, .f32⟩ : BufTy).Contents (Elt F) → (⟨S8x128x96x313, .f32⟩ : BufTy).Contents (Elt F)),
    binary main_v47 main_v48 main_v49 (mulf : (⟨S8x128x96x313, .f32⟩ : BufTy).Contents (Elt F) → (⟨S8x128x96x313, .f32⟩ : BufTy).Contents (Elt F) → (⟨S8x128x96x313, .f32⟩ : BufTy).Contents (Elt F)),
    nullary main_cst_19 (constant S_ .f32 0x00000000#32),
    binary main_v49 main_cst_19 main_v50 ((fun x v => Host.reduceAdd x v reducesTo_S8x128x96x313_S8x96x313_d1 h_S_) : (⟨S8x128x96x313, .f32⟩ : BufTy).Contents (Elt F) → (⟨S_, .f32⟩ : BufTy).Contents (Elt F) → (⟨S8x96x313, .f32⟩ : BufTy).Contents (Elt F)),
    nullary main_cst_20 (constant S_ .f32 0x43000000#32),
    unary main_cst_20 main_v51 (broadcastInDim S8x96x313 ![] bcast_S_S8x96x313 : (⟨S_, .f32⟩ : BufTy).Contents (Elt F) → (⟨S8x96x313, .f32⟩ : BufTy).Contents (Elt F)),
    binary main_v50 main_v51 main_v52 (Host.divf : (⟨S8x96x313, .f32⟩ : BufTy).Contents (Elt F) → (⟨S8x96x313, .f32⟩ : BufTy).Contents (Elt F) → (⟨S8x96x313, .f32⟩ : BufTy).Contents (Elt F)),
    nullary main_c_21 (constantI S_ 32 0#32),
    TRef.unary (TRef.of (T := ⟨S_, .i32⟩) main_c_21) (TRef.of (T := ⟨S_, .f32⟩) main_call7_v0) (sitofp .f32),
    TRef.binary (TRef.of (T := ⟨S8x96x313, .f32⟩) main_v52) (TRef.of (T := ⟨S_, .f32⟩) main_call7_v0) (TRef.of (T := ⟨S8x96x320, .f32⟩) main_v53) (fun x v => pad S8x96x320 ![0, 0, 7] ![0, 0, 0] ![0, 0, 0] x v pads_S8x96x313_S8x96x320_000_000_700 h_S_) ]

set_option maxHeartbeats 4000000 in
/-- Operations 87 to 130: planes 8 to 11. -/
def c2 : List (HloOp τ sig (Elt F)) :=
  [ unary main_arg0 main_v54 ((extractStridedSlice S8x128x96x312 ![0, 0, 0, 8] · slices_S8x128x96x320_S8x128x96x312_0_0_0_8) : (⟨S8x128x96x320, .f32⟩ : BufTy).Contents (Elt F) → (⟨S8x128x96x312, .f32⟩ : BufTy).Contents (Elt F)),
    unary main_arg1 main_v55 ((extractStridedSlice S8x128x96x312 ![0, 0, 0, 0] · slices_S8x128x96x320_S8x128x96x312_0_0_0_0) : (⟨S8x128x96x320, .f32⟩ : BufTy).Contents (Elt F) → (⟨S8x128x96x312, .f32⟩ : BufTy).Contents (Elt F)),
    binary main_v54 main_v55 main_v56 (mulf : (⟨S8x128x96x312, .f32⟩ : BufTy).Contents (Elt F) → (⟨S8x128x96x312, .f32⟩ : BufTy).Contents (Elt F) → (⟨S8x128x96x312, .f32⟩ : BufTy).Contents (Elt F)),
    nullary main_cst_22 (constant S_ .f32 0x00000000#32),
    binary main_v56 main_cst_22 main_v57 ((fun x v => Host.reduceAdd x v reducesTo_S8x128x96x312_S8x96x312_d1 h_S_) : (⟨S8x128x96x312, .f32⟩ : BufTy).Contents (Elt F) → (⟨S_, .f32⟩ : BufTy).Contents (Elt F) → (⟨S8x96x312, .f32⟩ : BufTy).Contents (Elt F)),
    nullary main_cst_23 (constant S_ .f32 0x43000000#32),
    unary main_cst_23 main_v58 (broadcastInDim S8x96x312 ![] bcast_S_S8x96x312 : (⟨S_, .f32⟩ : BufTy).Contents (Elt F) → (⟨S8x96x312, .f32⟩ : BufTy).Contents (Elt F)),
    binary main_v57 main_v58 main_v59 (Host.divf : (⟨S8x96x312, .f32⟩ : BufTy).Contents (Elt F) → (⟨S8x96x312, .f32⟩ : BufTy).Contents (Elt F) → (⟨S8x96x312, .f32⟩ : BufTy).Contents (Elt F)),
    nullary main_c_24 (constantI S_ 32 0#32),
    TRef.unary (TRef.of (T := ⟨S_, .i32⟩) main_c_24) (TRef.of (T := ⟨S_, .f32⟩) main_call8_v0) (sitofp .f32),
    TRef.binary (TRef.of (T := ⟨S8x96x312, .f32⟩) main_v59) (TRef.of (T := ⟨S_, .f32⟩) main_call8_v0) (TRef.of (T := ⟨S8x96x320, .f32⟩) main_v60) (fun x v => pad S8x96x320 ![0, 0, 8] ![0, 0, 0] ![0, 0, 0] x v pads_S8x96x312_S8x96x320_000_000_800 h_S_),
    unary main_arg0 main_v61 ((extractStridedSlice S8x128x96x311 ![0, 0, 0, 9] · slices_S8x128x96x320_S8x128x96x311_0_0_0_9) : (⟨S8x128x96x320, .f32⟩ : BufTy).Contents (Elt F) → (⟨S8x128x96x311, .f32⟩ : BufTy).Contents (Elt F)),
    unary main_arg1 main_v62 ((extractStridedSlice S8x128x96x311 ![0, 0, 0, 0] · slices_S8x128x96x320_S8x128x96x311_0_0_0_0) : (⟨S8x128x96x320, .f32⟩ : BufTy).Contents (Elt F) → (⟨S8x128x96x311, .f32⟩ : BufTy).Contents (Elt F)),
    binary main_v61 main_v62 main_v63 (mulf : (⟨S8x128x96x311, .f32⟩ : BufTy).Contents (Elt F) → (⟨S8x128x96x311, .f32⟩ : BufTy).Contents (Elt F) → (⟨S8x128x96x311, .f32⟩ : BufTy).Contents (Elt F)),
    nullary main_cst_25 (constant S_ .f32 0x00000000#32),
    binary main_v63 main_cst_25 main_v64 ((fun x v => Host.reduceAdd x v reducesTo_S8x128x96x311_S8x96x311_d1 h_S_) : (⟨S8x128x96x311, .f32⟩ : BufTy).Contents (Elt F) → (⟨S_, .f32⟩ : BufTy).Contents (Elt F) → (⟨S8x96x311, .f32⟩ : BufTy).Contents (Elt F)),
    nullary main_cst_26 (constant S_ .f32 0x43000000#32),
    unary main_cst_26 main_v65 (broadcastInDim S8x96x311 ![] bcast_S_S8x96x311 : (⟨S_, .f32⟩ : BufTy).Contents (Elt F) → (⟨S8x96x311, .f32⟩ : BufTy).Contents (Elt F)),
    binary main_v64 main_v65 main_v66 (Host.divf : (⟨S8x96x311, .f32⟩ : BufTy).Contents (Elt F) → (⟨S8x96x311, .f32⟩ : BufTy).Contents (Elt F) → (⟨S8x96x311, .f32⟩ : BufTy).Contents (Elt F)),
    nullary main_c_27 (constantI S_ 32 0#32),
    TRef.unary (TRef.of (T := ⟨S_, .i32⟩) main_c_27) (TRef.of (T := ⟨S_, .f32⟩) main_call9_v0) (sitofp .f32),
    TRef.binary (TRef.of (T := ⟨S8x96x311, .f32⟩) main_v66) (TRef.of (T := ⟨S_, .f32⟩) main_call9_v0) (TRef.of (T := ⟨S8x96x320, .f32⟩) main_v67) (fun x v => pad S8x96x320 ![0, 0, 9] ![0, 0, 0] ![0, 0, 0] x v pads_S8x96x311_S8x96x320_000_000_900 h_S_),
    unary main_arg0 main_v68 ((extractStridedSlice S8x128x96x310 ![0, 0, 0, 10] · slices_S8x128x96x320_S8x128x96x310_0_0_0_10) : (⟨S8x128x96x320, .f32⟩ : BufTy).Contents (Elt F) → (⟨S8x128x96x310, .f32⟩ : BufTy).Contents (Elt F)),
    unary main_arg1 main_v69 ((extractStridedSlice S8x128x96x310 ![0, 0, 0, 0] · slices_S8x128x96x320_S8x128x96x310_0_0_0_0) : (⟨S8x128x96x320, .f32⟩ : BufTy).Contents (Elt F) → (⟨S8x128x96x310, .f32⟩ : BufTy).Contents (Elt F)),
    binary main_v68 main_v69 main_v70 (mulf : (⟨S8x128x96x310, .f32⟩ : BufTy).Contents (Elt F) → (⟨S8x128x96x310, .f32⟩ : BufTy).Contents (Elt F) → (⟨S8x128x96x310, .f32⟩ : BufTy).Contents (Elt F)),
    nullary main_cst_28 (constant S_ .f32 0x00000000#32),
    binary main_v70 main_cst_28 main_v71 ((fun x v => Host.reduceAdd x v reducesTo_S8x128x96x310_S8x96x310_d1 h_S_) : (⟨S8x128x96x310, .f32⟩ : BufTy).Contents (Elt F) → (⟨S_, .f32⟩ : BufTy).Contents (Elt F) → (⟨S8x96x310, .f32⟩ : BufTy).Contents (Elt F)),
    nullary main_cst_29 (constant S_ .f32 0x43000000#32),
    unary main_cst_29 main_v72 (broadcastInDim S8x96x310 ![] bcast_S_S8x96x310 : (⟨S_, .f32⟩ : BufTy).Contents (Elt F) → (⟨S8x96x310, .f32⟩ : BufTy).Contents (Elt F)),
    binary main_v71 main_v72 main_v73 (Host.divf : (⟨S8x96x310, .f32⟩ : BufTy).Contents (Elt F) → (⟨S8x96x310, .f32⟩ : BufTy).Contents (Elt F) → (⟨S8x96x310, .f32⟩ : BufTy).Contents (Elt F)),
    nullary main_c_30 (constantI S_ 32 0#32),
    TRef.unary (TRef.of (T := ⟨S_, .i32⟩) main_c_30) (TRef.of (T := ⟨S_, .f32⟩) main_call10_v0) (sitofp .f32),
    TRef.binary (TRef.of (T := ⟨S8x96x310, .f32⟩) main_v73) (TRef.of (T := ⟨S_, .f32⟩) main_call10_v0) (TRef.of (T := ⟨S8x96x320, .f32⟩) main_v74) (fun x v => pad S8x96x320 ![0, 0, 10] ![0, 0, 0] ![0, 0, 0] x v pads_S8x96x310_S8x96x320_000_000_1000 h_S_),
    unary main_arg0 main_v75 ((extractStridedSlice S8x128x96x309 ![0, 0, 0, 11] · slices_S8x128x96x320_S8x128x96x309_0_0_0_11) : (⟨S8x128x96x320, .f32⟩ : BufTy).Contents (Elt F) → (⟨S8x128x96x309, .f32⟩ : BufTy).Contents (Elt F)),
    unary main_arg1 main_v76 ((extractStridedSlice S8x128x96x309 ![0, 0, 0, 0] · slices_S8x128x96x320_S8x128x96x309_0_0_0_0) : (⟨S8x128x96x320, .f32⟩ : BufTy).Contents (Elt F) → (⟨S8x128x96x309, .f32⟩ : BufTy).Contents (Elt F)),
    binary main_v75 main_v76 main_v77 (mulf : (⟨S8x128x96x309, .f32⟩ : BufTy).Contents (Elt F) → (⟨S8x128x96x309, .f32⟩ : BufTy).Contents (Elt F) → (⟨S8x128x96x309, .f32⟩ : BufTy).Contents (Elt F)),
    nullary main_cst_31 (constant S_ .f32 0x00000000#32),
    binary main_v77 main_cst_31 main_v78 ((fun x v => Host.reduceAdd x v reducesTo_S8x128x96x309_S8x96x309_d1 h_S_) : (⟨S8x128x96x309, .f32⟩ : BufTy).Contents (Elt F) → (⟨S_, .f32⟩ : BufTy).Contents (Elt F) → (⟨S8x96x309, .f32⟩ : BufTy).Contents (Elt F)),
    nullary main_cst_32 (constant S_ .f32 0x43000000#32),
    unary main_cst_32 main_v79 (broadcastInDim S8x96x309 ![] bcast_S_S8x96x309 : (⟨S_, .f32⟩ : BufTy).Contents (Elt F) → (⟨S8x96x309, .f32⟩ : BufTy).Contents (Elt F)),
    binary main_v78 main_v79 main_v80 (Host.divf : (⟨S8x96x309, .f32⟩ : BufTy).Contents (Elt F) → (⟨S8x96x309, .f32⟩ : BufTy).Contents (Elt F) → (⟨S8x96x309, .f32⟩ : BufTy).Contents (Elt F)),
    nullary main_c_33 (constantI S_ 32 0#32),
    TRef.unary (TRef.of (T := ⟨S_, .i32⟩) main_c_33) (TRef.of (T := ⟨S_, .f32⟩) main_call11_v0) (sitofp .f32),
    TRef.binary (TRef.of (T := ⟨S8x96x309, .f32⟩) main_v80) (TRef.of (T := ⟨S_, .f32⟩) main_call11_v0) (TRef.of (T := ⟨S8x96x320, .f32⟩) main_v81) (fun x v => pad S8x96x320 ![0, 0, 11] ![0, 0, 0] ![0, 0, 0] x v pads_S8x96x309_S8x96x320_000_000_1100 h_S_) ]

set_option maxHeartbeats 4000000 in
/-- Operations 131 to 174: planes 12 to 15. -/
def c3 : List (HloOp τ sig (Elt F)) :=
  [ unary main_arg0 main_v82 ((extractStridedSlice S8x128x96x308 ![0, 0, 0, 12] · slices_S8x128x96x320_S8x128x96x308_0_0_0_12) : (⟨S8x128x96x320, .f32⟩ : BufTy).Contents (Elt F) → (⟨S8x128x96x308, .f32⟩ : BufTy).Contents (Elt F)),
    unary main_arg1 main_v83 ((extractStridedSlice S8x128x96x308 ![0, 0, 0, 0] · slices_S8x128x96x320_S8x128x96x308_0_0_0_0) : (⟨S8x128x96x320, .f32⟩ : BufTy).Contents (Elt F) → (⟨S8x128x96x308, .f32⟩ : BufTy).Contents (Elt F)),
    binary main_v82 main_v83 main_v84 (mulf : (⟨S8x128x96x308, .f32⟩ : BufTy).Contents (Elt F) → (⟨S8x128x96x308, .f32⟩ : BufTy).Contents (Elt F) → (⟨S8x128x96x308, .f32⟩ : BufTy).Contents (Elt F)),
    nullary main_cst_34 (constant S_ .f32 0x00000000#32),
    binary main_v84 main_cst_34 main_v85 ((fun x v => Host.reduceAdd x v reducesTo_S8x128x96x308_S8x96x308_d1 h_S_) : (⟨S8x128x96x308, .f32⟩ : BufTy).Contents (Elt F) → (⟨S_, .f32⟩ : BufTy).Contents (Elt F) → (⟨S8x96x308, .f32⟩ : BufTy).Contents (Elt F)),
    nullary main_cst_35 (constant S_ .f32 0x43000000#32),
    unary main_cst_35 main_v86 (broadcastInDim S8x96x308 ![] bcast_S_S8x96x308 : (⟨S_, .f32⟩ : BufTy).Contents (Elt F) → (⟨S8x96x308, .f32⟩ : BufTy).Contents (Elt F)),
    binary main_v85 main_v86 main_v87 (Host.divf : (⟨S8x96x308, .f32⟩ : BufTy).Contents (Elt F) → (⟨S8x96x308, .f32⟩ : BufTy).Contents (Elt F) → (⟨S8x96x308, .f32⟩ : BufTy).Contents (Elt F)),
    nullary main_c_36 (constantI S_ 32 0#32),
    TRef.unary (TRef.of (T := ⟨S_, .i32⟩) main_c_36) (TRef.of (T := ⟨S_, .f32⟩) main_call12_v0) (sitofp .f32),
    TRef.binary (TRef.of (T := ⟨S8x96x308, .f32⟩) main_v87) (TRef.of (T := ⟨S_, .f32⟩) main_call12_v0) (TRef.of (T := ⟨S8x96x320, .f32⟩) main_v88) (fun x v => pad S8x96x320 ![0, 0, 12] ![0, 0, 0] ![0, 0, 0] x v pads_S8x96x308_S8x96x320_000_000_1200 h_S_),
    unary main_arg0 main_v89 ((extractStridedSlice S8x128x96x307 ![0, 0, 0, 13] · slices_S8x128x96x320_S8x128x96x307_0_0_0_13) : (⟨S8x128x96x320, .f32⟩ : BufTy).Contents (Elt F) → (⟨S8x128x96x307, .f32⟩ : BufTy).Contents (Elt F)),
    unary main_arg1 main_v90 ((extractStridedSlice S8x128x96x307 ![0, 0, 0, 0] · slices_S8x128x96x320_S8x128x96x307_0_0_0_0) : (⟨S8x128x96x320, .f32⟩ : BufTy).Contents (Elt F) → (⟨S8x128x96x307, .f32⟩ : BufTy).Contents (Elt F)),
    binary main_v89 main_v90 main_v91 (mulf : (⟨S8x128x96x307, .f32⟩ : BufTy).Contents (Elt F) → (⟨S8x128x96x307, .f32⟩ : BufTy).Contents (Elt F) → (⟨S8x128x96x307, .f32⟩ : BufTy).Contents (Elt F)),
    nullary main_cst_37 (constant S_ .f32 0x00000000#32),
    binary main_v91 main_cst_37 main_v92 ((fun x v => Host.reduceAdd x v reducesTo_S8x128x96x307_S8x96x307_d1 h_S_) : (⟨S8x128x96x307, .f32⟩ : BufTy).Contents (Elt F) → (⟨S_, .f32⟩ : BufTy).Contents (Elt F) → (⟨S8x96x307, .f32⟩ : BufTy).Contents (Elt F)),
    nullary main_cst_38 (constant S_ .f32 0x43000000#32),
    unary main_cst_38 main_v93 (broadcastInDim S8x96x307 ![] bcast_S_S8x96x307 : (⟨S_, .f32⟩ : BufTy).Contents (Elt F) → (⟨S8x96x307, .f32⟩ : BufTy).Contents (Elt F)),
    binary main_v92 main_v93 main_v94 (Host.divf : (⟨S8x96x307, .f32⟩ : BufTy).Contents (Elt F) → (⟨S8x96x307, .f32⟩ : BufTy).Contents (Elt F) → (⟨S8x96x307, .f32⟩ : BufTy).Contents (Elt F)),
    nullary main_c_39 (constantI S_ 32 0#32),
    TRef.unary (TRef.of (T := ⟨S_, .i32⟩) main_c_39) (TRef.of (T := ⟨S_, .f32⟩) main_call13_v0) (sitofp .f32),
    TRef.binary (TRef.of (T := ⟨S8x96x307, .f32⟩) main_v94) (TRef.of (T := ⟨S_, .f32⟩) main_call13_v0) (TRef.of (T := ⟨S8x96x320, .f32⟩) main_v95) (fun x v => pad S8x96x320 ![0, 0, 13] ![0, 0, 0] ![0, 0, 0] x v pads_S8x96x307_S8x96x320_000_000_1300 h_S_),
    unary main_arg0 main_v96 ((extractStridedSlice S8x128x96x306 ![0, 0, 0, 14] · slices_S8x128x96x320_S8x128x96x306_0_0_0_14) : (⟨S8x128x96x320, .f32⟩ : BufTy).Contents (Elt F) → (⟨S8x128x96x306, .f32⟩ : BufTy).Contents (Elt F)),
    unary main_arg1 main_v97 ((extractStridedSlice S8x128x96x306 ![0, 0, 0, 0] · slices_S8x128x96x320_S8x128x96x306_0_0_0_0) : (⟨S8x128x96x320, .f32⟩ : BufTy).Contents (Elt F) → (⟨S8x128x96x306, .f32⟩ : BufTy).Contents (Elt F)),
    binary main_v96 main_v97 main_v98 (mulf : (⟨S8x128x96x306, .f32⟩ : BufTy).Contents (Elt F) → (⟨S8x128x96x306, .f32⟩ : BufTy).Contents (Elt F) → (⟨S8x128x96x306, .f32⟩ : BufTy).Contents (Elt F)),
    nullary main_cst_40 (constant S_ .f32 0x00000000#32),
    binary main_v98 main_cst_40 main_v99 ((fun x v => Host.reduceAdd x v reducesTo_S8x128x96x306_S8x96x306_d1 h_S_) : (⟨S8x128x96x306, .f32⟩ : BufTy).Contents (Elt F) → (⟨S_, .f32⟩ : BufTy).Contents (Elt F) → (⟨S8x96x306, .f32⟩ : BufTy).Contents (Elt F)),
    nullary main_cst_41 (constant S_ .f32 0x43000000#32),
    unary main_cst_41 main_v100 (broadcastInDim S8x96x306 ![] bcast_S_S8x96x306 : (⟨S_, .f32⟩ : BufTy).Contents (Elt F) → (⟨S8x96x306, .f32⟩ : BufTy).Contents (Elt F)),
    binary main_v99 main_v100 main_v101 (Host.divf : (⟨S8x96x306, .f32⟩ : BufTy).Contents (Elt F) → (⟨S8x96x306, .f32⟩ : BufTy).Contents (Elt F) → (⟨S8x96x306, .f32⟩ : BufTy).Contents (Elt F)),
    nullary main_c_42 (constantI S_ 32 0#32),
    TRef.unary (TRef.of (T := ⟨S_, .i32⟩) main_c_42) (TRef.of (T := ⟨S_, .f32⟩) main_call14_v0) (sitofp .f32),
    TRef.binary (TRef.of (T := ⟨S8x96x306, .f32⟩) main_v101) (TRef.of (T := ⟨S_, .f32⟩) main_call14_v0) (TRef.of (T := ⟨S8x96x320, .f32⟩) main_v102) (fun x v => pad S8x96x320 ![0, 0, 14] ![0, 0, 0] ![0, 0, 0] x v pads_S8x96x306_S8x96x320_000_000_1400 h_S_),
    unary main_arg0 main_v103 ((extractStridedSlice S8x128x96x305 ![0, 0, 0, 15] · slices_S8x128x96x320_S8x128x96x305_0_0_0_15) : (⟨S8x128x96x320, .f32⟩ : BufTy).Contents (Elt F) → (⟨S8x128x96x305, .f32⟩ : BufTy).Contents (Elt F)),
    unary main_arg1 main_v104 ((extractStridedSlice S8x128x96x305 ![0, 0, 0, 0] · slices_S8x128x96x320_S8x128x96x305_0_0_0_0) : (⟨S8x128x96x320, .f32⟩ : BufTy).Contents (Elt F) → (⟨S8x128x96x305, .f32⟩ : BufTy).Contents (Elt F)),
    binary main_v103 main_v104 main_v105 (mulf : (⟨S8x128x96x305, .f32⟩ : BufTy).Contents (Elt F) → (⟨S8x128x96x305, .f32⟩ : BufTy).Contents (Elt F) → (⟨S8x128x96x305, .f32⟩ : BufTy).Contents (Elt F)),
    nullary main_cst_43 (constant S_ .f32 0x00000000#32),
    binary main_v105 main_cst_43 main_v106 ((fun x v => Host.reduceAdd x v reducesTo_S8x128x96x305_S8x96x305_d1 h_S_) : (⟨S8x128x96x305, .f32⟩ : BufTy).Contents (Elt F) → (⟨S_, .f32⟩ : BufTy).Contents (Elt F) → (⟨S8x96x305, .f32⟩ : BufTy).Contents (Elt F)),
    nullary main_cst_44 (constant S_ .f32 0x43000000#32),
    unary main_cst_44 main_v107 (broadcastInDim S8x96x305 ![] bcast_S_S8x96x305 : (⟨S_, .f32⟩ : BufTy).Contents (Elt F) → (⟨S8x96x305, .f32⟩ : BufTy).Contents (Elt F)),
    binary main_v106 main_v107 main_v108 (Host.divf : (⟨S8x96x305, .f32⟩ : BufTy).Contents (Elt F) → (⟨S8x96x305, .f32⟩ : BufTy).Contents (Elt F) → (⟨S8x96x305, .f32⟩ : BufTy).Contents (Elt F)),
    nullary main_c_45 (constantI S_ 32 0#32),
    TRef.unary (TRef.of (T := ⟨S_, .i32⟩) main_c_45) (TRef.of (T := ⟨S_, .f32⟩) main_call15_v0) (sitofp .f32),
    TRef.binary (TRef.of (T := ⟨S8x96x305, .f32⟩) main_v108) (TRef.of (T := ⟨S_, .f32⟩) main_call15_v0) (TRef.of (T := ⟨S8x96x320, .f32⟩) main_v109) (fun x v => pad S8x96x320 ![0, 0, 15] ![0, 0, 0] ![0, 0, 0] x v pads_S8x96x305_S8x96x320_000_000_1500 h_S_) ]

set_option maxHeartbeats 4000000 in
/-- Operations 175 to 218: planes 16 to 19. -/
def c4 : List (HloOp τ sig (Elt F)) :=
  [ unary main_arg0 main_v110 ((extractStridedSlice S8x128x96x304 ![0, 0, 0, 16] · slices_S8x128x96x320_S8x128x96x304_0_0_0_16) : (⟨S8x128x96x320, .f32⟩ : BufTy).Contents (Elt F) → (⟨S8x128x96x304, .f32⟩ : BufTy).Contents (Elt F)),
    unary main_arg1 main_v111 ((extractStridedSlice S8x128x96x304 ![0, 0, 0, 0] · slices_S8x128x96x320_S8x128x96x304_0_0_0_0) : (⟨S8x128x96x320, .f32⟩ : BufTy).Contents (Elt F) → (⟨S8x128x96x304, .f32⟩ : BufTy).Contents (Elt F)),
    binary main_v110 main_v111 main_v112 (mulf : (⟨S8x128x96x304, .f32⟩ : BufTy).Contents (Elt F) → (⟨S8x128x96x304, .f32⟩ : BufTy).Contents (Elt F) → (⟨S8x128x96x304, .f32⟩ : BufTy).Contents (Elt F)),
    nullary main_cst_46 (constant S_ .f32 0x00000000#32),
    binary main_v112 main_cst_46 main_v113 ((fun x v => Host.reduceAdd x v reducesTo_S8x128x96x304_S8x96x304_d1 h_S_) : (⟨S8x128x96x304, .f32⟩ : BufTy).Contents (Elt F) → (⟨S_, .f32⟩ : BufTy).Contents (Elt F) → (⟨S8x96x304, .f32⟩ : BufTy).Contents (Elt F)),
    nullary main_cst_47 (constant S_ .f32 0x43000000#32),
    unary main_cst_47 main_v114 (broadcastInDim S8x96x304 ![] bcast_S_S8x96x304 : (⟨S_, .f32⟩ : BufTy).Contents (Elt F) → (⟨S8x96x304, .f32⟩ : BufTy).Contents (Elt F)),
    binary main_v113 main_v114 main_v115 (Host.divf : (⟨S8x96x304, .f32⟩ : BufTy).Contents (Elt F) → (⟨S8x96x304, .f32⟩ : BufTy).Contents (Elt F) → (⟨S8x96x304, .f32⟩ : BufTy).Contents (Elt F)),
    nullary main_c_48 (constantI S_ 32 0#32),
    TRef.unary (TRef.of (T := ⟨S_, .i32⟩) main_c_48) (TRef.of (T := ⟨S_, .f32⟩) main_call16_v0) (sitofp .f32),
    TRef.binary (TRef.of (T := ⟨S8x96x304, .f32⟩) main_v115) (TRef.of (T := ⟨S_, .f32⟩) main_call16_v0) (TRef.of (T := ⟨S8x96x320, .f32⟩) main_v116) (fun x v => pad S8x96x320 ![0, 0, 16] ![0, 0, 0] ![0, 0, 0] x v pads_S8x96x304_S8x96x320_000_000_1600 h_S_),
    unary main_arg0 main_v117 ((extractStridedSlice S8x128x96x303 ![0, 0, 0, 17] · slices_S8x128x96x320_S8x128x96x303_0_0_0_17) : (⟨S8x128x96x320, .f32⟩ : BufTy).Contents (Elt F) → (⟨S8x128x96x303, .f32⟩ : BufTy).Contents (Elt F)),
    unary main_arg1 main_v118 ((extractStridedSlice S8x128x96x303 ![0, 0, 0, 0] · slices_S8x128x96x320_S8x128x96x303_0_0_0_0) : (⟨S8x128x96x320, .f32⟩ : BufTy).Contents (Elt F) → (⟨S8x128x96x303, .f32⟩ : BufTy).Contents (Elt F)),
    binary main_v117 main_v118 main_v119 (mulf : (⟨S8x128x96x303, .f32⟩ : BufTy).Contents (Elt F) → (⟨S8x128x96x303, .f32⟩ : BufTy).Contents (Elt F) → (⟨S8x128x96x303, .f32⟩ : BufTy).Contents (Elt F)),
    nullary main_cst_49 (constant S_ .f32 0x00000000#32),
    binary main_v119 main_cst_49 main_v120 ((fun x v => Host.reduceAdd x v reducesTo_S8x128x96x303_S8x96x303_d1 h_S_) : (⟨S8x128x96x303, .f32⟩ : BufTy).Contents (Elt F) → (⟨S_, .f32⟩ : BufTy).Contents (Elt F) → (⟨S8x96x303, .f32⟩ : BufTy).Contents (Elt F)),
    nullary main_cst_50 (constant S_ .f32 0x43000000#32),
    unary main_cst_50 main_v121 (broadcastInDim S8x96x303 ![] bcast_S_S8x96x303 : (⟨S_, .f32⟩ : BufTy).Contents (Elt F) → (⟨S8x96x303, .f32⟩ : BufTy).Contents (Elt F)),
    binary main_v120 main_v121 main_v122 (Host.divf : (⟨S8x96x303, .f32⟩ : BufTy).Contents (Elt F) → (⟨S8x96x303, .f32⟩ : BufTy).Contents (Elt F) → (⟨S8x96x303, .f32⟩ : BufTy).Contents (Elt F)),
    nullary main_c_51 (constantI S_ 32 0#32),
    TRef.unary (TRef.of (T := ⟨S_, .i32⟩) main_c_51) (TRef.of (T := ⟨S_, .f32⟩) main_call17_v0) (sitofp .f32),
    TRef.binary (TRef.of (T := ⟨S8x96x303, .f32⟩) main_v122) (TRef.of (T := ⟨S_, .f32⟩) main_call17_v0) (TRef.of (T := ⟨S8x96x320, .f32⟩) main_v123) (fun x v => pad S8x96x320 ![0, 0, 17] ![0, 0, 0] ![0, 0, 0] x v pads_S8x96x303_S8x96x320_000_000_1700 h_S_),
    unary main_arg0 main_v124 ((extractStridedSlice S8x128x96x302 ![0, 0, 0, 18] · slices_S8x128x96x320_S8x128x96x302_0_0_0_18) : (⟨S8x128x96x320, .f32⟩ : BufTy).Contents (Elt F) → (⟨S8x128x96x302, .f32⟩ : BufTy).Contents (Elt F)),
    unary main_arg1 main_v125 ((extractStridedSlice S8x128x96x302 ![0, 0, 0, 0] · slices_S8x128x96x320_S8x128x96x302_0_0_0_0) : (⟨S8x128x96x320, .f32⟩ : BufTy).Contents (Elt F) → (⟨S8x128x96x302, .f32⟩ : BufTy).Contents (Elt F)),
    binary main_v124 main_v125 main_v126 (mulf : (⟨S8x128x96x302, .f32⟩ : BufTy).Contents (Elt F) → (⟨S8x128x96x302, .f32⟩ : BufTy).Contents (Elt F) → (⟨S8x128x96x302, .f32⟩ : BufTy).Contents (Elt F)),
    nullary main_cst_52 (constant S_ .f32 0x00000000#32),
    binary main_v126 main_cst_52 main_v127 ((fun x v => Host.reduceAdd x v reducesTo_S8x128x96x302_S8x96x302_d1 h_S_) : (⟨S8x128x96x302, .f32⟩ : BufTy).Contents (Elt F) → (⟨S_, .f32⟩ : BufTy).Contents (Elt F) → (⟨S8x96x302, .f32⟩ : BufTy).Contents (Elt F)),
    nullary main_cst_53 (constant S_ .f32 0x43000000#32),
    unary main_cst_53 main_v128 (broadcastInDim S8x96x302 ![] bcast_S_S8x96x302 : (⟨S_, .f32⟩ : BufTy).Contents (Elt F) → (⟨S8x96x302, .f32⟩ : BufTy).Contents (Elt F)),
    binary main_v127 main_v128 main_v129 (Host.divf : (⟨S8x96x302, .f32⟩ : BufTy).Contents (Elt F) → (⟨S8x96x302, .f32⟩ : BufTy).Contents (Elt F) → (⟨S8x96x302, .f32⟩ : BufTy).Contents (Elt F)),
    nullary main_c_54 (constantI S_ 32 0#32),
    TRef.unary (TRef.of (T := ⟨S_, .i32⟩) main_c_54) (TRef.of (T := ⟨S_, .f32⟩) main_call18_v0) (sitofp .f32),
    TRef.binary (TRef.of (T := ⟨S8x96x302, .f32⟩) main_v129) (TRef.of (T := ⟨S_, .f32⟩) main_call18_v0) (TRef.of (T := ⟨S8x96x320, .f32⟩) main_v130) (fun x v => pad S8x96x320 ![0, 0, 18] ![0, 0, 0] ![0, 0, 0] x v pads_S8x96x302_S8x96x320_000_000_1800 h_S_),
    unary main_arg0 main_v131 ((extractStridedSlice S8x128x96x301 ![0, 0, 0, 19] · slices_S8x128x96x320_S8x128x96x301_0_0_0_19) : (⟨S8x128x96x320, .f32⟩ : BufTy).Contents (Elt F) → (⟨S8x128x96x301, .f32⟩ : BufTy).Contents (Elt F)),
    unary main_arg1 main_v132 ((extractStridedSlice S8x128x96x301 ![0, 0, 0, 0] · slices_S8x128x96x320_S8x128x96x301_0_0_0_0) : (⟨S8x128x96x320, .f32⟩ : BufTy).Contents (Elt F) → (⟨S8x128x96x301, .f32⟩ : BufTy).Contents (Elt F)),
    binary main_v131 main_v132 main_v133 (mulf : (⟨S8x128x96x301, .f32⟩ : BufTy).Contents (Elt F) → (⟨S8x128x96x301, .f32⟩ : BufTy).Contents (Elt F) → (⟨S8x128x96x301, .f32⟩ : BufTy).Contents (Elt F)),
    nullary main_cst_55 (constant S_ .f32 0x00000000#32),
    binary main_v133 main_cst_55 main_v134 ((fun x v => Host.reduceAdd x v reducesTo_S8x128x96x301_S8x96x301_d1 h_S_) : (⟨S8x128x96x301, .f32⟩ : BufTy).Contents (Elt F) → (⟨S_, .f32⟩ : BufTy).Contents (Elt F) → (⟨S8x96x301, .f32⟩ : BufTy).Contents (Elt F)),
    nullary main_cst_56 (constant S_ .f32 0x43000000#32),
    unary main_cst_56 main_v135 (broadcastInDim S8x96x301 ![] bcast_S_S8x96x301 : (⟨S_, .f32⟩ : BufTy).Contents (Elt F) → (⟨S8x96x301, .f32⟩ : BufTy).Contents (Elt F)),
    binary main_v134 main_v135 main_v136 (Host.divf : (⟨S8x96x301, .f32⟩ : BufTy).Contents (Elt F) → (⟨S8x96x301, .f32⟩ : BufTy).Contents (Elt F) → (⟨S8x96x301, .f32⟩ : BufTy).Contents (Elt F)),
    nullary main_c_57 (constantI S_ 32 0#32),
    TRef.unary (TRef.of (T := ⟨S_, .i32⟩) main_c_57) (TRef.of (T := ⟨S_, .f32⟩) main_call19_v0) (sitofp .f32),
    TRef.binary (TRef.of (T := ⟨S8x96x301, .f32⟩) main_v136) (TRef.of (T := ⟨S_, .f32⟩) main_call19_v0) (TRef.of (T := ⟨S8x96x320, .f32⟩) main_v137) (fun x v => pad S8x96x320 ![0, 0, 19] ![0, 0, 0] ![0, 0, 0] x v pads_S8x96x301_S8x96x320_000_000_1900 h_S_) ]

set_option maxHeartbeats 4000000 in
/-- Operations 219 to 262: planes 20 to 23. -/
def c5 : List (HloOp τ sig (Elt F)) :=
  [ unary main_arg0 main_v138 ((extractStridedSlice S8x128x96x300 ![0, 0, 0, 20] · slices_S8x128x96x320_S8x128x96x300_0_0_0_20) : (⟨S8x128x96x320, .f32⟩ : BufTy).Contents (Elt F) → (⟨S8x128x96x300, .f32⟩ : BufTy).Contents (Elt F)),
    unary main_arg1 main_v139 ((extractStridedSlice S8x128x96x300 ![0, 0, 0, 0] · slices_S8x128x96x320_S8x128x96x300_0_0_0_0) : (⟨S8x128x96x320, .f32⟩ : BufTy).Contents (Elt F) → (⟨S8x128x96x300, .f32⟩ : BufTy).Contents (Elt F)),
    binary main_v138 main_v139 main_v140 (mulf : (⟨S8x128x96x300, .f32⟩ : BufTy).Contents (Elt F) → (⟨S8x128x96x300, .f32⟩ : BufTy).Contents (Elt F) → (⟨S8x128x96x300, .f32⟩ : BufTy).Contents (Elt F)),
    nullary main_cst_58 (constant S_ .f32 0x00000000#32),
    binary main_v140 main_cst_58 main_v141 ((fun x v => Host.reduceAdd x v reducesTo_S8x128x96x300_S8x96x300_d1 h_S_) : (⟨S8x128x96x300, .f32⟩ : BufTy).Contents (Elt F) → (⟨S_, .f32⟩ : BufTy).Contents (Elt F) → (⟨S8x96x300, .f32⟩ : BufTy).Contents (Elt F)),
    nullary main_cst_59 (constant S_ .f32 0x43000000#32),
    unary main_cst_59 main_v142 (broadcastInDim S8x96x300 ![] bcast_S_S8x96x300 : (⟨S_, .f32⟩ : BufTy).Contents (Elt F) → (⟨S8x96x300, .f32⟩ : BufTy).Contents (Elt F)),
    binary main_v141 main_v142 main_v143 (Host.divf : (⟨S8x96x300, .f32⟩ : BufTy).Contents (Elt F) → (⟨S8x96x300, .f32⟩ : BufTy).Contents (Elt F) → (⟨S8x96x300, .f32⟩ : BufTy).Contents (Elt F)),
    nullary main_c_60 (constantI S_ 32 0#32),
    TRef.unary (TRef.of (T := ⟨S_, .i32⟩) main_c_60) (TRef.of (T := ⟨S_, .f32⟩) main_call20_v0) (sitofp .f32),
    TRef.binary (TRef.of (T := ⟨S8x96x300, .f32⟩) main_v143) (TRef.of (T := ⟨S_, .f32⟩) main_call20_v0) (TRef.of (T := ⟨S8x96x320, .f32⟩) main_v144) (fun x v => pad S8x96x320 ![0, 0, 20] ![0, 0, 0] ![0, 0, 0] x v pads_S8x96x300_S8x96x320_000_000_2000 h_S_),
    unary main_arg0 main_v145 ((extractStridedSlice S8x128x96x299 ![0, 0, 0, 21] · slices_S8x128x96x320_S8x128x96x299_0_0_0_21) : (⟨S8x128x96x320, .f32⟩ : BufTy).Contents (Elt F) → (⟨S8x128x96x299, .f32⟩ : BufTy).Contents (Elt F)),
    unary main_arg1 main_v146 ((extractStridedSlice S8x128x96x299 ![0, 0, 0, 0] · slices_S8x128x96x320_S8x128x96x299_0_0_0_0) : (⟨S8x128x96x320, .f32⟩ : BufTy).Contents (Elt F) → (⟨S8x128x96x299, .f32⟩ : BufTy).Contents (Elt F)),
    binary main_v145 main_v146 main_v147 (mulf : (⟨S8x128x96x299, .f32⟩ : BufTy).Contents (Elt F) → (⟨S8x128x96x299, .f32⟩ : BufTy).Contents (Elt F) → (⟨S8x128x96x299, .f32⟩ : BufTy).Contents (Elt F)),
    nullary main_cst_61 (constant S_ .f32 0x00000000#32),
    binary main_v147 main_cst_61 main_v148 ((fun x v => Host.reduceAdd x v reducesTo_S8x128x96x299_S8x96x299_d1 h_S_) : (⟨S8x128x96x299, .f32⟩ : BufTy).Contents (Elt F) → (⟨S_, .f32⟩ : BufTy).Contents (Elt F) → (⟨S8x96x299, .f32⟩ : BufTy).Contents (Elt F)),
    nullary main_cst_62 (constant S_ .f32 0x43000000#32),
    unary main_cst_62 main_v149 (broadcastInDim S8x96x299 ![] bcast_S_S8x96x299 : (⟨S_, .f32⟩ : BufTy).Contents (Elt F) → (⟨S8x96x299, .f32⟩ : BufTy).Contents (Elt F)),
    binary main_v148 main_v149 main_v150 (Host.divf : (⟨S8x96x299, .f32⟩ : BufTy).Contents (Elt F) → (⟨S8x96x299, .f32⟩ : BufTy).Contents (Elt F) → (⟨S8x96x299, .f32⟩ : BufTy).Contents (Elt F)),
    nullary main_c_63 (constantI S_ 32 0#32),
    TRef.unary (TRef.of (T := ⟨S_, .i32⟩) main_c_63) (TRef.of (T := ⟨S_, .f32⟩) main_call21_v0) (sitofp .f32),
    TRef.binary (TRef.of (T := ⟨S8x96x299, .f32⟩) main_v150) (TRef.of (T := ⟨S_, .f32⟩) main_call21_v0) (TRef.of (T := ⟨S8x96x320, .f32⟩) main_v151) (fun x v => pad S8x96x320 ![0, 0, 21] ![0, 0, 0] ![0, 0, 0] x v pads_S8x96x299_S8x96x320_000_000_2100 h_S_),
    unary main_arg0 main_v152 ((extractStridedSlice S8x128x96x298 ![0, 0, 0, 22] · slices_S8x128x96x320_S8x128x96x298_0_0_0_22) : (⟨S8x128x96x320, .f32⟩ : BufTy).Contents (Elt F) → (⟨S8x128x96x298, .f32⟩ : BufTy).Contents (Elt F)),
    unary main_arg1 main_v153 ((extractStridedSlice S8x128x96x298 ![0, 0, 0, 0] · slices_S8x128x96x320_S8x128x96x298_0_0_0_0) : (⟨S8x128x96x320, .f32⟩ : BufTy).Contents (Elt F) → (⟨S8x128x96x298, .f32⟩ : BufTy).Contents (Elt F)),
    binary main_v152 main_v153 main_v154 (mulf : (⟨S8x128x96x298, .f32⟩ : BufTy).Contents (Elt F) → (⟨S8x128x96x298, .f32⟩ : BufTy).Contents (Elt F) → (⟨S8x128x96x298, .f32⟩ : BufTy).Contents (Elt F)),
    nullary main_cst_64 (constant S_ .f32 0x00000000#32),
    binary main_v154 main_cst_64 main_v155 ((fun x v => Host.reduceAdd x v reducesTo_S8x128x96x298_S8x96x298_d1 h_S_) : (⟨S8x128x96x298, .f32⟩ : BufTy).Contents (Elt F) → (⟨S_, .f32⟩ : BufTy).Contents (Elt F) → (⟨S8x96x298, .f32⟩ : BufTy).Contents (Elt F)),
    nullary main_cst_65 (constant S_ .f32 0x43000000#32),
    unary main_cst_65 main_v156 (broadcastInDim S8x96x298 ![] bcast_S_S8x96x298 : (⟨S_, .f32⟩ : BufTy).Contents (Elt F) → (⟨S8x96x298, .f32⟩ : BufTy).Contents (Elt F)),
    binary main_v155 main_v156 main_v157 (Host.divf : (⟨S8x96x298, .f32⟩ : BufTy).Contents (Elt F) → (⟨S8x96x298, .f32⟩ : BufTy).Contents (Elt F) → (⟨S8x96x298, .f32⟩ : BufTy).Contents (Elt F)),
    nullary main_c_66 (constantI S_ 32 0#32),
    TRef.unary (TRef.of (T := ⟨S_, .i32⟩) main_c_66) (TRef.of (T := ⟨S_, .f32⟩) main_call22_v0) (sitofp .f32),
    TRef.binary (TRef.of (T := ⟨S8x96x298, .f32⟩) main_v157) (TRef.of (T := ⟨S_, .f32⟩) main_call22_v0) (TRef.of (T := ⟨S8x96x320, .f32⟩) main_v158) (fun x v => pad S8x96x320 ![0, 0, 22] ![0, 0, 0] ![0, 0, 0] x v pads_S8x96x298_S8x96x320_000_000_2200 h_S_),
    unary main_arg0 main_v159 ((extractStridedSlice S8x128x96x297 ![0, 0, 0, 23] · slices_S8x128x96x320_S8x128x96x297_0_0_0_23) : (⟨S8x128x96x320, .f32⟩ : BufTy).Contents (Elt F) → (⟨S8x128x96x297, .f32⟩ : BufTy).Contents (Elt F)),
    unary main_arg1 main_v160 ((extractStridedSlice S8x128x96x297 ![0, 0, 0, 0] · slices_S8x128x96x320_S8x128x96x297_0_0_0_0) : (⟨S8x128x96x320, .f32⟩ : BufTy).Contents (Elt F) → (⟨S8x128x96x297, .f32⟩ : BufTy).Contents (Elt F)),
    binary main_v159 main_v160 main_v161 (mulf : (⟨S8x128x96x297, .f32⟩ : BufTy).Contents (Elt F) → (⟨S8x128x96x297, .f32⟩ : BufTy).Contents (Elt F) → (⟨S8x128x96x297, .f32⟩ : BufTy).Contents (Elt F)),
    nullary main_cst_67 (constant S_ .f32 0x00000000#32),
    binary main_v161 main_cst_67 main_v162 ((fun x v => Host.reduceAdd x v reducesTo_S8x128x96x297_S8x96x297_d1 h_S_) : (⟨S8x128x96x297, .f32⟩ : BufTy).Contents (Elt F) → (⟨S_, .f32⟩ : BufTy).Contents (Elt F) → (⟨S8x96x297, .f32⟩ : BufTy).Contents (Elt F)),
    nullary main_cst_68 (constant S_ .f32 0x43000000#32),
    unary main_cst_68 main_v163 (broadcastInDim S8x96x297 ![] bcast_S_S8x96x297 : (⟨S_, .f32⟩ : BufTy).Contents (Elt F) → (⟨S8x96x297, .f32⟩ : BufTy).Contents (Elt F)),
    binary main_v162 main_v163 main_v164 (Host.divf : (⟨S8x96x297, .f32⟩ : BufTy).Contents (Elt F) → (⟨S8x96x297, .f32⟩ : BufTy).Contents (Elt F) → (⟨S8x96x297, .f32⟩ : BufTy).Contents (Elt F)),
    nullary main_c_69 (constantI S_ 32 0#32),
    TRef.unary (TRef.of (T := ⟨S_, .i32⟩) main_c_69) (TRef.of (T := ⟨S_, .f32⟩) main_call23_v0) (sitofp .f32),
    TRef.binary (TRef.of (T := ⟨S8x96x297, .f32⟩) main_v164) (TRef.of (T := ⟨S_, .f32⟩) main_call23_v0) (TRef.of (T := ⟨S8x96x320, .f32⟩) main_v165) (fun x v => pad S8x96x320 ![0, 0, 23] ![0, 0, 0] ![0, 0, 0] x v pads_S8x96x297_S8x96x320_000_000_2300 h_S_) ]

set_option maxHeartbeats 4000000 in
/-- Operations 263 to 306: planes 24 to 27. -/
def c6 : List (HloOp τ sig (Elt F)) :=
  [ unary main_arg0 main_v166 ((extractStridedSlice S8x128x96x296 ![0, 0, 0, 24] · slices_S8x128x96x320_S8x128x96x296_0_0_0_24) : (⟨S8x128x96x320, .f32⟩ : BufTy).Contents (Elt F) → (⟨S8x128x96x296, .f32⟩ : BufTy).Contents (Elt F)),
    unary main_arg1 main_v167 ((extractStridedSlice S8x128x96x296 ![0, 0, 0, 0] · slices_S8x128x96x320_S8x128x96x296_0_0_0_0) : (⟨S8x128x96x320, .f32⟩ : BufTy).Contents (Elt F) → (⟨S8x128x96x296, .f32⟩ : BufTy).Contents (Elt F)),
    binary main_v166 main_v167 main_v168 (mulf : (⟨S8x128x96x296, .f32⟩ : BufTy).Contents (Elt F) → (⟨S8x128x96x296, .f32⟩ : BufTy).Contents (Elt F) → (⟨S8x128x96x296, .f32⟩ : BufTy).Contents (Elt F)),
    nullary main_cst_70 (constant S_ .f32 0x00000000#32),
    binary main_v168 main_cst_70 main_v169 ((fun x v => Host.reduceAdd x v reducesTo_S8x128x96x296_S8x96x296_d1 h_S_) : (⟨S8x128x96x296, .f32⟩ : BufTy).Contents (Elt F) → (⟨S_, .f32⟩ : BufTy).Contents (Elt F) → (⟨S8x96x296, .f32⟩ : BufTy).Contents (Elt F)),
    nullary main_cst_71 (constant S_ .f32 0x43000000#32),
    unary main_cst_71 main_v170 (broadcastInDim S8x96x296 ![] bcast_S_S8x96x296 : (⟨S_, .f32⟩ : BufTy).Contents (Elt F) → (⟨S8x96x296, .f32⟩ : BufTy).Contents (Elt F)),
    binary main_v169 main_v170 main_v171 (Host.divf : (⟨S8x96x296, .f32⟩ : BufTy).Contents (Elt F) → (⟨S8x96x296, .f32⟩ : BufTy).Contents (Elt F) → (⟨S8x96x296, .f32⟩ : BufTy).Contents (Elt F)),
    nullary main_c_72 (constantI S_ 32 0#32),
    TRef.unary (TRef.of (T := ⟨S_, .i32⟩) main_c_72) (TRef.of (T := ⟨S_, .f32⟩) main_call24_v0) (sitofp .f32),
    TRef.binary (TRef.of (T := ⟨S8x96x296, .f32⟩) main_v171) (TRef.of (T := ⟨S_, .f32⟩) main_call24_v0) (TRef.of (T := ⟨S8x96x320, .f32⟩) main_v172) (fun x v => pad S8x96x320 ![0, 0, 24] ![0, 0, 0] ![0, 0, 0] x v pads_S8x96x296_S8x96x320_000_000_2400 h_S_),
    unary main_arg0 main_v173 ((extractStridedSlice S8x128x96x295 ![0, 0, 0, 25] · slices_S8x128x96x320_S8x128x96x295_0_0_0_25) : (⟨S8x128x96x320, .f32⟩ : BufTy).Contents (Elt F) → (⟨S8x128x96x295, .f32⟩ : BufTy).Contents (Elt F)),
    unary main_arg1 main_v174 ((extractStridedSlice S8x128x96x295 ![0, 0, 0, 0] · slices_S8x128x96x320_S8x128x96x295_0_0_0_0) : (⟨S8x128x96x320, .f32⟩ : BufTy).Contents (Elt F) → (⟨S8x128x96x295, .f32⟩ : BufTy).Contents (Elt F)),
    binary main_v173 main_v174 main_v175 (mulf : (⟨S8x128x96x295, .f32⟩ : BufTy).Contents (Elt F) → (⟨S8x128x96x295, .f32⟩ : BufTy).Contents (Elt F) → (⟨S8x128x96x295, .f32⟩ : BufTy).Contents (Elt F)),
    nullary main_cst_73 (constant S_ .f32 0x00000000#32),
    binary main_v175 main_cst_73 main_v176 ((fun x v => Host.reduceAdd x v reducesTo_S8x128x96x295_S8x96x295_d1 h_S_) : (⟨S8x128x96x295, .f32⟩ : BufTy).Contents (Elt F) → (⟨S_, .f32⟩ : BufTy).Contents (Elt F) → (⟨S8x96x295, .f32⟩ : BufTy).Contents (Elt F)),
    nullary main_cst_74 (constant S_ .f32 0x43000000#32),
    unary main_cst_74 main_v177 (broadcastInDim S8x96x295 ![] bcast_S_S8x96x295 : (⟨S_, .f32⟩ : BufTy).Contents (Elt F) → (⟨S8x96x295, .f32⟩ : BufTy).Contents (Elt F)),
    binary main_v176 main_v177 main_v178 (Host.divf : (⟨S8x96x295, .f32⟩ : BufTy).Contents (Elt F) → (⟨S8x96x295, .f32⟩ : BufTy).Contents (Elt F) → (⟨S8x96x295, .f32⟩ : BufTy).Contents (Elt F)),
    nullary main_c_75 (constantI S_ 32 0#32),
    TRef.unary (TRef.of (T := ⟨S_, .i32⟩) main_c_75) (TRef.of (T := ⟨S_, .f32⟩) main_call25_v0) (sitofp .f32),
    TRef.binary (TRef.of (T := ⟨S8x96x295, .f32⟩) main_v178) (TRef.of (T := ⟨S_, .f32⟩) main_call25_v0) (TRef.of (T := ⟨S8x96x320, .f32⟩) main_v179) (fun x v => pad S8x96x320 ![0, 0, 25] ![0, 0, 0] ![0, 0, 0] x v pads_S8x96x295_S8x96x320_000_000_2500 h_S_),
    unary main_arg0 main_v180 ((extractStridedSlice S8x128x96x294 ![0, 0, 0, 26] · slices_S8x128x96x320_S8x128x96x294_0_0_0_26) : (⟨S8x128x96x320, .f32⟩ : BufTy).Contents (Elt F) → (⟨S8x128x96x294, .f32⟩ : BufTy).Contents (Elt F)),
    unary main_arg1 main_v181 ((extractStridedSlice S8x128x96x294 ![0, 0, 0, 0] · slices_S8x128x96x320_S8x128x96x294_0_0_0_0) : (⟨S8x128x96x320, .f32⟩ : BufTy).Contents (Elt F) → (⟨S8x128x96x294, .f32⟩ : BufTy).Contents (Elt F)),
    binary main_v180 main_v181 main_v182 (mulf : (⟨S8x128x96x294, .f32⟩ : BufTy).Contents (Elt F) → (⟨S8x128x96x294, .f32⟩ : BufTy).Contents (Elt F) → (⟨S8x128x96x294, .f32⟩ : BufTy).Contents (Elt F)),
    nullary main_cst_76 (constant S_ .f32 0x00000000#32),
    binary main_v182 main_cst_76 main_v183 ((fun x v => Host.reduceAdd x v reducesTo_S8x128x96x294_S8x96x294_d1 h_S_) : (⟨S8x128x96x294, .f32⟩ : BufTy).Contents (Elt F) → (⟨S_, .f32⟩ : BufTy).Contents (Elt F) → (⟨S8x96x294, .f32⟩ : BufTy).Contents (Elt F)),
    nullary main_cst_77 (constant S_ .f32 0x43000000#32),
    unary main_cst_77 main_v184 (broadcastInDim S8x96x294 ![] bcast_S_S8x96x294 : (⟨S_, .f32⟩ : BufTy).Contents (Elt F) → (⟨S8x96x294, .f32⟩ : BufTy).Contents (Elt F)),
    binary main_v183 main_v184 main_v185 (Host.divf : (⟨S8x96x294, .f32⟩ : BufTy).Contents (Elt F) → (⟨S8x96x294, .f32⟩ : BufTy).Contents (Elt F) → (⟨S8x96x294, .f32⟩ : BufTy).Contents (Elt F)),
    nullary main_c_78 (constantI S_ 32 0#32),
    TRef.unary (TRef.of (T := ⟨S_, .i32⟩) main_c_78) (TRef.of (T := ⟨S_, .f32⟩) main_call26_v0) (sitofp .f32),
    TRef.binary (TRef.of (T := ⟨S8x96x294, .f32⟩) main_v185) (TRef.of (T := ⟨S_, .f32⟩) main_call26_v0) (TRef.of (T := ⟨S8x96x320, .f32⟩) main_v186) (fun x v => pad S8x96x320 ![0, 0, 26] ![0, 0, 0] ![0, 0, 0] x v pads_S8x96x294_S8x96x320_000_000_2600 h_S_),
    unary main_arg0 main_v187 ((extractStridedSlice S8x128x96x293 ![0, 0, 0, 27] · slices_S8x128x96x320_S8x128x96x293_0_0_0_27) : (⟨S8x128x96x320, .f32⟩ : BufTy).Contents (Elt F) → (⟨S8x128x96x293, .f32⟩ : BufTy).Contents (Elt F)),
    unary main_arg1 main_v188 ((extractStridedSlice S8x128x96x293 ![0, 0, 0, 0] · slices_S8x128x96x320_S8x128x96x293_0_0_0_0) : (⟨S8x128x96x320, .f32⟩ : BufTy).Contents (Elt F) → (⟨S8x128x96x293, .f32⟩ : BufTy).Contents (Elt F)),
    binary main_v187 main_v188 main_v189 (mulf : (⟨S8x128x96x293, .f32⟩ : BufTy).Contents (Elt F) → (⟨S8x128x96x293, .f32⟩ : BufTy).Contents (Elt F) → (⟨S8x128x96x293, .f32⟩ : BufTy).Contents (Elt F)),
    nullary main_cst_79 (constant S_ .f32 0x00000000#32),
    binary main_v189 main_cst_79 main_v190 ((fun x v => Host.reduceAdd x v reducesTo_S8x128x96x293_S8x96x293_d1 h_S_) : (⟨S8x128x96x293, .f32⟩ : BufTy).Contents (Elt F) → (⟨S_, .f32⟩ : BufTy).Contents (Elt F) → (⟨S8x96x293, .f32⟩ : BufTy).Contents (Elt F)),
    nullary main_cst_80 (constant S_ .f32 0x43000000#32),
    unary main_cst_80 main_v191 (broadcastInDim S8x96x293 ![] bcast_S_S8x96x293 : (⟨S_, .f32⟩ : BufTy).Contents (Elt F) → (⟨S8x96x293, .f32⟩ : BufTy).Contents (Elt F)),
    binary main_v190 main_v191 main_v192 (Host.divf : (⟨S8x96x293, .f32⟩ : BufTy).Contents (Elt F) → (⟨S8x96x293, .f32⟩ : BufTy).Contents (Elt F) → (⟨S8x96x293, .f32⟩ : BufTy).Contents (Elt F)),
    nullary main_c_81 (constantI S_ 32 0#32),
    TRef.unary (TRef.of (T := ⟨S_, .i32⟩) main_c_81) (TRef.of (T := ⟨S_, .f32⟩) main_call27_v0) (sitofp .f32),
    TRef.binary (TRef.of (T := ⟨S8x96x293, .f32⟩) main_v192) (TRef.of (T := ⟨S_, .f32⟩) main_call27_v0) (TRef.of (T := ⟨S8x96x320, .f32⟩) main_v193) (fun x v => pad S8x96x320 ![0, 0, 27] ![0, 0, 0] ![0, 0, 0] x v pads_S8x96x293_S8x96x320_000_000_2700 h_S_) ]

set_option maxHeartbeats 4000000 in
/-- Operations 307 to 350: planes 28 to 31. -/
def c7 : List (HloOp τ sig (Elt F)) :=
  [ unary main_arg0 main_v194 ((extractStridedSlice S8x128x96x292 ![0, 0, 0, 28] · slices_S8x128x96x320_S8x128x96x292_0_0_0_28) : (⟨S8x128x96x320, .f32⟩ : BufTy).Contents (Elt F) → (⟨S8x128x96x292, .f32⟩ : BufTy).Contents (Elt F)),
    unary main_arg1 main_v195 ((extractStridedSlice S8x128x96x292 ![0, 0, 0, 0] · slices_S8x128x96x320_S8x128x96x292_0_0_0_0) : (⟨S8x128x96x320, .f32⟩ : BufTy).Contents (Elt F) → (⟨S8x128x96x292, .f32⟩ : BufTy).Contents (Elt F)),
    binary main_v194 main_v195 main_v196 (mulf : (⟨S8x128x96x292, .f32⟩ : BufTy).Contents (Elt F) → (⟨S8x128x96x292, .f32⟩ : BufTy).Contents (Elt F) → (⟨S8x128x96x292, .f32⟩ : BufTy).Contents (Elt F)),
    nullary main_cst_82 (constant S_ .f32 0x00000000#32),
    binary main_v196 main_cst_82 main_v197 ((fun x v => Host.reduceAdd x v reducesTo_S8x128x96x292_S8x96x292_d1 h_S_) : (⟨S8x128x96x292, .f32⟩ : BufTy).Contents (Elt F) → (⟨S_, .f32⟩ : BufTy).Contents (Elt F) → (⟨S8x96x292, .f32⟩ : BufTy).Contents (Elt F)),
    nullary main_cst_83 (constant S_ .f32 0x43000000#32),
    unary main_cst_83 main_v198 (broadcastInDim S8x96x292 ![] bcast_S_S8x96x292 : (⟨S_, .f32⟩ : BufTy).Contents (Elt F) → (⟨S8x96x292, .f32⟩ : BufTy).Contents (Elt F)),
    binary main_v197 main_v198 main_v199 (Host.divf : (⟨S8x96x292, .f32⟩ : BufTy).Contents (Elt F) → (⟨S8x96x292, .f32⟩ : BufTy).Contents (Elt F) → (⟨S8x96x292, .f32⟩ : BufTy).Contents (Elt F)),
    nullary main_c_84 (constantI S_ 32 0#32),
    TRef.unary (TRef.of (T := ⟨S_, .i32⟩) main_c_84) (TRef.of (T := ⟨S_, .f32⟩) main_call28_v0) (sitofp .f32),
    TRef.binary (TRef.of (T := ⟨S8x96x292, .f32⟩) main_v199) (TRef.of (T := ⟨S_, .f32⟩) main_call28_v0) (TRef.of (T := ⟨S8x96x320, .f32⟩) main_v200) (fun x v => pad S8x96x320 ![0, 0, 28] ![0, 0, 0] ![0, 0, 0] x v pads_S8x96x292_S8x96x320_000_000_2800 h_S_),
    unary main_arg0 main_v201 ((extractStridedSlice S8x128x96x291 ![0, 0, 0, 29] · slices_S8x128x96x320_S8x128x96x291_0_0_0_29) : (⟨S8x128x96x320, .f32⟩ : BufTy).Contents (Elt F) → (⟨S8x128x96x291, .f32⟩ : BufTy).Contents (Elt F)),
    unary main_arg1 main_v202 ((extractStridedSlice S8x128x96x291 ![0, 0, 0, 0] · slices_S8x128x96x320_S8x128x96x291_0_0_0_0) : (⟨S8x128x96x320, .f32⟩ : BufTy).Contents (Elt F) → (⟨S8x128x96x291, .f32⟩ : BufTy).Contents (Elt F)),
    binary main_v201 main_v202 main_v203 (mulf : (⟨S8x128x96x291, .f32⟩ : BufTy).Contents (Elt F) → (⟨S8x128x96x291, .f32⟩ : BufTy).Contents (Elt F) → (⟨S8x128x96x291, .f32⟩ : BufTy).Contents (Elt F)),
    nullary main_cst_85 (constant S_ .f32 0x00000000#32),
    binary main_v203 main_cst_85 main_v204 ((fun x v => Host.reduceAdd x v reducesTo_S8x128x96x291_S8x96x291_d1 h_S_) : (⟨S8x128x96x291, .f32⟩ : BufTy).Contents (Elt F) → (⟨S_, .f32⟩ : BufTy).Contents (Elt F) → (⟨S8x96x291, .f32⟩ : BufTy).Contents (Elt F)),
    nullary main_cst_86 (constant S_ .f32 0x43000000#32),
    unary main_cst_86 main_v205 (broadcastInDim S8x96x291 ![] bcast_S_S8x96x291 : (⟨S_, .f32⟩ : BufTy).Contents (Elt F) → (⟨S8x96x291, .f32⟩ : BufTy).Contents (Elt F)),
    binary main_v204 main_v205 main_v206 (Host.divf : (⟨S8x96x291, .f32⟩ : BufTy).Contents (Elt F) → (⟨S8x96x291, .f32⟩ : BufTy).Contents (Elt F) → (⟨S8x96x291, .f32⟩ : BufTy).Contents (Elt F)),
    nullary main_c_87 (constantI S_ 32 0#32),
    TRef.unary (TRef.of (T := ⟨S_, .i32⟩) main_c_87) (TRef.of (T := ⟨S_, .f32⟩) main_call29_v0) (sitofp .f32),
    TRef.binary (TRef.of (T := ⟨S8x96x291, .f32⟩) main_v206) (TRef.of (T := ⟨S_, .f32⟩) main_call29_v0) (TRef.of (T := ⟨S8x96x320, .f32⟩) main_v207) (fun x v => pad S8x96x320 ![0, 0, 29] ![0, 0, 0] ![0, 0, 0] x v pads_S8x96x291_S8x96x320_000_000_2900 h_S_),
    unary main_arg0 main_v208 ((extractStridedSlice S8x128x96x290 ![0, 0, 0, 30] · slices_S8x128x96x320_S8x128x96x290_0_0_0_30) : (⟨S8x128x96x320, .f32⟩ : BufTy).Contents (Elt F) → (⟨S8x128x96x290, .f32⟩ : BufTy).Contents (Elt F)),
    unary main_arg1 main_v209 ((extractStridedSlice S8x128x96x290 ![0, 0, 0, 0] · slices_S8x128x96x320_S8x128x96x290_0_0_0_0) : (⟨S8x128x96x320, .f32⟩ : BufTy).Contents (Elt F) → (⟨S8x128x96x290, .f32⟩ : BufTy).Contents (Elt F)),
    binary main_v208 main_v209 main_v210 (mulf : (⟨S8x128x96x290, .f32⟩ : BufTy).Contents (Elt F) → (⟨S8x128x96x290, .f32⟩ : BufTy).Contents (Elt F) → (⟨S8x128x96x290, .f32⟩ : BufTy).Contents (Elt F)),
    nullary main_cst_88 (constant S_ .f32 0x00000000#32),
    binary main_v210 main_cst_88 main_v211 ((fun x v => Host.reduceAdd x v reducesTo_S8x128x96x290_S8x96x290_d1 h_S_) : (⟨S8x128x96x290, .f32⟩ : BufTy).Contents (Elt F) → (⟨S_, .f32⟩ : BufTy).Contents (Elt F) → (⟨S8x96x290, .f32⟩ : BufTy).Contents (Elt F)),
    nullary main_cst_89 (constant S_ .f32 0x43000000#32),
    unary main_cst_89 main_v212 (broadcastInDim S8x96x290 ![] bcast_S_S8x96x290 : (⟨S_, .f32⟩ : BufTy).Contents (Elt F) → (⟨S8x96x290, .f32⟩ : BufTy).Contents (Elt F)),
    binary main_v211 main_v212 main_v213 (Host.divf : (⟨S8x96x290, .f32⟩ : BufTy).Contents (Elt F) → (⟨S8x96x290, .f32⟩ : BufTy).Contents (Elt F) → (⟨S8x96x290, .f32⟩ : BufTy).Contents (Elt F)),
    nullary main_c_90 (constantI S_ 32 0#32),
    TRef.unary (TRef.of (T := ⟨S_, .i32⟩) main_c_90) (TRef.of (T := ⟨S_, .f32⟩) main_call30_v0) (sitofp .f32),
    TRef.binary (TRef.of (T := ⟨S8x96x290, .f32⟩) main_v213) (TRef.of (T := ⟨S_, .f32⟩) main_call30_v0) (TRef.of (T := ⟨S8x96x320, .f32⟩) main_v214) (fun x v => pad S8x96x320 ![0, 0, 30] ![0, 0, 0] ![0, 0, 0] x v pads_S8x96x290_S8x96x320_000_000_3000 h_S_),
    unary main_arg0 main_v215 ((extractStridedSlice S8x128x96x289 ![0, 0, 0, 31] · slices_S8x128x96x320_S8x128x96x289_0_0_0_31) : (⟨S8x128x96x320, .f32⟩ : BufTy).Contents (Elt F) → (⟨S8x128x96x289, .f32⟩ : BufTy).Contents (Elt F)),
    unary main_arg1 main_v216 ((extractStridedSlice S8x128x96x289 ![0, 0, 0, 0] · slices_S8x128x96x320_S8x128x96x289_0_0_0_0) : (⟨S8x128x96x320, .f32⟩ : BufTy).Contents (Elt F) → (⟨S8x128x96x289, .f32⟩ : BufTy).Contents (Elt F)),
    binary main_v215 main_v216 main_v217 (mulf : (⟨S8x128x96x289, .f32⟩ : BufTy).Contents (Elt F) → (⟨S8x128x96x289, .f32⟩ : BufTy).Contents (Elt F) → (⟨S8x128x96x289, .f32⟩ : BufTy).Contents (Elt F)),
    nullary main_cst_91 (constant S_ .f32 0x00000000#32),
    binary main_v217 main_cst_91 main_v218 ((fun x v => Host.reduceAdd x v reducesTo_S8x128x96x289_S8x96x289_d1 h_S_) : (⟨S8x128x96x289, .f32⟩ : BufTy).Contents (Elt F) → (⟨S_, .f32⟩ : BufTy).Contents (Elt F) → (⟨S8x96x289, .f32⟩ : BufTy).Contents (Elt F)),
    nullary main_cst_92 (constant S_ .f32 0x43000000#32),
    unary main_cst_92 main_v219 (broadcastInDim S8x96x289 ![] bcast_S_S8x96x289 : (⟨S_, .f32⟩ : BufTy).Contents (Elt F) → (⟨S8x96x289, .f32⟩ : BufTy).Contents (Elt F)),
    binary main_v218 main_v219 main_v220 (Host.divf : (⟨S8x96x289, .f32⟩ : BufTy).Contents (Elt F) → (⟨S8x96x289, .f32⟩ : BufTy).Contents (Elt F) → (⟨S8x96x289, .f32⟩ : BufTy).Contents (Elt F)),
    nullary main_c_93 (constantI S_ 32 0#32),
    TRef.unary (TRef.of (T := ⟨S_, .i32⟩) main_c_93) (TRef.of (T := ⟨S_, .f32⟩) main_call31_v0) (sitofp .f32),
    TRef.binary (TRef.of (T := ⟨S8x96x289, .f32⟩) main_v220) (TRef.of (T := ⟨S_, .f32⟩) main_call31_v0) (TRef.of (T := ⟨S8x96x320, .f32⟩) main_v221) (fun x v => pad S8x96x320 ![0, 0, 31] ![0, 0, 0] ![0, 0, 0] x v pads_S8x96x289_S8x96x320_000_000_3100 h_S_) ]

set_option maxHeartbeats 4000000 in
/-- Operations 351 to 394: planes 32 to 35. -/
def c8 : List (HloOp τ sig (Elt F)) :=
  [ unary main_arg0 main_v222 ((extractStridedSlice S8x128x96x288 ![0, 0, 0, 32] · slices_S8x128x96x320_S8x128x96x288_0_0_0_32) : (⟨S8x128x96x320, .f32⟩ : BufTy).Contents (Elt F) → (⟨S8x128x96x288, .f32⟩ : BufTy).Contents (Elt F)),
    unary main_arg1 main_v223 ((extractStridedSlice S8x128x96x288 ![0, 0, 0, 0] · slices_S8x128x96x320_S8x128x96x288_0_0_0_0) : (⟨S8x128x96x320, .f32⟩ : BufTy).Contents (Elt F) → (⟨S8x128x96x288, .f32⟩ : BufTy).Contents (Elt F)),
    binary main_v222 main_v223 main_v224 (mulf : (⟨S8x128x96x288, .f32⟩ : BufTy).Contents (Elt F) → (⟨S8x128x96x288, .f32⟩ : BufTy).Contents (Elt F) → (⟨S8x128x96x288, .f32⟩ : BufTy).Contents (Elt F)),
    nullary main_cst_94 (constant S_ .f32 0x00000000#32),
    binary main_v224 main_cst_94 main_v225 ((fun x v => Host.reduceAdd x v reducesTo_S8x128x96x288_S8x96x288_d1 h_S_) : (⟨S8x128x96x288, .f32⟩ : BufTy).Contents (Elt F) → (⟨S_, .f32⟩ : BufTy).Contents (Elt F) → (⟨S8x96x288, .f32⟩ : BufTy).Contents (Elt F)),
    nullary main_cst_95 (constant S_ .f32 0x43000000#32),
    unary main_cst_95 main_v226 (broadcastInDim S8x96x288 ![] bcast_S_S8x96x288 : (⟨S_, .f32⟩ : BufTy).Contents (Elt F) → (⟨S8x96x288, .f32⟩ : BufTy).Contents (Elt F)),
    binary main_v225 main_v226 main_v227 (Host.divf : (⟨S8x96x288, .f32⟩ : BufTy).Contents (Elt F) → (⟨S8x96x288, .f32⟩ : BufTy).Contents (Elt F) → (⟨S8x96x288, .f32⟩ : BufTy).Contents (Elt F)),
    nullary main_c_96 (constantI S_ 32 0#32),
    TRef.unary (TRef.of (T := ⟨S_, .i32⟩) main_c_96) (TRef.of (T := ⟨S_, .f32⟩) main_call32_v0) (sitofp .f32),
    TRef.binary (TRef.of (T := ⟨S8x96x288, .f32⟩) main_v227) (TRef.of (T := ⟨S_, .f32⟩) main_call32_v0) (TRef.of (T := ⟨S8x96x320, .f32⟩) main_v228) (fun x v => pad S8x96x320 ![0, 0, 32] ![0, 0, 0] ![0, 0, 0] x v pads_S8x96x288_S8x96x320_000_000_3200 h_S_),
    unary main_arg0 main_v229 ((extractStridedSlice S8x128x96x287 ![0, 0, 0, 33] · slices_S8x128x96x320_S8x128x96x287_0_0_0_33) : (⟨S8x128x96x320, .f32⟩ : BufTy).Contents (Elt F) → (⟨S8x128x96x287, .f32⟩ : BufTy).Contents (Elt F)),
    unary main_arg1 main_v230 ((extractStridedSlice S8x128x96x287 ![0, 0, 0, 0] · slices_S8x128x96x320_S8x128x96x287_0_0_0_0) : (⟨S8x128x96x320, .f32⟩ : BufTy).Contents (Elt F) → (⟨S8x128x96x287, .f32⟩ : BufTy).Contents (Elt F)),
    binary main_v229 main_v230 main_v231 (mulf : (⟨S8x128x96x287, .f32⟩ : BufTy).Contents (Elt F) → (⟨S8x128x96x287, .f32⟩ : BufTy).Contents (Elt F) → (⟨S8x128x96x287, .f32⟩ : BufTy).Contents (Elt F)),
    nullary main_cst_97 (constant S_ .f32 0x00000000#32),
    binary main_v231 main_cst_97 main_v232 ((fun x v => Host.reduceAdd x v reducesTo_S8x128x96x287_S8x96x287_d1 h_S_) : (⟨S8x128x96x287, .f32⟩ : BufTy).Contents (Elt F) → (⟨S_, .f32⟩ : BufTy).Contents (Elt F) → (⟨S8x96x287, .f32⟩ : BufTy).Contents (Elt F)),
    nullary main_cst_98 (constant S_ .f32 0x43000000#32),
    unary main_cst_98 main_v233 (broadcastInDim S8x96x287 ![] bcast_S_S8x96x287 : (⟨S_, .f32⟩ : BufTy).Contents (Elt F) → (⟨S8x96x287, .f32⟩ : BufTy).Contents (Elt F)),
    binary main_v232 main_v233 main_v234 (Host.divf : (⟨S8x96x287, .f32⟩ : BufTy).Contents (Elt F) → (⟨S8x96x287, .f32⟩ : BufTy).Contents (Elt F) → (⟨S8x96x287, .f32⟩ : BufTy).Contents (Elt F)),
    nullary main_c_99 (constantI S_ 32 0#32),
    TRef.unary (TRef.of (T := ⟨S_, .i32⟩) main_c_99) (TRef.of (T := ⟨S_, .f32⟩) main_call33_v0) (sitofp .f32),
    TRef.binary (TRef.of (T := ⟨S8x96x287, .f32⟩) main_v234) (TRef.of (T := ⟨S_, .f32⟩) main_call33_v0) (TRef.of (T := ⟨S8x96x320, .f32⟩) main_v235) (fun x v => pad S8x96x320 ![0, 0, 33] ![0, 0, 0] ![0, 0, 0] x v pads_S8x96x287_S8x96x320_000_000_3300 h_S_),
    unary main_arg0 main_v236 ((extractStridedSlice S8x128x96x286 ![0, 0, 0, 34] · slices_S8x128x96x320_S8x128x96x286_0_0_0_34) : (⟨S8x128x96x320, .f32⟩ : BufTy).Contents (Elt F) → (⟨S8x128x96x286, .f32⟩ : BufTy).Contents (Elt F)),
    unary main_arg1 main_v237 ((extractStridedSlice S8x128x96x286 ![0, 0, 0, 0] · slices_S8x128x96x320_S8x128x96x286_0_0_0_0) : (⟨S8x128x96x320, .f32⟩ : BufTy).Contents (Elt F) → (⟨S8x128x96x286, .f32⟩ : BufTy).Contents (Elt F)),
    binary main_v236 main_v237 main_v238 (mulf : (⟨S8x128x96x286, .f32⟩ : BufTy).Contents (Elt F) → (⟨S8x128x96x286, .f32⟩ : BufTy).Contents (Elt F) → (⟨S8x128x96x286, .f32⟩ : BufTy).Contents (Elt F)),
    nullary main_cst_100 (constant S_ .f32 0x00000000#32),
    binary main_v238 main_cst_100 main_v239 ((fun x v => Host.reduceAdd x v reducesTo_S8x128x96x286_S8x96x286_d1 h_S_) : (⟨S8x128x96x286, .f32⟩ : BufTy).Contents (Elt F) → (⟨S_, .f32⟩ : BufTy).Contents (Elt F) → (⟨S8x96x286, .f32⟩ : BufTy).Contents (Elt F)),
    nullary main_cst_101 (constant S_ .f32 0x43000000#32),
    unary main_cst_101 main_v240 (broadcastInDim S8x96x286 ![] bcast_S_S8x96x286 : (⟨S_, .f32⟩ : BufTy).Contents (Elt F) → (⟨S8x96x286, .f32⟩ : BufTy).Contents (Elt F)),
    binary main_v239 main_v240 main_v241 (Host.divf : (⟨S8x96x286, .f32⟩ : BufTy).Contents (Elt F) → (⟨S8x96x286, .f32⟩ : BufTy).Contents (Elt F) → (⟨S8x96x286, .f32⟩ : BufTy).Contents (Elt F)),
    nullary main_c_102 (constantI S_ 32 0#32),
    TRef.unary (TRef.of (T := ⟨S_, .i32⟩) main_c_102) (TRef.of (T := ⟨S_, .f32⟩) main_call34_v0) (sitofp .f32),
    TRef.binary (TRef.of (T := ⟨S8x96x286, .f32⟩) main_v241) (TRef.of (T := ⟨S_, .f32⟩) main_call34_v0) (TRef.of (T := ⟨S8x96x320, .f32⟩) main_v242) (fun x v => pad S8x96x320 ![0, 0, 34] ![0, 0, 0] ![0, 0, 0] x v pads_S8x96x286_S8x96x320_000_000_3400 h_S_),
    unary main_arg0 main_v243 ((extractStridedSlice S8x128x96x285 ![0, 0, 0, 35] · slices_S8x128x96x320_S8x128x96x285_0_0_0_35) : (⟨S8x128x96x320, .f32⟩ : BufTy).Contents (Elt F) → (⟨S8x128x96x285, .f32⟩ : BufTy).Contents (Elt F)),
    unary main_arg1 main_v244 ((extractStridedSlice S8x128x96x285 ![0, 0, 0, 0] · slices_S8x128x96x320_S8x128x96x285_0_0_0_0) : (⟨S8x128x96x320, .f32⟩ : BufTy).Contents (Elt F) → (⟨S8x128x96x285, .f32⟩ : BufTy).Contents (Elt F)),
    binary main_v243 main_v244 main_v245 (mulf : (⟨S8x128x96x285, .f32⟩ : BufTy).Contents (Elt F) → (⟨S8x128x96x285, .f32⟩ : BufTy).Contents (Elt F) → (⟨S8x128x96x285, .f32⟩ : BufTy).Contents (Elt F)),
    nullary main_cst_103 (constant S_ .f32 0x00000000#32),
    binary main_v245 main_cst_103 main_v246 ((fun x v => Host.reduceAdd x v reducesTo_S8x128x96x285_S8x96x285_d1 h_S_) : (⟨S8x128x96x285, .f32⟩ : BufTy).Contents (Elt F) → (⟨S_, .f32⟩ : BufTy).Contents (Elt F) → (⟨S8x96x285, .f32⟩ : BufTy).Contents (Elt F)),
    nullary main_cst_104 (constant S_ .f32 0x43000000#32),
    unary main_cst_104 main_v247 (broadcastInDim S8x96x285 ![] bcast_S_S8x96x285 : (⟨S_, .f32⟩ : BufTy).Contents (Elt F) → (⟨S8x96x285, .f32⟩ : BufTy).Contents (Elt F)),
    binary main_v246 main_v247 main_v248 (Host.divf : (⟨S8x96x285, .f32⟩ : BufTy).Contents (Elt F) → (⟨S8x96x285, .f32⟩ : BufTy).Contents (Elt F) → (⟨S8x96x285, .f32⟩ : BufTy).Contents (Elt F)),
    nullary main_c_105 (constantI S_ 32 0#32),
    TRef.unary (TRef.of (T := ⟨S_, .i32⟩) main_c_105) (TRef.of (T := ⟨S_, .f32⟩) main_call35_v0) (sitofp .f32),
    TRef.binary (TRef.of (T := ⟨S8x96x285, .f32⟩) main_v248) (TRef.of (T := ⟨S_, .f32⟩) main_call35_v0) (TRef.of (T := ⟨S8x96x320, .f32⟩) main_v249) (fun x v => pad S8x96x320 ![0, 0, 35] ![0, 0, 0] ![0, 0, 0] x v pads_S8x96x285_S8x96x320_000_000_3500 h_S_) ]

set_option maxHeartbeats 4000000 in
/-- Operations 395 to 438: planes 36 to 39. -/
def c9 : List (HloOp τ sig (Elt F)) :=
  [ unary main_arg0 main_v250 ((extractStridedSlice S8x128x96x284 ![0, 0, 0, 36] · slices_S8x128x96x320_S8x128x96x284_0_0_0_36) : (⟨S8x128x96x320, .f32⟩ : BufTy).Contents (Elt F) → (⟨S8x128x96x284, .f32⟩ : BufTy).Contents (Elt F)),
    unary main_arg1 main_v251 ((extractStridedSlice S8x128x96x284 ![0, 0, 0, 0] · slices_S8x128x96x320_S8x128x96x284_0_0_0_0) : (⟨S8x128x96x320, .f32⟩ : BufTy).Contents (Elt F) → (⟨S8x128x96x284, .f32⟩ : BufTy).Contents (Elt F)),
    binary main_v250 main_v251 main_v252 (mulf : (⟨S8x128x96x284, .f32⟩ : BufTy).Contents (Elt F) → (⟨S8x128x96x284, .f32⟩ : BufTy).Contents (Elt F) → (⟨S8x128x96x284, .f32⟩ : BufTy).Contents (Elt F)),
    nullary main_cst_106 (constant S_ .f32 0x00000000#32),
    binary main_v252 main_cst_106 main_v253 ((fun x v => Host.reduceAdd x v reducesTo_S8x128x96x284_S8x96x284_d1 h_S_) : (⟨S8x128x96x284, .f32⟩ : BufTy).Contents (Elt F) → (⟨S_, .f32⟩ : BufTy).Contents (Elt F) → (⟨S8x96x284, .f32⟩ : BufTy).Contents (Elt F)),
    nullary main_cst_107 (constant S_ .f32 0x43000000#32),
    unary main_cst_107 main_v254 (broadcastInDim S8x96x284 ![] bcast_S_S8x96x284 : (⟨S_, .f32⟩ : BufTy).Contents (Elt F) → (⟨S8x96x284, .f32⟩ : BufTy).Contents (Elt F)),
    binary main_v253 main_v254 main_v255 (Host.divf : (⟨S8x96x284, .f32⟩ : BufTy).Contents (Elt F) → (⟨S8x96x284, .f32⟩ : BufTy).Contents (Elt F) → (⟨S8x96x284, .f32⟩ : BufTy).Contents (Elt F)),
    nullary main_c_108 (constantI S_ 32 0#32),
    TRef.unary (TRef.of (T := ⟨S_, .i32⟩) main_c_108) (TRef.of (T := ⟨S_, .f32⟩) main_call36_v0) (sitofp .f32),
    TRef.binary (TRef.of (T := ⟨S8x96x284, .f32⟩) main_v255) (TRef.of (T := ⟨S_, .f32⟩) main_call36_v0) (TRef.of (T := ⟨S8x96x320, .f32⟩) main_v256) (fun x v => pad S8x96x320 ![0, 0, 36] ![0, 0, 0] ![0, 0, 0] x v pads_S8x96x284_S8x96x320_000_000_3600 h_S_),
    unary main_arg0 main_v257 ((extractStridedSlice S8x128x96x283 ![0, 0, 0, 37] · slices_S8x128x96x320_S8x128x96x283_0_0_0_37) : (⟨S8x128x96x320, .f32⟩ : BufTy).Contents (Elt F) → (⟨S8x128x96x283, .f32⟩ : BufTy).Contents (Elt F)),
    unary main_arg1 main_v258 ((extractStridedSlice S8x128x96x283 ![0, 0, 0, 0] · slices_S8x128x96x320_S8x128x96x283_0_0_0_0) : (⟨S8x128x96x320, .f32⟩ : BufTy).Contents (Elt F) → (⟨S8x128x96x283, .f32⟩ : BufTy).Contents (Elt F)),
    binary main_v257 main_v258 main_v259 (mulf : (⟨S8x128x96x283, .f32⟩ : BufTy).Contents (Elt F) → (⟨S8x128x96x283, .f32⟩ : BufTy).Contents (Elt F) → (⟨S8x128x96x283, .f32⟩ : BufTy).Contents (Elt F)),
    nullary main_cst_109 (constant S_ .f32 0x00000000#32),
    binary main_v259 main_cst_109 main_v260 ((fun x v => Host.reduceAdd x v reducesTo_S8x128x96x283_S8x96x283_d1 h_S_) : (⟨S8x128x96x283, .f32⟩ : BufTy).Contents (Elt F) → (⟨S_, .f32⟩ : BufTy).Contents (Elt F) → (⟨S8x96x283, .f32⟩ : BufTy).Contents (Elt F)),
    nullary main_cst_110 (constant S_ .f32 0x43000000#32),
    unary main_cst_110 main_v261 (broadcastInDim S8x96x283 ![] bcast_S_S8x96x283 : (⟨S_, .f32⟩ : BufTy).Contents (Elt F) → (⟨S8x96x283, .f32⟩ : BufTy).Contents (Elt F)),
    binary main_v260 main_v261 main_v262 (Host.divf : (⟨S8x96x283, .f32⟩ : BufTy).Contents (Elt F) → (⟨S8x96x283, .f32⟩ : BufTy).Contents (Elt F) → (⟨S8x96x283, .f32⟩ : BufTy).Contents (Elt F)),
    nullary main_c_111 (constantI S_ 32 0#32),
    TRef.unary (TRef.of (T := ⟨S_, .i32⟩) main_c_111) (TRef.of (T := ⟨S_, .f32⟩) main_call37_v0) (sitofp .f32),
    TRef.binary (TRef.of (T := ⟨S8x96x283, .f32⟩) main_v262) (TRef.of (T := ⟨S_, .f32⟩) main_call37_v0) (TRef.of (T := ⟨S8x96x320, .f32⟩) main_v263) (fun x v => pad S8x96x320 ![0, 0, 37] ![0, 0, 0] ![0, 0, 0] x v pads_S8x96x283_S8x96x320_000_000_3700 h_S_),
    unary main_arg0 main_v264 ((extractStridedSlice S8x128x96x282 ![0, 0, 0, 38] · slices_S8x128x96x320_S8x128x96x282_0_0_0_38) : (⟨S8x128x96x320, .f32⟩ : BufTy).Contents (Elt F) → (⟨S8x128x96x282, .f32⟩ : BufTy).Contents (Elt F)),
    unary main_arg1 main_v265 ((extractStridedSlice S8x128x96x282 ![0, 0, 0, 0] · slices_S8x128x96x320_S8x128x96x282_0_0_0_0) : (⟨S8x128x96x320, .f32⟩ : BufTy).Contents (Elt F) → (⟨S8x128x96x282, .f32⟩ : BufTy).Contents (Elt F)),
    binary main_v264 main_v265 main_v266 (mulf : (⟨S8x128x96x282, .f32⟩ : BufTy).Contents (Elt F) → (⟨S8x128x96x282, .f32⟩ : BufTy).Contents (Elt F) → (⟨S8x128x96x282, .f32⟩ : BufTy).Contents (Elt F)),
    nullary main_cst_112 (constant S_ .f32 0x00000000#32),
    binary main_v266 main_cst_112 main_v267 ((fun x v => Host.reduceAdd x v reducesTo_S8x128x96x282_S8x96x282_d1 h_S_) : (⟨S8x128x96x282, .f32⟩ : BufTy).Contents (Elt F) → (⟨S_, .f32⟩ : BufTy).Contents (Elt F) → (⟨S8x96x282, .f32⟩ : BufTy).Contents (Elt F)),
    nullary main_cst_113 (constant S_ .f32 0x43000000#32),
    unary main_cst_113 main_v268 (broadcastInDim S8x96x282 ![] bcast_S_S8x96x282 : (⟨S_, .f32⟩ : BufTy).Contents (Elt F) → (⟨S8x96x282, .f32⟩ : BufTy).Contents (Elt F)),
    binary main_v267 main_v268 main_v269 (Host.divf : (⟨S8x96x282, .f32⟩ : BufTy).Contents (Elt F) → (⟨S8x96x282, .f32⟩ : BufTy).Contents (Elt F) → (⟨S8x96x282, .f32⟩ : BufTy).Contents (Elt F)),
    nullary main_c_114 (constantI S_ 32 0#32),
    TRef.unary (TRef.of (T := ⟨S_, .i32⟩) main_c_114) (TRef.of (T := ⟨S_, .f32⟩) main_call38_v0) (sitofp .f32),
    TRef.binary (TRef.of (T := ⟨S8x96x282, .f32⟩) main_v269) (TRef.of (T := ⟨S_, .f32⟩) main_call38_v0) (TRef.of (T := ⟨S8x96x320, .f32⟩) main_v270) (fun x v => pad S8x96x320 ![0, 0, 38] ![0, 0, 0] ![0, 0, 0] x v pads_S8x96x282_S8x96x320_000_000_3800 h_S_),
    unary main_arg0 main_v271 ((extractStridedSlice S8x128x96x281 ![0, 0, 0, 39] · slices_S8x128x96x320_S8x128x96x281_0_0_0_39) : (⟨S8x128x96x320, .f32⟩ : BufTy).Contents (Elt F) → (⟨S8x128x96x281, .f32⟩ : BufTy).Contents (Elt F)),
    unary main_arg1 main_v272 ((extractStridedSlice S8x128x96x281 ![0, 0, 0, 0] · slices_S8x128x96x320_S8x128x96x281_0_0_0_0) : (⟨S8x128x96x320, .f32⟩ : BufTy).Contents (Elt F) → (⟨S8x128x96x281, .f32⟩ : BufTy).Contents (Elt F)),
    binary main_v271 main_v272 main_v273 (mulf : (⟨S8x128x96x281, .f32⟩ : BufTy).Contents (Elt F) → (⟨S8x128x96x281, .f32⟩ : BufTy).Contents (Elt F) → (⟨S8x128x96x281, .f32⟩ : BufTy).Contents (Elt F)),
    nullary main_cst_115 (constant S_ .f32 0x00000000#32),
    binary main_v273 main_cst_115 main_v274 ((fun x v => Host.reduceAdd x v reducesTo_S8x128x96x281_S8x96x281_d1 h_S_) : (⟨S8x128x96x281, .f32⟩ : BufTy).Contents (Elt F) → (⟨S_, .f32⟩ : BufTy).Contents (Elt F) → (⟨S8x96x281, .f32⟩ : BufTy).Contents (Elt F)),
    nullary main_cst_116 (constant S_ .f32 0x43000000#32),
    unary main_cst_116 main_v275 (broadcastInDim S8x96x281 ![] bcast_S_S8x96x281 : (⟨S_, .f32⟩ : BufTy).Contents (Elt F) → (⟨S8x96x281, .f32⟩ : BufTy).Contents (Elt F)),
    binary main_v274 main_v275 main_v276 (Host.divf : (⟨S8x96x281, .f32⟩ : BufTy).Contents (Elt F) → (⟨S8x96x281, .f32⟩ : BufTy).Contents (Elt F) → (⟨S8x96x281, .f32⟩ : BufTy).Contents (Elt F)),
    nullary main_c_117 (constantI S_ 32 0#32),
    TRef.unary (TRef.of (T := ⟨S_, .i32⟩) main_c_117) (TRef.of (T := ⟨S_, .f32⟩) main_call39_v0) (sitofp .f32),
    TRef.binary (TRef.of (T := ⟨S8x96x281, .f32⟩) main_v276) (TRef.of (T := ⟨S_, .f32⟩) main_call39_v0) (TRef.of (T := ⟨S8x96x320, .f32⟩) main_v277) (fun x v => pad S8x96x320 ![0, 0, 39] ![0, 0, 0] ![0, 0, 0] x v pads_S8x96x281_S8x96x320_000_000_3900 h_S_) ]

set_option maxHeartbeats 4000000 in
/-- Operations 439 to 482: planes 40 to 43. -/
def c10 : List (HloOp τ sig (Elt F)) :=
  [ unary main_arg0 main_v278 ((extractStridedSlice S8x128x96x280 ![0, 0, 0, 40] · slices_S8x128x96x320_S8x128x96x280_0_0_0_40) : (⟨S8x128x96x320, .f32⟩ : BufTy).Contents (Elt F) → (⟨S8x128x96x280, .f32⟩ : BufTy).Contents (Elt F)),
    unary main_arg1 main_v279 ((extractStridedSlice S8x128x96x280 ![0, 0, 0, 0] · slices_S8x128x96x320_S8x128x96x280_0_0_0_0) : (⟨S8x128x96x320, .f32⟩ : BufTy).Contents (Elt F) → (⟨S8x128x96x280, .f32⟩ : BufTy).Contents (Elt F)),
    binary main_v278 main_v279 main_v280 (mulf : (⟨S8x128x96x280, .f32⟩ : BufTy).Contents (Elt F) → (⟨S8x128x96x280, .f32⟩ : BufTy).Contents (Elt F) → (⟨S8x128x96x280, .f32⟩ : BufTy).Contents (Elt F)),
    nullary main_cst_118 (constant S_ .f32 0x00000000#32),
    binary main_v280 main_cst_118 main_v281 ((fun x v => Host.reduceAdd x v reducesTo_S8x128x96x280_S8x96x280_d1 h_S_) : (⟨S8x128x96x280, .f32⟩ : BufTy).Contents (Elt F) → (⟨S_, .f32⟩ : BufTy).Contents (Elt F) → (⟨S8x96x280, .f32⟩ : BufTy).Contents (Elt F)),
    nullary main_cst_119 (constant S_ .f32 0x43000000#32),
    unary main_cst_119 main_v282 (broadcastInDim S8x96x280 ![] bcast_S_S8x96x280 : (⟨S_, .f32⟩ : BufTy).Contents (Elt F) → (⟨S8x96x280, .f32⟩ : BufTy).Contents (Elt F)),
    binary main_v281 main_v282 main_v283 (Host.divf : (⟨S8x96x280, .f32⟩ : BufTy).Contents (Elt F) → (⟨S8x96x280, .f32⟩ : BufTy).Contents (Elt F) → (⟨S8x96x280, .f32⟩ : BufTy).Contents (Elt F)),
    nullary main_c_120 (constantI S_ 32 0#32),
    TRef.unary (TRef.of (T := ⟨S_, .i32⟩) main_c_120) (TRef.of (T := ⟨S_, .f32⟩) main_call40_v0) (sitofp .f32),
    TRef.binary (TRef.of (T := ⟨S8x96x280, .f32⟩) main_v283) (TRef.of (T := ⟨S_, .f32⟩) main_call40_v0) (TRef.of (T := ⟨S8x96x320, .f32⟩) main_v284) (fun x v => pad S8x96x320 ![0, 0, 40] ![0, 0, 0] ![0, 0, 0] x v pads_S8x96x280_S8x96x320_000_000_4000 h_S_),
    unary main_arg0 main_v285 ((extractStridedSlice S8x128x96x279 ![0, 0, 0, 41] · slices_S8x128x96x320_S8x128x96x279_0_0_0_41) : (⟨S8x128x96x320, .f32⟩ : BufTy).Contents (Elt F) → (⟨S8x128x96x279, .f32⟩ : BufTy).Contents (Elt F)),
    unary main_arg1 main_v286 ((extractStridedSlice S8x128x96x279 ![0, 0, 0, 0] · slices_S8x128x96x320_S8x128x96x279_0_0_0_0) : (⟨S8x128x96x320, .f32⟩ : BufTy).Contents (Elt F) → (⟨S8x128x96x279, .f32⟩ : BufTy).Contents (Elt F)),
    binary main_v285 main_v286 main_v287 (mulf : (⟨S8x128x96x279, .f32⟩ : BufTy).Contents (Elt F) → (⟨S8x128x96x279, .f32⟩ : BufTy).Contents (Elt F) → (⟨S8x128x96x279, .f32⟩ : BufTy).Contents (Elt F)),
    nullary main_cst_121 (constant S_ .f32 0x00000000#32),
    binary main_v287 main_cst_121 main_v288 ((fun x v => Host.reduceAdd x v reducesTo_S8x128x96x279_S8x96x279_d1 h_S_) : (⟨S8x128x96x279, .f32⟩ : BufTy).Contents (Elt F) → (⟨S_, .f32⟩ : BufTy).Contents (Elt F) → (⟨S8x96x279, .f32⟩ : BufTy).Contents (Elt F)),
    nullary main_cst_122 (constant S_ .f32 0x43000000#32),
    unary main_cst_122 main_v289 (broadcastInDim S8x96x279 ![] bcast_S_S8x96x279 : (⟨S_, .f32⟩ : BufTy).Contents (Elt F) → (⟨S8x96x279, .f32⟩ : BufTy).Contents (Elt F)),
    binary main_v288 main_v289 main_v290 (Host.divf : (⟨S8x96x279, .f32⟩ : BufTy).Contents (Elt F) → (⟨S8x96x279, .f32⟩ : BufTy).Contents (Elt F) → (⟨S8x96x279, .f32⟩ : BufTy).Contents (Elt F)),
    nullary main_c_123 (constantI S_ 32 0#32),
    TRef.unary (TRef.of (T := ⟨S_, .i32⟩) main_c_123) (TRef.of (T := ⟨S_, .f32⟩) main_call41_v0) (sitofp .f32),
    TRef.binary (TRef.of (T := ⟨S8x96x279, .f32⟩) main_v290) (TRef.of (T := ⟨S_, .f32⟩) main_call41_v0) (TRef.of (T := ⟨S8x96x320, .f32⟩) main_v291) (fun x v => pad S8x96x320 ![0, 0, 41] ![0, 0, 0] ![0, 0, 0] x v pads_S8x96x279_S8x96x320_000_000_4100 h_S_),
    unary main_arg0 main_v292 ((extractStridedSlice S8x128x96x278 ![0, 0, 0, 42] · slices_S8x128x96x320_S8x128x96x278_0_0_0_42) : (⟨S8x128x96x320, .f32⟩ : BufTy).Contents (Elt F) → (⟨S8x128x96x278, .f32⟩ : BufTy).Contents (Elt F)),
    unary main_arg1 main_v293 ((extractStridedSlice S8x128x96x278 ![0, 0, 0, 0] · slices_S8x128x96x320_S8x128x96x278_0_0_0_0) : (⟨S8x128x96x320, .f32⟩ : BufTy).Contents (Elt F) → (⟨S8x128x96x278, .f32⟩ : BufTy).Contents (Elt F)),
    binary main_v292 main_v293 main_v294 (mulf : (⟨S8x128x96x278, .f32⟩ : BufTy).Contents (Elt F) → (⟨S8x128x96x278, .f32⟩ : BufTy).Contents (Elt F) → (⟨S8x128x96x278, .f32⟩ : BufTy).Contents (Elt F)),
    nullary main_cst_124 (constant S_ .f32 0x00000000#32),
    binary main_v294 main_cst_124 main_v295 ((fun x v => Host.reduceAdd x v reducesTo_S8x128x96x278_S8x96x278_d1 h_S_) : (⟨S8x128x96x278, .f32⟩ : BufTy).Contents (Elt F) → (⟨S_, .f32⟩ : BufTy).Contents (Elt F) → (⟨S8x96x278, .f32⟩ : BufTy).Contents (Elt F)),
    nullary main_cst_125 (constant S_ .f32 0x43000000#32),
    unary main_cst_125 main_v296 (broadcastInDim S8x96x278 ![] bcast_S_S8x96x278 : (⟨S_, .f32⟩ : BufTy).Contents (Elt F) → (⟨S8x96x278, .f32⟩ : BufTy).Contents (Elt F)),
    binary main_v295 main_v296 main_v297 (Host.divf : (⟨S8x96x278, .f32⟩ : BufTy).Contents (Elt F) → (⟨S8x96x278, .f32⟩ : BufTy).Contents (Elt F) → (⟨S8x96x278, .f32⟩ : BufTy).Contents (Elt F)),
    nullary main_c_126 (constantI S_ 32 0#32),
    TRef.unary (TRef.of (T := ⟨S_, .i32⟩) main_c_126) (TRef.of (T := ⟨S_, .f32⟩) main_call42_v0) (sitofp .f32),
    TRef.binary (TRef.of (T := ⟨S8x96x278, .f32⟩) main_v297) (TRef.of (T := ⟨S_, .f32⟩) main_call42_v0) (TRef.of (T := ⟨S8x96x320, .f32⟩) main_v298) (fun x v => pad S8x96x320 ![0, 0, 42] ![0, 0, 0] ![0, 0, 0] x v pads_S8x96x278_S8x96x320_000_000_4200 h_S_),
    unary main_arg0 main_v299 ((extractStridedSlice S8x128x96x277 ![0, 0, 0, 43] · slices_S8x128x96x320_S8x128x96x277_0_0_0_43) : (⟨S8x128x96x320, .f32⟩ : BufTy).Contents (Elt F) → (⟨S8x128x96x277, .f32⟩ : BufTy).Contents (Elt F)),
    unary main_arg1 main_v300 ((extractStridedSlice S8x128x96x277 ![0, 0, 0, 0] · slices_S8x128x96x320_S8x128x96x277_0_0_0_0) : (⟨S8x128x96x320, .f32⟩ : BufTy).Contents (Elt F) → (⟨S8x128x96x277, .f32⟩ : BufTy).Contents (Elt F)),
    binary main_v299 main_v300 main_v301 (mulf : (⟨S8x128x96x277, .f32⟩ : BufTy).Contents (Elt F) → (⟨S8x128x96x277, .f32⟩ : BufTy).Contents (Elt F) → (⟨S8x128x96x277, .f32⟩ : BufTy).Contents (Elt F)),
    nullary main_cst_127 (constant S_ .f32 0x00000000#32),
    binary main_v301 main_cst_127 main_v302 ((fun x v => Host.reduceAdd x v reducesTo_S8x128x96x277_S8x96x277_d1 h_S_) : (⟨S8x128x96x277, .f32⟩ : BufTy).Contents (Elt F) → (⟨S_, .f32⟩ : BufTy).Contents (Elt F) → (⟨S8x96x277, .f32⟩ : BufTy).Contents (Elt F)),
    nullary main_cst_128 (constant S_ .f32 0x43000000#32),
    unary main_cst_128 main_v303 (broadcastInDim S8x96x277 ![] bcast_S_S8x96x277 : (⟨S_, .f32⟩ : BufTy).Contents (Elt F) → (⟨S8x96x277, .f32⟩ : BufTy).Contents (Elt F)),
    binary main_v302 main_v303 main_v304 (Host.divf : (⟨S8x96x277, .f32⟩ : BufTy).Contents (Elt F) → (⟨S8x96x277, .f32⟩ : BufTy).Contents (Elt F) → (⟨S8x96x277, .f32⟩ : BufTy).Contents (Elt F)),
    nullary main_c_129 (constantI S_ 32 0#32),
    TRef.unary (TRef.of (T := ⟨S_, .i32⟩) main_c_129) (TRef.of (T := ⟨S_, .f32⟩) main_call43_v0) (sitofp .f32),
    TRef.binary (TRef.of (T := ⟨S8x96x277, .f32⟩) main_v304) (TRef.of (T := ⟨S_, .f32⟩) main_call43_v0) (TRef.of (T := ⟨S8x96x320, .f32⟩) main_v305) (fun x v => pad S8x96x320 ![0, 0, 43] ![0, 0, 0] ![0, 0, 0] x v pads_S8x96x277_S8x96x320_000_000_4300 h_S_) ]

set_option maxHeartbeats 4000000 in
/-- Operations 483 to 526: planes 44 to 47. -/
def c11 : List (HloOp τ sig (Elt F)) :=
  [ unary main_arg0 main_v306 ((extractStridedSlice S8x128x96x276 ![0, 0, 0, 44] · slices_S8x128x96x320_S8x128x96x276_0_0_0_44) : (⟨S8x128x96x320, .f32⟩ : BufTy).Contents (Elt F) → (⟨S8x128x96x276, .f32⟩ : BufTy).Contents (Elt F)),
    unary main_arg1 main_v307 ((extractStridedSlice S8x128x96x276 ![0, 0, 0, 0] · slices_S8x128x96x320_S8x128x96x276_0_0_0_0) : (⟨S8x128x96x320, .f32⟩ : BufTy).Contents (Elt F) → (⟨S8x128x96x276, .f32⟩ : BufTy).Contents (Elt F)),
    binary main_v306 main_v307 main_v308 (mulf : (⟨S8x128x96x276, .f32⟩ : BufTy).Contents (Elt F) → (⟨S8x128x96x276, .f32⟩ : BufTy).Contents (Elt F) → (⟨S8x128x96x276, .f32⟩ : BufTy).Contents (Elt F)),
    nullary main_cst_130 (constant S_ .f32 0x00000000#32),
    binary main_v308 main_cst_130 main_v309 ((fun x v => Host.reduceAdd x v reducesTo_S8x128x96x276_S8x96x276_d1 h_S_) : (⟨S8x128x96x276, .f32⟩ : BufTy).Contents (Elt F) → (⟨S_, .f32⟩ : BufTy).Contents (Elt F) → (⟨S8x96x276, .f32⟩ : BufTy).Contents (Elt F)),
    nullary main_cst_131 (constant S_ .f32 0x43000000#32),
    unary main_cst_131 main_v310 (broadcastInDim S8x96x276 ![] bcast_S_S8x96x276 : (⟨S_, .f32⟩ : BufTy).Contents (Elt F) → (⟨S8x96x276, .f32⟩ : BufTy).Contents (Elt F)),
    binary main_v309 main_v310 main_v311 (Host.divf : (⟨S8x96x276, .f32⟩ : BufTy).Contents (Elt F) → (⟨S8x96x276, .f32⟩ : BufTy).Contents (Elt F) → (⟨S8x96x276, .f32⟩ : BufTy).Contents (Elt F)),
    nullary main_c_132 (constantI S_ 32 0#32),
    TRef.unary (TRef.of (T := ⟨S_, .i32⟩) main_c_132) (TRef.of (T := ⟨S_, .f32⟩) main_call44_v0) (sitofp .f32),
    TRef.binary (TRef.of (T := ⟨S8x96x276, .f32⟩) main_v311) (TRef.of (T := ⟨S_, .f32⟩) main_call44_v0) (TRef.of (T := ⟨S8x96x320, .f32⟩) main_v312) (fun x v => pad S8x96x320 ![0, 0, 44] ![0, 0, 0] ![0, 0, 0] x v pads_S8x96x276_S8x96x320_000_000_4400 h_S_),
    unary main_arg0 main_v313 ((extractStridedSlice S8x128x96x275 ![0, 0, 0, 45] · slices_S8x128x96x320_S8x128x96x275_0_0_0_45) : (⟨S8x128x96x320, .f32⟩ : BufTy).Contents (Elt F) → (⟨S8x128x96x275, .f32⟩ : BufTy).Contents (Elt F)),
    unary main_arg1 main_v314 ((extractStridedSlice S8x128x96x275 ![0, 0, 0, 0] · slices_S8x128x96x320_S8x128x96x275_0_0_0_0) : (⟨S8x128x96x320, .f32⟩ : BufTy).Contents (Elt F) → (⟨S8x128x96x275, .f32⟩ : BufTy).Contents (Elt F)),
    binary main_v313 main_v314 main_v315 (mulf : (⟨S8x128x96x275, .f32⟩ : BufTy).Contents (Elt F) → (⟨S8x128x96x275, .f32⟩ : BufTy).Contents (Elt F) → (⟨S8x128x96x275, .f32⟩ : BufTy).Contents (Elt F)),
    nullary main_cst_133 (constant S_ .f32 0x00000000#32),
    binary main_v315 main_cst_133 main_v316 ((fun x v => Host.reduceAdd x v reducesTo_S8x128x96x275_S8x96x275_d1 h_S_) : (⟨S8x128x96x275, .f32⟩ : BufTy).Contents (Elt F) → (⟨S_, .f32⟩ : BufTy).Contents (Elt F) → (⟨S8x96x275, .f32⟩ : BufTy).Contents (Elt F)),
    nullary main_cst_134 (constant S_ .f32 0x43000000#32),
    unary main_cst_134 main_v317 (broadcastInDim S8x96x275 ![] bcast_S_S8x96x275 : (⟨S_, .f32⟩ : BufTy).Contents (Elt F) → (⟨S8x96x275, .f32⟩ : BufTy).Contents (Elt F)),
    binary main_v316 main_v317 main_v318 (Host.divf : (⟨S8x96x275, .f32⟩ : BufTy).Contents (Elt F) → (⟨S8x96x275, .f32⟩ : BufTy).Contents (Elt F) → (⟨S8x96x275, .f32⟩ : BufTy).Contents (Elt F)),
    nullary main_c_135 (constantI S_ 32 0#32),
    TRef.unary (TRef.of (T := ⟨S_, .i32⟩) main_c_135) (TRef.of (T := ⟨S_, .f32⟩) main_call45_v0) (sitofp .f32),
    TRef.binary (TRef.of (T := ⟨S8x96x275, .f32⟩) main_v318) (TRef.of (T := ⟨S_, .f32⟩) main_call45_v0) (TRef.of (T := ⟨S8x96x320, .f32⟩) main_v319) (fun x v => pad S8x96x320 ![0, 0, 45] ![0, 0, 0] ![0, 0, 0] x v pads_S8x96x275_S8x96x320_000_000_4500 h_S_),
    unary main_arg0 main_v320 ((extractStridedSlice S8x128x96x274 ![0, 0, 0, 46] · slices_S8x128x96x320_S8x128x96x274_0_0_0_46) : (⟨S8x128x96x320, .f32⟩ : BufTy).Contents (Elt F) → (⟨S8x128x96x274, .f32⟩ : BufTy).Contents (Elt F)),
    unary main_arg1 main_v321 ((extractStridedSlice S8x128x96x274 ![0, 0, 0, 0] · slices_S8x128x96x320_S8x128x96x274_0_0_0_0) : (⟨S8x128x96x320, .f32⟩ : BufTy).Contents (Elt F) → (⟨S8x128x96x274, .f32⟩ : BufTy).Contents (Elt F)),
    binary main_v320 main_v321 main_v322 (mulf : (⟨S8x128x96x274, .f32⟩ : BufTy).Contents (Elt F) → (⟨S8x128x96x274, .f32⟩ : BufTy).Contents (Elt F) → (⟨S8x128x96x274, .f32⟩ : BufTy).Contents (Elt F)),
    nullary main_cst_136 (constant S_ .f32 0x00000000#32),
    binary main_v322 main_cst_136 main_v323 ((fun x v => Host.reduceAdd x v reducesTo_S8x128x96x274_S8x96x274_d1 h_S_) : (⟨S8x128x96x274, .f32⟩ : BufTy).Contents (Elt F) → (⟨S_, .f32⟩ : BufTy).Contents (Elt F) → (⟨S8x96x274, .f32⟩ : BufTy).Contents (Elt F)),
    nullary main_cst_137 (constant S_ .f32 0x43000000#32),
    unary main_cst_137 main_v324 (broadcastInDim S8x96x274 ![] bcast_S_S8x96x274 : (⟨S_, .f32⟩ : BufTy).Contents (Elt F) → (⟨S8x96x274, .f32⟩ : BufTy).Contents (Elt F)),
    binary main_v323 main_v324 main_v325 (Host.divf : (⟨S8x96x274, .f32⟩ : BufTy).Contents (Elt F) → (⟨S8x96x274, .f32⟩ : BufTy).Contents (Elt F) → (⟨S8x96x274, .f32⟩ : BufTy).Contents (Elt F)),
    nullary main_c_138 (constantI S_ 32 0#32),
    TRef.unary (TRef.of (T := ⟨S_, .i32⟩) main_c_138) (TRef.of (T := ⟨S_, .f32⟩) main_call46_v0) (sitofp .f32),
    TRef.binary (TRef.of (T := ⟨S8x96x274, .f32⟩) main_v325) (TRef.of (T := ⟨S_, .f32⟩) main_call46_v0) (TRef.of (T := ⟨S8x96x320, .f32⟩) main_v326) (fun x v => pad S8x96x320 ![0, 0, 46] ![0, 0, 0] ![0, 0, 0] x v pads_S8x96x274_S8x96x320_000_000_4600 h_S_),
    unary main_arg0 main_v327 ((extractStridedSlice S8x128x96x273 ![0, 0, 0, 47] · slices_S8x128x96x320_S8x128x96x273_0_0_0_47) : (⟨S8x128x96x320, .f32⟩ : BufTy).Contents (Elt F) → (⟨S8x128x96x273, .f32⟩ : BufTy).Contents (Elt F)),
    unary main_arg1 main_v328 ((extractStridedSlice S8x128x96x273 ![0, 0, 0, 0] · slices_S8x128x96x320_S8x128x96x273_0_0_0_0) : (⟨S8x128x96x320, .f32⟩ : BufTy).Contents (Elt F) → (⟨S8x128x96x273, .f32⟩ : BufTy).Contents (Elt F)),
    binary main_v327 main_v328 main_v329 (mulf : (⟨S8x128x96x273, .f32⟩ : BufTy).Contents (Elt F) → (⟨S8x128x96x273, .f32⟩ : BufTy).Contents (Elt F) → (⟨S8x128x96x273, .f32⟩ : BufTy).Contents (Elt F)),
    nullary main_cst_139 (constant S_ .f32 0x00000000#32),
    binary main_v329 main_cst_139 main_v330 ((fun x v => Host.reduceAdd x v reducesTo_S8x128x96x273_S8x96x273_d1 h_S_) : (⟨S8x128x96x273, .f32⟩ : BufTy).Contents (Elt F) → (⟨S_, .f32⟩ : BufTy).Contents (Elt F) → (⟨S8x96x273, .f32⟩ : BufTy).Contents (Elt F)),
    nullary main_cst_140 (constant S_ .f32 0x43000000#32),
    unary main_cst_140 main_v331 (broadcastInDim S8x96x273 ![] bcast_S_S8x96x273 : (⟨S_, .f32⟩ : BufTy).Contents (Elt F) → (⟨S8x96x273, .f32⟩ : BufTy).Contents (Elt F)),
    binary main_v330 main_v331 main_v332 (Host.divf : (⟨S8x96x273, .f32⟩ : BufTy).Contents (Elt F) → (⟨S8x96x273, .f32⟩ : BufTy).Contents (Elt F) → (⟨S8x96x273, .f32⟩ : BufTy).Contents (Elt F)),
    nullary main_c_141 (constantI S_ 32 0#32),
    TRef.unary (TRef.of (T := ⟨S_, .i32⟩) main_c_141) (TRef.of (T := ⟨S_, .f32⟩) main_call47_v0) (sitofp .f32),
    TRef.binary (TRef.of (T := ⟨S8x96x273, .f32⟩) main_v332) (TRef.of (T := ⟨S_, .f32⟩) main_call47_v0) (TRef.of (T := ⟨S8x96x320, .f32⟩) main_v333) (fun x v => pad S8x96x320 ![0, 0, 47] ![0, 0, 0] ![0, 0, 0] x v pads_S8x96x273_S8x96x320_000_000_4700 h_S_) ]

set_option maxHeartbeats 4000000 in
/-- Operations 527 to 578: the layout of the 48 planes and the four joins. -/
def cT : List (HloOp τ sig (Elt F)) :=
  [ unary main_v4 main_v334 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v11 main_v335 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v18 main_v336 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v25 main_v337 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v32 main_v338 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v39 main_v339 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v46 main_v340 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v53 main_v341 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v60 main_v342 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v67 main_v343 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v74 main_v344 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v81 main_v345 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v88 main_v346 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v95 main_v347 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v102 main_v348 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v109 main_v349 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v116 main_v350 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v123 main_v351 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v130 main_v352 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v137 main_v353 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v144 main_v354 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v151 main_v355 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v158 main_v356 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v165 main_v357 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v172 main_v358 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v179 main_v359 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v186 main_v360 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v193 main_v361 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v200 main_v362 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v207 main_v363 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v214 main_v364 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v221 main_v365 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v228 main_v366 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v235 main_v367 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v242 main_v368 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v249 main_v369 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v256 main_v370 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v263 main_v371 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v270 main_v372 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v277 main_v373 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v284 main_v374 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v291 main_v375 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v298 main_v376 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v305 main_v377 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v312 main_v378 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v319 main_v379 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v326 main_v380 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    unary main_v333 main_v381 (broadcastInDim S8x1x96x320 ![0, 2, 3] bcast_S8x96x320_S8x1x96x320_0_2_3 : (⟨S8x96x320, .f32⟩ : BufTy).Contents (Elt F) → (⟨S8x1x96x320, .f32⟩ : BufTy).Contents (Elt F)),
    nary ![main_v334, main_v335, main_v336, main_v337, main_v338, main_v339, main_v340, main_v341, main_v342, main_v343, main_v344, main_v345, main_v346, main_v347, main_v348, main_v349] main_v382 (fun u => concatenate S8x16x96x320 1 [⟨S8x1x96x320, u 0⟩, ⟨S8x1x96x320, u 1⟩, ⟨S8x1x96x320, u 2⟩, ⟨S8x1x96x320, u 3⟩, ⟨S8x1x96x320, u 4⟩, ⟨S8x1x96x320, u 5⟩, ⟨S8x1x96x320, u 6⟩, ⟨S8x1x96x320, u 7⟩, ⟨S8x1x96x320, u 8⟩, ⟨S8x1x96x320, u 9⟩, ⟨S8x1x96x320, u 10⟩, ⟨S8x1x96x320, u 11⟩, ⟨S8x1x96x320, u 12⟩, ⟨S8x1x96x320, u 13⟩, ⟨S8x1x96x320, u 14⟩, ⟨S8x1x96x320, u 15⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1),
    nary ![main_v350, main_v351, main_v352, main_v353, main_v354, main_v355, main_v356, main_v357, main_v358, main_v359, main_v360, main_v361, main_v362, main_v363, main_v364, main_v365] main_v383 (fun u => concatenate S8x16x96x320 1 [⟨S8x1x96x320, u 0⟩, ⟨S8x1x96x320, u 1⟩, ⟨S8x1x96x320, u 2⟩, ⟨S8x1x96x320, u 3⟩, ⟨S8x1x96x320, u 4⟩, ⟨S8x1x96x320, u 5⟩, ⟨S8x1x96x320, u 6⟩, ⟨S8x1x96x320, u 7⟩, ⟨S8x1x96x320, u 8⟩, ⟨S8x1x96x320, u 9⟩, ⟨S8x1x96x320, u 10⟩, ⟨S8x1x96x320, u 11⟩, ⟨S8x1x96x320, u 12⟩, ⟨S8x1x96x320, u 13⟩, ⟨S8x1x96x320, u 14⟩, ⟨S8x1x96x320, u 15⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1),
    nary ![main_v366, main_v367, main_v368, main_v369, main_v370, main_v371, main_v372, main_v373, main_v374, main_v375, main_v376, main_v377, main_v378, main_v379, main_v380, main_v381] main_v384 (fun u => concatenate S8x16x96x320 1 [⟨S8x1x96x320, u 0⟩, ⟨S8x1x96x320, u 1⟩, ⟨S8x1x96x320, u 2⟩, ⟨S8x1x96x320, u 3⟩, ⟨S8x1x96x320, u 4⟩, ⟨S8x1x96x320, u 5⟩, ⟨S8x1x96x320, u 6⟩, ⟨S8x1x96x320, u 7⟩, ⟨S8x1x96x320, u 8⟩, ⟨S8x1x96x320, u 9⟩, ⟨S8x1x96x320, u 10⟩, ⟨S8x1x96x320, u 11⟩, ⟨S8x1x96x320, u 12⟩, ⟨S8x1x96x320, u 13⟩, ⟨S8x1x96x320, u 14⟩, ⟨S8x1x96x320, u 15⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1),
    nary ![main_v382, main_v383, main_v384] main_v385 (fun u => concatenate S8x48x96x320 1 [⟨S8x16x96x320, u 0⟩, ⟨S8x16x96x320, u 1⟩, ⟨S8x16x96x320, u 2⟩] concatenates_S8x16x96x320_S8x16x96x320_S8x16x96x320_S8x48x96x320_d1) ]

set_option maxRecDepth 8192 in
theorem sub_c0 : (c0 : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c1 : (c1 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c2 : (c2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c3 : (c3 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c4 : (c4 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c5 : (c5 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c6 : (c6 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c7 : (c7 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c8 : (c8 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c9 : (c9 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c10 : (c10 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_c11 : (c11 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., unary_bufs_sub .., binary_bufs_sub ..⟩

set_option maxRecDepth 8192 in
theorem sub_cT : (cT : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nary_bufs_sub .., nary_bufs_sub .., nary_bufs_sub ..⟩

set_option maxRecDepth 8192 in
theorem fresh_c0 : ∀ op ∈ (c0 : List (HloOp τ sig (Elt F))), op.fresh = ∅ := by
  intro _ h; (repeat (cases h with | head => rfl | tail _ h => ?_)); exact nomatch h

set_option maxRecDepth 8192 in
theorem fresh_c1 : ∀ op ∈ (c1 : List (HloOp τ sig (Elt F))), op.fresh = ∅ := by
  intro _ h; (repeat (cases h with | head => rfl | tail _ h => ?_)); exact nomatch h

set_option maxRecDepth 8192 in
theorem fresh_c2 : ∀ op ∈ (c2 : List (HloOp τ sig (Elt F))), op.fresh = ∅ := by
  intro _ h; (repeat (cases h with | head => rfl | tail _ h => ?_)); exact nomatch h

set_option maxRecDepth 8192 in
theorem fresh_c3 : ∀ op ∈ (c3 : List (HloOp τ sig (Elt F))), op.fresh = ∅ := by
  intro _ h; (repeat (cases h with | head => rfl | tail _ h => ?_)); exact nomatch h

set_option maxRecDepth 8192 in
theorem fresh_c4 : ∀ op ∈ (c4 : List (HloOp τ sig (Elt F))), op.fresh = ∅ := by
  intro _ h; (repeat (cases h with | head => rfl | tail _ h => ?_)); exact nomatch h

set_option maxRecDepth 8192 in
theorem fresh_c5 : ∀ op ∈ (c5 : List (HloOp τ sig (Elt F))), op.fresh = ∅ := by
  intro _ h; (repeat (cases h with | head => rfl | tail _ h => ?_)); exact nomatch h

set_option maxRecDepth 8192 in
theorem fresh_c6 : ∀ op ∈ (c6 : List (HloOp τ sig (Elt F))), op.fresh = ∅ := by
  intro _ h; (repeat (cases h with | head => rfl | tail _ h => ?_)); exact nomatch h

set_option maxRecDepth 8192 in
theorem fresh_c7 : ∀ op ∈ (c7 : List (HloOp τ sig (Elt F))), op.fresh = ∅ := by
  intro _ h; (repeat (cases h with | head => rfl | tail _ h => ?_)); exact nomatch h

set_option maxRecDepth 8192 in
theorem fresh_c8 : ∀ op ∈ (c8 : List (HloOp τ sig (Elt F))), op.fresh = ∅ := by
  intro _ h; (repeat (cases h with | head => rfl | tail _ h => ?_)); exact nomatch h

set_option maxRecDepth 8192 in
theorem fresh_c9 : ∀ op ∈ (c9 : List (HloOp τ sig (Elt F))), op.fresh = ∅ := by
  intro _ h; (repeat (cases h with | head => rfl | tail _ h => ?_)); exact nomatch h

set_option maxRecDepth 8192 in
theorem fresh_c10 : ∀ op ∈ (c10 : List (HloOp τ sig (Elt F))), op.fresh = ∅ := by
  intro _ h; (repeat (cases h with | head => rfl | tail _ h => ?_)); exact nomatch h

set_option maxRecDepth 8192 in
theorem fresh_c11 : ∀ op ∈ (c11 : List (HloOp τ sig (Elt F))), op.fresh = ∅ := by
  intro _ h; (repeat (cases h with | head => rfl | tail _ h => ?_)); exact nomatch h

set_option maxRecDepth 8192 in
theorem fresh_cT : ∀ op ∈ (cT : List (HloOp τ sig (Elt F))), op.fresh = ∅ := by
  intro _ h; (repeat (cases h with | head => rfl | tail _ h => ?_)); exact nomatch h

end Cert.ReferenceIdeal.ValueP

end
-- ==== Proof.LibAppend.lean ====
/-
  A list in parts: three laws about `l₁ ++ l₂`.

  A property that holds of every member of two lists holds of every member of their concatenation (stated once for
  `List.Forall`, once for `∀ x ∈ l`); and the buffer contents after a straight-line list of operations `l₁ ++ l₂` are the
  contents after `l₂` FROM the contents after `l₁`. With them a long operation list given as a concatenation of short ones is
  handled one short list at a time.
-/
import Idealize.ShloMosaic.Lib.StableHlo.Run

namespace Cert.ListParts

open Idealize.ShloMosaic Idealize.ShloMosaic.StableHlo

/-- `List.Forall` of a concatenation, from its two parts. -/
theorem forall_append {α : Type} {P : α → Prop} {l₁ l₂ : List α} (h₁ : l₁.Forall P) (h₂ : l₂.Forall P) :
    (l₁ ++ l₂).Forall P :=
  List.forall_iff_forall_mem.mpr fun x hx =>
    (List.mem_append.mp hx).elim (List.forall_iff_forall_mem.mp h₁ x) (List.forall_iff_forall_mem.mp h₂ x)

/-- A property of every member of a concatenation, from its two parts. -/
theorem mem_append_all {α : Type} {P : α → Prop} {l₁ l₂ : List α} (h₁ : ∀ x ∈ l₁, P x) (h₂ : ∀ x ∈ l₂, P x) :
    ∀ x ∈ l₁ ++ l₂, P x :=
  fun x hx => (List.mem_append.mp hx).elim (h₁ x) (h₂ x)

/-- The contents after two lists of operations in a row are the second list's, from the first list's. -/
theorem after_append {τ : Topo} {sig : RefSig} {Val : EltTy → Type} (l₁ l₂ : List (HloOp τ sig Val))
    (V : Valuation τ sig Val) : after (l₁ ++ l₂) V = after l₂ (after l₁ V) := by
  induction l₁ generalizing V with
  | nil => rfl
  | cons op l ih => exact ih (op.result V)

end Cert.ListParts
-- ==== Proof.RefOps.lean ====
/- THE REFERENCE AS A LIST OF OPERATIONS, cut out of the text of the reference-run module that the certificate's generator writes
   for this program. @main's 578 operations are copied unchanged and in order, but as THIRTEEN short lists joined by ++ instead of
   one long one (a list literal of 578 entries is too large a step to elaborate): twelve lists of four planes of the cost volume
   each, every plane up to its padded [8, 96, 320] form, and the last 52 operations, which lay each plane out as [8, 1, 96, 320]
   and join them. That @main IS the sequence of the operations, that nothing is scoped, and the result's composed term of the two
   arguments are copied unchanged; that every operation touches TensorCore buffers only is the generated proof, entry by entry,
   cut at the same places and put together by the law for ++; that no operation leaves a buffer undetermined is the library's own
   case analysis, list by list. -/
import proofs.«167814_j57853209477697_1_alg».proof.Proof.RefOpsLists
import proofs.«167814_j57853209477697_1_alg».proof.Proof.LibAppend

noncomputable section

namespace Cert.ReferenceIdeal.ValueP

open Cert.ReferenceIdeal Cert.ReferenceIdeal.Gen Cert.ListParts Idealize.ShloMosaic Idealize.ShloMosaic.TcCoe Idealize.SL.Sem Idealize.ShloMosaic.StableHlo

variable {F : FTy → Type} [FloatOps F]

/-- @main's 578 operations, in order (a called function's operations stand in its call's place). -/
def ops : List (HloOp τ sig (Elt F)) :=
  c0 ++ c1 ++ c2 ++ c3 ++ c4 ++ c5 ++ c6 ++ c7 ++ c8 ++ c9 ++ c10 ++ c11 ++ cT

set_option maxRecDepth 1000000 in
set_option maxHeartbeats 40000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxHeartbeats 4000000 in
theorem ops_sub : (ops : List (HloOp τ sig (Elt F))).Forall fun op => op.bufs ⊆ tcRefs τ sig := by
  unfold ops
  exact forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (forall_append (P := fun op : HloOp τ sig (Elt F) => op.bufs ⊆ tcRefs τ sig) (sub_c0) sub_c1) sub_c2) sub_c3) sub_c4) sub_c5) sub_c6) sub_c7) sub_c8) sub_c9) sub_c10) sub_c11) sub_cT

set_option maxHeartbeats 4000000 in
theorem ops_fresh : ∀ op ∈ (ops : List (HloOp τ sig (Elt F))), op.fresh = ∅ := by
  unfold ops
  exact mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (mem_append_all (P := fun op : HloOp τ sig (Elt F) => op.fresh = ∅) (fresh_c0) fresh_c1) fresh_c2) fresh_c3) fresh_c4) fresh_c5) fresh_c6) fresh_c7) fresh_c8) fresh_c9) fresh_c10) fresh_c11) fresh_cT

set_option maxRecDepth 8192 in
/-- `main_v385`'s composed term of the arguments (named: it is long). -/
def res_main_v385 (m : (ℓ : Loc nD τ sig) → Buf (Elt F) ℓ) (c : Dev nD) : Buf (Elt F) ((c.tc : Thread nD τ).loc main_v385) :=
  concatenate S8x48x96x320 1 [⟨S8x16x96x320, (concatenate S8x16x96x320 1 [⟨S8x1x96x320, (broadcastInDim S8x1x96x320 ![0, 2, 3] bcast_S8x96x320_S8x1x96x320_0_2_3 (pad S8x96x320 ![0, 0, 0] ![0, 0, 0] ![0, 0, 0] (Host.divf (Host.reduceAdd (mulf (m ((c.tc : Thread nD τ).loc main_arg0)) (m ((c.tc : Thread nD τ).loc main_arg1))) (constant S_ .f32 0x00000000#32) reducesTo_S8x128x96x320_S8x96x320_d1 h_S_) (broadcastInDim S8x96x320 ![] bcast_S_S8x96x320 (constant S_ .f32 0x43000000#32))) (sitofp .f32 (constantI S_ 32 0#32)) pads_S8x96x320_S8x96x320_000_000_000 h_S_))⟩, ⟨S8x1x96x320, (broadcastInDim S8x1x96x320 ![0, 2, 3] bcast_S8x96x320_S8x1x96x320_0_2_3 (pad S8x96x320 ![0, 0, 1] ![0, 0, 0] ![0, 0, 0] (Host.divf (Host.reduceAdd (mulf (extractStridedSlice S8x128x96x319 ![0, 0, 0, 1] (m ((c.tc : Thread nD τ).loc main_arg0)) slices_S8x128x96x320_S8x128x96x319_0_0_0_1) (extractStridedSlice S8x128x96x319 ![0, 0, 0, 0] (m ((c.tc : Thread nD τ).loc main_arg1)) slices_S8x128x96x320_S8x128x96x319_0_0_0_0)) (constant S_ .f32 0x00000000#32) reducesTo_S8x128x96x319_S8x96x319_d1 h_S_) (broadcastInDim S8x96x319 ![] bcast_S_S8x96x319 (constant S_ .f32 0x43000000#32))) (sitofp .f32 (constantI S_ 32 0#32)) pads_S8x96x319_S8x96x320_000_000_100 h_S_))⟩, ⟨S8x1x96x320, (broadcastInDim S8x1x96x320 ![0, 2, 3] bcast_S8x96x320_S8x1x96x320_0_2_3 (pad S8x96x320 ![0, 0, 2] ![0, 0, 0] ![0, 0, 0] (Host.divf (Host.reduceAdd (mulf (extractStridedSlice S8x128x96x318 ![0, 0, 0, 2] (m ((c.tc : Thread nD τ).loc main_arg0)) slices_S8x128x96x320_S8x128x96x318_0_0_0_2) (extractStridedSlice S8x128x96x318 ![0, 0, 0, 0] (m ((c.tc : Thread nD τ).loc main_arg1)) slices_S8x128x96x320_S8x128x96x318_0_0_0_0)) (constant S_ .f32 0x00000000#32) reducesTo_S8x128x96x318_S8x96x318_d1 h_S_) (broadcastInDim S8x96x318 ![] bcast_S_S8x96x318 (constant S_ .f32 0x43000000#32))) (sitofp .f32 (constantI S_ 32 0#32)) pads_S8x96x318_S8x96x320_000_000_200 h_S_))⟩, ⟨S8x1x96x320, (broadcastInDim S8x1x96x320 ![0, 2, 3] bcast_S8x96x320_S8x1x96x320_0_2_3 (pad S8x96x320 ![0, 0, 3] ![0, 0, 0] ![0, 0, 0] (Host.divf (Host.reduceAdd (mulf (extractStridedSlice S8x128x96x317 ![0, 0, 0, 3] (m ((c.tc : Thread nD τ).loc main_arg0)) slices_S8x128x96x320_S8x128x96x317_0_0_0_3) (extractStridedSlice S8x128x96x317 ![0, 0, 0, 0] (m ((c.tc : Thread nD τ).loc main_arg1)) slices_S8x128x96x320_S8x128x96x317_0_0_0_0)) (constant S_ .f32 0x00000000#32) reducesTo_S8x128x96x317_S8x96x317_d1 h_S_) (broadcastInDim S8x96x317 ![] bcast_S_S8x96x317 (constant S_ .f32 0x43000000#32))) (sitofp .f32 (constantI S_ 32 0#32)) pads_S8x96x317_S8x96x320_000_000_300 h_S_))⟩, ⟨S8x1x96x320, (broadcastInDim S8x1x96x320 ![0, 2, 3] bcast_S8x96x320_S8x1x96x320_0_2_3 (pad S8x96x320 ![0, 0, 4] ![0, 0, 0] ![0, 0, 0] (Host.divf (Host.reduceAdd (mulf (extractStridedSlice S8x128x96x316 ![0, 0, 0, 4] (m ((c.tc : Thread nD τ).loc main_arg0)) slices_S8x128x96x320_S8x128x96x316_0_0_0_4) (extractStridedSlice S8x128x96x316 ![0, 0, 0, 0] (m ((c.tc : Thread nD τ).loc main_arg1)) slices_S8x128x96x320_S8x128x96x316_0_0_0_0)) (constant S_ .f32 0x00000000#32) reducesTo_S8x128x96x316_S8x96x316_d1 h_S_) (broadcastInDim S8x96x316 ![] bcast_S_S8x96x316 (constant S_ .f32 0x43000000#32))) (sitofp .f32 (constantI S_ 32 0#32)) pads_S8x96x316_S8x96x320_000_000_400 h_S_))⟩, ⟨S8x1x96x320, (broadcastInDim S8x1x96x320 ![0, 2, 3] bcast_S8x96x320_S8x1x96x320_0_2_3 (pad S8x96x320 ![0, 0, 5] ![0, 0, 0] ![0, 0, 0] (Host.divf (Host.reduceAdd (mulf (extractStridedSlice S8x128x96x315 ![0, 0, 0, 5] (m ((c.tc : Thread nD τ).loc main_arg0)) slices_S8x128x96x320_S8x128x96x315_0_0_0_5) (extractStridedSlice S8x128x96x315 ![0, 0, 0, 0] (m ((c.tc : Thread nD τ).loc main_arg1)) slices_S8x128x96x320_S8x128x96x315_0_0_0_0)) (constant S_ .f32 0x00000000#32) reducesTo_S8x128x96x315_S8x96x315_d1 h_S_) (broadcastInDim S8x96x315 ![] bcast_S_S8x96x315 (constant S_ .f32 0x43000000#32))) (sitofp .f32 (constantI S_ 32 0#32)) pads_S8x96x315_S8x96x320_000_000_500 h_S_))⟩, ⟨S8x1x96x320, (broadcastInDim S8x1x96x320 ![0, 2, 3] bcast_S8x96x320_S8x1x96x320_0_2_3 (pad S8x96x320 ![0, 0, 6] ![0, 0, 0] ![0, 0, 0] (Host.divf (Host.reduceAdd (mulf (extractStridedSlice S8x128x96x314 ![0, 0, 0, 6] (m ((c.tc : Thread nD τ).loc main_arg0)) slices_S8x128x96x320_S8x128x96x314_0_0_0_6) (extractStridedSlice S8x128x96x314 ![0, 0, 0, 0] (m ((c.tc : Thread nD τ).loc main_arg1)) slices_S8x128x96x320_S8x128x96x314_0_0_0_0)) (constant S_ .f32 0x00000000#32) reducesTo_S8x128x96x314_S8x96x314_d1 h_S_) (broadcastInDim S8x96x314 ![] bcast_S_S8x96x314 (constant S_ .f32 0x43000000#32))) (sitofp .f32 (constantI S_ 32 0#32)) pads_S8x96x314_S8x96x320_000_000_600 h_S_))⟩, ⟨S8x1x96x320, (broadcastInDim S8x1x96x320 ![0, 2, 3] bcast_S8x96x320_S8x1x96x320_0_2_3 (pad S8x96x320 ![0, 0, 7] ![0, 0, 0] ![0, 0, 0] (Host.divf (Host.reduceAdd (mulf (extractStridedSlice S8x128x96x313 ![0, 0, 0, 7] (m ((c.tc : Thread nD τ).loc main_arg0)) slices_S8x128x96x320_S8x128x96x313_0_0_0_7) (extractStridedSlice S8x128x96x313 ![0, 0, 0, 0] (m ((c.tc : Thread nD τ).loc main_arg1)) slices_S8x128x96x320_S8x128x96x313_0_0_0_0)) (constant S_ .f32 0x00000000#32) reducesTo_S8x128x96x313_S8x96x313_d1 h_S_) (broadcastInDim S8x96x313 ![] bcast_S_S8x96x313 (constant S_ .f32 0x43000000#32))) (sitofp .f32 (constantI S_ 32 0#32)) pads_S8x96x313_S8x96x320_000_000_700 h_S_))⟩, ⟨S8x1x96x320, (broadcastInDim S8x1x96x320 ![0, 2, 3] bcast_S8x96x320_S8x1x96x320_0_2_3 (pad S8x96x320 ![0, 0, 8] ![0, 0, 0] ![0, 0, 0] (Host.divf (Host.reduceAdd (mulf (extractStridedSlice S8x128x96x312 ![0, 0, 0, 8] (m ((c.tc : Thread nD τ).loc main_arg0)) slices_S8x128x96x320_S8x128x96x312_0_0_0_8) (extractStridedSlice S8x128x96x312 ![0, 0, 0, 0] (m ((c.tc : Thread nD τ).loc main_arg1)) slices_S8x128x96x320_S8x128x96x312_0_0_0_0)) (constant S_ .f32 0x00000000#32) reducesTo_S8x128x96x312_S8x96x312_d1 h_S_) (broadcastInDim S8x96x312 ![] bcast_S_S8x96x312 (constant S_ .f32 0x43000000#32))) (sitofp .f32 (constantI S_ 32 0#32)) pads_S8x96x312_S8x96x320_000_000_800 h_S_))⟩, ⟨S8x1x96x320, (broadcastInDim S8x1x96x320 ![0, 2, 3] bcast_S8x96x320_S8x1x96x320_0_2_3 (pad S8x96x320 ![0, 0, 9] ![0, 0, 0] ![0, 0, 0] (Host.divf (Host.reduceAdd (mulf (extractStridedSlice S8x128x96x311 ![0, 0, 0, 9] (m ((c.tc : Thread nD τ).loc main_arg0)) slices_S8x128x96x320_S8x128x96x311_0_0_0_9) (extractStridedSlice S8x128x96x311 ![0, 0, 0, 0] (m ((c.tc : Thread nD τ).loc main_arg1)) slices_S8x128x96x320_S8x128x96x311_0_0_0_0)) (constant S_ .f32 0x00000000#32) reducesTo_S8x128x96x311_S8x96x311_d1 h_S_) (broadcastInDim S8x96x311 ![] bcast_S_S8x96x311 (constant S_ .f32 0x43000000#32))) (sitofp .f32 (constantI S_ 32 0#32)) pads_S8x96x311_S8x96x320_000_000_900 h_S_))⟩, ⟨S8x1x96x320, (broadcastInDim S8x1x96x320 ![0, 2, 3] bcast_S8x96x320_S8x1x96x320_0_2_3 (pad S8x96x320 ![0, 0, 10] ![0, 0, 0] ![0, 0, 0] (Host.divf (Host.reduceAdd (mulf (extractStridedSlice S8x128x96x310 ![0, 0, 0, 10] (m ((c.tc : Thread nD τ).loc main_arg0)) slices_S8x128x96x320_S8x128x96x310_0_0_0_10) (extractStridedSlice S8x128x96x310 ![0, 0, 0, 0] (m ((c.tc : Thread nD τ).loc main_arg1)) slices_S8x128x96x320_S8x128x96x310_0_0_0_0)) (constant S_ .f32 0x00000000#32) reducesTo_S8x128x96x310_S8x96x310_d1 h_S_) (broadcastInDim S8x96x310 ![] bcast_S_S8x96x310 (constant S_ .f32 0x43000000#32))) (sitofp .f32 (constantI S_ 32 0#32)) pads_S8x96x310_S8x96x320_000_000_1000 h_S_))⟩, ⟨S8x1x96x320, (broadcastInDim S8x1x96x320 ![0, 2, 3] bcast_S8x96x320_S8x1x96x320_0_2_3 (pad S8x96x320 ![0, 0, 11] ![0, 0, 0] ![0, 0, 0] (Host.divf (Host.reduceAdd (mulf (extractStridedSlice S8x128x96x309 ![0, 0, 0, 11] (m ((c.tc : Thread nD τ).loc main_arg0)) slices_S8x128x96x320_S8x128x96x309_0_0_0_11) (extractStridedSlice S8x128x96x309 ![0, 0, 0, 0] (m ((c.tc : Thread nD τ).loc main_arg1)) slices_S8x128x96x320_S8x128x96x309_0_0_0_0)) (constant S_ .f32 0x00000000#32) reducesTo_S8x128x96x309_S8x96x309_d1 h_S_) (broadcastInDim S8x96x309 ![] bcast_S_S8x96x309 (constant S_ .f32 0x43000000#32))) (sitofp .f32 (constantI S_ 32 0#32)) pads_S8x96x309_S8x96x320_000_000_1100 h_S_))⟩, ⟨S8x1x96x320, (broadcastInDim S8x1x96x320 ![0, 2, 3] bcast_S8x96x320_S8x1x96x320_0_2_3 (pad S8x96x320 ![0, 0, 12] ![0, 0, 0] ![0, 0, 0] (Host.divf (Host.reduceAdd (mulf (extractStridedSlice S8x128x96x308 ![0, 0, 0, 12] (m ((c.tc : Thread nD τ).loc main_arg0)) slices_S8x128x96x320_S8x128x96x308_0_0_0_12) (extractStridedSlice S8x128x96x308 ![0, 0, 0, 0] (m ((c.tc : Thread nD τ).loc main_arg1)) slices_S8x128x96x320_S8x128x96x308_0_0_0_0)) (constant S_ .f32 0x00000000#32) reducesTo_S8x128x96x308_S8x96x308_d1 h_S_) (broadcastInDim S8x96x308 ![] bcast_S_S8x96x308 (constant S_ .f32 0x43000000#32))) (sitofp .f32 (constantI S_ 32 0#32)) pads_S8x96x308_S8x96x320_000_000_1200 h_S_))⟩, ⟨S8x1x96x320, (broadcastInDim S8x1x96x320 ![0, 2, 3] bcast_S8x96x320_S8x1x96x320_0_2_3 (pad S8x96x320 ![0, 0, 13] ![0, 0, 0] ![0, 0, 0] (Host.divf (Host.reduceAdd (mulf (extractStridedSlice S8x128x96x307 ![0, 0, 0, 13] (m ((c.tc : Thread nD τ).loc main_arg0)) slices_S8x128x96x320_S8x128x96x307_0_0_0_13) (extractStridedSlice S8x128x96x307 ![0, 0, 0, 0] (m ((c.tc : Thread nD τ).loc main_arg1)) slices_S8x128x96x320_S8x128x96x307_0_0_0_0)) (constant S_ .f32 0x00000000#32) reducesTo_S8x128x96x307_S8x96x307_d1 h_S_) (broadcastInDim S8x96x307 ![] bcast_S_S8x96x307 (constant S_ .f32 0x43000000#32))) (sitofp .f32 (constantI S_ 32 0#32)) pads_S8x96x307_S8x96x320_000_000_1300 h_S_))⟩, ⟨S8x1x96x320, (broadcastInDim S8x1x96x320 ![0, 2, 3] bcast_S8x96x320_S8x1x96x320_0_2_3 (pad S8x96x320 ![0, 0, 14] ![0, 0, 0] ![0, 0, 0] (Host.divf (Host.reduceAdd (mulf (extractStridedSlice S8x128x96x306 ![0, 0, 0, 14] (m ((c.tc : Thread nD τ).loc main_arg0)) slices_S8x128x96x320_S8x128x96x306_0_0_0_14) (extractStridedSlice S8x128x96x306 ![0, 0, 0, 0] (m ((c.tc : Thread nD τ).loc main_arg1)) slices_S8x128x96x320_S8x128x96x306_0_0_0_0)) (constant S_ .f32 0x00000000#32) reducesTo_S8x128x96x306_S8x96x306_d1 h_S_) (broadcastInDim S8x96x306 ![] bcast_S_S8x96x306 (constant S_ .f32 0x43000000#32))) (sitofp .f32 (constantI S_ 32 0#32)) pads_S8x96x306_S8x96x320_000_000_1400 h_S_))⟩, ⟨S8x1x96x320, (broadcastInDim S8x1x96x320 ![0, 2, 3] bcast_S8x96x320_S8x1x96x320_0_2_3 (pad S8x96x320 ![0, 0, 15] ![0, 0, 0] ![0, 0, 0] (Host.divf (Host.reduceAdd (mulf (extractStridedSlice S8x128x96x305 ![0, 0, 0, 15] (m ((c.tc : Thread nD τ).loc main_arg0)) slices_S8x128x96x320_S8x128x96x305_0_0_0_15) (extractStridedSlice S8x128x96x305 ![0, 0, 0, 0] (m ((c.tc : Thread nD τ).loc main_arg1)) slices_S8x128x96x320_S8x128x96x305_0_0_0_0)) (constant S_ .f32 0x00000000#32) reducesTo_S8x128x96x305_S8x96x305_d1 h_S_) (broadcastInDim S8x96x305 ![] bcast_S_S8x96x305 (constant S_ .f32 0x43000000#32))) (sitofp .f32 (constantI S_ 32 0#32)) pads_S8x96x305_S8x96x320_000_000_1500 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 (pad S8x96x320 ![0, 0, 16] ![0, 0, 0] ![0, 0, 0] (Host.divf (Host.reduceAdd (mulf (extractStridedSlice S8x128x96x304 ![0, 0, 0, 16] (m ((c.tc : Thread nD τ).loc main_arg0)) slices_S8x128x96x320_S8x128x96x304_0_0_0_16) (extractStridedSlice S8x128x96x304 ![0, 0, 0, 0] (m ((c.tc : Thread nD τ).loc main_arg1)) slices_S8x128x96x320_S8x128x96x304_0_0_0_0)) (constant S_ .f32 0x00000000#32) reducesTo_S8x128x96x304_S8x96x304_d1 h_S_) (broadcastInDim S8x96x304 ![] bcast_S_S8x96x304 (constant S_ .f32 0x43000000#32))) (sitofp .f32 (constantI S_ 32 0#32)) pads_S8x96x304_S8x96x320_000_000_1600 h_S_))⟩, ⟨S8x1x96x320, (broadcastInDim S8x1x96x320 ![0, 2, 3] bcast_S8x96x320_S8x1x96x320_0_2_3 (pad S8x96x320 ![0, 0, 17] ![0, 0, 0] ![0, 0, 0] (Host.divf (Host.reduceAdd (mulf (extractStridedSlice S8x128x96x303 ![0, 0, 0, 17] (m ((c.tc : Thread nD τ).loc main_arg0)) slices_S8x128x96x320_S8x128x96x303_0_0_0_17) (extractStridedSlice S8x128x96x303 ![0, 0, 0, 0] (m ((c.tc : Thread nD τ).loc main_arg1)) slices_S8x128x96x320_S8x128x96x303_0_0_0_0)) (constant S_ .f32 0x00000000#32) reducesTo_S8x128x96x303_S8x96x303_d1 h_S_) (broadcastInDim S8x96x303 ![] bcast_S_S8x96x303 (constant S_ .f32 0x43000000#32))) (sitofp .f32 (constantI S_ 32 0#32)) pads_S8x96x303_S8x96x320_000_000_1700 h_S_))⟩, ⟨S8x1x96x320, (broadcastInDim S8x1x96x320 ![0, 2, 3] bcast_S8x96x320_S8x1x96x320_0_2_3 (pad S8x96x320 ![0, 0, 18] ![0, 0, 0] ![0, 0, 0] (Host.divf (Host.reduceAdd (mulf (extractStridedSlice S8x128x96x302 ![0, 0, 0, 18] (m ((c.tc : Thread nD τ).loc main_arg0)) slices_S8x128x96x320_S8x128x96x302_0_0_0_18) (extractStridedSlice S8x128x96x302 ![0, 0, 0, 0] (m ((c.tc : Thread nD τ).loc main_arg1)) slices_S8x128x96x320_S8x128x96x302_0_0_0_0)) (constant S_ .f32 0x00000000#32) reducesTo_S8x128x96x302_S8x96x302_d1 h_S_) (broadcastInDim S8x96x302 ![] bcast_S_S8x96x302 (constant S_ .f32 0x43000000#32))) (sitofp .f32 (constantI S_ 32 0#32)) pads_S8x96x302_S8x96x320_000_000_1800 h_S_))⟩, ⟨S8x1x96x320, (broadcastInDim S8x1x96x320 ![0, 2, 3] bcast_S8x96x320_S8x1x96x320_0_2_3 (pad S8x96x320 ![0, 0, 19] ![0, 0, 0] ![0, 0, 0] (Host.divf (Host.reduceAdd (mulf (extractStridedSlice S8x128x96x301 ![0, 0, 0, 19] (m ((c.tc : Thread nD τ).loc main_arg0)) slices_S8x128x96x320_S8x128x96x301_0_0_0_19) (extractStridedSlice S8x128x96x301 ![0, 0, 0, 0] (m ((c.tc : Thread nD τ).loc main_arg1)) slices_S8x128x96x320_S8x128x96x301_0_0_0_0)) (constant S_ .f32 0x00000000#32) reducesTo_S8x128x96x301_S8x96x301_d1 h_S_) (broadcastInDim S8x96x301 ![] bcast_S_S8x96x301 (constant S_ .f32 0x43000000#32))) (sitofp .f32 (constantI S_ 32 0#32)) pads_S8x96x301_S8x96x320_000_000_1900 h_S_))⟩, ⟨S8x1x96x320, (broadcastInDim S8x1x96x320 ![0, 2, 3] bcast_S8x96x320_S8x1x96x320_0_2_3 (pad S8x96x320 ![0, 0, 20] ![0, 0, 0] ![0, 0, 0] (Host.divf (Host.reduceAdd (mulf (extractStridedSlice S8x128x96x300 ![0, 0, 0, 20] (m ((c.tc : Thread nD τ).loc main_arg0)) slices_S8x128x96x320_S8x128x96x300_0_0_0_20) (extractStridedSlice S8x128x96x300 ![0, 0, 0, 0] (m ((c.tc : Thread nD τ).loc main_arg1)) slices_S8x128x96x320_S8x128x96x300_0_0_0_0)) (constant S_ .f32 0x00000000#32) reducesTo_S8x128x96x300_S8x96x300_d1 h_S_) (broadcastInDim S8x96x300 ![] bcast_S_S8x96x300 (constant S_ .f32 0x43000000#32))) (sitofp .f32 (constantI S_ 32 0#32)) pads_S8x96x300_S8x96x320_000_000_2000 h_S_))⟩, ⟨S8x1x96x320, (broadcastInDim S8x1x96x320 ![0, 2, 3] bcast_S8x96x320_S8x1x96x320_0_2_3 (pad S8x96x320 ![0, 0, 21] ![0, 0, 0] ![0, 0, 0] (Host.divf (Host.reduceAdd (mulf (extractStridedSlice S8x128x96x299 ![0, 0, 0, 21] (m ((c.tc : Thread nD τ).loc main_arg0)) slices_S8x128x96x320_S8x128x96x299_0_0_0_21) (extractStridedSlice S8x128x96x299 ![0, 0, 0, 0] (m ((c.tc : Thread nD τ).loc main_arg1)) slices_S8x128x96x320_S8x128x96x299_0_0_0_0)) (constant S_ .f32 0x00000000#32) reducesTo_S8x128x96x299_S8x96x299_d1 h_S_) (broadcastInDim S8x96x299 ![] bcast_S_S8x96x299 (constant S_ .f32 0x43000000#32))) (sitofp .f32 (constantI S_ 32 0#32)) pads_S8x96x299_S8x96x320_000_000_2100 h_S_))⟩, ⟨S8x1x96x320, (broadcastInDim S8x1x96x320 ![0, 2, 3] bcast_S8x96x320_S8x1x96x320_0_2_3 (pad S8x96x320 ![0, 0, 22] ![0, 0, 0] ![0, 0, 0] (Host.divf (Host.reduceAdd (mulf (extractStridedSlice S8x128x96x298 ![0, 0, 0, 22] (m ((c.tc : Thread nD τ).loc main_arg0)) slices_S8x128x96x320_S8x128x96x298_0_0_0_22) (extractStridedSlice S8x128x96x298 ![0, 0, 0, 0] (m ((c.tc : Thread nD τ).loc main_arg1)) slices_S8x128x96x320_S8x128x96x298_0_0_0_0)) (constant S_ .f32 0x00000000#32) reducesTo_S8x128x96x298_S8x96x298_d1 h_S_) (broadcastInDim S8x96x298 ![] bcast_S_S8x96x298 (constant S_ .f32 0x43000000#32))) (sitofp .f32 (constantI S_ 32 0#32)) pads_S8x96x298_S8x96x320_000_000_2200 h_S_))⟩, ⟨S8x1x96x320, (broadcastInDim S8x1x96x320 ![0, 2, 3] bcast_S8x96x320_S8x1x96x320_0_2_3 (pad S8x96x320 ![0, 0, 23] ![0, 0, 0] ![0, 0, 0] (Host.divf (Host.reduceAdd (mulf (extractStridedSlice S8x128x96x297 ![0, 0, 0, 23] (m ((c.tc : Thread nD τ).loc main_arg0)) slices_S8x128x96x320_S8x128x96x297_0_0_0_23) (extractStridedSlice S8x128x96x297 ![0, 0, 0, 0] (m ((c.tc : Thread nD τ).loc main_arg1)) slices_S8x128x96x320_S8x128x96x297_0_0_0_0)) (constant S_ .f32 0x00000000#32) reducesTo_S8x128x96x297_S8x96x297_d1 h_S_) (broadcastInDim S8x96x297 ![] bcast_S_S8x96x297 (constant S_ .f32 0x43000000#32))) (sitofp .f32 (constantI S_ 32 0#32)) pads_S8x96x297_S8x96x320_000_000_2300 h_S_))⟩, ⟨S8x1x96x320, (broadcastInDim S8x1x96x320 ![0, 2, 3] bcast_S8x96x320_S8x1x96x320_0_2_3 (pad S8x96x320 ![0, 0, 24] ![0, 0, 0] ![0, 0, 0] (Host.divf (Host.reduceAdd (mulf (extractStridedSlice S8x128x96x296 ![0, 0, 0, 24] (m ((c.tc : Thread nD τ).loc main_arg0)) slices_S8x128x96x320_S8x128x96x296_0_0_0_24) (extractStridedSlice S8x128x96x296 ![0, 0, 0, 0] (m ((c.tc : Thread nD τ).loc main_arg1)) slices_S8x128x96x320_S8x128x96x296_0_0_0_0)) (constant S_ .f32 0x00000000#32) reducesTo_S8x128x96x296_S8x96x296_d1 h_S_) (broadcastInDim S8x96x296 ![] bcast_S_S8x96x296 (constant S_ .f32 0x43000000#32))) (sitofp .f32 (constantI S_ 32 0#32)) pads_S8x96x296_S8x96x320_000_000_2400 h_S_))⟩, ⟨S8x1x96x320, (broadcastInDim S8x1x96x320 ![0, 2, 3] bcast_S8x96x320_S8x1x96x320_0_2_3 (pad S8x96x320 ![0, 0, 25] ![0, 0, 0] ![0, 0, 0] (Host.divf (Host.reduceAdd (mulf (extractStridedSlice S8x128x96x295 ![0, 0, 0, 25] (m ((c.tc : Thread nD τ).loc main_arg0)) slices_S8x128x96x320_S8x128x96x295_0_0_0_25) (extractStridedSlice S8x128x96x295 ![0, 0, 0, 0] (m ((c.tc : Thread nD τ).loc main_arg1)) slices_S8x128x96x320_S8x128x96x295_0_0_0_0)) (constant S_ .f32 0x00000000#32) reducesTo_S8x128x96x295_S8x96x295_d1 h_S_) (broadcastInDim S8x96x295 ![] bcast_S_S8x96x295 (constant S_ .f32 0x43000000#32))) (sitofp .f32 (constantI S_ 32 0#32)) pads_S8x96x295_S8x96x320_000_000_2500 h_S_))⟩, ⟨S8x1x96x320, (broadcastInDim S8x1x96x320 ![0, 2, 3] bcast_S8x96x320_S8x1x96x320_0_2_3 (pad S8x96x320 ![0, 0, 26] ![0, 0, 0] ![0, 0, 0] (Host.divf (Host.reduceAdd (mulf (extractStridedSlice S8x128x96x294 ![0, 0, 0, 26] (m ((c.tc : Thread nD τ).loc main_arg0)) slices_S8x128x96x320_S8x128x96x294_0_0_0_26) (extractStridedSlice S8x128x96x294 ![0, 0, 0, 0] (m ((c.tc : Thread nD τ).loc main_arg1)) slices_S8x128x96x320_S8x128x96x294_0_0_0_0)) (constant S_ .f32 0x00000000#32) reducesTo_S8x128x96x294_S8x96x294_d1 h_S_) (broadcastInDim S8x96x294 ![] bcast_S_S8x96x294 (constant S_ .f32 0x43000000#32))) (sitofp .f32 (constantI S_ 32 0#32)) pads_S8x96x294_S8x96x320_000_000_2600 h_S_))⟩, ⟨S8x1x96x320, (broadcastInDim S8x1x96x320 ![0, 2, 3] bcast_S8x96x320_S8x1x96x320_0_2_3 (pad S8x96x320 ![0, 0, 27] ![0, 0, 0] ![0, 0, 0] (Host.divf (Host.reduceAdd (mulf (extractStridedSlice S8x128x96x293 ![0, 0, 0, 27] (m ((c.tc : Thread nD τ).loc main_arg0)) slices_S8x128x96x320_S8x128x96x293_0_0_0_27) (extractStridedSlice S8x128x96x293 ![0, 0, 0, 0] (m ((c.tc : Thread nD τ).loc main_arg1)) slices_S8x128x96x320_S8x128x96x293_0_0_0_0)) (constant S_ .f32 0x00000000#32) reducesTo_S8x128x96x293_S8x96x293_d1 h_S_) (broadcastInDim S8x96x293 ![] bcast_S_S8x96x293 (constant S_ .f32 0x43000000#32))) (sitofp .f32 (constantI S_ 32 0#32)) pads_S8x96x293_S8x96x320_000_000_2700 h_S_))⟩, ⟨S8x1x96x320, (broadcastInDim S8x1x96x320 ![0, 2, 3] bcast_S8x96x320_S8x1x96x320_0_2_3 (pad S8x96x320 ![0, 0, 28] ![0, 0, 0] ![0, 0, 0] (Host.divf (Host.reduceAdd (mulf (extractStridedSlice S8x128x96x292 ![0, 0, 0, 28] (m ((c.tc : Thread nD τ).loc main_arg0)) slices_S8x128x96x320_S8x128x96x292_0_0_0_28) (extractStridedSlice S8x128x96x292 ![0, 0, 0, 0] (m ((c.tc : Thread nD τ).loc main_arg1)) slices_S8x128x96x320_S8x128x96x292_0_0_0_0)) (constant S_ .f32 0x00000000#32) reducesTo_S8x128x96x292_S8x96x292_d1 h_S_) (broadcastInDim S8x96x292 ![] bcast_S_S8x96x292 (constant S_ .f32 0x43000000#32))) (sitofp .f32 (constantI S_ 32 0#32)) pads_S8x96x292_S8x96x320_000_000_2800 h_S_))⟩, ⟨S8x1x96x320, (broadcastInDim S8x1x96x320 ![0, 2, 3] bcast_S8x96x320_S8x1x96x320_0_2_3 (pad S8x96x320 ![0, 0, 29] ![0, 0, 0] ![0, 0, 0] (Host.divf (Host.reduceAdd (mulf (extractStridedSlice S8x128x96x291 ![0, 0, 0, 29] (m ((c.tc : Thread nD τ).loc main_arg0)) slices_S8x128x96x320_S8x128x96x291_0_0_0_29) (extractStridedSlice S8x128x96x291 ![0, 0, 0, 0] (m ((c.tc : Thread nD τ).loc main_arg1)) slices_S8x128x96x320_S8x128x96x291_0_0_0_0)) (constant S_ .f32 0x00000000#32) reducesTo_S8x128x96x291_S8x96x291_d1 h_S_) (broadcastInDim S8x96x291 ![] bcast_S_S8x96x291 (constant S_ .f32 0x43000000#32))) (sitofp .f32 (constantI S_ 32 0#32)) pads_S8x96x291_S8x96x320_000_000_2900 h_S_))⟩, ⟨S8x1x96x320, (broadcastInDim S8x1x96x320 ![0, 2, 3] bcast_S8x96x320_S8x1x96x320_0_2_3 (pad S8x96x320 ![0, 0, 30] ![0, 0, 0] ![0, 0, 0] (Host.divf (Host.reduceAdd (mulf (extractStridedSlice S8x128x96x290 ![0, 0, 0, 30] (m ((c.tc : Thread nD τ).loc main_arg0)) slices_S8x128x96x320_S8x128x96x290_0_0_0_30) (extractStridedSlice S8x128x96x290 ![0, 0, 0, 0] (m ((c.tc : Thread nD τ).loc main_arg1)) slices_S8x128x96x320_S8x128x96x290_0_0_0_0)) (constant S_ .f32 0x00000000#32) reducesTo_S8x128x96x290_S8x96x290_d1 h_S_) (broadcastInDim S8x96x290 ![] bcast_S_S8x96x290 (constant S_ .f32 0x43000000#32))) (sitofp .f32 (constantI S_ 32 0#32)) pads_S8x96x290_S8x96x320_000_000_3000 h_S_))⟩, ⟨S8x1x96x320, (broadcastInDim S8x1x96x320 ![0, 2, 3] bcast_S8x96x320_S8x1x96x320_0_2_3 (pad S8x96x320 ![0, 0, 31] ![0, 0, 0] ![0, 0, 0] (Host.divf (Host.reduceAdd (mulf (extractStridedSlice S8x128x96x289 ![0, 0, 0, 31] (m ((c.tc : Thread nD τ).loc main_arg0)) slices_S8x128x96x320_S8x128x96x289_0_0_0_31) (extractStridedSlice S8x128x96x289 ![0, 0, 0, 0] (m ((c.tc : Thread nD τ).loc main_arg1)) slices_S8x128x96x320_S8x128x96x289_0_0_0_0)) (constant S_ .f32 0x00000000#32) reducesTo_S8x128x96x289_S8x96x289_d1 h_S_) (broadcastInDim S8x96x289 ![] bcast_S_S8x96x289 (constant S_ .f32 0x43000000#32))) (sitofp .f32 (constantI S_ 32 0#32)) pads_S8x96x289_S8x96x320_000_000_3100 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 (pad S8x96x320 ![0, 0, 32] ![0, 0, 0] ![0, 0, 0] (Host.divf (Host.reduceAdd (mulf (extractStridedSlice S8x128x96x288 ![0, 0, 0, 32] (m ((c.tc : Thread nD τ).loc main_arg0)) slices_S8x128x96x320_S8x128x96x288_0_0_0_32) (extractStridedSlice S8x128x96x288 ![0, 0, 0, 0] (m ((c.tc : Thread nD τ).loc main_arg1)) slices_S8x128x96x320_S8x128x96x288_0_0_0_0)) (constant S_ .f32 0x00000000#32) reducesTo_S8x128x96x288_S8x96x288_d1 h_S_) (broadcastInDim S8x96x288 ![] bcast_S_S8x96x288 (constant S_ .f32 0x43000000#32))) (sitofp .f32 (constantI S_ 32 0#32)) pads_S8x96x288_S8x96x320_000_000_3200 h_S_))⟩, ⟨S8x1x96x320, (broadcastInDim S8x1x96x320 ![0, 2, 3] bcast_S8x96x320_S8x1x96x320_0_2_3 (pad S8x96x320 ![0, 0, 33] ![0, 0, 0] ![0, 0, 0] (Host.divf (Host.reduceAdd (mulf (extractStridedSlice S8x128x96x287 ![0, 0, 0, 33] (m ((c.tc : Thread nD τ).loc main_arg0)) slices_S8x128x96x320_S8x128x96x287_0_0_0_33) (extractStridedSlice S8x128x96x287 ![0, 0, 0, 0] (m ((c.tc : Thread nD τ).loc main_arg1)) slices_S8x128x96x320_S8x128x96x287_0_0_0_0)) (constant S_ .f32 0x00000000#32) reducesTo_S8x128x96x287_S8x96x287_d1 h_S_) (broadcastInDim S8x96x287 ![] bcast_S_S8x96x287 (constant S_ .f32 0x43000000#32))) (sitofp .f32 (constantI S_ 32 0#32)) pads_S8x96x287_S8x96x320_000_000_3300 h_S_))⟩, ⟨S8x1x96x320, (broadcastInDim S8x1x96x320 ![0, 2, 3] bcast_S8x96x320_S8x1x96x320_0_2_3 (pad S8x96x320 ![0, 0, 34] ![0, 0, 0] ![0, 0, 0] (Host.divf (Host.reduceAdd (mulf (extractStridedSlice S8x128x96x286 ![0, 0, 0, 34] (m ((c.tc : Thread nD τ).loc main_arg0)) slices_S8x128x96x320_S8x128x96x286_0_0_0_34) (extractStridedSlice S8x128x96x286 ![0, 0, 0, 0] (m ((c.tc : Thread nD τ).loc main_arg1)) slices_S8x128x96x320_S8x128x96x286_0_0_0_0)) (constant S_ .f32 0x00000000#32) reducesTo_S8x128x96x286_S8x96x286_d1 h_S_) (broadcastInDim S8x96x286 ![] bcast_S_S8x96x286 (constant S_ .f32 0x43000000#32))) (sitofp .f32 (constantI S_ 32 0#32)) pads_S8x96x286_S8x96x320_000_000_3400 h_S_))⟩, ⟨S8x1x96x320, (broadcastInDim S8x1x96x320 ![0, 2, 3] bcast_S8x96x320_S8x1x96x320_0_2_3 (pad S8x96x320 ![0, 0, 35] ![0, 0, 0] ![0, 0, 0] (Host.divf (Host.reduceAdd (mulf (extractStridedSlice S8x128x96x285 ![0, 0, 0, 35] (m ((c.tc : Thread nD τ).loc main_arg0)) slices_S8x128x96x320_S8x128x96x285_0_0_0_35) (extractStridedSlice S8x128x96x285 ![0, 0, 0, 0] (m ((c.tc : Thread nD τ).loc main_arg1)) slices_S8x128x96x320_S8x128x96x285_0_0_0_0)) (constant S_ .f32 0x00000000#32) reducesTo_S8x128x96x285_S8x96x285_d1 h_S_) (broadcastInDim S8x96x285 ![] bcast_S_S8x96x285 (constant S_ .f32 0x43000000#32))) (sitofp .f32 (constantI S_ 32 0#32)) pads_S8x96x285_S8x96x320_000_000_3500 h_S_))⟩, ⟨S8x1x96x320, (broadcastInDim S8x1x96x320 ![0, 2, 3] bcast_S8x96x320_S8x1x96x320_0_2_3 (pad S8x96x320 ![0, 0, 36] ![0, 0, 0] ![0, 0, 0] (Host.divf (Host.reduceAdd (mulf (extractStridedSlice S8x128x96x284 ![0, 0, 0, 36] (m ((c.tc : Thread nD τ).loc main_arg0)) slices_S8x128x96x320_S8x128x96x284_0_0_0_36) (extractStridedSlice S8x128x96x284 ![0, 0, 0, 0] (m ((c.tc : Thread nD τ).loc main_arg1)) slices_S8x128x96x320_S8x128x96x284_0_0_0_0)) (constant S_ .f32 0x00000000#32) reducesTo_S8x128x96x284_S8x96x284_d1 h_S_) (broadcastInDim S8x96x284 ![] bcast_S_S8x96x284 (constant S_ .f32 0x43000000#32))) (sitofp .f32 (constantI S_ 32 0#32)) pads_S8x96x284_S8x96x320_000_000_3600 h_S_))⟩, ⟨S8x1x96x320, (broadcastInDim S8x1x96x320 ![0, 2, 3] bcast_S8x96x320_S8x1x96x320_0_2_3 (pad S8x96x320 ![0, 0, 37] ![0, 0, 0] ![0, 0, 0] (Host.divf (Host.reduceAdd (mulf (extractStridedSlice S8x128x96x283 ![0, 0, 0, 37] (m ((c.tc : Thread nD τ).loc main_arg0)) slices_S8x128x96x320_S8x128x96x283_0_0_0_37) (extractStridedSlice S8x128x96x283 ![0, 0, 0, 0] (m ((c.tc : Thread nD τ).loc main_arg1)) slices_S8x128x96x320_S8x128x96x283_0_0_0_0)) (constant S_ .f32 0x00000000#32) reducesTo_S8x128x96x283_S8x96x283_d1 h_S_) (broadcastInDim S8x96x283 ![] bcast_S_S8x96x283 (constant S_ .f32 0x43000000#32))) (sitofp .f32 (constantI S_ 32 0#32)) pads_S8x96x283_S8x96x320_000_000_3700 h_S_))⟩, ⟨S8x1x96x320, (broadcastInDim S8x1x96x320 ![0, 2, 3] bcast_S8x96x320_S8x1x96x320_0_2_3 (pad S8x96x320 ![0, 0, 38] ![0, 0, 0] ![0, 0, 0] (Host.divf (Host.reduceAdd (mulf (extractStridedSlice S8x128x96x282 ![0, 0, 0, 38] (m ((c.tc : Thread nD τ).loc main_arg0)) slices_S8x128x96x320_S8x128x96x282_0_0_0_38) (extractStridedSlice S8x128x96x282 ![0, 0, 0, 0] (m ((c.tc : Thread nD τ).loc main_arg1)) slices_S8x128x96x320_S8x128x96x282_0_0_0_0)) (constant S_ .f32 0x00000000#32) reducesTo_S8x128x96x282_S8x96x282_d1 h_S_) (broadcastInDim S8x96x282 ![] bcast_S_S8x96x282 (constant S_ .f32 0x43000000#32))) (sitofp .f32 (constantI S_ 32 0#32)) pads_S8x96x282_S8x96x320_000_000_3800 h_S_))⟩, ⟨S8x1x96x320, (broadcastInDim S8x1x96x320 ![0, 2, 3] bcast_S8x96x320_S8x1x96x320_0_2_3 (pad S8x96x320 ![0, 0, 39] ![0, 0, 0] ![0, 0, 0] (Host.divf (Host.reduceAdd (mulf (extractStridedSlice S8x128x96x281 ![0, 0, 0, 39] (m ((c.tc : Thread nD τ).loc main_arg0)) slices_S8x128x96x320_S8x128x96x281_0_0_0_39) (extractStridedSlice S8x128x96x281 ![0, 0, 0, 0] (m ((c.tc : Thread nD τ).loc main_arg1)) slices_S8x128x96x320_S8x128x96x281_0_0_0_0)) (constant S_ .f32 0x00000000#32) reducesTo_S8x128x96x281_S8x96x281_d1 h_S_) (broadcastInDim S8x96x281 ![] bcast_S_S8x96x281 (constant S_ .f32 0x43000000#32))) (sitofp .f32 (constantI S_ 32 0#32)) pads_S8x96x281_S8x96x320_000_000_3900 h_S_))⟩, ⟨S8x1x96x320, (broadcastInDim S8x1x96x320 ![0, 2, 3] bcast_S8x96x320_S8x1x96x320_0_2_3 (pad S8x96x320 ![0, 0, 40] ![0, 0, 0] ![0, 0, 0] (Host.divf (Host.reduceAdd (mulf (extractStridedSlice S8x128x96x280 ![0, 0, 0, 40] (m ((c.tc : Thread nD τ).loc main_arg0)) slices_S8x128x96x320_S8x128x96x280_0_0_0_40) (extractStridedSlice S8x128x96x280 ![0, 0, 0, 0] (m ((c.tc : Thread nD τ).loc main_arg1)) slices_S8x128x96x320_S8x128x96x280_0_0_0_0)) (constant S_ .f32 0x00000000#32) reducesTo_S8x128x96x280_S8x96x280_d1 h_S_) (broadcastInDim S8x96x280 ![] bcast_S_S8x96x280 (constant S_ .f32 0x43000000#32))) (sitofp .f32 (constantI S_ 32 0#32)) pads_S8x96x280_S8x96x320_000_000_4000 h_S_))⟩, ⟨S8x1x96x320, (broadcastInDim S8x1x96x320 ![0, 2, 3] bcast_S8x96x320_S8x1x96x320_0_2_3 (pad S8x96x320 ![0, 0, 41] ![0, 0, 0] ![0, 0, 0] (Host.divf (Host.reduceAdd (mulf (extractStridedSlice S8x128x96x279 ![0, 0, 0, 41] (m ((c.tc : Thread nD τ).loc main_arg0)) slices_S8x128x96x320_S8x128x96x279_0_0_0_41) (extractStridedSlice S8x128x96x279 ![0, 0, 0, 0] (m ((c.tc : Thread nD τ).loc main_arg1)) slices_S8x128x96x320_S8x128x96x279_0_0_0_0)) (constant S_ .f32 0x00000000#32) reducesTo_S8x128x96x279_S8x96x279_d1 h_S_) (broadcastInDim S8x96x279 ![] bcast_S_S8x96x279 (constant S_ .f32 0x43000000#32))) (sitofp .f32 (constantI S_ 32 0#32)) pads_S8x96x279_S8x96x320_000_000_4100 h_S_))⟩, ⟨S8x1x96x320, (broadcastInDim S8x1x96x320 ![0, 2, 3] bcast_S8x96x320_S8x1x96x320_0_2_3 (pad S8x96x320 ![0, 0, 42] ![0, 0, 0] ![0, 0, 0] (Host.divf (Host.reduceAdd (mulf (extractStridedSlice S8x128x96x278 ![0, 0, 0, 42] (m ((c.tc : Thread nD τ).loc main_arg0)) slices_S8x128x96x320_S8x128x96x278_0_0_0_42) (extractStridedSlice S8x128x96x278 ![0, 0, 0, 0] (m ((c.tc : Thread nD τ).loc main_arg1)) slices_S8x128x96x320_S8x128x96x278_0_0_0_0)) (constant S_ .f32 0x00000000#32) reducesTo_S8x128x96x278_S8x96x278_d1 h_S_) (broadcastInDim S8x96x278 ![] bcast_S_S8x96x278 (constant S_ .f32 0x43000000#32))) (sitofp .f32 (constantI S_ 32 0#32)) pads_S8x96x278_S8x96x320_000_000_4200 h_S_))⟩, ⟨S8x1x96x320, (broadcastInDim S8x1x96x320 ![0, 2, 3] bcast_S8x96x320_S8x1x96x320_0_2_3 (pad S8x96x320 ![0, 0, 43] ![0, 0, 0] ![0, 0, 0] (Host.divf (Host.reduceAdd (mulf (extractStridedSlice S8x128x96x277 ![0, 0, 0, 43] (m ((c.tc : Thread nD τ).loc main_arg0)) slices_S8x128x96x320_S8x128x96x277_0_0_0_43) (extractStridedSlice S8x128x96x277 ![0, 0, 0, 0] (m ((c.tc : Thread nD τ).loc main_arg1)) slices_S8x128x96x320_S8x128x96x277_0_0_0_0)) (constant S_ .f32 0x00000000#32) reducesTo_S8x128x96x277_S8x96x277_d1 h_S_) (broadcastInDim S8x96x277 ![] bcast_S_S8x96x277 (constant S_ .f32 0x43000000#32))) (sitofp .f32 (constantI S_ 32 0#32)) pads_S8x96x277_S8x96x320_000_000_4300 h_S_))⟩, ⟨S8x1x96x320, (broadcastInDim S8x1x96x320 ![0, 2, 3] bcast_S8x96x320_S8x1x96x320_0_2_3 (pad S8x96x320 ![0, 0, 44] ![0, 0, 0] ![0, 0, 0] (Host.divf (Host.reduceAdd (mulf (extractStridedSlice S8x128x96x276 ![0, 0, 0, 44] (m ((c.tc : Thread nD τ).loc main_arg0)) slices_S8x128x96x320_S8x128x96x276_0_0_0_44) (extractStridedSlice S8x128x96x276 ![0, 0, 0, 0] (m ((c.tc : Thread nD τ).loc main_arg1)) slices_S8x128x96x320_S8x128x96x276_0_0_0_0)) (constant S_ .f32 0x00000000#32) reducesTo_S8x128x96x276_S8x96x276_d1 h_S_) (broadcastInDim S8x96x276 ![] bcast_S_S8x96x276 (constant S_ .f32 0x43000000#32))) (sitofp .f32 (constantI S_ 32 0#32)) pads_S8x96x276_S8x96x320_000_000_4400 h_S_))⟩, ⟨S8x1x96x320, (broadcastInDim S8x1x96x320 ![0, 2, 3] bcast_S8x96x320_S8x1x96x320_0_2_3 (pad S8x96x320 ![0, 0, 45] ![0, 0, 0] ![0, 0, 0] (Host.divf (Host.reduceAdd (mulf (extractStridedSlice S8x128x96x275 ![0, 0, 0, 45] (m ((c.tc : Thread nD τ).loc main_arg0)) slices_S8x128x96x320_S8x128x96x275_0_0_0_45) (extractStridedSlice S8x128x96x275 ![0, 0, 0, 0] (m ((c.tc : Thread nD τ).loc main_arg1)) slices_S8x128x96x320_S8x128x96x275_0_0_0_0)) (constant S_ .f32 0x00000000#32) reducesTo_S8x128x96x275_S8x96x275_d1 h_S_) (broadcastInDim S8x96x275 ![] bcast_S_S8x96x275 (constant S_ .f32 0x43000000#32))) (sitofp .f32 (constantI S_ 32 0#32)) pads_S8x96x275_S8x96x320_000_000_4500 h_S_))⟩, ⟨S8x1x96x320, (broadcastInDim S8x1x96x320 ![0, 2, 3] bcast_S8x96x320_S8x1x96x320_0_2_3 (pad S8x96x320 ![0, 0, 46] ![0, 0, 0] ![0, 0, 0] (Host.divf (Host.reduceAdd (mulf (extractStridedSlice S8x128x96x274 ![0, 0, 0, 46] (m ((c.tc : Thread nD τ).loc main_arg0)) slices_S8x128x96x320_S8x128x96x274_0_0_0_46) (extractStridedSlice S8x128x96x274 ![0, 0, 0, 0] (m ((c.tc : Thread nD τ).loc main_arg1)) slices_S8x128x96x320_S8x128x96x274_0_0_0_0)) (constant S_ .f32 0x00000000#32) reducesTo_S8x128x96x274_S8x96x274_d1 h_S_) (broadcastInDim S8x96x274 ![] bcast_S_S8x96x274 (constant S_ .f32 0x43000000#32))) (sitofp .f32 (constantI S_ 32 0#32)) pads_S8x96x274_S8x96x320_000_000_4600 h_S_))⟩, ⟨S8x1x96x320, (broadcastInDim S8x1x96x320 ![0, 2, 3] bcast_S8x96x320_S8x1x96x320_0_2_3 (pad S8x96x320 ![0, 0, 47] ![0, 0, 0] ![0, 0, 0] (Host.divf (Host.reduceAdd (mulf (extractStridedSlice S8x128x96x273 ![0, 0, 0, 47] (m ((c.tc : Thread nD τ).loc main_arg0)) slices_S8x128x96x320_S8x128x96x273_0_0_0_47) (extractStridedSlice S8x128x96x273 ![0, 0, 0, 0] (m ((c.tc : Thread nD τ).loc main_arg1)) slices_S8x128x96x320_S8x128x96x273_0_0_0_0)) (constant S_ .f32 0x00000000#32) reducesTo_S8x128x96x273_S8x96x273_d1 h_S_) (broadcastInDim S8x96x273 ![] bcast_S_S8x96x273 (constant S_ .f32 0x43000000#32))) (sitofp .f32 (constantI S_ 32 0#32)) pads_S8x96x273_S8x96x320_000_000_4700 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩] concatenates_S8x16x96x320_S8x16x96x320_S8x16x96x320_S8x48x96x320_d1

end Cert.ReferenceIdeal.ValueP

end
-- ==== Proof.RefRunTable.lean ====
/- A TABLE for the reference's run: the evaluation of its 578 operations stated IN PARTS over the thirteen short lists of the
   operations module, each entry a lemma of its own over ANY contents V of the buffers before that list — per plane, what its
   list leaves in the plane's buffer, as a term of the two arguments (cut out of the composed result term); per list and per
   buffer that a LATER list reads (the two arguments, the planes made so far), that the list leaves it as it was; the last list's
   result as a term of the 48 plane buffers. (The value module reads the result after all 578 off these entries.)
   Nothing here is an argument about the mathematics: every entry is the library's own evaluation of a literal operation list. -/
import proofs.«167814_j57853209477697_1_alg».proof.Proof.RefOps

noncomputable section

namespace Cert.ReferenceIdeal.ValueP

open Cert.ReferenceIdeal Cert.ReferenceIdeal.Gen Cert.ListParts Idealize.ShloMosaic Idealize.ShloMosaic.TcCoe Idealize.SL.Sem Idealize.ShloMosaic.StableHlo

variable {F : FTy → Type} [FloatOps F]

set_option maxRecDepth 8192 in
set_option maxHeartbeats 40000000 in
/-- What list c0 leaves in plane 0's buffer. -/
theorem plane_eval_0 (V : Valuation τ sig (Elt F)) :
    after (c0 (F := F)) V (Proc.devRef .tc main_v4)
      = (pad S8x96x320 ![0, 0, 0] ![0, 0, 0] ![0, 0, 0] (Host.divf (Host.reduceAdd (mulf ((V (Proc.devRef .tc main_arg0)) : (⟨S8x128x96x320, .f32⟩ : BufTy).Contents (Elt F)) ((V (Proc.devRef .tc main_arg1)) : (⟨S8x128x96x320, .f32⟩ : BufTy).Contents (Elt F))) (constant S_ .f32 0x00000000#32) reducesTo_S8x128x96x320_S8x96x320_d1 h_S_) (broadcastInDim S8x96x320 ![] bcast_S_S8x96x320 (constant S_ .f32 0x43000000#32))) (sitofp .f32 (constantI S_ 32 0#32)) pads_S8x96x320_S8x96x320_000_000_000 h_S_) := by
  unfold c0
  after_results_simp <;> rfl

set_option maxRecDepth 8192 in
set_option maxHeartbeats 40000000 in
/-- What list c0 leaves in plane 1's buffer. -/
theorem plane_eval_1 (V : Valuation τ sig (Elt F)) :
    after (c0 (F := F)) V (Proc.devRef .tc main_v11)
      = (pad S8x96x320 ![0, 0, 1] ![0, 0, 0] ![0, 0, 0] (Host.divf (Host.reduceAdd (mulf (extractStridedSlice S8x128x96x319 ![0, 0, 0, 1] ((V (Proc.devRef .tc main_arg0)) : (⟨S8x128x96x320, .f32⟩ : BufTy).Contents (Elt F)) slices_S8x128x96x320_S8x128x96x319_0_0_0_1) (extractStridedSlice S8x128x96x319 ![0, 0, 0, 0] ((V (Proc.devRef .tc main_arg1)) : (⟨S8x128x96x320, .f32⟩ : BufTy).Contents (Elt F)) slices_S8x128x96x320_S8x128x96x319_0_0_0_0)) (constant S_ .f32 0x00000000#32) reducesTo_S8x128x96x319_S8x96x319_d1 h_S_) (broadcastInDim S8x96x319 ![] bcast_S_S8x96x319 (constant S_ .f32 0x43000000#32))) (sitofp .f32 (constantI S_ 32 0#32)) pads_S8x96x319_S8x96x320_000_000_100 h_S_) := by
  unfold c0
  after_results_simp <;> rfl

set_option maxRecDepth 8192 in
set_option maxHeartbeats 40000000 in
/-- What list c0 leaves in plane 2's buffer. -/
theorem plane_eval_2 (V : Valuation τ sig (Elt F)) :
    after (c0 (F := F)) V (Proc.devRef .tc main_v18)
      = (pad S8x96x320 ![0, 0, 2] ![0, 0, 0] ![0, 0, 0] (Host.divf (Host.reduceAdd (mulf (extractStridedSlice S8x128x96x318 ![0, 0, 0, 2] ((V (Proc.devRef .tc main_arg0)) : (⟨S8x128x96x320, .f32⟩ : BufTy).Contents (Elt F)) slices_S8x128x96x320_S8x128x96x318_0_0_0_2) (extractStridedSlice S8x128x96x318 ![0, 0, 0, 0] ((V (Proc.devRef .tc main_arg1)) : (⟨S8x128x96x320, .f32⟩ : BufTy).Contents (Elt F)) slices_S8x128x96x320_S8x128x96x318_0_0_0_0)) (constant S_ .f32 0x00000000#32) reducesTo_S8x128x96x318_S8x96x318_d1 h_S_) (broadcastInDim S8x96x318 ![] bcast_S_S8x96x318 (constant S_ .f32 0x43000000#32))) (sitofp .f32 (constantI S_ 32 0#32)) pads_S8x96x318_S8x96x320_000_000_200 h_S_) := by
  unfold c0
  after_results_simp <;> rfl

set_option maxRecDepth 8192 in
set_option maxHeartbeats 40000000 in
/-- What list c0 leaves in plane 3's buffer. -/
theorem plane_eval_3 (V : Valuation τ sig (Elt F)) :
    after (c0 (F := F)) V (Proc.devRef .tc main_v25)
      = (pad S8x96x320 ![0, 0, 3] ![0, 0, 0] ![0, 0, 0] (Host.divf (Host.reduceAdd (mulf (extractStridedSlice S8x128x96x317 ![0, 0, 0, 3] ((V (Proc.devRef .tc main_arg0)) : (⟨S8x128x96x320, .f32⟩ : BufTy).Contents (Elt F)) slices_S8x128x96x320_S8x128x96x317_0_0_0_3) (extractStridedSlice S8x128x96x317 ![0, 0, 0, 0] ((V (Proc.devRef .tc main_arg1)) : (⟨S8x128x96x320, .f32⟩ : BufTy).Contents (Elt F)) slices_S8x128x96x320_S8x128x96x317_0_0_0_0)) (constant S_ .f32 0x00000000#32) reducesTo_S8x128x96x317_S8x96x317_d1 h_S_) (broadcastInDim S8x96x317 ![] bcast_S_S8x96x317 (constant S_ .f32 0x43000000#32))) (sitofp .f32 (constantI S_ 32 0#32)) pads_S8x96x317_S8x96x320_000_000_300 h_S_) := by
  unfold c0
  after_results_simp <;> rfl

set_option maxRecDepth 8192 in
set_option maxHeartbeats 40000000 in
theorem keep_c0_main_arg0 (V : Valuation τ sig (Elt F)) : after (c0 (F := F)) V (Proc.devRef .tc main_arg0) = V (Proc.devRef .tc main_arg0) := by
  unfold c0
  after_results_simp <;> rfl

set_option maxRecDepth 8192 in
set_option maxHeartbeats 40000000 in
theorem keep_c0_main_arg1 (V : Valuation τ sig (Elt F)) : after (c0 (F := F)) V (Proc.devRef .tc main_arg1) = V (Proc.devRef .tc main_arg1) := by
  unfold c0
  after_results_simp <;> rfl

set_option maxRecDepth 8192 in
set_option maxHeartbeats 40000000 in
/-- What list c1 leaves in plane 4's buffer. -/
theorem plane_eval_4 (V : Valuation τ sig (Elt F)) :
    after (c1 (F := F)) V (Proc.devRef .tc main_v32)
      = (pad S8x96x320 ![0, 0, 4] ![0, 0, 0] ![0, 0, 0] (Host.divf (Host.reduceAdd (mulf (extractStridedSlice S8x128x96x316 ![0, 0, 0, 4] ((V (Proc.devRef .tc main_arg0)) : (⟨S8x128x96x320, .f32⟩ : BufTy).Contents (Elt F)) slices_S8x128x96x320_S8x128x96x316_0_0_0_4) (extractStridedSlice S8x128x96x316 ![0, 0, 0, 0] ((V (Proc.devRef .tc main_arg1)) : (⟨S8x128x96x320, .f32⟩ : BufTy).Contents (Elt F)) slices_S8x128x96x320_S8x128x96x316_0_0_0_0)) (constant S_ .f32 0x00000000#32) reducesTo_S8x128x96x316_S8x96x316_d1 h_S_) (broadcastInDim S8x96x316 ![] bcast_S_S8x96x316 (constant S_ .f32 0x43000000#32))) (sitofp .f32 (constantI S_ 32 0#32)) pads_S8x96x316_S8x96x320_000_000_400 h_S_) := by
  unfold c1
  after_results_simp <;> rfl

set_option maxRecDepth 8192 in
set_option maxHeartbeats 40000000 in
/-- What list c1 leaves in plane 5's buffer. -/
theorem plane_eval_5 (V : Valuation τ sig (Elt F)) :
    after (c1 (F := F)) V (Proc.devRef .tc main_v39)
      = (pad S8x96x320 ![0, 0, 5] ![0, 0, 0] ![0, 0, 0] (Host.divf (Host.reduceAdd (mulf (extractStridedSlice S8x128x96x315 ![0, 0, 0, 5] ((V (Proc.devRef .tc main_arg0)) : (⟨S8x128x96x320, .f32⟩ : BufTy).Contents (Elt F)) slices_S8x128x96x320_S8x128x96x315_0_0_0_5) (extractStridedSlice S8x128x96x315 ![0, 0, 0, 0] ((V (Proc.devRef .tc main_arg1)) : (⟨S8x128x96x320, .f32⟩ : BufTy).Contents (Elt F)) slices_S8x128x96x320_S8x128x96x315_0_0_0_0)) (constant S_ .f32 0x00000000#32) reducesTo_S8x128x96x315_S8x96x315_d1 h_S_) (broadcastInDim S8x96x315 ![] bcast_S_S8x96x315 (constant S_ .f32 0x43000000#32))) (sitofp .f32 (constantI S_ 32 0#32)) pads_S8x96x315_S8x96x320_000_000_500 h_S_) := by
  unfold c1
  after_results_simp <;> rfl

set_option maxRecDepth 8192 in
set_option maxHeartbeats 40000000 in
/-- What list c1 leaves in plane 6's buffer. -/
theorem plane_eval_6 (V : Valuation τ sig (Elt F)) :
    after (c1 (F := F)) V (Proc.devRef .tc main_v46)
      = (pad S8x96x320 ![0, 0, 6] ![0, 0, 0] ![0, 0, 0] (Host.divf (Host.reduceAdd (mulf (extractStridedSlice S8x128x96x314 ![0, 0, 0, 6] ((V (Proc.devRef .tc main_arg0)) : (⟨S8x128x96x320, .f32⟩ : BufTy).Contents (Elt F)) slices_S8x128x96x320_S8x128x96x314_0_0_0_6) (extractStridedSlice S8x128x96x314 ![0, 0, 0, 0] ((V (Proc.devRef .tc main_arg1)) : (⟨S8x128x96x320, .f32⟩ : BufTy).Contents (Elt F)) slices_S8x128x96x320_S8x128x96x314_0_0_0_0)) (constant S_ .f32 0x00000000#32) reducesTo_S8x128x96x314_S8x96x314_d1 h_S_) (broadcastInDim S8x96x314 ![] bcast_S_S8x96x314 (constant S_ .f32 0x43000000#32))) (sitofp .f32 (constantI S_ 32 0#32)) pads_S8x96x314_S8x96x320_000_000_600 h_S_) := by
  unfold c1
  after_results_simp <;> rfl

set_option maxRecDepth 8192 in
set_option maxHeartbeats 40000000 in
/-- What list c1 leaves in plane 7's buffer. -/
theorem plane_eval_7 (V : Valuation τ sig (Elt F)) :
    after (c1 (F := F)) V (Proc.devRef .tc main_v53)
      = (pad S8x96x320 ![0, 0, 7] ![0, 0, 0] ![0, 0, 0] (Host.divf (Host.reduceAdd (mulf (extractStridedSlice S8x128x96x313 ![0, 0, 0, 7] ((V (Proc.devRef .tc main_arg0)) : (⟨S8x128x96x320, .f32⟩ : BufTy).Contents (Elt F)) slices_S8x128x96x320_S8x128x96x313_0_0_0_7) (extractStridedSlice S8x128x96x313 ![0, 0, 0, 0] ((V (Proc.devRef .tc main_arg1)) : (⟨S8x128x96x320, .f32⟩ : BufTy).Contents (Elt F)) slices_S8x128x96x320_S8x128x96x313_0_0_0_0)) (constant S_ .f32 0x00000000#32) reducesTo_S8x128x96x313_S8x96x313_d1 h_S_) (broadcastInDim S8x96x313 ![] bcast_S_S8x96x313 (constant S_ .f32 0x43000000#32))) (sitofp .f32 (constantI S_ 32 0#32)) pads_S8x96x313_S8x96x320_000_000_700 h_S_) := by
  unfold c1
  after_results_simp <;> rfl

set_option maxRecDepth 8192 in
set_option maxHeartbeats 40000000 in
theorem keep_c1_main_arg0 (V : Valuation τ sig (Elt F)) : after (c1 (F := F)) V (Proc.devRef .tc main_arg0) = V (Proc.devRef .tc main_arg0) := by
  unfold c1
  after_results_simp <;> rfl

set_option maxRecDepth 8192 in
set_option maxHeartbeats 40000000 in
theorem keep_c1_main_arg1 (V : Valuation τ sig (Elt F)) : after (c1 (F := F)) V (Proc.devRef .tc main_arg1) = V (Proc.devRef .tc main_arg1) := by
  unfold c1
  after_results_simp <;> rfl

set_option maxRecDepth 8192 in
set_option maxHeartbeats 40000000 in
theorem keep_c1_main_v4 (V : Valuation τ sig (Elt F)) : after (c1 (F := F)) V (Proc.devRef .tc main_v4) = V (Proc.devRef .tc main_v4) := by
  unfold c1
  after_results_simp <;> rfl

set_option maxRecDepth 8192 in
set_option maxHeartbeats 40000000 in
theorem keep_c1_main_v11 (V : Valuation τ sig (Elt F)) : after (c1 (F := F)) V (Proc.devRef .tc main_v11) = V (Proc.devRef .tc main_v11) := by
  unfold c1
  after_results_simp <;> rfl

set_option maxRecDepth 8192 in
set_option maxHeartbeats 40000000 in
theorem keep_c1_main_v18 (V : Valuation τ sig (Elt F)) : after (c1 (F := F)) V (Proc.devRef .tc main_v18) = V (Proc.devRef .tc main_v18) := by
  unfold c1
  after_results_simp <;> rfl

set_option maxRecDepth 8192 in
set_option maxHeartbeats 40000000 in
theorem keep_c1_main_v25 (V : Valuation τ sig (Elt F)) : after (c1 (F := F)) V (Proc.devRef .tc main_v25) = V (Proc.devRef .tc main_v25) := by
  unfold c1
  after_results_simp <;> rfl

set_option maxRecDepth 8192 in
set_option maxHeartbeats 40000000 in
/-- What list c2 leaves in plane 8's buffer. -/
theorem plane_eval_8 (V : Valuation τ sig (Elt F)) :
    after (c2 (F := F)) V (Proc.devRef .tc main_v60)
      = (pad S8x96x320 ![0, 0, 8] ![0, 0, 0] ![0, 0, 0] (Host.divf (Host.reduceAdd (mulf (extractStridedSlice S8x128x96x312 ![0, 0, 0, 8] ((V (Proc.devRef .tc main_arg0)) : (⟨S8x128x96x320, .f32⟩ : BufTy).Contents (Elt F)) slices_S8x128x96x320_S8x128x96x312_0_0_0_8) (extractStridedSlice S8x128x96x312 ![0, 0, 0, 0] ((V (Proc.devRef .tc main_arg1)) : (⟨S8x128x96x320, .f32⟩ : BufTy).Contents (Elt F)) slices_S8x128x96x320_S8x128x96x312_0_0_0_0)) (constant S_ .f32 0x00000000#32) reducesTo_S8x128x96x312_S8x96x312_d1 h_S_) (broadcastInDim S8x96x312 ![] bcast_S_S8x96x312 (constant S_ .f32 0x43000000#32))) (sitofp .f32 (constantI S_ 32 0#32)) pads_S8x96x312_S8x96x320_000_000_800 h_S_) := by
  unfold c2
  after_results_simp <;> rfl

set_option maxRecDepth 8192 in
set_option maxHeartbeats 40000000 in
/-- What list c2 leaves in plane 9's buffer. -/
theorem plane_eval_9 (V : Valuation τ sig (Elt F)) :
    after (c2 (F := F)) V (Proc.devRef .tc main_v67)
      = (pad S8x96x320 ![0, 0, 9] ![0, 0, 0] ![0, 0, 0] (Host.divf (Host.reduceAdd (mulf (extractStridedSlice S8x128x96x311 ![0, 0, 0, 9] ((V (Proc.devRef .tc main_arg0)) : (⟨S8x128x96x320, .f32⟩ : BufTy).Contents (Elt F)) slices_S8x128x96x320_S8x128x96x311_0_0_0_9) (extractStridedSlice S8x128x96x311 ![0, 0, 0, 0] ((V (Proc.devRef .tc main_arg1)) : (⟨S8x128x96x320, .f32⟩ : BufTy).Contents (Elt F)) slices_S8x128x96x320_S8x128x96x311_0_0_0_0)) (constant S_ .f32 0x00000000#32) reducesTo_S8x128x96x311_S8x96x311_d1 h_S_) (broadcastInDim S8x96x311 ![] bcast_S_S8x96x311 (constant S_ .f32 0x43000000#32))) (sitofp .f32 (constantI S_ 32 0#32)) pads_S8x96x311_S8x96x320_000_000_900 h_S_) := by
  unfold c2
  after_results_simp <;> rfl

set_option maxRecDepth 8192 in
set_option maxHeartbeats 40000000 in
/-- What list c2 leaves in plane 10's buffer. -/
theorem plane_eval_10 (V : Valuation τ sig (Elt F)) :
    after (c2 (F := F)) V (Proc.devRef .tc main_v74)
      = (pad S8x96x320 ![0, 0, 10] ![0, 0, 0] ![0, 0, 0] (Host.divf (Host.reduceAdd (mulf (extractStridedSlice S8x128x96x310 ![0, 0, 0, 10] ((V (Proc.devRef .tc main_arg0)) : (⟨S8x128x96x320, .f32⟩ : BufTy).Contents (Elt F)) slices_S8x128x96x320_S8x128x96x310_0_0_0_10) (extractStridedSlice S8x128x96x310 ![0, 0, 0, 0] ((V (Proc.devRef .tc main_arg1)) : (⟨S8x128x96x320, .f32⟩ : BufTy).Contents (Elt F)) slices_S8x128x96x320_S8x128x96x310_0_0_0_0)) (constant S_ .f32 0x00000000#32) reducesTo_S8x128x96x310_S8x96x310_d1 h_S_) (broadcastInDim S8x96x310 ![] bcast_S_S8x96x310 (constant S_ .f32 0x43000000#32))) (sitofp .f32 (constantI S_ 32 0#32)) pads_S8x96x310_S8x96x320_000_000_1000 h_S_) := by
  unfold c2
  after_results_simp <;> rfl

set_option maxRecDepth 8192 in
set_option maxHeartbeats 40000000 in
/-- What list c2 leaves in plane 11's buffer. -/
theorem plane_eval_11 (V : Valuation τ sig (Elt F)) :
    after (c2 (F := F)) V (Proc.devRef .tc main_v81)
      = (pad S8x96x320 ![0, 0, 11] ![0, 0, 0] ![0, 0, 0] (Host.divf (Host.reduceAdd (mulf (extractStridedSlice S8x128x96x309 ![0, 0, 0, 11] ((V (Proc.devRef .tc main_arg0)) : (⟨S8x128x96x320, .f32⟩ : BufTy).Contents (Elt F)) slices_S8x128x96x320_S8x128x96x309_0_0_0_11) (extractStridedSlice S8x128x96x309 ![0, 0, 0, 0] ((V (Proc.devRef .tc main_arg1)) : (⟨S8x128x96x320, .f32⟩ : BufTy).Contents (Elt F)) slices_S8x128x96x320_S8x128x96x309_0_0_0_0)) (constant S_ .f32 0x00000000#32) reducesTo_S8x128x96x309_S8x96x309_d1 h_S_) (broadcastInDim S8x96x309 ![] bcast_S_S8x96x309 (constant S_ .f32 0x43000000#32))) (sitofp .f32 (constantI S_ 32 0#32)) pads_S8x96x309_S8x96x320_000_000_1100 h_S_) := by
  unfold c2
  after_results_simp <;> rfl

set_option maxRecDepth 8192 in
set_option maxHeartbeats 40000000 in
theorem keep_c2_main_arg0 (V : Valuation τ sig (Elt F)) : after (c2 (F := F)) V (Proc.devRef .tc main_arg0) = V (Proc.devRef .tc main_arg0) := by
  unfold c2
  after_results_simp <;> rfl

set_option maxRecDepth 8192 in
set_option maxHeartbeats 40000000 in
theorem keep_c2_main_arg1 (V : Valuation τ sig (Elt F)) : after (c2 (F := F)) V (Proc.devRef .tc main_arg1) = V (Proc.devRef .tc main_arg1) := by
  unfold c2
  after_results_simp <;> rfl

set_option maxRecDepth 8192 in
set_option maxHeartbeats 40000000 in
theorem keep_c2_main_v4 (V : Valuation τ sig (Elt F)) : after (c2 (F := F)) V (Proc.devRef .tc main_v4) = V (Proc.devRef .tc main_v4) := by
  unfold c2
  after_results_simp <;> rfl

set_option maxRecDepth 8192 in
set_option maxHeartbeats 40000000 in
theorem keep_c2_main_v11 (V : Valuation τ sig (Elt F)) : after (c2 (F := F)) V (Proc.devRef .tc main_v11) = V (Proc.devRef .tc main_v11) := by
  unfold c2
  after_results_simp <;> rfl

set_option maxRecDepth 8192 in
set_option maxHeartbeats 40000000 in
theorem keep_c2_main_v18 (V : Valuation τ sig (Elt F)) : after (c2 (F := F)) V (Proc.devRef .tc main_v18) = V (Proc.devRef .tc main_v18) := by
  unfold c2
  after_results_simp <;> rfl

set_option maxRecDepth 8192 in
set_option maxHeartbeats 40000000 in
theorem keep_c2_main_v25 (V : Valuation τ sig (Elt F)) : after (c2 (F := F)) V (Proc.devRef .tc main_v25) = V (Proc.devRef .tc main_v25) := by
  unfold c2
  after_results_simp <;> rfl

set_option maxRecDepth 8192 in
set_option maxHeartbeats 40000000 in
theorem keep_c2_main_v32 (V : Valuation τ sig (Elt F)) : after (c2 (F := F)) V (Proc.devRef .tc main_v32) = V (Proc.devRef .tc main_v32) := by
  unfold c2
  after_results_simp <;> rfl

set_option maxRecDepth 8192 in
set_option maxHeartbeats 40000000 in
theorem keep_c2_main_v39 (V : Valuation τ sig (Elt F)) : after (c2 (F := F)) V (Proc.devRef .tc main_v39) = V (Proc.devRef .tc main_v39) := by
  unfold c2
  after_results_simp <;> rfl

set_option maxRecDepth 8192 in
set_option maxHeartbeats 40000000 in
theorem keep_c2_main_v46 (V : Valuation τ sig (Elt F)) : after (c2 (F := F)) V (Proc.devRef .tc main_v46) = V (Proc.devRef .tc main_v46) := by
  unfold c2
  after_results_simp <;> rfl

set_option maxRecDepth 8192 in
set_option maxHeartbeats 40000000 in
theorem keep_c2_main_v53 (V : Valuation τ sig (Elt F)) : after (c2 (F := F)) V (Proc.devRef .tc main_v53) = V (Proc.devRef .tc main_v53) := by
  unfold c2
  after_results_simp <;> rfl

set_option maxRecDepth 8192 in
set_option maxHeartbeats 40000000 in
/-- What list c3 leaves in plane 12's buffer. -/
theorem plane_eval_12 (V : Valuation τ sig (Elt F)) :
    after (c3 (F := F)) V (Proc.devRef .tc main_v88)
      = (pad S8x96x320 ![0, 0, 12] ![0, 0, 0] ![0, 0, 0] (Host.divf (Host.reduceAdd (mulf (extractStridedSlice S8x128x96x308 ![0, 0, 0, 12] ((V (Proc.devRef .tc main_arg0)) : (⟨S8x128x96x320, .f32⟩ : BufTy).Contents (Elt F)) slices_S8x128x96x320_S8x128x96x308_0_0_0_12) (extractStridedSlice S8x128x96x308 ![0, 0, 0, 0] ((V (Proc.devRef .tc main_arg1)) : (⟨S8x128x96x320, .f32⟩ : BufTy).Contents (Elt F)) slices_S8x128x96x320_S8x128x96x308_0_0_0_0)) (constant S_ .f32 0x00000000#32) reducesTo_S8x128x96x308_S8x96x308_d1 h_S_) (broadcastInDim S8x96x308 ![] bcast_S_S8x96x308 (constant S_ .f32 0x43000000#32))) (sitofp .f32 (constantI S_ 32 0#32)) pads_S8x96x308_S8x96x320_000_000_1200 h_S_) := by
  unfold c3
  after_results_simp <;> rfl

set_option maxRecDepth 8192 in
set_option maxHeartbeats 40000000 in
/-- What list c3 leaves in plane 13's buffer. -/
theorem plane_eval_13 (V : Valuation τ sig (Elt F)) :
    after (c3 (F := F)) V (Proc.devRef .tc main_v95)
      = (pad S8x96x320 ![0, 0, 13] ![0, 0, 0] ![0, 0, 0] (Host.divf (Host.reduceAdd (mulf (extractStridedSlice S8x128x96x307 ![0, 0, 0, 13] ((V (Proc.devRef .tc main_arg0)) : (⟨S8x128x96x320, .f32⟩ : BufTy).Contents (Elt F)) slices_S8x128x96x320_S8x128x96x307_0_0_0_13) (extractStridedSlice S8x128x96x307 ![0, 0, 0, 0] ((V (Proc.devRef .tc main_arg1)) : (⟨S8x128x96x320, .f32⟩ : BufTy).Contents (Elt F)) slices_S8x128x96x320_S8x128x96x307_0_0_0_0)) (constant S_ .f32 0x00000000#32) reducesTo_S8x128x96x307_S8x96x307_d1 h_S_) (broadcastInDim S8x96x307 ![] bcast_S_S8x96x307 (constant S_ .f32 0x43000000#32))) (sitofp .f32 (constantI S_ 32 0#32)) pads_S8x96x307_S8x96x320_000_000_1300 h_S_) := by
  unfold c3
  after_results_simp <;> rfl

set_option maxRecDepth 8192 in
set_option maxHeartbeats 40000000 in
/-- What list c3 leaves in plane 14's buffer. -/
theorem plane_eval_14 (V : Valuation τ sig (Elt F)) :
    after (c3 (F := F)) V (Proc.devRef .tc main_v102)
      = (pad S8x96x320 ![0, 0, 14] ![0, 0, 0] ![0, 0, 0] (Host.divf (Host.reduceAdd (mulf (extractStridedSlice S8x128x96x306 ![0, 0, 0, 14] ((V (Proc.devRef .tc main_arg0)) : (⟨S8x128x96x320, .f32⟩ : BufTy).Contents (Elt F)) slices_S8x128x96x320_S8x128x96x306_0_0_0_14) (extractStridedSlice S8x128x96x306 ![0, 0, 0, 0] ((V (Proc.devRef .tc main_arg1)) : (⟨S8x128x96x320, .f32⟩ : BufTy).Contents (Elt F)) slices_S8x128x96x320_S8x128x96x306_0_0_0_0)) (constant S_ .f32 0x00000000#32) reducesTo_S8x128x96x306_S8x96x306_d1 h_S_) (broadcastInDim S8x96x306 ![] bcast_S_S8x96x306 (constant S_ .f32 0x43000000#32))) (sitofp .f32 (constantI S_ 32 0#32)) pads_S8x96x306_S8x96x320_000_000_1400 h_S_) := by
  unfold c3
  after_results_simp <;> rfl

set_option maxRecDepth 8192 in
set_option maxHeartbeats 40000000 in
/-- What list c3 leaves in plane 15's buffer. -/
theorem plane_eval_15 (V : Valuation τ sig (Elt F)) :
    after (c3 (F := F)) V (Proc.devRef .tc main_v109)
      = (pad S8x96x320 ![0, 0, 15] ![0, 0, 0] ![0, 0, 0] (Host.divf (Host.reduceAdd (mulf (extractStridedSlice S8x128x96x305 ![0, 0, 0, 15] ((V (Proc.devRef .tc main_arg0)) : (⟨S8x128x96x320, .f32⟩ : BufTy).Contents (Elt F)) slices_S8x128x96x320_S8x128x96x305_0_0_0_15) (extractStridedSlice S8x128x96x305 ![0, 0, 0, 0] ((V (Proc.devRef .tc main_arg1)) : (⟨S8x128x96x320, .f32⟩ : BufTy).Contents (Elt F)) slices_S8x128x96x320_S8x128x96x305_0_0_0_0)) (constant S_ .f32 0x00000000#32) reducesTo_S8x128x96x305_S8x96x305_d1 h_S_) (broadcastInDim S8x96x305 ![] bcast_S_S8x96x305 (constant S_ .f32 0x43000000#32))) (sitofp .f32 (constantI S_ 32 0#32)) pads_S8x96x305_S8x96x320_000_000_1500 h_S_) := by
  unfold c3
  after_results_simp <;> rfl

set_option maxRecDepth 8192 in
set_option maxHeartbeats 40000000 in
theorem keep_c3_main_arg0 (V : Valuation τ sig (Elt F)) : after (c3 (F := F)) V (Proc.devRef .tc main_arg0) = V (Proc.devRef .tc main_arg0) := by
  unfold c3
  after_results_simp <;> rfl

set_option maxRecDepth 8192 in
set_option maxHeartbeats 40000000 in
theorem keep_c3_main_arg1 (V : Valuation τ sig (Elt F)) : after (c3 (F := F)) V (Proc.devRef .tc main_arg1) = V (Proc.devRef .tc main_arg1) := by
  unfold c3
  after_results_simp <;> rfl

set_option maxRecDepth 8192 in
set_option maxHeartbeats 40000000 in
theorem keep_c3_main_v4 (V : Valuation τ sig (Elt F)) : after (c3 (F := F)) V (Proc.devRef .tc main_v4) = V (Proc.devRef .tc main_v4) := by
  unfold c3
  after_results_simp <;> rfl

set_option maxRecDepth 8192 in
set_option maxHeartbeats 40000000 in
theorem keep_c3_main_v11 (V : Valuation τ sig (Elt F)) : after (c3 (F := F)) V (Proc.devRef .tc main_v11) = V (Proc.devRef .tc main_v11) := by
  unfold c3
  after_results_simp <;> rfl

set_option maxRecDepth 8192 in
set_option maxHeartbeats 40000000 in
theorem keep_c3_main_v18 (V : Valuation τ sig (Elt F)) : after (c3 (F := F)) V (Proc.devRef .tc main_v18) = V (Proc.devRef .tc main_v18) := by
  unfold c3
  after_results_simp <;> rfl

set_option maxRecDepth 8192 in
set_option maxHeartbeats 40000000 in
theorem keep_c3_main_v25 (V : Valuation τ sig (Elt F)) : after (c3 (F := F)) V (Proc.devRef .tc main_v25) = V (Proc.devRef .tc main_v25) := by
  unfold c3
  after_results_simp <;> rfl

set_option maxRecDepth 8192 in
set_option maxHeartbeats 40000000 in
theorem keep_c3_main_v32 (V : Valuation τ sig (Elt F)) : after (c3 (F := F)) V (Proc.devRef .tc main_v32) = V (Proc.devRef .tc main_v32) := by
  unfold c3
  after_results_simp <;> rfl

set_option maxRecDepth 8192 in
set_option maxHeartbeats 40000000 in
theorem keep_c3_main_v39 (V : Valuation τ sig (Elt F)) : after (c3 (F := F)) V (Proc.devRef .tc main_v39) = V (Proc.devRef .tc main_v39) := by
  unfold c3
  after_results_simp <;> rfl

set_option maxRecDepth 8192 in
set_option maxHeartbeats 40000000 in
theorem keep_c3_main_v46 (V : Valuation τ sig (Elt F)) : after (c3 (F := F)) V (Proc.devRef .tc main_v46) = V (Proc.devRef .tc main_v46) := by
  unfold c3
  after_results_simp <;> rfl

set_option maxRecDepth 8192 in
set_option maxHeartbeats 40000000 in
theorem keep_c3_main_v53 (V : Valuation τ sig (Elt F)) : after (c3 (F := F)) V (Proc.devRef .tc main_v53) = V (Proc.devRef .tc main_v53) := by
  unfold c3
  after_results_simp <;> rfl

set_option maxRecDepth 8192 in
set_option maxHeartbeats 40000000 in
theorem keep_c3_main_v60 (V : Valuation τ sig (Elt F)) : after (c3 (F := F)) V (Proc.devRef .tc main_v60) = V (Proc.devRef .tc main_v60) := by
  unfold c3
  after_results_simp <;> rfl

set_option maxRecDepth 8192 in
set_option maxHeartbeats 40000000 in
theorem keep_c3_main_v67 (V : Valuation τ sig (Elt F)) : after (c3 (F := F)) V (Proc.devRef .tc main_v67) = V (Proc.devRef .tc main_v67) := by
  unfold c3
  after_results_simp <;> rfl

set_option maxRecDepth 8192 in
set_option maxHeartbeats 40000000 in
theorem keep_c3_main_v74 (V : Valuation τ sig (Elt F)) : after (c3 (F := F)) V (Proc.devRef .tc main_v74) = V (Proc.devRef .tc main_v74) := by
  unfold c3
  after_results_simp <;> rfl

set_option maxRecDepth 8192 in
set_option maxHeartbeats 40000000 in
theorem keep_c3_main_v81 (V : Valuation τ sig (Elt F)) : after (c3 (F := F)) V (Proc.devRef .tc main_v81) = V (Proc.devRef .tc main_v81) := by
  unfold c3
  after_results_simp <;> rfl

set_option maxRecDepth 8192 in
set_option maxHeartbeats 40000000 in
/-- What list c4 leaves in plane 16's buffer. -/
theorem plane_eval_16 (V : Valuation τ sig (Elt F)) :
    after (c4 (F := F)) V (Proc.devRef .tc main_v116)
      = (pad S8x96x320 ![0, 0, 16] ![0, 0, 0] ![0, 0, 0] (Host.divf (Host.reduceAdd (mulf (extractStridedSlice S8x128x96x304 ![0, 0, 0, 16] ((V (Proc.devRef .tc main_arg0)) : (⟨S8x128x96x320, .f32⟩ : BufTy).Contents (Elt F)) slices_S8x128x96x320_S8x128x96x304_0_0_0_16) (extractStridedSlice S8x128x96x304 ![0, 0, 0, 0] ((V (Proc.devRef .tc main_arg1)) : (⟨S8x128x96x320, .f32⟩ : BufTy).Contents (Elt F)) slices_S8x128x96x320_S8x128x96x304_0_0_0_0)) (constant S_ .f32 0x00000000#32) reducesTo_S8x128x96x304_S8x96x304_d1 h_S_) (broadcastInDim S8x96x304 ![] bcast_S_S8x96x304 (constant S_ .f32 0x43000000#32))) (sitofp .f32 (constantI S_ 32 0#32)) pads_S8x96x304_S8x96x320_000_000_1600 h_S_) := by
  unfold c4
  after_results_simp <;> rfl

set_option maxRecDepth 8192 in
set_option maxHeartbeats 40000000 in
/-- What list c4 leaves in plane 17's buffer. -/
theorem plane_eval_17 (V : Valuation τ sig (Elt F)) :
    after (c4 (F := F)) V (Proc.devRef .tc main_v123)
      = (pad S8x96x320 ![0, 0, 17] ![0, 0, 0] ![0, 0, 0] (Host.divf (Host.reduceAdd (mulf (extractStridedSlice S8x128x96x303 ![0, 0, 0, 17] ((V (Proc.devRef .tc main_arg0)) : (⟨S8x128x96x320, .f32⟩ : BufTy).Contents (Elt F)) slices_S8x128x96x320_S8x128x96x303_0_0_0_17) (extractStridedSlice S8x128x96x303 ![0, 0, 0, 0] ((V (Proc.devRef .tc main_arg1)) : (⟨S8x128x96x320, .f32⟩ : BufTy).Contents (Elt F)) slices_S8x128x96x320_S8x128x96x303_0_0_0_0)) (constant S_ .f32 0x00000000#32) reducesTo_S8x128x96x303_S8x96x303_d1 h_S_) (broadcastInDim S8x96x303 ![] bcast_S_S8x96x303 (constant S_ .f32 0x43000000#32))) (sitofp .f32 (constantI S_ 32 0#32)) pads_S8x96x303_S8x96x320_000_000_1700 h_S_) := by
  unfold c4
  after_results_simp <;> rfl

set_option maxRecDepth 8192 in
set_option maxHeartbeats 40000000 in
/-- What list c4 leaves in plane 18's buffer. -/
theorem plane_eval_18 (V : Valuation τ sig (Elt F)) :
    after (c4 (F := F)) V (Proc.devRef .tc main_v130)
      = (pad S8x96x320 ![0, 0, 18] ![0, 0, 0] ![0, 0, 0] (Host.divf (Host.reduceAdd (mulf (extractStridedSlice S8x128x96x302 ![0, 0, 0, 18] ((V (Proc.devRef .tc main_arg0)) : (⟨S8x128x96x320, .f32⟩ : BufTy).Contents (Elt F)) slices_S8x128x96x320_S8x128x96x302_0_0_0_18) (extractStridedSlice S8x128x96x302 ![0, 0, 0, 0] ((V (Proc.devRef .tc main_arg1)) : (⟨S8x128x96x320, .f32⟩ : BufTy).Contents (Elt F)) slices_S8x128x96x320_S8x128x96x302_0_0_0_0)) (constant S_ .f32 0x00000000#32) reducesTo_S8x128x96x302_S8x96x302_d1 h_S_) (broadcastInDim S8x96x302 ![] bcast_S_S8x96x302 (constant S_ .f32 0x43000000#32))) (sitofp .f32 (constantI S_ 32 0#32)) pads_S8x96x302_S8x96x320_000_000_1800 h_S_) := by
  unfold c4
  after_results_simp <;> rfl

set_option maxRecDepth 8192 in
set_option maxHeartbeats 40000000 in
/-- What list c4 leaves in plane 19's buffer. -/
theorem plane_eval_19 (V : Valuation τ sig (Elt F)) :
    after (c4 (F := F)) V (Proc.devRef .tc main_v137)
      = (pad S8x96x320 ![0, 0, 19] ![0, 0, 0] ![0, 0, 0] (Host.divf (Host.reduceAdd (mulf (extractStridedSlice S8x128x96x301 ![0, 0, 0, 19] ((V (Proc.devRef .tc main_arg0)) : (⟨S8x128x96x320, .f32⟩ : BufTy).Contents (Elt F)) slices_S8x128x96x320_S8x128x96x301_0_0_0_19) (extractStridedSlice S8x128x96x301 ![0, 0, 0, 0] ((V (Proc.devRef .tc main_arg1)) : (⟨S8x128x96x320, .f32⟩ : BufTy).Contents (Elt F)) slices_S8x128x96x320_S8x128x96x301_0_0_0_0)) (constant S_ .f32 0x00000000#32) reducesTo_S8x128x96x301_S8x96x301_d1 h_S_) (broadcastInDim S8x96x301 ![] bcast_S_S8x96x301 (constant S_ .f32 0x43000000#32))) (sitofp .f32 (constantI S_ 32 0#32)) pads_S8x96x301_S8x96x320_000_000_1900 h_S_) := by
  unfold c4
  after_results_simp <;> rfl

set_option maxRecDepth 8192 in
set_option maxHeartbeats 40000000 in
theorem keep_c4_main_arg0 (V : Valuation τ sig (Elt F)) : after (c4 (F := F)) V (Proc.devRef .tc main_arg0) = V (Proc.devRef .tc main_arg0) := by
  unfold c4
  after_results_simp <;> rfl

set_option maxRecDepth 8192 in
set_option maxHeartbeats 40000000 in
theorem keep_c4_main_arg1 (V : Valuation τ sig (Elt F)) : after (c4 (F := F)) V (Proc.devRef .tc main_arg1) = V (Proc.devRef .tc main_arg1) := by
  unfold c4
  after_results_simp <;> rfl

set_option maxRecDepth 8192 in
set_option maxHeartbeats 40000000 in
theorem keep_c4_main_v4 (V : Valuation τ sig (Elt F)) : after (c4 (F := F)) V (Proc.devRef .tc main_v4) = V (Proc.devRef .tc main_v4) := by
  unfold c4
  after_results_simp <;> rfl

set_option maxRecDepth 8192 in
set_option maxHeartbeats 40000000 in
theorem keep_c4_main_v11 (V : Valuation τ sig (Elt F)) : after (c4 (F := F)) V (Proc.devRef .tc main_v11) = V (Proc.devRef .tc main_v11) := by
  unfold c4
  after_results_simp <;> rfl

set_option maxRecDepth 8192 in
set_option maxHeartbeats 40000000 in
theorem keep_c4_main_v18 (V : Valuation τ sig (Elt F)) : after (c4 (F := F)) V (Proc.devRef .tc main_v18) = V (Proc.devRef .tc main_v18) := by
  unfold c4
  after_results_simp <;> rfl

set_option maxRecDepth 8192 in
set_option maxHeartbeats 40000000 in
theorem keep_c4_main_v25 (V : Valuation τ sig (Elt F)) : after (c4 (F := F)) V (Proc.devRef .tc main_v25) = V (Proc.devRef .tc main_v25) := by
  unfold c4
  after_results_simp <;> rfl

set_option maxRecDepth 8192 in
set_option maxHeartbeats 40000000 in
theorem keep_c4_main_v32 (V : Valuation τ sig (Elt F)) : after (c4 (F := F)) V (Proc.devRef .tc main_v32) = V (Proc.devRef .tc main_v32) := by
  unfold c4
  after_results_simp <;> rfl

set_option maxRecDepth 8192 in
set_option maxHeartbeats 40000000 in
theorem keep_c4_main_v39 (V : Valuation τ sig (Elt F)) : after (c4 (F := F)) V (Proc.devRef .tc main_v39) = V (Proc.devRef .tc main_v39) := by
  unfold c4
  after_results_simp <;> rfl

set_option maxRecDepth 8192 in
set_option maxHeartbeats 40000000 in
theorem keep_c4_main_v46 (V : Valuation τ sig (Elt F)) : after (c4 (F := F)) V (Proc.devRef .tc main_v46) = V (Proc.devRef .tc main_v46) := by
  unfold c4
  after_results_simp <;> rfl

set_option maxRecDepth 8192 in
set_option maxHeartbeats 40000000 in
theorem keep_c4_main_v53 (V : Valuation τ sig (Elt F)) : after (c4 (F := F)) V (Proc.devRef .tc main_v53) = V (Proc.devRef .tc main_v53) := by
  unfold c4
  after_results_simp <;> rfl

set_option maxRecDepth 8192 in
set_option maxHeartbeats 40000000 in
theorem keep_c4_main_v60 (V : Valuation τ sig (Elt F)) : after (c4 (F := F)) V (Proc.devRef .tc main_v60) = V (Proc.devRef .tc main_v60) := by
  unfold c4
  after_results_simp <;> rfl

set_option maxRecDepth 8192 in
set_option maxHeartbeats 40000000 in
theorem keep_c4_main_v67 (V : Valuation τ sig (Elt F)) : after (c4 (F := F)) V (Proc.devRef .tc main_v67) = V (Proc.devRef .tc main_v67) := by
  unfold c4
  after_results_simp <;> rfl

set_option maxRecDepth 8192 in
set_option maxHeartbeats 40000000 in
theorem keep_c4_main_v74 (V : Valuation τ sig (Elt F)) : after (c4 (F := F)) V (Proc.devRef .tc main_v74) = V (Proc.devRef .tc main_v74) := by
  unfold c4
  after_results_simp <;> rfl

set_option maxRecDepth 8192 in
set_option maxHeartbeats 40000000 in
theorem keep_c4_main_v81 (V : Valuation τ sig (Elt F)) : after (c4 (F := F)) V (Proc.devRef .tc main_v81) = V (Proc.devRef .tc main_v81) := by
  unfold c4
  after_results_simp <;> rfl

set_option maxRecDepth 8192 in
set_option maxHeartbeats 40000000 in
theorem keep_c4_main_v88 (V : Valuation τ sig (Elt F)) : after (c4 (F := F)) V (Proc.devRef .tc main_v88) = V (Proc.devRef .tc main_v88) := by
  unfold c4
  after_results_simp <;> rfl

set_option maxRecDepth 8192 in
set_option maxHeartbeats 40000000 in
theorem keep_c4_main_v95 (V : Valuation τ sig (Elt F)) : after (c4 (F := F)) V (Proc.devRef .tc main_v95) = V (Proc.devRef .tc main_v95) := by
  unfold c4
  after_results_simp <;> rfl

set_option maxRecDepth 8192 in
set_option maxHeartbeats 40000000 in
theorem keep_c4_main_v102 (V : Valuation τ sig (Elt F)) : after (c4 (F := F)) V (Proc.devRef .tc main_v102) = V (Proc.devRef .tc main_v102) := by
  unfold c4
  after_results_simp <;> rfl

set_option maxRecDepth 8192 in
set_option maxHeartbeats 40000000 in
theorem keep_c4_main_v109 (V : Valuation τ sig (Elt F)) : after (c4 (F := F)) V (Proc.devRef .tc main_v109) = V (Proc.devRef .tc main_v109) := by
  unfold c4
  after_results_simp <;> rfl

set_option maxRecDepth 8192 in
set_option maxHeartbeats 40000000 in
/-- What list c5 leaves in plane 20's buffer. -/
theorem plane_eval_20 (V : Valuation τ sig (Elt F)) :
    after (c5 (F := F)) V (Proc.devRef .tc main_v144)
      = (pad S8x96x320 ![0, 0, 20] ![0, 0, 0] ![0, 0, 0] (Host.divf (Host.reduceAdd (mulf (extractStridedSlice S8x128x96x300 ![0, 0, 0, 20] ((V (Proc.devRef .tc main_arg0)) : (⟨S8x128x96x320, .f32⟩ : BufTy).Contents (Elt F)) slices_S8x128x96x320_S8x128x96x300_0_0_0_20) (extractStridedSlice S8x128x96x300 ![0, 0, 0, 0] ((V (Proc.devRef .tc main_arg1)) : (⟨S8x128x96x320, .f32⟩ : BufTy).Contents (Elt F)) slices_S8x128x96x320_S8x128x96x300_0_0_0_0)) (constant S_ .f32 0x00000000#32) reducesTo_S8x128x96x300_S8x96x300_d1 h_S_) (broadcastInDim S8x96x300 ![] bcast_S_S8x96x300 (constant S_ .f32 0x43000000#32))) (sitofp .f32 (constantI S_ 32 0#32)) pads_S8x96x300_S8x96x320_000_000_2000 h_S_) := by
  unfold c5
  after_results_simp <;> rfl

set_option maxRecDepth 8192 in
set_option maxHeartbeats 40000000 in
/-- What list c5 leaves in plane 21's buffer. -/
theorem plane_eval_21 (V : Valuation τ sig (Elt F)) :
    after (c5 (F := F)) V (Proc.devRef .tc main_v151)
      = (pad S8x96x320 ![0, 0, 21] ![0, 0, 0] ![0, 0, 0] (Host.divf (Host.reduceAdd (mulf (extractStridedSlice S8x128x96x299 ![0, 0, 0, 21] ((V (Proc.devRef .tc main_arg0)) : (⟨S8x128x96x320, .f32⟩ : BufTy).Contents (Elt F)) slices_S8x128x96x320_S8x128x96x299_0_0_0_21) (extractStridedSlice S8x128x96x299 ![0, 0, 0, 0] ((V (Proc.devRef .tc main_arg1)) : (⟨S8x128x96x320, .f32⟩ : BufTy).Contents (Elt F)) slices_S8x128x96x320_S8x128x96x299_0_0_0_0)) (constant S_ .f32 0x00000000#32) reducesTo_S8x128x96x299_S8x96x299_d1 h_S_) (broadcastInDim S8x96x299 ![] bcast_S_S8x96x299 (constant S_ .f32 0x43000000#32))) (sitofp .f32 (constantI S_ 32 0#32)) pads_S8x96x299_S8x96x320_000_000_2100 h_S_) := by
  unfold c5
  after_results_simp <;> rfl

set_option maxRecDepth 8192 in
set_option maxHeartbeats 40000000 in
/-- What list c5 leaves in plane 22's buffer. -/
theorem plane_eval_22 (V : Valuation τ sig (Elt F)) :
    after (c5 (F := F)) V (Proc.devRef .tc main_v158)
      = (pad S8x96x320 ![0, 0, 22] ![0, 0, 0] ![0, 0, 0] (Host.divf (Host.reduceAdd (mulf (extractStridedSlice S8x128x96x298 ![0, 0, 0, 22] ((V (Proc.devRef .tc main_arg0)) : (⟨S8x128x96x320, .f32⟩ : BufTy).Contents (Elt F)) slices_S8x128x96x320_S8x128x96x298_0_0_0_22) (extractStridedSlice S8x128x96x298 ![0, 0, 0, 0] ((V (Proc.devRef .tc main_arg1)) : (⟨S8x128x96x320, .f32⟩ : BufTy).Contents (Elt F)) slices_S8x128x96x320_S8x128x96x298_0_0_0_0)) (constant S_ .f32 0x00000000#32) reducesTo_S8x128x96x298_S8x96x298_d1 h_S_) (broadcastInDim S8x96x298 ![] bcast_S_S8x96x298 (constant S_ .f32 0x43000000#32))) (sitofp .f32 (constantI S_ 32 0#32)) pads_S8x96x298_S8x96x320_000_000_2200 h_S_) := by
  unfold c5
  after_results_simp <;> rfl

set_option maxRecDepth 8192 in
set_option maxHeartbeats 40000000 in
/-- What list c5 leaves in plane 23's buffer. -/
theorem plane_eval_23 (V : Valuation τ sig (Elt F)) :
    after (c5 (F := F)) V (Proc.devRef .tc main_v165)
      = (pad S8x96x320 ![0, 0, 23] ![0, 0, 0] ![0, 0, 0] (Host.divf (Host.reduceAdd (mulf (extractStridedSlice S8x128x96x297 ![0, 0, 0, 23] ((V (Proc.devRef .tc main_arg0)) : (⟨S8x128x96x320, .f32⟩ : BufTy).Contents (Elt F)) slices_S8x128x96x320_S8x128x96x297_0_0_0_23) (extractStridedSlice S8x128x96x297 ![0, 0, 0, 0] ((V (Proc.devRef .tc main_arg1)) : (⟨S8x128x96x320, .f32⟩ : BufTy).Contents (Elt F)) slices_S8x128x96x320_S8x128x96x297_0_0_0_0)) (constant S_ .f32 0x00000000#32) reducesTo_S8x128x96x297_S8x96x297_d1 h_S_) (broadcastInDim S8x96x297 ![] bcast_S_S8x96x297 (constant S_ .f32 0x43000000#32))) (sitofp .f32 (constantI S_ 32 0#32)) pads_S8x96x297_S8x96x320_000_000_2300 h_S_) := by
  unfold c5
  after_results_simp <;> rfl

set_option maxRecDepth 8192 in
set_option maxHeartbeats 40000000 in
theorem keep_c5_main_arg0 (V : Valuation τ sig (Elt F)) : after (c5 (F := F)) V (Proc.devRef .tc main_arg0) = V (Proc.devRef .tc main_arg0) := by
  unfold c5
  after_results_simp <;> rfl

set_option maxRecDepth 8192 in
set_option maxHeartbeats 40000000 in
theorem keep_c5_main_arg1 (V : Valuation τ sig (Elt F)) : after (c5 (F := F)) V (Proc.devRef .tc main_arg1) = V (Proc.devRef .tc main_arg1) := by
  unfold c5
  after_results_simp <;> rfl

set_option maxRecDepth 8192 in
set_option maxHeartbeats 40000000 in
theorem keep_c5_main_v4 (V : Valuation τ sig (Elt F)) : after (c5 (F := F)) V (Proc.devRef .tc main_v4) = V (Proc.devRef .tc main_v4) := by
  unfold c5
  after_results_simp <;> rfl

set_option maxRecDepth 8192 in
set_option maxHeartbeats 40000000 in
theorem keep_c5_main_v11 (V : Valuation τ sig (Elt F)) : after (c5 (F := F)) V (Proc.devRef .tc main_v11) = V (Proc.devRef .tc main_v11) := by
  unfold c5
  after_results_simp <;> rfl

set_option maxRecDepth 8192 in
set_option maxHeartbeats 40000000 in
theorem keep_c5_main_v18 (V : Valuation τ sig (Elt F)) : after (c5 (F := F)) V (Proc.devRef .tc main_v18) = V (Proc.devRef .tc main_v18) := by
  unfold c5
  after_results_simp <;> rfl

set_option maxRecDepth 8192 in
set_option maxHeartbeats 40000000 in
theorem keep_c5_main_v25 (V : Valuation τ sig (Elt F)) : after (c5 (F := F)) V (Proc.devRef .tc main_v25) = V (Proc.devRef .tc main_v25) := by
  unfold c5
  after_results_simp <;> rfl

set_option maxRecDepth 8192 in
set_option maxHeartbeats 40000000 in
theorem keep_c5_main_v32 (V : Valuation τ sig (Elt F)) : after (c5 (F := F)) V (Proc.devRef .tc main_v32) = V (Proc.devRef .tc main_v32) := by
  unfold c5
  after_results_simp <;> rfl

set_option maxRecDepth 8192 in
set_option maxHeartbeats 40000000 in
theorem keep_c5_main_v39 (V : Valuation τ sig (Elt F)) : after (c5 (F := F)) V (Proc.devRef .tc main_v39) = V (Proc.devRef .tc main_v39) := by
  unfold c5
  after_results_simp <;> rfl

set_option maxRecDepth 8192 in
set_option maxHeartbeats 40000000 in
theorem keep_c5_main_v46 (V : Valuation τ sig (Elt F)) : after (c5 (F := F)) V (Proc.devRef .tc main_v46) = V (Proc.devRef .tc main_v46) := by
  unfold c5
  after_results_simp <;> rfl

set_option maxRecDepth 8192 in
set_option maxHeartbeats 40000000 in
theorem keep_c5_main_v53 (V : Valuation τ sig (Elt F)) : after (c5 (F := F)) V (Proc.devRef .tc main_v53) = V (Proc.devRef .tc main_v53) := by
  unfold c5
  after_results_simp <;> rfl

set_option maxRecDepth 8192 in
set_option maxHeartbeats 40000000 in
theorem keep_c5_main_v60 (V : Valuation τ sig (Elt F)) : after (c5 (F := F)) V (Proc.devRef .tc main_v60) = V (Proc.devRef .tc main_v60) := by
  unfold c5
  after_results_simp <;> rfl

set_option maxRecDepth 8192 in
set_option maxHeartbeats 40000000 in
theorem keep_c5_main_v67 (V : Valuation τ sig (Elt F)) : after (c5 (F := F)) V (Proc.devRef .tc main_v67) = V (Proc.devRef .tc main_v67) := by
  unfold c5
  after_results_simp <;> rfl

set_option maxRecDepth 8192 in
set_option maxHeartbeats 40000000 in
theorem keep_c5_main_v74 (V : Valuation τ sig (Elt F)) : after (c5 (F := F)) V (Proc.devRef .tc main_v74) = V (Proc.devRef .tc main_v74) := by
  unfold c5
  after_results_simp <;> rfl

set_option maxRecDepth 8192 in
set_option maxHeartbeats 40000000 in
theorem keep_c5_main_v81 (V : Valuation τ sig (Elt F)) : after (c5 (F := F)) V (Proc.devRef .tc main_v81) = V (Proc.devRef .tc main_v81) := by
  unfold c5
  after_results_simp <;> rfl

set_option maxRecDepth 8192 in
set_option maxHeartbeats 40000000 in
theorem keep_c5_main_v88 (V : Valuation τ sig (Elt F)) : after (c5 (F := F)) V (Proc.devRef .tc main_v88) = V (Proc.devRef .tc main_v88) := by
  unfold c5
  after_results_simp <;> rfl

set_option maxRecDepth 8192 in
set_option maxHeartbeats 40000000 in
theorem keep_c5_main_v95 (V : Valuation τ sig (Elt F)) : after (c5 (F := F)) V (Proc.devRef .tc main_v95) = V (Proc.devRef .tc main_v95) := by
  unfold c5
  after_results_simp <;> rfl

set_option maxRecDepth 8192 in
set_option maxHeartbeats 40000000 in
theorem keep_c5_main_v102 (V : Valuation τ sig (Elt F)) : after (c5 (F := F)) V (Proc.devRef .tc main_v102) = V (Proc.devRef .tc main_v102) := by
  unfold c5
  after_results_simp <;> rfl

set_option maxRecDepth 8192 in
set_option maxHeartbeats 40000000 in
theorem keep_c5_main_v109 (V : Valuation τ sig (Elt F)) : after (c5 (F := F)) V (Proc.devRef .tc main_v109) = V (Proc.devRef .tc main_v109) := by
  unfold c5
  after_results_simp <;> rfl

set_option maxRecDepth 8192 in
set_option maxHeartbeats 40000000 in
theorem keep_c5_main_v116 (V : Valuation τ sig (Elt F)) : after (c5 (F := F)) V (Proc.devRef .tc main_v116) = V (Proc.devRef .tc main_v116) := by
  unfold c5
  after_results_simp <;> rfl

set_option maxRecDepth 8192 in
set_option maxHeartbeats 40000000 in
theorem keep_c5_main_v123 (V : Valuation τ sig (Elt F)) : after (c5 (F := F)) V (Proc.devRef .tc main_v123) = V (Proc.devRef .tc main_v123) := by
  unfold c5
  after_results_simp <;> rfl

set_option maxRecDepth 8192 in
set_option maxHeartbeats 40000000 in
theorem keep_c5_main_v130 (V : Valuation τ sig (Elt F)) : after (c5 (F := F)) V (Proc.devRef .tc main_v130) = V (Proc.devRef .tc main_v130) := by
  unfold c5
  after_results_simp <;> rfl

set_option maxRecDepth 8192 in
set_option maxHeartbeats 40000000 in
theorem keep_c5_main_v137 (V : Valuation τ sig (Elt F)) : after (c5 (F := F)) V (Proc.devRef .tc main_v137) = V (Proc.devRef .tc main_v137) := by
  unfold c5
  after_results_simp <;> rfl

set_option maxRecDepth 8192 in
set_option maxHeartbeats 40000000 in
/-- What list c6 leaves in plane 24's buffer. -/
theorem plane_eval_24 (V : Valuation τ sig (Elt F)) :
    after (c6 (F := F)) V (Proc.devRef .tc main_v172)
      = (pad S8x96x320 ![0, 0, 24] ![0, 0, 0] ![0, 0, 0] (Host.divf (Host.reduceAdd (mulf (extractStridedSlice S8x128x96x296 ![0, 0, 0, 24] ((V (Proc.devRef .tc main_arg0)) : (⟨S8x128x96x320, .f32⟩ : BufTy).Contents (Elt F)) slices_S8x128x96x320_S8x128x96x296_0_0_0_24) (extractStridedSlice S8x128x96x296 ![0, 0, 0, 0] ((V (Proc.devRef .tc main_arg1)) : (⟨S8x128x96x320, .f32⟩ : BufTy).Contents (Elt F)) slices_S8x128x96x320_S8x128x96x296_0_0_0_0)) (constant S_ .f32 0x00000000#32) reducesTo_S8x128x96x296_S8x96x296_d1 h_S_) (broadcastInDim S8x96x296 ![] bcast_S_S8x96x296 (constant S_ .f32 0x43000000#32))) (sitofp .f32 (constantI S_ 32 0#32)) pads_S8x96x296_S8x96x320_000_000_2400 h_S_) := by
  unfold c6
  after_results_simp <;> rfl

set_option maxRecDepth 8192 in
set_option maxHeartbeats 40000000 in
/-- What list c6 leaves in plane 25's buffer. -/
theorem plane_eval_25 (V : Valuation τ sig (Elt F)) :
    after (c6 (F := F)) V (Proc.devRef .tc main_v179)
      = (pad S8x96x320 ![0, 0, 25] ![0, 0, 0] ![0, 0, 0] (Host.divf (Host.reduceAdd (mulf (extractStridedSlice S8x128x96x295 ![0, 0, 0, 25] ((V (Proc.devRef .tc main_arg0)) : (⟨S8x128x96x320, .f32⟩ : BufTy).Contents (Elt F)) slices_S8x128x96x320_S8x128x96x295_0_0_0_25) (extractStridedSlice S8x128x96x295 ![0, 0, 0, 0] ((V (Proc.devRef .tc main_arg1)) : (⟨S8x128x96x320, .f32⟩ : BufTy).Contents (Elt F)) slices_S8x128x96x320_S8x128x96x295_0_0_0_0)) (constant S_ .f32 0x00000000#32) reducesTo_S8x128x96x295_S8x96x295_d1 h_S_) (broadcastInDim S8x96x295 ![] bcast_S_S8x96x295 (constant S_ .f32 0x43000000#32))) (sitofp .f32 (constantI S_ 32 0#32)) pads_S8x96x295_S8x96x320_000_000_2500 h_S_) := by
  unfold c6
  after_results_simp <;> rfl

set_option maxRecDepth 8192 in
set_option maxHeartbeats 40000000 in
/-- What list c6 leaves in plane 26's buffer. -/
theorem plane_eval_26 (V : Valuation τ sig (Elt F)) :
    after (c6 (F := F)) V (Proc.devRef .tc main_v186)
      = (pad S8x96x320 ![0, 0, 26] ![0, 0, 0] ![0, 0, 0] (Host.divf (Host.reduceAdd (mulf (extractStridedSlice S8x128x96x294 ![0, 0, 0, 26] ((V (Proc.devRef .tc main_arg0)) : (⟨S8x128x96x320, .f32⟩ : BufTy).Contents (Elt F)) slices_S8x128x96x320_S8x128x96x294_0_0_0_26) (extractStridedSlice S8x128x96x294 ![0, 0, 0, 0] ((V (Proc.devRef .tc main_arg1)) : (⟨S8x128x96x320, .f32⟩ : BufTy).Contents (Elt F)) slices_S8x128x96x320_S8x128x96x294_0_0_0_0)) (constant S_ .f32 0x00000000#32) reducesTo_S8x128x96x294_S8x96x294_d1 h_S_) (broadcastInDim S8x96x294 ![] bcast_S_S8x96x294 (constant S_ .f32 0x43000000#32))) (sitofp .f32 (constantI S_ 32 0#32)) pads_S8x96x294_S8x96x320_000_000_2600 h_S_) := by
  unfold c6
  after_results_simp <;> rfl

set_option maxRecDepth 8192 in
set_option maxHeartbeats 40000000 in
/-- What list c6 leaves in plane 27's buffer. -/
theorem plane_eval_27 (V : Valuation τ sig (Elt F)) :
    after (c6 (F := F)) V (Proc.devRef .tc main_v193)
      = (pad S8x96x320 ![0, 0, 27] ![0, 0, 0] ![0, 0, 0] (Host.divf (Host.reduceAdd (mulf (extractStridedSlice S8x128x96x293 ![0, 0, 0, 27] ((V (Proc.devRef .tc main_arg0)) : (⟨S8x128x96x320, .f32⟩ : BufTy).Contents (Elt F)) slices_S8x128x96x320_S8x128x96x293_0_0_0_27) (extractStridedSlice S8x128x96x293 ![0, 0, 0, 0] ((V (Proc.devRef .tc main_arg1)) : (⟨S8x128x96x320, .f32⟩ : BufTy).Contents (Elt F)) slices_S8x128x96x320_S8x128x96x293_0_0_0_0)) (constant S_ .f32 0x00000000#32) reducesTo_S8x128x96x293_S8x96x293_d1 h_S_) (broadcastInDim S8x96x293 ![] bcast_S_S8x96x293 (constant S_ .f32 0x43000000#32))) (sitofp .f32 (constantI S_ 32 0#32)) pads_S8x96x293_S8x96x320_000_000_2700 h_S_) := by
  unfold c6
  after_results_simp <;> rfl

set_option maxRecDepth 8192 in
set_option maxHeartbeats 40000000 in
theorem keep_c6_main_arg0 (V : Valuation τ sig (Elt F)) : after (c6 (F := F)) V (Proc.devRef .tc main_arg0) = V (Proc.devRef .tc main_arg0) := by
  unfold c6
  after_results_simp <;> rfl

set_option maxRecDepth 8192 in
set_option maxHeartbeats 40000000 in
theorem keep_c6_main_arg1 (V : Valuation τ sig (Elt F)) : after (c6 (F := F)) V (Proc.devRef .tc main_arg1) = V (Proc.devRef .tc main_arg1) := by
  unfold c6
  after_results_simp <;> rfl

set_option maxRecDepth 8192 in
set_option maxHeartbeats 40000000 in
theorem keep_c6_main_v4 (V : Valuation τ sig (Elt F)) : after (c6 (F := F)) V (Proc.devRef .tc main_v4) = V (Proc.devRef .tc main_v4) := by
  unfold c6
  after_results_simp <;> rfl

set_option maxRecDepth 8192 in
set_option maxHeartbeats 40000000 in
theorem keep_c6_main_v11 (V : Valuation τ sig (Elt F)) : after (c6 (F := F)) V (Proc.devRef .tc main_v11) = V (Proc.devRef .tc main_v11) := by
  unfold c6
  after_results_simp <;> rfl

set_option maxRecDepth 8192 in
set_option maxHeartbeats 40000000 in
theorem keep_c6_main_v18 (V : Valuation τ sig (Elt F)) : after (c6 (F := F)) V (Proc.devRef .tc main_v18) = V (Proc.devRef .tc main_v18) := by
  unfold c6
  after_results_simp <;> rfl

set_option maxRecDepth 8192 in
set_option maxHeartbeats 40000000 in
theorem keep_c6_main_v25 (V : Valuation τ sig (Elt F)) : after (c6 (F := F)) V (Proc.devRef .tc main_v25) = V (Proc.devRef .tc main_v25) := by
  unfold c6
  after_results_simp <;> rfl

set_option maxRecDepth 8192 in
set_option maxHeartbeats 40000000 in
theorem keep_c6_main_v32 (V : Valuation τ sig (Elt F)) : after (c6 (F := F)) V (Proc.devRef .tc main_v32) = V (Proc.devRef .tc main_v32) := by
  unfold c6
  after_results_simp <;> rfl

set_option maxRecDepth 8192 in
set_option maxHeartbeats 40000000 in
theorem keep_c6_main_v39 (V : Valuation τ sig (Elt F)) : after (c6 (F := F)) V (Proc.devRef .tc main_v39) = V (Proc.devRef .tc main_v39) := by
  unfold c6
  after_results_simp <;> rfl

set_option maxRecDepth 8192 in
set_option maxHeartbeats 40000000 in
theorem keep_c6_main_v46 (V : Valuation τ sig (Elt F)) : after (c6 (F := F)) V (Proc.devRef .tc main_v46) = V (Proc.devRef .tc main_v46) := by
  unfold c6
  after_results_simp <;> rfl

set_option maxRecDepth 8192 in
set_option maxHeartbeats 40000000 in
theorem keep_c6_main_v53 (V : Valuation τ sig (Elt F)) : after (c6 (F := F)) V (Proc.devRef .tc main_v53) = V (Proc.devRef .tc main_v53) := by
  unfold c6
  after_results_simp <;> rfl

set_option maxRecDepth 8192 in
set_option maxHeartbeats 40000000 in
theorem keep_c6_main_v60 (V : Valuation τ sig (Elt F)) : after (c6 (F := F)) V (Proc.devRef .tc main_v60) = V (Proc.devRef .tc main_v60) := by
  unfold c6
  after_results_simp <;> rfl

set_option maxRecDepth 8192 in
set_option maxHeartbeats 40000000 in
theorem keep_c6_main_v67 (V : Valuation τ sig (Elt F)) : after (c6 (F := F)) V (Proc.devRef .tc main_v67) = V (Proc.devRef .tc main_v67) := by
  unfold c6
  after_results_simp <;> rfl

set_option maxRecDepth 8192 in
set_option maxHeartbeats 40000000 in
theorem keep_c6_main_v74 (V : Valuation τ sig (Elt F)) : after (c6 (F := F)) V (Proc.devRef .tc main_v74) = V (Proc.devRef .tc main_v74) := by
  unfold c6
  after_results_simp <;> rfl

set_option maxRecDepth 8192 in
set_option maxHeartbeats 40000000 in
theorem keep_c6_main_v81 (V : Valuation τ sig (Elt F)) : after (c6 (F := F)) V (Proc.devRef .tc main_v81) = V (Proc.devRef .tc main_v81) := by
  unfold c6
  after_results_simp <;> rfl

set_option maxRecDepth 8192 in
set_option maxHeartbeats 40000000 in
theorem keep_c6_main_v88 (V : Valuation τ sig (Elt F)) : after (c6 (F := F)) V (Proc.devRef .tc main_v88) = V (Proc.devRef .tc main_v88) := by
  unfold c6
  after_results_simp <;> rfl

set_option maxRecDepth 8192 in
set_option maxHeartbeats 40000000 in
theorem keep_c6_main_v95 (V : Valuation τ sig (Elt F)) : after (c6 (F := F)) V (Proc.devRef .tc main_v95) = V (Proc.devRef .tc main_v95) := by
  unfold c6
  after_results_simp <;> rfl

set_option maxRecDepth 8192 in
set_option maxHeartbeats 40000000 in
theorem keep_c6_main_v102 (V : Valuation τ sig (Elt F)) : after (c6 (F := F)) V (Proc.devRef .tc main_v102) = V (Proc.devRef .tc main_v102) := by
  unfold c6
  after_results_simp <;> rfl

set_option maxRecDepth 8192 in
set_option maxHeartbeats 40000000 in
theorem keep_c6_main_v109 (V : Valuation τ sig (Elt F)) : after (c6 (F := F)) V (Proc.devRef .tc main_v109) = V (Proc.devRef .tc main_v109) := by
  unfold c6
  after_results_simp <;> rfl

set_option maxRecDepth 8192 in
set_option maxHeartbeats 40000000 in
theorem keep_c6_main_v116 (V : Valuation τ sig (Elt F)) : after (c6 (F := F)) V (Proc.devRef .tc main_v116) = V (Proc.devRef .tc main_v116) := by
  unfold c6
  after_results_simp <;> rfl

set_option maxRecDepth 8192 in
set_option maxHeartbeats 40000000 in
theorem keep_c6_main_v123 (V : Valuation τ sig (Elt F)) : after (c6 (F := F)) V (Proc.devRef .tc main_v123) = V (Proc.devRef .tc main_v123) := by
  unfold c6
  after_results_simp <;> rfl

set_option maxRecDepth 8192 in
set_option maxHeartbeats 40000000 in
theorem keep_c6_main_v130 (V : Valuation τ sig (Elt F)) : after (c6 (F := F)) V (Proc.devRef .tc main_v130) = V (Proc.devRef .tc main_v130) := by
  unfold c6
  after_results_simp <;> rfl

set_option maxRecDepth 8192 in
set_option maxHeartbeats 40000000 in
theorem keep_c6_main_v137 (V : Valuation τ sig (Elt F)) : after (c6 (F := F)) V (Proc.devRef .tc main_v137) = V (Proc.devRef .tc main_v137) := by
  unfold c6
  after_results_simp <;> rfl

set_option maxRecDepth 8192 in
set_option maxHeartbeats 40000000 in
theorem keep_c6_main_v144 (V : Valuation τ sig (Elt F)) : after (c6 (F := F)) V (Proc.devRef .tc main_v144) = V (Proc.devRef .tc main_v144) := by
  unfold c6
  after_results_simp <;> rfl

set_option maxRecDepth 8192 in
set_option maxHeartbeats 40000000 in
theorem keep_c6_main_v151 (V : Valuation τ sig (Elt F)) : after (c6 (F := F)) V (Proc.devRef .tc main_v151) = V (Proc.devRef .tc main_v151) := by
  unfold c6
  after_results_simp <;> rfl

set_option maxRecDepth 8192 in
set_option maxHeartbeats 40000000 in
theorem keep_c6_main_v158 (V : Valuation τ sig (Elt F)) : after (c6 (F := F)) V (Proc.devRef .tc main_v158) = V (Proc.devRef .tc main_v158) := by
  unfold c6
  after_results_simp <;> rfl

set_option maxRecDepth 8192 in
set_option maxHeartbeats 40000000 in
theorem keep_c6_main_v165 (V : Valuation τ sig (Elt F)) : after (c6 (F := F)) V (Proc.devRef .tc main_v165) = V (Proc.devRef .tc main_v165) := by
  unfold c6
  after_results_simp <;> rfl

set_option maxRecDepth 8192 in
set_option maxHeartbeats 40000000 in
/-- What list c7 leaves in plane 28's buffer. -/
theorem plane_eval_28 (V : Valuation τ sig (Elt F)) :
    after (c7 (F := F)) V (Proc.devRef .tc main_v200)
      = (pad S8x96x320 ![0, 0, 28] ![0, 0, 0] ![0, 0, 0] (Host.divf (Host.reduceAdd (mulf (extractStridedSlice S8x128x96x292 ![0, 0, 0, 28] ((V (Proc.devRef .tc main_arg0)) : (⟨S8x128x96x320, .f32⟩ : BufTy).Contents (Elt F)) slices_S8x128x96x320_S8x128x96x292_0_0_0_28) (extractStridedSlice S8x128x96x292 ![0, 0, 0, 0] ((V (Proc.devRef .tc main_arg1)) : (⟨S8x128x96x320, .f32⟩ : BufTy).Contents (Elt F)) slices_S8x128x96x320_S8x128x96x292_0_0_0_0)) (constant S_ .f32 0x00000000#32) reducesTo_S8x128x96x292_S8x96x292_d1 h_S_) (broadcastInDim S8x96x292 ![] bcast_S_S8x96x292 (constant S_ .f32 0x43000000#32))) (sitofp .f32 (constantI S_ 32 0#32)) pads_S8x96x292_S8x96x320_000_000_2800 h_S_) := by
  unfold c7
  after_results_simp <;> rfl

set_option maxRecDepth 8192 in
set_option maxHeartbeats 40000000 in
/-- What list c7 leaves in plane 29's buffer. -/
theorem plane_eval_29 (V : Valuation τ sig (Elt F)) :
    after (c7 (F := F)) V (Proc.devRef .tc main_v207)
      = (pad S8x96x320 ![0, 0, 29] ![0, 0, 0] ![0, 0, 0] (Host.divf (Host.reduceAdd (mulf (extractStridedSlice S8x128x96x291 ![0, 0, 0, 29] ((V (Proc.devRef .tc main_arg0)) : (⟨S8x128x96x320, .f32⟩ : BufTy).Contents (Elt F)) slices_S8x128x96x320_S8x128x96x291_0_0_0_29) (extractStridedSlice S8x128x96x291 ![0, 0, 0, 0] ((V (Proc.devRef .tc main_arg1)) : (⟨S8x128x96x320, .f32⟩ : BufTy).Contents (Elt F)) slices_S8x128x96x320_S8x128x96x291_0_0_0_0)) (constant S_ .f32 0x00000000#32) reducesTo_S8x128x96x291_S8x96x291_d1 h_S_) (broadcastInDim S8x96x291 ![] bcast_S_S8x96x291 (constant S_ .f32 0x43000000#32))) (sitofp .f32 (constantI S_ 32 0#32)) pads_S8x96x291_S8x96x320_000_000_2900 h_S_) := by
  unfold c7
  after_results_simp <;> rfl

set_option maxRecDepth 8192 in
set_option maxHeartbeats 40000000 in
/-- What list c7 leaves in plane 30's buffer. -/
theorem plane_eval_30 (V : Valuation τ sig (Elt F)) :
    after (c7 (F := F)) V (Proc.devRef .tc main_v214)
      = (pad S8x96x320 ![0, 0, 30] ![0, 0, 0] ![0, 0, 0] (Host.divf (Host.reduceAdd (mulf (extractStridedSlice S8x128x96x290 ![0, 0, 0, 30] ((V (Proc.devRef .tc main_arg0)) : (⟨S8x128x96x320, .f32⟩ : BufTy).Contents (Elt F)) slices_S8x128x96x320_S8x128x96x290_0_0_0_30) (extractStridedSlice S8x128x96x290 ![0, 0, 0, 0] ((V (Proc.devRef .tc main_arg1)) : (⟨S8x128x96x320, .f32⟩ : BufTy).Contents (Elt F)) slices_S8x128x96x320_S8x128x96x290_0_0_0_0)) (constant S_ .f32 0x00000000#32) reducesTo_S8x128x96x290_S8x96x290_d1 h_S_) (broadcastInDim S8x96x290 ![] bcast_S_S8x96x290 (constant S_ .f32 0x43000000#32))) (sitofp .f32 (constantI S_ 32 0#32)) pads_S8x96x290_S8x96x320_000_000_3000 h_S_) := by
  unfold c7
  after_results_simp <;> rfl

set_option maxRecDepth 8192 in
set_option maxHeartbeats 40000000 in
/-- What list c7 leaves in plane 31's buffer. -/
theorem plane_eval_31 (V : Valuation τ sig (Elt F)) :
    after (c7 (F := F)) V (Proc.devRef .tc main_v221)
      = (pad S8x96x320 ![0, 0, 31] ![0, 0, 0] ![0, 0, 0] (Host.divf (Host.reduceAdd (mulf (extractStridedSlice S8x128x96x289 ![0, 0, 0, 31] ((V (Proc.devRef .tc main_arg0)) : (⟨S8x128x96x320, .f32⟩ : BufTy).Contents (Elt F)) slices_S8x128x96x320_S8x128x96x289_0_0_0_31) (extractStridedSlice S8x128x96x289 ![0, 0, 0, 0] ((V (Proc.devRef .tc main_arg1)) : (⟨S8x128x96x320, .f32⟩ : BufTy).Contents (Elt F)) slices_S8x128x96x320_S8x128x96x289_0_0_0_0)) (constant S_ .f32 0x00000000#32) reducesTo_S8x128x96x289_S8x96x289_d1 h_S_) (broadcastInDim S8x96x289 ![] bcast_S_S8x96x289 (constant S_ .f32 0x43000000#32))) (sitofp .f32 (constantI S_ 32 0#32)) pads_S8x96x289_S8x96x320_000_000_3100 h_S_) := by
  unfold c7
  after_results_simp <;> rfl

set_option maxRecDepth 8192 in
set_option maxHeartbeats 40000000 in
theorem keep_c7_main_arg0 (V : Valuation τ sig (Elt F)) : after (c7 (F := F)) V (Proc.devRef .tc main_arg0) = V (Proc.devRef .tc main_arg0) := by
  unfold c7
  after_results_simp <;> rfl

set_option maxRecDepth 8192 in
set_option maxHeartbeats 40000000 in
theorem keep_c7_main_arg1 (V : Valuation τ sig (Elt F)) : after (c7 (F := F)) V (Proc.devRef .tc main_arg1) = V (Proc.devRef .tc main_arg1) := by
  unfold c7
  after_results_simp <;> rfl

set_option maxRecDepth 8192 in
set_option maxHeartbeats 40000000 in
theorem keep_c7_main_v4 (V : Valuation τ sig (Elt F)) : after (c7 (F := F)) V (Proc.devRef .tc main_v4) = V (Proc.devRef .tc main_v4) := by
  unfold c7
  after_results_simp <;> rfl

set_option maxRecDepth 8192 in
set_option maxHeartbeats 40000000 in
theorem keep_c7_main_v11 (V : Valuation τ sig (Elt F)) : after (c7 (F := F)) V (Proc.devRef .tc main_v11) = V (Proc.devRef .tc main_v11) := by
  unfold c7
  after_results_simp <;> rfl

set_option maxRecDepth 8192 in
set_option maxHeartbeats 40000000 in
theorem keep_c7_main_v18 (V : Valuation τ sig (Elt F)) : after (c7 (F := F)) V (Proc.devRef .tc main_v18) = V (Proc.devRef .tc main_v18) := by
  unfold c7
  after_results_simp <;> rfl

set_option maxRecDepth 8192 in
set_option maxHeartbeats 40000000 in
theorem keep_c7_main_v25 (V : Valuation τ sig (Elt F)) : after (c7 (F := F)) V (Proc.devRef .tc main_v25) = V (Proc.devRef .tc main_v25) := by
  unfold c7
  after_results_simp <;> rfl

set_option maxRecDepth 8192 in
set_option maxHeartbeats 40000000 in
theorem keep_c7_main_v32 (V : Valuation τ sig (Elt F)) : after (c7 (F := F)) V (Proc.devRef .tc main_v32) = V (Proc.devRef .tc main_v32) := by
  unfold c7
  after_results_simp <;> rfl

set_option maxRecDepth 8192 in
set_option maxHeartbeats 40000000 in
theorem keep_c7_main_v39 (V : Valuation τ sig (Elt F)) : after (c7 (F := F)) V (Proc.devRef .tc main_v39) = V (Proc.devRef .tc main_v39) := by
  unfold c7
  after_results_simp <;> rfl

set_option maxRecDepth 8192 in
set_option maxHeartbeats 40000000 in
theorem keep_c7_main_v46 (V : Valuation τ sig (Elt F)) : after (c7 (F := F)) V (Proc.devRef .tc main_v46) = V (Proc.devRef .tc main_v46) := by
  unfold c7
  after_results_simp <;> rfl

set_option maxRecDepth 8192 in
set_option maxHeartbeats 40000000 in
theorem keep_c7_main_v53 (V : Valuation τ sig (Elt F)) : after (c7 (F := F)) V (Proc.devRef .tc main_v53) = V (Proc.devRef .tc main_v53) := by
  unfold c7
  after_results_simp <;> rfl

set_option maxRecDepth 8192 in
set_option maxHeartbeats 40000000 in
theorem keep_c7_main_v60 (V : Valuation τ sig (Elt F)) : after (c7 (F := F)) V (Proc.devRef .tc main_v60) = V (Proc.devRef .tc main_v60) := by
  unfold c7
  after_results_simp <;> rfl

set_option maxRecDepth 8192 in
set_option maxHeartbeats 40000000 in
theorem keep_c7_main_v67 (V : Valuation τ sig (Elt F)) : after (c7 (F := F)) V (Proc.devRef .tc main_v67) = V (Proc.devRef .tc main_v67) := by
  unfold c7
  after_results_simp <;> rfl

set_option maxRecDepth 8192 in
set_option maxHeartbeats 40000000 in
theorem keep_c7_main_v74 (V : Valuation τ sig (Elt F)) : after (c7 (F := F)) V (Proc.devRef .tc main_v74) = V (Proc.devRef .tc main_v74) := by
  unfold c7
  after_results_simp <;> rfl

set_option maxRecDepth 8192 in
set_option maxHeartbeats 40000000 in
theorem keep_c7_main_v81 (V : Valuation τ sig (Elt F)) : after (c7 (F := F)) V (Proc.devRef .tc main_v81) = V (Proc.devRef .tc main_v81) := by
  unfold c7
  after_results_simp <;> rfl

set_option maxRecDepth 8192 in
set_option maxHeartbeats 40000000 in
theorem keep_c7_main_v88 (V : Valuation τ sig (Elt F)) : after (c7 (F := F)) V (Proc.devRef .tc main_v88) = V (Proc.devRef .tc main_v88) := by
  unfold c7
  after_results_simp <;> rfl

set_option maxRecDepth 8192 in
set_option maxHeartbeats 40000000 in
theorem keep_c7_main_v95 (V : Valuation τ sig (Elt F)) : after (c7 (F := F)) V (Proc.devRef .tc main_v95) = V (Proc.devRef .tc main_v95) := by
  unfold c7
  after_results_simp <;> rfl

set_option maxRecDepth 8192 in
set_option maxHeartbeats 40000000 in
theorem keep_c7_main_v102 (V : Valuation τ sig (Elt F)) : after (c7 (F := F)) V (Proc.devRef .tc main_v102) = V (Proc.devRef .tc main_v102) := by
  unfold c7
  after_results_simp <;> rfl

set_option maxRecDepth 8192 in
set_option maxHeartbeats 40000000 in
theorem keep_c7_main_v109 (V : Valuation τ sig (Elt F)) : after (c7 (F := F)) V (Proc.devRef .tc main_v109) = V (Proc.devRef .tc main_v109) := by
  unfold c7
  after_results_simp <;> rfl

set_option maxRecDepth 8192 in
set_option maxHeartbeats 40000000 in
theorem keep_c7_main_v116 (V : Valuation τ sig (Elt F)) : after (c7 (F := F)) V (Proc.devRef .tc main_v116) = V (Proc.devRef .tc main_v116) := by
  unfold c7
  after_results_simp <;> rfl

set_option maxRecDepth 8192 in
set_option maxHeartbeats 40000000 in
theorem keep_c7_main_v123 (V : Valuation τ sig (Elt F)) : after (c7 (F := F)) V (Proc.devRef .tc main_v123) = V (Proc.devRef .tc main_v123) := by
  unfold c7
  after_results_simp <;> rfl

set_option maxRecDepth 8192 in
set_option maxHeartbeats 40000000 in
theorem keep_c7_main_v130 (V : Valuation τ sig (Elt F)) : after (c7 (F := F)) V (Proc.devRef .tc main_v130) = V (Proc.devRef .tc main_v130) := by
  unfold c7
  after_results_simp <;> rfl

set_option maxRecDepth 8192 in
set_option maxHeartbeats 40000000 in
theorem keep_c7_main_v137 (V : Valuation τ sig (Elt F)) : after (c7 (F := F)) V (Proc.devRef .tc main_v137) = V (Proc.devRef .tc main_v137) := by
  unfold c7
  after_results_simp <;> rfl

set_option maxRecDepth 8192 in
set_option maxHeartbeats 40000000 in
theorem keep_c7_main_v144 (V : Valuation τ sig (Elt F)) : after (c7 (F := F)) V (Proc.devRef .tc main_v144) = V (Proc.devRef .tc main_v144) := by
  unfold c7
  after_results_simp <;> rfl

set_option maxRecDepth 8192 in
set_option maxHeartbeats 40000000 in
theorem keep_c7_main_v151 (V : Valuation τ sig (Elt F)) : after (c7 (F := F)) V (Proc.devRef .tc main_v151) = V (Proc.devRef .tc main_v151) := by
  unfold c7
  after_results_simp <;> rfl

set_option maxRecDepth 8192 in
set_option maxHeartbeats 40000000 in
theorem keep_c7_main_v158 (V : Valuation τ sig (Elt F)) : after (c7 (F := F)) V (Proc.devRef .tc main_v158) = V (Proc.devRef .tc main_v158) := by
  unfold c7
  after_results_simp <;> rfl

set_option maxRecDepth 8192 in
set_option maxHeartbeats 40000000 in
theorem keep_c7_main_v165 (V : Valuation τ sig (Elt F)) : after (c7 (F := F)) V (Proc.devRef .tc main_v165) = V (Proc.devRef .tc main_v165) := by
  unfold c7
  after_results_simp <;> rfl

set_option maxRecDepth 8192 in
set_option maxHeartbeats 40000000 in
theorem keep_c7_main_v172 (V : Valuation τ sig (Elt F)) : after (c7 (F := F)) V (Proc.devRef .tc main_v172) = V (Proc.devRef .tc main_v172) := by
  unfold c7
  after_results_simp <;> rfl

set_option maxRecDepth 8192 in
set_option maxHeartbeats 40000000 in
theorem keep_c7_main_v179 (V : Valuation τ sig (Elt F)) : after (c7 (F := F)) V (Proc.devRef .tc main_v179) = V (Proc.devRef .tc main_v179) := by
  unfold c7
  after_results_simp <;> rfl

set_option maxRecDepth 8192 in
set_option maxHeartbeats 40000000 in
theorem keep_c7_main_v186 (V : Valuation τ sig (Elt F)) : after (c7 (F := F)) V (Proc.devRef .tc main_v186) = V (Proc.devRef .tc main_v186) := by
  unfold c7
  after_results_simp <;> rfl

set_option maxRecDepth 8192 in
set_option maxHeartbeats 40000000 in
theorem keep_c7_main_v193 (V : Valuation τ sig (Elt F)) : after (c7 (F := F)) V (Proc.devRef .tc main_v193) = V (Proc.devRef .tc main_v193) := by
  unfold c7
  after_results_simp <;> rfl

set_option maxRecDepth 8192 in
set_option maxHeartbeats 40000000 in
/-- What list c8 leaves in plane 32's buffer. -/
theorem plane_eval_32 (V : Valuation τ sig (Elt F)) :
    after (c8 (F := F)) V (Proc.devRef .tc main_v228)
      = (pad S8x96x320 ![0, 0, 32] ![0, 0, 0] ![0, 0, 0] (Host.divf (Host.reduceAdd (mulf (extractStridedSlice S8x128x96x288 ![0, 0, 0, 32] ((V (Proc.devRef .tc main_arg0)) : (⟨S8x128x96x320, .f32⟩ : BufTy).Contents (Elt F)) slices_S8x128x96x320_S8x128x96x288_0_0_0_32) (extractStridedSlice S8x128x96x288 ![0, 0, 0, 0] ((V (Proc.devRef .tc main_arg1)) : (⟨S8x128x96x320, .f32⟩ : BufTy).Contents (Elt F)) slices_S8x128x96x320_S8x128x96x288_0_0_0_0)) (constant S_ .f32 0x00000000#32) reducesTo_S8x128x96x288_S8x96x288_d1 h_S_) (broadcastInDim S8x96x288 ![] bcast_S_S8x96x288 (constant S_ .f32 0x43000000#32))) (sitofp .f32 (constantI S_ 32 0#32)) pads_S8x96x288_S8x96x320_000_000_3200 h_S_) := by
  unfold c8
  after_results_simp <;> rfl

set_option maxRecDepth 8192 in
set_option maxHeartbeats 40000000 in
/-- What list c8 leaves in plane 33's buffer. -/
theorem plane_eval_33 (V : Valuation τ sig (Elt F)) :
    after (c8 (F := F)) V (Proc.devRef .tc main_v235)
      = (pad S8x96x320 ![0, 0, 33] ![0, 0, 0] ![0, 0, 0] (Host.divf (Host.reduceAdd (mulf (extractStridedSlice S8x128x96x287 ![0, 0, 0, 33] ((V (Proc.devRef .tc main_arg0)) : (⟨S8x128x96x320, .f32⟩ : BufTy).Contents (Elt F)) slices_S8x128x96x320_S8x128x96x287_0_0_0_33) (extractStridedSlice S8x128x96x287 ![0, 0, 0, 0] ((V (Proc.devRef .tc main_arg1)) : (⟨S8x128x96x320, .f32⟩ : BufTy).Contents (Elt F)) slices_S8x128x96x320_S8x128x96x287_0_0_0_0)) (constant S_ .f32 0x00000000#32) reducesTo_S8x128x96x287_S8x96x287_d1 h_S_) (broadcastInDim S8x96x287 ![] bcast_S_S8x96x287 (constant S_ .f32 0x43000000#32))) (sitofp .f32 (constantI S_ 32 0#32)) pads_S8x96x287_S8x96x320_000_000_3300 h_S_) := by
  unfold c8
  after_results_simp <;> rfl

set_option maxRecDepth 8192 in
set_option maxHeartbeats 40000000 in
/-- What list c8 leaves in plane 34's buffer. -/
theorem plane_eval_34 (V : Valuation τ sig (Elt F)) :
    after (c8 (F := F)) V (Proc.devRef .tc main_v242)
      = (pad S8x96x320 ![0, 0, 34] ![0, 0, 0] ![0, 0, 0] (Host.divf (Host.reduceAdd (mulf (extractStridedSlice S8x128x96x286 ![0, 0, 0, 34] ((V (Proc.devRef .tc main_arg0)) : (⟨S8x128x96x320, .f32⟩ : BufTy).Contents (Elt F)) slices_S8x128x96x320_S8x128x96x286_0_0_0_34) (extractStridedSlice S8x128x96x286 ![0, 0, 0, 0] ((V (Proc.devRef .tc main_arg1)) : (⟨S8x128x96x320, .f32⟩ : BufTy).Contents (Elt F)) slices_S8x128x96x320_S8x128x96x286_0_0_0_0)) (constant S_ .f32 0x00000000#32) reducesTo_S8x128x96x286_S8x96x286_d1 h_S_) (broadcastInDim S8x96x286 ![] bcast_S_S8x96x286 (constant S_ .f32 0x43000000#32))) (sitofp .f32 (constantI S_ 32 0#32)) pads_S8x96x286_S8x96x320_000_000_3400 h_S_) := by
  unfold c8
  after_results_simp <;> rfl

set_option maxRecDepth 8192 in
set_option maxHeartbeats 40000000 in
/-- What list c8 leaves in plane 35's buffer. -/
theorem plane_eval_35 (V : Valuation τ sig (Elt F)) :
    after (c8 (F := F)) V (Proc.devRef .tc main_v249)
      = (pad S8x96x320 ![0, 0, 35] ![0, 0, 0] ![0, 0, 0] (Host.divf (Host.reduceAdd (mulf (extractStridedSlice S8x128x96x285 ![0, 0, 0, 35] ((V (Proc.devRef .tc main_arg0)) : (⟨S8x128x96x320, .f32⟩ : BufTy).Contents (Elt F)) slices_S8x128x96x320_S8x128x96x285_0_0_0_35) (extractStridedSlice S8x128x96x285 ![0, 0, 0, 0] ((V (Proc.devRef .tc main_arg1)) : (⟨S8x128x96x320, .f32⟩ : BufTy).Contents (Elt F)) slices_S8x128x96x320_S8x128x96x285_0_0_0_0)) (constant S_ .f32 0x00000000#32) reducesTo_S8x128x96x285_S8x96x285_d1 h_S_) (broadcastInDim S8x96x285 ![] bcast_S_S8x96x285 (constant S_ .f32 0x43000000#32))) (sitofp .f32 (constantI S_ 32 0#32)) pads_S8x96x285_S8x96x320_000_000_3500 h_S_) := by
  unfold c8
  after_results_simp <;> rfl

set_option maxRecDepth 8192 in
set_option maxHeartbeats 40000000 in
theorem keep_c8_main_arg0 (V : Valuation τ sig (Elt F)) : after (c8 (F := F)) V (Proc.devRef .tc main_arg0) = V (Proc.devRef .tc main_arg0) := by
  unfold c8
  after_results_simp <;> rfl

set_option maxRecDepth 8192 in
set_option maxHeartbeats 40000000 in
theorem keep_c8_main_arg1 (V : Valuation τ sig (Elt F)) : after (c8 (F := F)) V (Proc.devRef .tc main_arg1) = V (Proc.devRef .tc main_arg1) := by
  unfold c8
  after_results_simp <;> rfl

set_option maxRecDepth 8192 in
set_option maxHeartbeats 40000000 in
theorem keep_c8_main_v4 (V : Valuation τ sig (Elt F)) : after (c8 (F := F)) V (Proc.devRef .tc main_v4) = V (Proc.devRef .tc main_v4) := by
  unfold c8
  after_results_simp <;> rfl

set_option maxRecDepth 8192 in
set_option maxHeartbeats 40000000 in
theorem keep_c8_main_v11 (V : Valuation τ sig (Elt F)) : after (c8 (F := F)) V (Proc.devRef .tc main_v11) = V (Proc.devRef .tc main_v11) := by
  unfold c8
  after_results_simp <;> rfl

set_option maxRecDepth 8192 in
set_option maxHeartbeats 40000000 in
theorem keep_c8_main_v18 (V : Valuation τ sig (Elt F)) : after (c8 (F := F)) V (Proc.devRef .tc main_v18) = V (Proc.devRef .tc main_v18) := by
  unfold c8
  after_results_simp <;> rfl

set_option maxRecDepth 8192 in
set_option maxHeartbeats 40000000 in
theorem keep_c8_main_v25 (V : Valuation τ sig (Elt F)) : after (c8 (F := F)) V (Proc.devRef .tc main_v25) = V (Proc.devRef .tc main_v25) := by
  unfold c8
  after_results_simp <;> rfl

set_option maxRecDepth 8192 in
set_option maxHeartbeats 40000000 in
theorem keep_c8_main_v32 (V : Valuation τ sig (Elt F)) : after (c8 (F := F)) V (Proc.devRef .tc main_v32) = V (Proc.devRef .tc main_v32) := by
  unfold c8
  after_results_simp <;> rfl

set_option maxRecDepth 8192 in
set_option maxHeartbeats 40000000 in
theorem keep_c8_main_v39 (V : Valuation τ sig (Elt F)) : after (c8 (F := F)) V (Proc.devRef .tc main_v39) = V (Proc.devRef .tc main_v39) := by
  unfold c8
  after_results_simp <;> rfl

set_option maxRecDepth 8192 in
set_option maxHeartbeats 40000000 in
theorem keep_c8_main_v46 (V : Valuation τ sig (Elt F)) : after (c8 (F := F)) V (Proc.devRef .tc main_v46) = V (Proc.devRef .tc main_v46) := by
  unfold c8
  after_results_simp <;> rfl

set_option maxRecDepth 8192 in
set_option maxHeartbeats 40000000 in
theorem keep_c8_main_v53 (V : Valuation τ sig (Elt F)) : after (c8 (F := F)) V (Proc.devRef .tc main_v53) = V (Proc.devRef .tc main_v53) := by
  unfold c8
  after_results_simp <;> rfl

set_option maxRecDepth 8192 in
set_option maxHeartbeats 40000000 in
theorem keep_c8_main_v60 (V : Valuation τ sig (Elt F)) : after (c8 (F := F)) V (Proc.devRef .tc main_v60) = V (Proc.devRef .tc main_v60) := by
  unfold c8
  after_results_simp <;> rfl

set_option maxRecDepth 8192 in
set_option maxHeartbeats 40000000 in
theorem keep_c8_main_v67 (V : Valuation τ sig (Elt F)) : after (c8 (F := F)) V (Proc.devRef .tc main_v67) = V (Proc.devRef .tc main_v67) := by
  unfold c8
  after_results_simp <;> rfl

set_option maxRecDepth 8192 in
set_option maxHeartbeats 40000000 in
theorem keep_c8_main_v74 (V : Valuation τ sig (Elt F)) : after (c8 (F := F)) V (Proc.devRef .tc main_v74) = V (Proc.devRef .tc main_v74) := by
  unfold c8
  after_results_simp <;> rfl

set_option maxRecDepth 8192 in
set_option maxHeartbeats 40000000 in
theorem keep_c8_main_v81 (V : Valuation τ sig (Elt F)) : after (c8 (F := F)) V (Proc.devRef .tc main_v81) = V (Proc.devRef .tc main_v81) := by
  unfold c8
  after_results_simp <;> rfl

set_option maxRecDepth 8192 in
set_option maxHeartbeats 40000000 in
theorem keep_c8_main_v88 (V : Valuation τ sig (Elt F)) : after (c8 (F := F)) V (Proc.devRef .tc main_v88) = V (Proc.devRef .tc main_v88) := by
  unfold c8
  after_results_simp <;> rfl

set_option maxRecDepth 8192 in
set_option maxHeartbeats 40000000 in
theorem keep_c8_main_v95 (V : Valuation τ sig (Elt F)) : after (c8 (F := F)) V (Proc.devRef .tc main_v95) = V (Proc.devRef .tc main_v95) := by
  unfold c8
  after_results_simp <;> rfl

set_option maxRecDepth 8192 in
set_option maxHeartbeats 40000000 in
theorem keep_c8_main_v102 (V : Valuation τ sig (Elt F)) : after (c8 (F := F)) V (Proc.devRef .tc main_v102) = V (Proc.devRef .tc main_v102) := by
  unfold c8
  after_results_simp <;> rfl

set_option maxRecDepth 8192 in
set_option maxHeartbeats 40000000 in
theorem keep_c8_main_v109 (V : Valuation τ sig (Elt F)) : after (c8 (F := F)) V (Proc.devRef .tc main_v109) = V (Proc.devRef .tc main_v109) := by
  unfold c8
  after_results_simp <;> rfl

set_option maxRecDepth 8192 in
set_option maxHeartbeats 40000000 in
theorem keep_c8_main_v116 (V : Valuation τ sig (Elt F)) : after (c8 (F := F)) V (Proc.devRef .tc main_v116) = V (Proc.devRef .tc main_v116) := by
  unfold c8
  after_results_simp <;> rfl

set_option maxRecDepth 8192 in
set_option maxHeartbeats 40000000 in
theorem keep_c8_main_v123 (V : Valuation τ sig (Elt F)) : after (c8 (F := F)) V (Proc.devRef .tc main_v123) = V (Proc.devRef .tc main_v123) := by
  unfold c8
  after_results_simp <;> rfl

set_option maxRecDepth 8192 in
set_option maxHeartbeats 40000000 in
theorem keep_c8_main_v130 (V : Valuation τ sig (Elt F)) : after (c8 (F := F)) V (Proc.devRef .tc main_v130) = V (Proc.devRef .tc main_v130) := by
  unfold c8
  after_results_simp <;> rfl

set_option maxRecDepth 8192 in
set_option maxHeartbeats 40000000 in
theorem keep_c8_main_v137 (V : Valuation τ sig (Elt F)) : after (c8 (F := F)) V (Proc.devRef .tc main_v137) = V (Proc.devRef .tc main_v137) := by
  unfold c8
  after_results_simp <;> rfl

set_option maxRecDepth 8192 in
set_option maxHeartbeats 40000000 in
theorem keep_c8_main_v144 (V : Valuation τ sig (Elt F)) : after (c8 (F := F)) V (Proc.devRef .tc main_v144) = V (Proc.devRef .tc main_v144) := by
  unfold c8
  after_results_simp <;> rfl

set_option maxRecDepth 8192 in
set_option maxHeartbeats 40000000 in
theorem keep_c8_main_v151 (V : Valuation τ sig (Elt F)) : after (c8 (F := F)) V (Proc.devRef .tc main_v151) = V (Proc.devRef .tc main_v151) := by
  unfold c8
  after_results_simp <;> rfl

set_option maxRecDepth 8192 in
set_option maxHeartbeats 40000000 in
theorem keep_c8_main_v158 (V : Valuation τ sig (Elt F)) : after (c8 (F := F)) V (Proc.devRef .tc main_v158) = V (Proc.devRef .tc main_v158) := by
  unfold c8
  after_results_simp <;> rfl

set_option maxRecDepth 8192 in
set_option maxHeartbeats 40000000 in
theorem keep_c8_main_v165 (V : Valuation τ sig (Elt F)) : after (c8 (F := F)) V (Proc.devRef .tc main_v165) = V (Proc.devRef .tc main_v165) := by
  unfold c8
  after_results_simp <;> rfl

set_option maxRecDepth 8192 in
set_option maxHeartbeats 40000000 in
theorem keep_c8_main_v172 (V : Valuation τ sig (Elt F)) : after (c8 (F := F)) V (Proc.devRef .tc main_v172) = V (Proc.devRef .tc main_v172) := by
  unfold c8
  after_results_simp <;> rfl

set_option maxRecDepth 8192 in
set_option maxHeartbeats 40000000 in
theorem keep_c8_main_v179 (V : Valuation τ sig (Elt F)) : after (c8 (F := F)) V (Proc.devRef .tc main_v179) = V (Proc.devRef .tc main_v179) := by
  unfold c8
  after_results_simp <;> rfl

set_option maxRecDepth 8192 in
set_option maxHeartbeats 40000000 in
theorem keep_c8_main_v186 (V : Valuation τ sig (Elt F)) : after (c8 (F := F)) V (Proc.devRef .tc main_v186) = V (Proc.devRef .tc main_v186) := by
  unfold c8
  after_results_simp <;> rfl

set_option maxRecDepth 8192 in
set_option maxHeartbeats 40000000 in
theorem keep_c8_main_v193 (V : Valuation τ sig (Elt F)) : after (c8 (F := F)) V (Proc.devRef .tc main_v193) = V (Proc.devRef .tc main_v193) := by
  unfold c8
  after_results_simp <;> rfl

set_option maxRecDepth 8192 in
set_option maxHeartbeats 40000000 in
theorem keep_c8_main_v200 (V : Valuation τ sig (Elt F)) : after (c8 (F := F)) V (Proc.devRef .tc main_v200) = V (Proc.devRef .tc main_v200) := by
  unfold c8
  after_results_simp <;> rfl

set_option maxRecDepth 8192 in
set_option maxHeartbeats 40000000 in
theorem keep_c8_main_v207 (V : Valuation τ sig (Elt F)) : after (c8 (F := F)) V (Proc.devRef .tc main_v207) = V (Proc.devRef .tc main_v207) := by
  unfold c8
  after_results_simp <;> rfl

set_option maxRecDepth 8192 in
set_option maxHeartbeats 40000000 in
theorem keep_c8_main_v214 (V : Valuation τ sig (Elt F)) : after (c8 (F := F)) V (Proc.devRef .tc main_v214) = V (Proc.devRef .tc main_v214) := by
  unfold c8
  after_results_simp <;> rfl

set_option maxRecDepth 8192 in
set_option maxHeartbeats 40000000 in
theorem keep_c8_main_v221 (V : Valuation τ sig (Elt F)) : after (c8 (F := F)) V (Proc.devRef .tc main_v221) = V (Proc.devRef .tc main_v221) := by
  unfold c8
  after_results_simp <;> rfl

set_option maxRecDepth 8192 in
set_option maxHeartbeats 40000000 in
/-- What list c9 leaves in plane 36's buffer. -/
theorem plane_eval_36 (V : Valuation τ sig (Elt F)) :
    after (c9 (F := F)) V (Proc.devRef .tc main_v256)
      = (pad S8x96x320 ![0, 0, 36] ![0, 0, 0] ![0, 0, 0] (Host.divf (Host.reduceAdd (mulf (extractStridedSlice S8x128x96x284 ![0, 0, 0, 36] ((V (Proc.devRef .tc main_arg0)) : (⟨S8x128x96x320, .f32⟩ : BufTy).Contents (Elt F)) slices_S8x128x96x320_S8x128x96x284_0_0_0_36) (extractStridedSlice S8x128x96x284 ![0, 0, 0, 0] ((V (Proc.devRef .tc main_arg1)) : (⟨S8x128x96x320, .f32⟩ : BufTy).Contents (Elt F)) slices_S8x128x96x320_S8x128x96x284_0_0_0_0)) (constant S_ .f32 0x00000000#32) reducesTo_S8x128x96x284_S8x96x284_d1 h_S_) (broadcastInDim S8x96x284 ![] bcast_S_S8x96x284 (constant S_ .f32 0x43000000#32))) (sitofp .f32 (constantI S_ 32 0#32)) pads_S8x96x284_S8x96x320_000_000_3600 h_S_) := by
  unfold c9
  after_results_simp <;> rfl

set_option maxRecDepth 8192 in
set_option maxHeartbeats 40000000 in
/-- What list c9 leaves in plane 37's buffer. -/
theorem plane_eval_37 (V : Valuation τ sig (Elt F)) :
    after (c9 (F := F)) V (Proc.devRef .tc main_v263)
      = (pad S8x96x320 ![0, 0, 37] ![0, 0, 0] ![0, 0, 0] (Host.divf (Host.reduceAdd (mulf (extractStridedSlice S8x128x96x283 ![0, 0, 0, 37] ((V (Proc.devRef .tc main_arg0)) : (⟨S8x128x96x320, .f32⟩ : BufTy).Contents (Elt F)) slices_S8x128x96x320_S8x128x96x283_0_0_0_37) (extractStridedSlice S8x128x96x283 ![0, 0, 0, 0] ((V (Proc.devRef .tc main_arg1)) : (⟨S8x128x96x320, .f32⟩ : BufTy).Contents (Elt F)) slices_S8x128x96x320_S8x128x96x283_0_0_0_0)) (constant S_ .f32 0x00000000#32) reducesTo_S8x128x96x283_S8x96x283_d1 h_S_) (broadcastInDim S8x96x283 ![] bcast_S_S8x96x283 (constant S_ .f32 0x43000000#32))) (sitofp .f32 (constantI S_ 32 0#32)) pads_S8x96x283_S8x96x320_000_000_3700 h_S_) := by
  unfold c9
  after_results_simp <;> rfl

set_option maxRecDepth 8192 in
set_option maxHeartbeats 40000000 in
/-- What list c9 leaves in plane 38's buffer. -/
theorem plane_eval_38 (V : Valuation τ sig (Elt F)) :
    after (c9 (F := F)) V (Proc.devRef .tc main_v270)
      = (pad S8x96x320 ![0, 0, 38] ![0, 0, 0] ![0, 0, 0] (Host.divf (Host.reduceAdd (mulf (extractStridedSlice S8x128x96x282 ![0, 0, 0, 38] ((V (Proc.devRef .tc main_arg0)) : (⟨S8x128x96x320, .f32⟩ : BufTy).Contents (Elt F)) slices_S8x128x96x320_S8x128x96x282_0_0_0_38) (extractStridedSlice S8x128x96x282 ![0, 0, 0, 0] ((V (Proc.devRef .tc main_arg1)) : (⟨S8x128x96x320, .f32⟩ : BufTy).Contents (Elt F)) slices_S8x128x96x320_S8x128x96x282_0_0_0_0)) (constant S_ .f32 0x00000000#32) reducesTo_S8x128x96x282_S8x96x282_d1 h_S_) (broadcastInDim S8x96x282 ![] bcast_S_S8x96x282 (constant S_ .f32 0x43000000#32))) (sitofp .f32 (constantI S_ 32 0#32)) pads_S8x96x282_S8x96x320_000_000_3800 h_S_) := by
  unfold c9
  after_results_simp <;> rfl

set_option maxRecDepth 8192 in
set_option maxHeartbeats 40000000 in
/-- What list c9 leaves in plane 39's buffer. -/
theorem plane_eval_39 (V : Valuation τ sig (Elt F)) :
    after (c9 (F := F)) V (Proc.devRef .tc main_v277)
      = (pad S8x96x320 ![0, 0, 39] ![0, 0, 0] ![0, 0, 0] (Host.divf (Host.reduceAdd (mulf (extractStridedSlice S8x128x96x281 ![0, 0, 0, 39] ((V (Proc.devRef .tc main_arg0)) : (⟨S8x128x96x320, .f32⟩ : BufTy).Contents (Elt F)) slices_S8x128x96x320_S8x128x96x281_0_0_0_39) (extractStridedSlice S8x128x96x281 ![0, 0, 0, 0] ((V (Proc.devRef .tc main_arg1)) : (⟨S8x128x96x320, .f32⟩ : BufTy).Contents (Elt F)) slices_S8x128x96x320_S8x128x96x281_0_0_0_0)) (constant S_ .f32 0x00000000#32) reducesTo_S8x128x96x281_S8x96x281_d1 h_S_) (broadcastInDim S8x96x281 ![] bcast_S_S8x96x281 (constant S_ .f32 0x43000000#32))) (sitofp .f32 (constantI S_ 32 0#32)) pads_S8x96x281_S8x96x320_000_000_3900 h_S_) := by
  unfold c9
  after_results_simp <;> rfl

set_option maxRecDepth 8192 in
set_option maxHeartbeats 40000000 in
theorem keep_c9_main_arg0 (V : Valuation τ sig (Elt F)) : after (c9 (F := F)) V (Proc.devRef .tc main_arg0) = V (Proc.devRef .tc main_arg0) := by
  unfold c9
  after_results_simp <;> rfl

set_option maxRecDepth 8192 in
set_option maxHeartbeats 40000000 in
theorem keep_c9_main_arg1 (V : Valuation τ sig (Elt F)) : after (c9 (F := F)) V (Proc.devRef .tc main_arg1) = V (Proc.devRef .tc main_arg1) := by
  unfold c9
  after_results_simp <;> rfl

set_option maxRecDepth 8192 in
set_option maxHeartbeats 40000000 in
theorem keep_c9_main_v4 (V : Valuation τ sig (Elt F)) : after (c9 (F := F)) V (Proc.devRef .tc main_v4) = V (Proc.devRef .tc main_v4) := by
  unfold c9
  after_results_simp <;> rfl

set_option maxRecDepth 8192 in
set_option maxHeartbeats 40000000 in
theorem keep_c9_main_v11 (V : Valuation τ sig (Elt F)) : after (c9 (F := F)) V (Proc.devRef .tc main_v11) = V (Proc.devRef .tc main_v11) := by
  unfold c9
  after_results_simp <;> rfl

set_option maxRecDepth 8192 in
set_option maxHeartbeats 40000000 in
theorem keep_c9_main_v18 (V : Valuation τ sig (Elt F)) : after (c9 (F := F)) V (Proc.devRef .tc main_v18) = V (Proc.devRef .tc main_v18) := by
  unfold c9
  after_results_simp <;> rfl

set_option maxRecDepth 8192 in
set_option maxHeartbeats 40000000 in
theorem keep_c9_main_v25 (V : Valuation τ sig (Elt F)) : after (c9 (F := F)) V (Proc.devRef .tc main_v25) = V (Proc.devRef .tc main_v25) := by
  unfold c9
  after_results_simp <;> rfl

set_option maxRecDepth 8192 in
set_option maxHeartbeats 40000000 in
theorem keep_c9_main_v32 (V : Valuation τ sig (Elt F)) : after (c9 (F := F)) V (Proc.devRef .tc main_v32) = V (Proc.devRef .tc main_v32) := by
  unfold c9
  after_results_simp <;> rfl

set_option maxRecDepth 8192 in
set_option maxHeartbeats 40000000 in
theorem keep_c9_main_v39 (V : Valuation τ sig (Elt F)) : after (c9 (F := F)) V (Proc.devRef .tc main_v39) = V (Proc.devRef .tc main_v39) := by
  unfold c9
  after_results_simp <;> rfl

set_option maxRecDepth 8192 in
set_option maxHeartbeats 40000000 in
theorem keep_c9_main_v46 (V : Valuation τ sig (Elt F)) : after (c9 (F := F)) V (Proc.devRef .tc main_v46) = V (Proc.devRef .tc main_v46) := by
  unfold c9
  after_results_simp <;> rfl

set_option maxRecDepth 8192 in
set_option maxHeartbeats 40000000 in
theorem keep_c9_main_v53 (V : Valuation τ sig (Elt F)) : after (c9 (F := F)) V (Proc.devRef .tc main_v53) = V (Proc.devRef .tc main_v53) := by
  unfold c9
  after_results_simp <;> rfl

set_option maxRecDepth 8192 in
set_option maxHeartbeats 40000000 in
theorem keep_c9_main_v60 (V : Valuation τ sig (Elt F)) : after (c9 (F := F)) V (Proc.devRef .tc main_v60) = V (Proc.devRef .tc main_v60) := by
  unfold c9
  after_results_simp <;> rfl

set_option maxRecDepth 8192 in
set_option maxHeartbeats 40000000 in
theorem keep_c9_main_v67 (V : Valuation τ sig (Elt F)) : after (c9 (F := F)) V (Proc.devRef .tc main_v67) = V (Proc.devRef .tc main_v67) := by
  unfold c9
  after_results_simp <;> rfl

set_option maxRecDepth 8192 in
set_option maxHeartbeats 40000000 in
theorem keep_c9_main_v74 (V : Valuation τ sig (Elt F)) : after (c9 (F := F)) V (Proc.devRef .tc main_v74) = V (Proc.devRef .tc main_v74) := by
  unfold c9
  after_results_simp <;> rfl

set_option maxRecDepth 8192 in
set_option maxHeartbeats 40000000 in
theorem keep_c9_main_v81 (V : Valuation τ sig (Elt F)) : after (c9 (F := F)) V (Proc.devRef .tc main_v81) = V (Proc.devRef .tc main_v81) := by
  unfold c9
  after_results_simp <;> rfl

set_option maxRecDepth 8192 in
set_option maxHeartbeats 40000000 in
theorem keep_c9_main_v88 (V : Valuation τ sig (Elt F)) : after (c9 (F := F)) V (Proc.devRef .tc main_v88) = V (Proc.devRef .tc main_v88) := by
  unfold c9
  after_results_simp <;> rfl

set_option maxRecDepth 8192 in
set_option maxHeartbeats 40000000 in
theorem keep_c9_main_v95 (V : Valuation τ sig (Elt F)) : after (c9 (F := F)) V (Proc.devRef .tc main_v95) = V (Proc.devRef .tc main_v95) := by
  unfold c9
  after_results_simp <;> rfl

set_option maxRecDepth 8192 in
set_option maxHeartbeats 40000000 in
theorem keep_c9_main_v102 (V : Valuation τ sig (Elt F)) : after (c9 (F := F)) V (Proc.devRef .tc main_v102) = V (Proc.devRef .tc main_v102) := by
  unfold c9
  after_results_simp <;> rfl

set_option maxRecDepth 8192 in
set_option maxHeartbeats 40000000 in
theorem keep_c9_main_v109 (V : Valuation τ sig (Elt F)) : after (c9 (F := F)) V (Proc.devRef .tc main_v109) = V (Proc.devRef .tc main_v109) := by
  unfold c9
  after_results_simp <;> rfl

set_option maxRecDepth 8192 in
set_option maxHeartbeats 40000000 in
theorem keep_c9_main_v116 (V : Valuation τ sig (Elt F)) : after (c9 (F := F)) V (Proc.devRef .tc main_v116) = V (Proc.devRef .tc main_v116) := by
  unfold c9
  after_results_simp <;> rfl

set_option maxRecDepth 8192 in
set_option maxHeartbeats 40000000 in
theorem keep_c9_main_v123 (V : Valuation τ sig (Elt F)) : after (c9 (F := F)) V (Proc.devRef .tc main_v123) = V (Proc.devRef .tc main_v123) := by
  unfold c9
  after_results_simp <;> rfl

set_option maxRecDepth 8192 in
set_option maxHeartbeats 40000000 in
theorem keep_c9_main_v130 (V : Valuation τ sig (Elt F)) : after (c9 (F := F)) V (Proc.devRef .tc main_v130) = V (Proc.devRef .tc main_v130) := by
  unfold c9
  after_results_simp <;> rfl

set_option maxRecDepth 8192 in
set_option maxHeartbeats 40000000 in
theorem keep_c9_main_v137 (V : Valuation τ sig (Elt F)) : after (c9 (F := F)) V (Proc.devRef .tc main_v137) = V (Proc.devRef .tc main_v137) := by
  unfold c9
  after_results_simp <;> rfl

set_option maxRecDepth 8192 in
set_option maxHeartbeats 40000000 in
theorem keep_c9_main_v144 (V : Valuation τ sig (Elt F)) : after (c9 (F := F)) V (Proc.devRef .tc main_v144) = V (Proc.devRef .tc main_v144) := by
  unfold c9
  after_results_simp <;> rfl

set_option maxRecDepth 8192 in
set_option maxHeartbeats 40000000 in
theorem keep_c9_main_v151 (V : Valuation τ sig (Elt F)) : after (c9 (F := F)) V (Proc.devRef .tc main_v151) = V (Proc.devRef .tc main_v151) := by
  unfold c9
  after_results_simp <;> rfl

set_option maxRecDepth 8192 in
set_option maxHeartbeats 40000000 in
theorem keep_c9_main_v158 (V : Valuation τ sig (Elt F)) : after (c9 (F := F)) V (Proc.devRef .tc main_v158) = V (Proc.devRef .tc main_v158) := by
  unfold c9
  after_results_simp <;> rfl

set_option maxRecDepth 8192 in
set_option maxHeartbeats 40000000 in
theorem keep_c9_main_v165 (V : Valuation τ sig (Elt F)) : after (c9 (F := F)) V (Proc.devRef .tc main_v165) = V (Proc.devRef .tc main_v165) := by
  unfold c9
  after_results_simp <;> rfl

set_option maxRecDepth 8192 in
set_option maxHeartbeats 40000000 in
theorem keep_c9_main_v172 (V : Valuation τ sig (Elt F)) : after (c9 (F := F)) V (Proc.devRef .tc main_v172) = V (Proc.devRef .tc main_v172) := by
  unfold c9
  after_results_simp <;> rfl

set_option maxRecDepth 8192 in
set_option maxHeartbeats 40000000 in
theorem keep_c9_main_v179 (V : Valuation τ sig (Elt F)) : after (c9 (F := F)) V (Proc.devRef .tc main_v179) = V (Proc.devRef .tc main_v179) := by
  unfold c9
  after_results_simp <;> rfl

set_option maxRecDepth 8192 in
set_option maxHeartbeats 40000000 in
theorem keep_c9_main_v186 (V : Valuation τ sig (Elt F)) : after (c9 (F := F)) V (Proc.devRef .tc main_v186) = V (Proc.devRef .tc main_v186) := by
  unfold c9
  after_results_simp <;> rfl

set_option maxRecDepth 8192 in
set_option maxHeartbeats 40000000 in
theorem keep_c9_main_v193 (V : Valuation τ sig (Elt F)) : after (c9 (F := F)) V (Proc.devRef .tc main_v193) = V (Proc.devRef .tc main_v193) := by
  unfold c9
  after_results_simp <;> rfl

set_option maxRecDepth 8192 in
set_option maxHeartbeats 40000000 in
theorem keep_c9_main_v200 (V : Valuation τ sig (Elt F)) : after (c9 (F := F)) V (Proc.devRef .tc main_v200) = V (Proc.devRef .tc main_v200) := by
  unfold c9
  after_results_simp <;> rfl

set_option maxRecDepth 8192 in
set_option maxHeartbeats 40000000 in
theorem keep_c9_main_v207 (V : Valuation τ sig (Elt F)) : after (c9 (F := F)) V (Proc.devRef .tc main_v207) = V (Proc.devRef .tc main_v207) := by
  unfold c9
  after_results_simp <;> rfl

set_option maxRecDepth 8192 in
set_option maxHeartbeats 40000000 in
theorem keep_c9_main_v214 (V : Valuation τ sig (Elt F)) : after (c9 (F := F)) V (Proc.devRef .tc main_v214) = V (Proc.devRef .tc main_v214) := by
  unfold c9
  after_results_simp <;> rfl

set_option maxRecDepth 8192 in
set_option maxHeartbeats 40000000 in
theorem keep_c9_main_v221 (V : Valuation τ sig (Elt F)) : after (c9 (F := F)) V (Proc.devRef .tc main_v221) = V (Proc.devRef .tc main_v221) := by
  unfold c9
  after_results_simp <;> rfl

set_option maxRecDepth 8192 in
set_option maxHeartbeats 40000000 in
theorem keep_c9_main_v228 (V : Valuation τ sig (Elt F)) : after (c9 (F := F)) V (Proc.devRef .tc main_v228) = V (Proc.devRef .tc main_v228) := by
  unfold c9
  after_results_simp <;> rfl

set_option maxRecDepth 8192 in
set_option maxHeartbeats 40000000 in
theorem keep_c9_main_v235 (V : Valuation τ sig (Elt F)) : after (c9 (F := F)) V (Proc.devRef .tc main_v235) = V (Proc.devRef .tc main_v235) := by
  unfold c9
  after_results_simp <;> rfl

set_option maxRecDepth 8192 in
set_option maxHeartbeats 40000000 in
theorem keep_c9_main_v242 (V : Valuation τ sig (Elt F)) : after (c9 (F := F)) V (Proc.devRef .tc main_v242) = V (Proc.devRef .tc main_v242) := by
  unfold c9
  after_results_simp <;> rfl

set_option maxRecDepth 8192 in
set_option maxHeartbeats 40000000 in
theorem keep_c9_main_v249 (V : Valuation τ sig (Elt F)) : after (c9 (F := F)) V (Proc.devRef .tc main_v249) = V (Proc.devRef .tc main_v249) := by
  unfold c9
  after_results_simp <;> rfl

set_option maxRecDepth 8192 in
set_option maxHeartbeats 40000000 in
/-- What list c10 leaves in plane 40's buffer. -/
theorem plane_eval_40 (V : Valuation τ sig (Elt F)) :
    after (c10 (F := F)) V (Proc.devRef .tc main_v284)
      = (pad S8x96x320 ![0, 0, 40] ![0, 0, 0] ![0, 0, 0] (Host.divf (Host.reduceAdd (mulf (extractStridedSlice S8x128x96x280 ![0, 0, 0, 40] ((V (Proc.devRef .tc main_arg0)) : (⟨S8x128x96x320, .f32⟩ : BufTy).Contents (Elt F)) slices_S8x128x96x320_S8x128x96x280_0_0_0_40) (extractStridedSlice S8x128x96x280 ![0, 0, 0, 0] ((V (Proc.devRef .tc main_arg1)) : (⟨S8x128x96x320, .f32⟩ : BufTy).Contents (Elt F)) slices_S8x128x96x320_S8x128x96x280_0_0_0_0)) (constant S_ .f32 0x00000000#32) reducesTo_S8x128x96x280_S8x96x280_d1 h_S_) (broadcastInDim S8x96x280 ![] bcast_S_S8x96x280 (constant S_ .f32 0x43000000#32))) (sitofp .f32 (constantI S_ 32 0#32)) pads_S8x96x280_S8x96x320_000_000_4000 h_S_) := by
  unfold c10
  after_results_simp <;> rfl

set_option maxRecDepth 8192 in
set_option maxHeartbeats 40000000 in
/-- What list c10 leaves in plane 41's buffer. -/
theorem plane_eval_41 (V : Valuation τ sig (Elt F)) :
    after (c10 (F := F)) V (Proc.devRef .tc main_v291)
      = (pad S8x96x320 ![0, 0, 41] ![0, 0, 0] ![0, 0, 0] (Host.divf (Host.reduceAdd (mulf (extractStridedSlice S8x128x96x279 ![0, 0, 0, 41] ((V (Proc.devRef .tc main_arg0)) : (⟨S8x128x96x320, .f32⟩ : BufTy).Contents (Elt F)) slices_S8x128x96x320_S8x128x96x279_0_0_0_41) (extractStridedSlice S8x128x96x279 ![0, 0, 0, 0] ((V (Proc.devRef .tc main_arg1)) : (⟨S8x128x96x320, .f32⟩ : BufTy).Contents (Elt F)) slices_S8x128x96x320_S8x128x96x279_0_0_0_0)) (constant S_ .f32 0x00000000#32) reducesTo_S8x128x96x279_S8x96x279_d1 h_S_) (broadcastInDim S8x96x279 ![] bcast_S_S8x96x279 (constant S_ .f32 0x43000000#32))) (sitofp .f32 (constantI S_ 32 0#32)) pads_S8x96x279_S8x96x320_000_000_4100 h_S_) := by
  unfold c10
  after_results_simp <;> rfl

set_option maxRecDepth 8192 in
set_option maxHeartbeats 40000000 in
/-- What list c10 leaves in plane 42's buffer. -/
theorem plane_eval_42 (V : Valuation τ sig (Elt F)) :
    after (c10 (F := F)) V (Proc.devRef .tc main_v298)
      = (pad S8x96x320 ![0, 0, 42] ![0, 0, 0] ![0, 0, 0] (Host.divf (Host.reduceAdd (mulf (extractStridedSlice S8x128x96x278 ![0, 0, 0, 42] ((V (Proc.devRef .tc main_arg0)) : (⟨S8x128x96x320, .f32⟩ : BufTy).Contents (Elt F)) slices_S8x128x96x320_S8x128x96x278_0_0_0_42) (extractStridedSlice S8x128x96x278 ![0, 0, 0, 0] ((V (Proc.devRef .tc main_arg1)) : (⟨S8x128x96x320, .f32⟩ : BufTy).Contents (Elt F)) slices_S8x128x96x320_S8x128x96x278_0_0_0_0)) (constant S_ .f32 0x00000000#32) reducesTo_S8x128x96x278_S8x96x278_d1 h_S_) (broadcastInDim S8x96x278 ![] bcast_S_S8x96x278 (constant S_ .f32 0x43000000#32))) (sitofp .f32 (constantI S_ 32 0#32)) pads_S8x96x278_S8x96x320_000_000_4200 h_S_) := by
  unfold c10
  after_results_simp <;> rfl

set_option maxRecDepth 8192 in
set_option maxHeartbeats 40000000 in
/-- What list c10 leaves in plane 43's buffer. -/
theorem plane_eval_43 (V : Valuation τ sig (Elt F)) :
    after (c10 (F := F)) V (Proc.devRef .tc main_v305)
      = (pad S8x96x320 ![0, 0, 43] ![0, 0, 0] ![0, 0, 0] (Host.divf (Host.reduceAdd (mulf (extractStridedSlice S8x128x96x277 ![0, 0, 0, 43] ((V (Proc.devRef .tc main_arg0)) : (⟨S8x128x96x320, .f32⟩ : BufTy).Contents (Elt F)) slices_S8x128x96x320_S8x128x96x277_0_0_0_43) (extractStridedSlice S8x128x96x277 ![0, 0, 0, 0] ((V (Proc.devRef .tc main_arg1)) : (⟨S8x128x96x320, .f32⟩ : BufTy).Contents (Elt F)) slices_S8x128x96x320_S8x128x96x277_0_0_0_0)) (constant S_ .f32 0x00000000#32) reducesTo_S8x128x96x277_S8x96x277_d1 h_S_) (broadcastInDim S8x96x277 ![] bcast_S_S8x96x277 (constant S_ .f32 0x43000000#32))) (sitofp .f32 (constantI S_ 32 0#32)) pads_S8x96x277_S8x96x320_000_000_4300 h_S_) := by
  unfold c10
  after_results_simp <;> rfl

set_option maxRecDepth 8192 in
set_option maxHeartbeats 40000000 in
theorem keep_c10_main_arg0 (V : Valuation τ sig (Elt F)) : after (c10 (F := F)) V (Proc.devRef .tc main_arg0) = V (Proc.devRef .tc main_arg0) := by
  unfold c10
  after_results_simp <;> rfl

set_option maxRecDepth 8192 in
set_option maxHeartbeats 40000000 in
theorem keep_c10_main_arg1 (V : Valuation τ sig (Elt F)) : after (c10 (F := F)) V (Proc.devRef .tc main_arg1) = V (Proc.devRef .tc main_arg1) := by
  unfold c10
  after_results_simp <;> rfl

set_option maxRecDepth 8192 in
set_option maxHeartbeats 40000000 in
theorem keep_c10_main_v4 (V : Valuation τ sig (Elt F)) : after (c10 (F := F)) V (Proc.devRef .tc main_v4) = V (Proc.devRef .tc main_v4) := by
  unfold c10
  after_results_simp <;> rfl

set_option maxRecDepth 8192 in
set_option maxHeartbeats 40000000 in
theorem keep_c10_main_v11 (V : Valuation τ sig (Elt F)) : after (c10 (F := F)) V (Proc.devRef .tc main_v11) = V (Proc.devRef .tc main_v11) := by
  unfold c10
  after_results_simp <;> rfl

set_option maxRecDepth 8192 in
set_option maxHeartbeats 40000000 in
theorem keep_c10_main_v18 (V : Valuation τ sig (Elt F)) : after (c10 (F := F)) V (Proc.devRef .tc main_v18) = V (Proc.devRef .tc main_v18) := by
  unfold c10
  after_results_simp <;> rfl

set_option maxRecDepth 8192 in
set_option maxHeartbeats 40000000 in
theorem keep_c10_main_v25 (V : Valuation τ sig (Elt F)) : after (c10 (F := F)) V (Proc.devRef .tc main_v25) = V (Proc.devRef .tc main_v25) := by
  unfold c10
  after_results_simp <;> rfl

set_option maxRecDepth 8192 in
set_option maxHeartbeats 40000000 in
theorem keep_c10_main_v32 (V : Valuation τ sig (Elt F)) : after (c10 (F := F)) V (Proc.devRef .tc main_v32) = V (Proc.devRef .tc main_v32) := by
  unfold c10
  after_results_simp <;> rfl

set_option maxRecDepth 8192 in
set_option maxHeartbeats 40000000 in
theorem keep_c10_main_v39 (V : Valuation τ sig (Elt F)) : after (c10 (F := F)) V (Proc.devRef .tc main_v39) = V (Proc.devRef .tc main_v39) := by
  unfold c10
  after_results_simp <;> rfl

set_option maxRecDepth 8192 in
set_option maxHeartbeats 40000000 in
theorem keep_c10_main_v46 (V : Valuation τ sig (Elt F)) : after (c10 (F := F)) V (Proc.devRef .tc main_v46) = V (Proc.devRef .tc main_v46) := by
  unfold c10
  after_results_simp <;> rfl

set_option maxRecDepth 8192 in
set_option maxHeartbeats 40000000 in
theorem keep_c10_main_v53 (V : Valuation τ sig (Elt F)) : after (c10 (F := F)) V (Proc.devRef .tc main_v53) = V (Proc.devRef .tc main_v53) := by
  unfold c10
  after_results_simp <;> rfl

set_option maxRecDepth 8192 in
set_option maxHeartbeats 40000000 in
theorem keep_c10_main_v60 (V : Valuation τ sig (Elt F)) : after (c10 (F := F)) V (Proc.devRef .tc main_v60) = V (Proc.devRef .tc main_v60) := by
  unfold c10
  after_results_simp <;> rfl

set_option maxRecDepth 8192 in
set_option maxHeartbeats 40000000 in
theorem keep_c10_main_v67 (V : Valuation τ sig (Elt F)) : after (c10 (F := F)) V (Proc.devRef .tc main_v67) = V (Proc.devRef .tc main_v67) := by
  unfold c10
  after_results_simp <;> rfl

set_option maxRecDepth 8192 in
set_option maxHeartbeats 40000000 in
theorem keep_c10_main_v74 (V : Valuation τ sig (Elt F)) : after (c10 (F := F)) V (Proc.devRef .tc main_v74) = V (Proc.devRef .tc main_v74) := by
  unfold c10
  after_results_simp <;> rfl

set_option maxRecDepth 8192 in
set_option maxHeartbeats 40000000 in
theorem keep_c10_main_v81 (V : Valuation τ sig (Elt F)) : after (c10 (F := F)) V (Proc.devRef .tc main_v81) = V (Proc.devRef .tc main_v81) := by
  unfold c10
  after_results_simp <;> rfl

set_option maxRecDepth 8192 in
set_option maxHeartbeats 40000000 in
theorem keep_c10_main_v88 (V : Valuation τ sig (Elt F)) : after (c10 (F := F)) V (Proc.devRef .tc main_v88) = V (Proc.devRef .tc main_v88) := by
  unfold c10
  after_results_simp <;> rfl

set_option maxRecDepth 8192 in
set_option maxHeartbeats 40000000 in
theorem keep_c10_main_v95 (V : Valuation τ sig (Elt F)) : after (c10 (F := F)) V (Proc.devRef .tc main_v95) = V (Proc.devRef .tc main_v95) := by
  unfold c10
  after_results_simp <;> rfl

set_option maxRecDepth 8192 in
set_option maxHeartbeats 40000000 in
theorem keep_c10_main_v102 (V : Valuation τ sig (Elt F)) : after (c10 (F := F)) V (Proc.devRef .tc main_v102) = V (Proc.devRef .tc main_v102) := by
  unfold c10
  after_results_simp <;> rfl

set_option maxRecDepth 8192 in
set_option maxHeartbeats 40000000 in
theorem keep_c10_main_v109 (V : Valuation τ sig (Elt F)) : after (c10 (F := F)) V (Proc.devRef .tc main_v109) = V (Proc.devRef .tc main_v109) := by
  unfold c10
  after_results_simp <;> rfl

set_option maxRecDepth 8192 in
set_option maxHeartbeats 40000000 in
theorem keep_c10_main_v116 (V : Valuation τ sig (Elt F)) : after (c10 (F := F)) V (Proc.devRef .tc main_v116) = V (Proc.devRef .tc main_v116) := by
  unfold c10
  after_results_simp <;> rfl

set_option maxRecDepth 8192 in
set_option maxHeartbeats 40000000 in
theorem keep_c10_main_v123 (V : Valuation τ sig (Elt F)) : after (c10 (F := F)) V (Proc.devRef .tc main_v123) = V (Proc.devRef .tc main_v123) := by
  unfold c10
  after_results_simp <;> rfl

set_option maxRecDepth 8192 in
set_option maxHeartbeats 40000000 in
theorem keep_c10_main_v130 (V : Valuation τ sig (Elt F)) : after (c10 (F := F)) V (Proc.devRef .tc main_v130) = V (Proc.devRef .tc main_v130) := by
  unfold c10
  after_results_simp <;> rfl

set_option maxRecDepth 8192 in
set_option maxHeartbeats 40000000 in
theorem keep_c10_main_v137 (V : Valuation τ sig (Elt F)) : after (c10 (F := F)) V (Proc.devRef .tc main_v137) = V (Proc.devRef .tc main_v137) := by
  unfold c10
  after_results_simp <;> rfl

set_option maxRecDepth 8192 in
set_option maxHeartbeats 40000000 in
theorem keep_c10_main_v144 (V : Valuation τ sig (Elt F)) : after (c10 (F := F)) V (Proc.devRef .tc main_v144) = V (Proc.devRef .tc main_v144) := by
  unfold c10
  after_results_simp <;> rfl

set_option maxRecDepth 8192 in
set_option maxHeartbeats 40000000 in
theorem keep_c10_main_v151 (V : Valuation τ sig (Elt F)) : after (c10 (F := F)) V (Proc.devRef .tc main_v151) = V (Proc.devRef .tc main_v151) := by
  unfold c10
  after_results_simp <;> rfl

set_option maxRecDepth 8192 in
set_option maxHeartbeats 40000000 in
theorem keep_c10_main_v158 (V : Valuation τ sig (Elt F)) : after (c10 (F := F)) V (Proc.devRef .tc main_v158) = V (Proc.devRef .tc main_v158) := by
  unfold c10
  after_results_simp <;> rfl

set_option maxRecDepth 8192 in
set_option maxHeartbeats 40000000 in
theorem keep_c10_main_v165 (V : Valuation τ sig (Elt F)) : after (c10 (F := F)) V (Proc.devRef .tc main_v165) = V (Proc.devRef .tc main_v165) := by
  unfold c10
  after_results_simp <;> rfl

set_option maxRecDepth 8192 in
set_option maxHeartbeats 40000000 in
theorem keep_c10_main_v172 (V : Valuation τ sig (Elt F)) : after (c10 (F := F)) V (Proc.devRef .tc main_v172) = V (Proc.devRef .tc main_v172) := by
  unfold c10
  after_results_simp <;> rfl

set_option maxRecDepth 8192 in
set_option maxHeartbeats 40000000 in
theorem keep_c10_main_v179 (V : Valuation τ sig (Elt F)) : after (c10 (F := F)) V (Proc.devRef .tc main_v179) = V (Proc.devRef .tc main_v179) := by
  unfold c10
  after_results_simp <;> rfl

set_option maxRecDepth 8192 in
set_option maxHeartbeats 40000000 in
theorem keep_c10_main_v186 (V : Valuation τ sig (Elt F)) : after (c10 (F := F)) V (Proc.devRef .tc main_v186) = V (Proc.devRef .tc main_v186) := by
  unfold c10
  after_results_simp <;> rfl

set_option maxRecDepth 8192 in
set_option maxHeartbeats 40000000 in
theorem keep_c10_main_v193 (V : Valuation τ sig (Elt F)) : after (c10 (F := F)) V (Proc.devRef .tc main_v193) = V (Proc.devRef .tc main_v193) := by
  unfold c10
  after_results_simp <;> rfl

set_option maxRecDepth 8192 in
set_option maxHeartbeats 40000000 in
theorem keep_c10_main_v200 (V : Valuation τ sig (Elt F)) : after (c10 (F := F)) V (Proc.devRef .tc main_v200) = V (Proc.devRef .tc main_v200) := by
  unfold c10
  after_results_simp <;> rfl

set_option maxRecDepth 8192 in
set_option maxHeartbeats 40000000 in
theorem keep_c10_main_v207 (V : Valuation τ sig (Elt F)) : after (c10 (F := F)) V (Proc.devRef .tc main_v207) = V (Proc.devRef .tc main_v207) := by
  unfold c10
  after_results_simp <;> rfl

set_option maxRecDepth 8192 in
set_option maxHeartbeats 40000000 in
theorem keep_c10_main_v214 (V : Valuation τ sig (Elt F)) : after (c10 (F := F)) V (Proc.devRef .tc main_v214) = V (Proc.devRef .tc main_v214) := by
  unfold c10
  after_results_simp <;> rfl

set_option maxRecDepth 8192 in
set_option maxHeartbeats 40000000 in
theorem keep_c10_main_v221 (V : Valuation τ sig (Elt F)) : after (c10 (F := F)) V (Proc.devRef .tc main_v221) = V (Proc.devRef .tc main_v221) := by
  unfold c10
  after_results_simp <;> rfl

set_option maxRecDepth 8192 in
set_option maxHeartbeats 40000000 in
theorem keep_c10_main_v228 (V : Valuation τ sig (Elt F)) : after (c10 (F := F)) V (Proc.devRef .tc main_v228) = V (Proc.devRef .tc main_v228) := by
  unfold c10
  after_results_simp <;> rfl

set_option maxRecDepth 8192 in
set_option maxHeartbeats 40000000 in
theorem keep_c10_main_v235 (V : Valuation τ sig (Elt F)) : after (c10 (F := F)) V (Proc.devRef .tc main_v235) = V (Proc.devRef .tc main_v235) := by
  unfold c10
  after_results_simp <;> rfl

set_option maxRecDepth 8192 in
set_option maxHeartbeats 40000000 in
theorem keep_c10_main_v242 (V : Valuation τ sig (Elt F)) : after (c10 (F := F)) V (Proc.devRef .tc main_v242) = V (Proc.devRef .tc main_v242) := by
  unfold c10
  after_results_simp <;> rfl

set_option maxRecDepth 8192 in
set_option maxHeartbeats 40000000 in
theorem keep_c10_main_v249 (V : Valuation τ sig (Elt F)) : after (c10 (F := F)) V (Proc.devRef .tc main_v249) = V (Proc.devRef .tc main_v249) := by
  unfold c10
  after_results_simp <;> rfl

set_option maxRecDepth 8192 in
set_option maxHeartbeats 40000000 in
theorem keep_c10_main_v256 (V : Valuation τ sig (Elt F)) : after (c10 (F := F)) V (Proc.devRef .tc main_v256) = V (Proc.devRef .tc main_v256) := by
  unfold c10
  after_results_simp <;> rfl

set_option maxRecDepth 8192 in
set_option maxHeartbeats 40000000 in
theorem keep_c10_main_v263 (V : Valuation τ sig (Elt F)) : after (c10 (F := F)) V (Proc.devRef .tc main_v263) = V (Proc.devRef .tc main_v263) := by
  unfold c10
  after_results_simp <;> rfl

set_option maxRecDepth 8192 in
set_option maxHeartbeats 40000000 in
theorem keep_c10_main_v270 (V : Valuation τ sig (Elt F)) : after (c10 (F := F)) V (Proc.devRef .tc main_v270) = V (Proc.devRef .tc main_v270) := by
  unfold c10
  after_results_simp <;> rfl

set_option maxRecDepth 8192 in
set_option maxHeartbeats 40000000 in
theorem keep_c10_main_v277 (V : Valuation τ sig (Elt F)) : after (c10 (F := F)) V (Proc.devRef .tc main_v277) = V (Proc.devRef .tc main_v277) := by
  unfold c10
  after_results_simp <;> rfl

set_option maxRecDepth 8192 in
set_option maxHeartbeats 40000000 in
/-- What list c11 leaves in plane 44's buffer. -/
theorem plane_eval_44 (V : Valuation τ sig (Elt F)) :
    after (c11 (F := F)) V (Proc.devRef .tc main_v312)
      = (pad S8x96x320 ![0, 0, 44] ![0, 0, 0] ![0, 0, 0] (Host.divf (Host.reduceAdd (mulf (extractStridedSlice S8x128x96x276 ![0, 0, 0, 44] ((V (Proc.devRef .tc main_arg0)) : (⟨S8x128x96x320, .f32⟩ : BufTy).Contents (Elt F)) slices_S8x128x96x320_S8x128x96x276_0_0_0_44) (extractStridedSlice S8x128x96x276 ![0, 0, 0, 0] ((V (Proc.devRef .tc main_arg1)) : (⟨S8x128x96x320, .f32⟩ : BufTy).Contents (Elt F)) slices_S8x128x96x320_S8x128x96x276_0_0_0_0)) (constant S_ .f32 0x00000000#32) reducesTo_S8x128x96x276_S8x96x276_d1 h_S_) (broadcastInDim S8x96x276 ![] bcast_S_S8x96x276 (constant S_ .f32 0x43000000#32))) (sitofp .f32 (constantI S_ 32 0#32)) pads_S8x96x276_S8x96x320_000_000_4400 h_S_) := by
  unfold c11
  after_results_simp <;> rfl

set_option maxRecDepth 8192 in
set_option maxHeartbeats 40000000 in
/-- What list c11 leaves in plane 45's buffer. -/
theorem plane_eval_45 (V : Valuation τ sig (Elt F)) :
    after (c11 (F := F)) V (Proc.devRef .tc main_v319)
      = (pad S8x96x320 ![0, 0, 45] ![0, 0, 0] ![0, 0, 0] (Host.divf (Host.reduceAdd (mulf (extractStridedSlice S8x128x96x275 ![0, 0, 0, 45] ((V (Proc.devRef .tc main_arg0)) : (⟨S8x128x96x320, .f32⟩ : BufTy).Contents (Elt F)) slices_S8x128x96x320_S8x128x96x275_0_0_0_45) (extractStridedSlice S8x128x96x275 ![0, 0, 0, 0] ((V (Proc.devRef .tc main_arg1)) : (⟨S8x128x96x320, .f32⟩ : BufTy).Contents (Elt F)) slices_S8x128x96x320_S8x128x96x275_0_0_0_0)) (constant S_ .f32 0x00000000#32) reducesTo_S8x128x96x275_S8x96x275_d1 h_S_) (broadcastInDim S8x96x275 ![] bcast_S_S8x96x275 (constant S_ .f32 0x43000000#32))) (sitofp .f32 (constantI S_ 32 0#32)) pads_S8x96x275_S8x96x320_000_000_4500 h_S_) := by
  unfold c11
  after_results_simp <;> rfl

set_option maxRecDepth 8192 in
set_option maxHeartbeats 40000000 in
/-- What list c11 leaves in plane 46's buffer. -/
theorem plane_eval_46 (V : Valuation τ sig (Elt F)) :
    after (c11 (F := F)) V (Proc.devRef .tc main_v326)
      = (pad S8x96x320 ![0, 0, 46] ![0, 0, 0] ![0, 0, 0] (Host.divf (Host.reduceAdd (mulf (extractStridedSlice S8x128x96x274 ![0, 0, 0, 46] ((V (Proc.devRef .tc main_arg0)) : (⟨S8x128x96x320, .f32⟩ : BufTy).Contents (Elt F)) slices_S8x128x96x320_S8x128x96x274_0_0_0_46) (extractStridedSlice S8x128x96x274 ![0, 0, 0, 0] ((V (Proc.devRef .tc main_arg1)) : (⟨S8x128x96x320, .f32⟩ : BufTy).Contents (Elt F)) slices_S8x128x96x320_S8x128x96x274_0_0_0_0)) (constant S_ .f32 0x00000000#32) reducesTo_S8x128x96x274_S8x96x274_d1 h_S_) (broadcastInDim S8x96x274 ![] bcast_S_S8x96x274 (constant S_ .f32 0x43000000#32))) (sitofp .f32 (constantI S_ 32 0#32)) pads_S8x96x274_S8x96x320_000_000_4600 h_S_) := by
  unfold c11
  after_results_simp <;> rfl

set_option maxRecDepth 8192 in
set_option maxHeartbeats 40000000 in
/-- What list c11 leaves in plane 47's buffer. -/
theorem plane_eval_47 (V : Valuation τ sig (Elt F)) :
    after (c11 (F := F)) V (Proc.devRef .tc main_v333)
      = (pad S8x96x320 ![0, 0, 47] ![0, 0, 0] ![0, 0, 0] (Host.divf (Host.reduceAdd (mulf (extractStridedSlice S8x128x96x273 ![0, 0, 0, 47] ((V (Proc.devRef .tc main_arg0)) : (⟨S8x128x96x320, .f32⟩ : BufTy).Contents (Elt F)) slices_S8x128x96x320_S8x128x96x273_0_0_0_47) (extractStridedSlice S8x128x96x273 ![0, 0, 0, 0] ((V (Proc.devRef .tc main_arg1)) : (⟨S8x128x96x320, .f32⟩ : BufTy).Contents (Elt F)) slices_S8x128x96x320_S8x128x96x273_0_0_0_0)) (constant S_ .f32 0x00000000#32) reducesTo_S8x128x96x273_S8x96x273_d1 h_S_) (broadcastInDim S8x96x273 ![] bcast_S_S8x96x273 (constant S_ .f32 0x43000000#32))) (sitofp .f32 (constantI S_ 32 0#32)) pads_S8x96x273_S8x96x320_000_000_4700 h_S_) := by
  unfold c11
  after_results_simp <;> rfl

set_option maxRecDepth 8192 in
set_option maxHeartbeats 40000000 in
theorem keep_c11_main_arg0 (V : Valuation τ sig (Elt F)) : after (c11 (F := F)) V (Proc.devRef .tc main_arg0) = V (Proc.devRef .tc main_arg0) := by
  unfold c11
  after_results_simp <;> rfl

set_option maxRecDepth 8192 in
set_option maxHeartbeats 40000000 in
theorem keep_c11_main_arg1 (V : Valuation τ sig (Elt F)) : after (c11 (F := F)) V (Proc.devRef .tc main_arg1) = V (Proc.devRef .tc main_arg1) := by
  unfold c11
  after_results_simp <;> rfl

set_option maxRecDepth 8192 in
set_option maxHeartbeats 40000000 in
theorem keep_c11_main_v4 (V : Valuation τ sig (Elt F)) : after (c11 (F := F)) V (Proc.devRef .tc main_v4) = V (Proc.devRef .tc main_v4) := by
  unfold c11
  after_results_simp <;> rfl

set_option maxRecDepth 8192 in
set_option maxHeartbeats 40000000 in
theorem keep_c11_main_v11 (V : Valuation τ sig (Elt F)) : after (c11 (F := F)) V (Proc.devRef .tc main_v11) = V (Proc.devRef .tc main_v11) := by
  unfold c11
  after_results_simp <;> rfl

set_option maxRecDepth 8192 in
set_option maxHeartbeats 40000000 in
theorem keep_c11_main_v18 (V : Valuation τ sig (Elt F)) : after (c11 (F := F)) V (Proc.devRef .tc main_v18) = V (Proc.devRef .tc main_v18) := by
  unfold c11
  after_results_simp <;> rfl

set_option maxRecDepth 8192 in
set_option maxHeartbeats 40000000 in
theorem keep_c11_main_v25 (V : Valuation τ sig (Elt F)) : after (c11 (F := F)) V (Proc.devRef .tc main_v25) = V (Proc.devRef .tc main_v25) := by
  unfold c11
  after_results_simp <;> rfl

set_option maxRecDepth 8192 in
set_option maxHeartbeats 40000000 in
theorem keep_c11_main_v32 (V : Valuation τ sig (Elt F)) : after (c11 (F := F)) V (Proc.devRef .tc main_v32) = V (Proc.devRef .tc main_v32) := by
  unfold c11
  after_results_simp <;> rfl

set_option maxRecDepth 8192 in
set_option maxHeartbeats 40000000 in
theorem keep_c11_main_v39 (V : Valuation τ sig (Elt F)) : after (c11 (F := F)) V (Proc.devRef .tc main_v39) = V (Proc.devRef .tc main_v39) := by
  unfold c11
  after_results_simp <;> rfl

set_option maxRecDepth 8192 in
set_option maxHeartbeats 40000000 in
theorem keep_c11_main_v46 (V : Valuation τ sig (Elt F)) : after (c11 (F := F)) V (Proc.devRef .tc main_v46) = V (Proc.devRef .tc main_v46) := by
  unfold c11
  after_results_simp <;> rfl

set_option maxRecDepth 8192 in
set_option maxHeartbeats 40000000 in
theorem keep_c11_main_v53 (V : Valuation τ sig (Elt F)) : after (c11 (F := F)) V (Proc.devRef .tc main_v53) = V (Proc.devRef .tc main_v53) := by
  unfold c11
  after_results_simp <;> rfl

set_option maxRecDepth 8192 in
set_option maxHeartbeats 40000000 in
theorem keep_c11_main_v60 (V : Valuation τ sig (Elt F)) : after (c11 (F := F)) V (Proc.devRef .tc main_v60) = V (Proc.devRef .tc main_v60) := by
  unfold c11
  after_results_simp <;> rfl

set_option maxRecDepth 8192 in
set_option maxHeartbeats 40000000 in
theorem keep_c11_main_v67 (V : Valuation τ sig (Elt F)) : after (c11 (F := F)) V (Proc.devRef .tc main_v67) = V (Proc.devRef .tc main_v67) := by
  unfold c11
  after_results_simp <;> rfl

set_option maxRecDepth 8192 in
set_option maxHeartbeats 40000000 in
theorem keep_c11_main_v74 (V : Valuation τ sig (Elt F)) : after (c11 (F := F)) V (Proc.devRef .tc main_v74) = V (Proc.devRef .tc main_v74) := by
  unfold c11
  after_results_simp <;> rfl

set_option maxRecDepth 8192 in
set_option maxHeartbeats 40000000 in
theorem keep_c11_main_v81 (V : Valuation τ sig (Elt F)) : after (c11 (F := F)) V (Proc.devRef .tc main_v81) = V (Proc.devRef .tc main_v81) := by
  unfold c11
  after_results_simp <;> rfl

set_option maxRecDepth 8192 in
set_option maxHeartbeats 40000000 in
theorem keep_c11_main_v88 (V : Valuation τ sig (Elt F)) : after (c11 (F := F)) V (Proc.devRef .tc main_v88) = V (Proc.devRef .tc main_v88) := by
  unfold c11
  after_results_simp <;> rfl

set_option maxRecDepth 8192 in
set_option maxHeartbeats 40000000 in
theorem keep_c11_main_v95 (V : Valuation τ sig (Elt F)) : after (c11 (F := F)) V (Proc.devRef .tc main_v95) = V (Proc.devRef .tc main_v95) := by
  unfold c11
  after_results_simp <;> rfl

set_option maxRecDepth 8192 in
set_option maxHeartbeats 40000000 in
theorem keep_c11_main_v102 (V : Valuation τ sig (Elt F)) : after (c11 (F := F)) V (Proc.devRef .tc main_v102) = V (Proc.devRef .tc main_v102) := by
  unfold c11
  after_results_simp <;> rfl

set_option maxRecDepth 8192 in
set_option maxHeartbeats 40000000 in
theorem keep_c11_main_v109 (V : Valuation τ sig (Elt F)) : after (c11 (F := F)) V (Proc.devRef .tc main_v109) = V (Proc.devRef .tc main_v109) := by
  unfold c11
  after_results_simp <;> rfl

set_option maxRecDepth 8192 in
set_option maxHeartbeats 40000000 in
theorem keep_c11_main_v116 (V : Valuation τ sig (Elt F)) : after (c11 (F := F)) V (Proc.devRef .tc main_v116) = V (Proc.devRef .tc main_v116) := by
  unfold c11
  after_results_simp <;> rfl

set_option maxRecDepth 8192 in
set_option maxHeartbeats 40000000 in
theorem keep_c11_main_v123 (V : Valuation τ sig (Elt F)) : after (c11 (F := F)) V (Proc.devRef .tc main_v123) = V (Proc.devRef .tc main_v123) := by
  unfold c11
  after_results_simp <;> rfl

set_option maxRecDepth 8192 in
set_option maxHeartbeats 40000000 in
theorem keep_c11_main_v130 (V : Valuation τ sig (Elt F)) : after (c11 (F := F)) V (Proc.devRef .tc main_v130) = V (Proc.devRef .tc main_v130) := by
  unfold c11
  after_results_simp <;> rfl

set_option maxRecDepth 8192 in
set_option maxHeartbeats 40000000 in
theorem keep_c11_main_v137 (V : Valuation τ sig (Elt F)) : after (c11 (F := F)) V (Proc.devRef .tc main_v137) = V (Proc.devRef .tc main_v137) := by
  unfold c11
  after_results_simp <;> rfl

set_option maxRecDepth 8192 in
set_option maxHeartbeats 40000000 in
theorem keep_c11_main_v144 (V : Valuation τ sig (Elt F)) : after (c11 (F := F)) V (Proc.devRef .tc main_v144) = V (Proc.devRef .tc main_v144) := by
  unfold c11
  after_results_simp <;> rfl

set_option maxRecDepth 8192 in
set_option maxHeartbeats 40000000 in
theorem keep_c11_main_v151 (V : Valuation τ sig (Elt F)) : after (c11 (F := F)) V (Proc.devRef .tc main_v151) = V (Proc.devRef .tc main_v151) := by
  unfold c11
  after_results_simp <;> rfl

set_option maxRecDepth 8192 in
set_option maxHeartbeats 40000000 in
theorem keep_c11_main_v158 (V : Valuation τ sig (Elt F)) : after (c11 (F := F)) V (Proc.devRef .tc main_v158) = V (Proc.devRef .tc main_v158) := by
  unfold c11
  after_results_simp <;> rfl

set_option maxRecDepth 8192 in
set_option maxHeartbeats 40000000 in
theorem keep_c11_main_v165 (V : Valuation τ sig (Elt F)) : after (c11 (F := F)) V (Proc.devRef .tc main_v165) = V (Proc.devRef .tc main_v165) := by
  unfold c11
  after_results_simp <;> rfl

set_option maxRecDepth 8192 in
set_option maxHeartbeats 40000000 in
theorem keep_c11_main_v172 (V : Valuation τ sig (Elt F)) : after (c11 (F := F)) V (Proc.devRef .tc main_v172) = V (Proc.devRef .tc main_v172) := by
  unfold c11
  after_results_simp <;> rfl

set_option maxRecDepth 8192 in
set_option maxHeartbeats 40000000 in
theorem keep_c11_main_v179 (V : Valuation τ sig (Elt F)) : after (c11 (F := F)) V (Proc.devRef .tc main_v179) = V (Proc.devRef .tc main_v179) := by
  unfold c11
  after_results_simp <;> rfl

set_option maxRecDepth 8192 in
set_option maxHeartbeats 40000000 in
theorem keep_c11_main_v186 (V : Valuation τ sig (Elt F)) : after (c11 (F := F)) V (Proc.devRef .tc main_v186) = V (Proc.devRef .tc main_v186) := by
  unfold c11
  after_results_simp <;> rfl

set_option maxRecDepth 8192 in
set_option maxHeartbeats 40000000 in
theorem keep_c11_main_v193 (V : Valuation τ sig (Elt F)) : after (c11 (F := F)) V (Proc.devRef .tc main_v193) = V (Proc.devRef .tc main_v193) := by
  unfold c11
  after_results_simp <;> rfl

set_option maxRecDepth 8192 in
set_option maxHeartbeats 40000000 in
theorem keep_c11_main_v200 (V : Valuation τ sig (Elt F)) : after (c11 (F := F)) V (Proc.devRef .tc main_v200) = V (Proc.devRef .tc main_v200) := by
  unfold c11
  after_results_simp <;> rfl

set_option maxRecDepth 8192 in
set_option maxHeartbeats 40000000 in
theorem keep_c11_main_v207 (V : Valuation τ sig (Elt F)) : after (c11 (F := F)) V (Proc.devRef .tc main_v207) = V (Proc.devRef .tc main_v207) := by
  unfold c11
  after_results_simp <;> rfl

set_option maxRecDepth 8192 in
set_option maxHeartbeats 40000000 in
theorem keep_c11_main_v214 (V : Valuation τ sig (Elt F)) : after (c11 (F := F)) V (Proc.devRef .tc main_v214) = V (Proc.devRef .tc main_v214) := by
  unfold c11
  after_results_simp <;> rfl

set_option maxRecDepth 8192 in
set_option maxHeartbeats 40000000 in
theorem keep_c11_main_v221 (V : Valuation τ sig (Elt F)) : after (c11 (F := F)) V (Proc.devRef .tc main_v221) = V (Proc.devRef .tc main_v221) := by
  unfold c11
  after_results_simp <;> rfl

set_option maxRecDepth 8192 in
set_option maxHeartbeats 40000000 in
theorem keep_c11_main_v228 (V : Valuation τ sig (Elt F)) : after (c11 (F := F)) V (Proc.devRef .tc main_v228) = V (Proc.devRef .tc main_v228) := by
  unfold c11
  after_results_simp <;> rfl

set_option maxRecDepth 8192 in
set_option maxHeartbeats 40000000 in
theorem keep_c11_main_v235 (V : Valuation τ sig (Elt F)) : after (c11 (F := F)) V (Proc.devRef .tc main_v235) = V (Proc.devRef .tc main_v235) := by
  unfold c11
  after_results_simp <;> rfl

set_option maxRecDepth 8192 in
set_option maxHeartbeats 40000000 in
theorem keep_c11_main_v242 (V : Valuation τ sig (Elt F)) : after (c11 (F := F)) V (Proc.devRef .tc main_v242) = V (Proc.devRef .tc main_v242) := by
  unfold c11
  after_results_simp <;> rfl

set_option maxRecDepth 8192 in
set_option maxHeartbeats 40000000 in
theorem keep_c11_main_v249 (V : Valuation τ sig (Elt F)) : after (c11 (F := F)) V (Proc.devRef .tc main_v249) = V (Proc.devRef .tc main_v249) := by
  unfold c11
  after_results_simp <;> rfl

set_option maxRecDepth 8192 in
set_option maxHeartbeats 40000000 in
theorem keep_c11_main_v256 (V : Valuation τ sig (Elt F)) : after (c11 (F := F)) V (Proc.devRef .tc main_v256) = V (Proc.devRef .tc main_v256) := by
  unfold c11
  after_results_simp <;> rfl

set_option maxRecDepth 8192 in
set_option maxHeartbeats 40000000 in
theorem keep_c11_main_v263 (V : Valuation τ sig (Elt F)) : after (c11 (F := F)) V (Proc.devRef .tc main_v263) = V (Proc.devRef .tc main_v263) := by
  unfold c11
  after_results_simp <;> rfl

set_option maxRecDepth 8192 in
set_option maxHeartbeats 40000000 in
theorem keep_c11_main_v270 (V : Valuation τ sig (Elt F)) : after (c11 (F := F)) V (Proc.devRef .tc main_v270) = V (Proc.devRef .tc main_v270) := by
  unfold c11
  after_results_simp <;> rfl

set_option maxRecDepth 8192 in
set_option maxHeartbeats 40000000 in
theorem keep_c11_main_v277 (V : Valuation τ sig (Elt F)) : after (c11 (F := F)) V (Proc.devRef .tc main_v277) = V (Proc.devRef .tc main_v277) := by
  unfold c11
  after_results_simp <;> rfl

set_option maxRecDepth 8192 in
set_option maxHeartbeats 40000000 in
theorem keep_c11_main_v284 (V : Valuation τ sig (Elt F)) : after (c11 (F := F)) V (Proc.devRef .tc main_v284) = V (Proc.devRef .tc main_v284) := by
  unfold c11
  after_results_simp <;> rfl

set_option maxRecDepth 8192 in
set_option maxHeartbeats 40000000 in
theorem keep_c11_main_v291 (V : Valuation τ sig (Elt F)) : after (c11 (F := F)) V (Proc.devRef .tc main_v291) = V (Proc.devRef .tc main_v291) := by
  unfold c11
  after_results_simp <;> rfl

set_option maxRecDepth 8192 in
set_option maxHeartbeats 40000000 in
theorem keep_c11_main_v298 (V : Valuation τ sig (Elt F)) : after (c11 (F := F)) V (Proc.devRef .tc main_v298) = V (Proc.devRef .tc main_v298) := by
  unfold c11
  after_results_simp <;> rfl

set_option maxRecDepth 8192 in
set_option maxHeartbeats 40000000 in
theorem keep_c11_main_v305 (V : Valuation τ sig (Elt F)) : after (c11 (F := F)) V (Proc.devRef .tc main_v305) = V (Proc.devRef .tc main_v305) := by
  unfold c11
  after_results_simp <;> rfl

set_option maxRecDepth 8192 in
set_option maxHeartbeats 40000000 in
theorem keep_cT_main_arg0 (V : Valuation τ sig (Elt F)) : after (cT (F := F)) V (Proc.devRef .tc main_arg0) = V (Proc.devRef .tc main_arg0) := by
  unfold cT
  after_results_simp <;> rfl

set_option maxRecDepth 8192 in
set_option maxHeartbeats 40000000 in
theorem keep_cT_main_arg1 (V : Valuation τ sig (Elt F)) : after (cT (F := F)) V (Proc.devRef .tc main_arg1) = V (Proc.devRef .tc main_arg1) := by
  unfold cT
  after_results_simp <;> rfl

set_option maxRecDepth 8192 in
set_option maxHeartbeats 40000000 in
/-- What the last list leaves in the result buffer, from any contents `W` of the 48 plane buffers. -/
theorem tail_eval (W : Valuation τ sig (Elt F)) :
    after (cT (F := F)) W (Proc.devRef .tc main_v385)
      = concatenate S8x48x96x320 1 [⟨S8x16x96x320, (concatenate S8x16x96x320 1 [⟨S8x1x96x320, (broadcastInDim S8x1x96x320 ![0, 2, 3] bcast_S8x96x320_S8x1x96x320_0_2_3 ((W (Proc.devRef .tc main_v4)) : (⟨S8x96x320, .f32⟩ : BufTy).Contents (Elt F)))⟩, ⟨S8x1x96x320, (broadcastInDim S8x1x96x320 ![0, 2, 3] bcast_S8x96x320_S8x1x96x320_0_2_3 ((W (Proc.devRef .tc main_v11)) : (⟨S8x96x320, .f32⟩ : BufTy).Contents (Elt F)))⟩, ⟨S8x1x96x320, (broadcastInDim S8x1x96x320 ![0, 2, 3] bcast_S8x96x320_S8x1x96x320_0_2_3 ((W (Proc.devRef .tc main_v18)) : (⟨S8x96x320, .f32⟩ : BufTy).Contents (Elt F)))⟩, ⟨S8x1x96x320, (broadcastInDim S8x1x96x320 ![0, 2, 3] bcast_S8x96x320_S8x1x96x320_0_2_3 ((W (Proc.devRef .tc main_v25)) : (⟨S8x96x320, .f32⟩ : BufTy).Contents (Elt F)))⟩, ⟨S8x1x96x320, (broadcastInDim S8x1x96x320 ![0, 2, 3] bcast_S8x96x320_S8x1x96x320_0_2_3 ((W (Proc.devRef .tc main_v32)) : (⟨S8x96x320, .f32⟩ : BufTy).Contents (Elt F)))⟩, ⟨S8x1x96x320, (broadcastInDim S8x1x96x320 ![0, 2, 3] bcast_S8x96x320_S8x1x96x320_0_2_3 ((W (Proc.devRef .tc main_v39)) : (⟨S8x96x320, .f32⟩ : BufTy).Contents (Elt F)))⟩, ⟨S8x1x96x320, (broadcastInDim S8x1x96x320 ![0, 2, 3] bcast_S8x96x320_S8x1x96x320_0_2_3 ((W (Proc.devRef .tc main_v46)) : (⟨S8x96x320, .f32⟩ : BufTy).Contents (Elt F)))⟩, ⟨S8x1x96x320, (broadcastInDim S8x1x96x320 ![0, 2, 3] bcast_S8x96x320_S8x1x96x320_0_2_3 ((W (Proc.devRef .tc main_v53)) : (⟨S8x96x320, .f32⟩ : BufTy).Contents (Elt F)))⟩, ⟨S8x1x96x320, (broadcastInDim S8x1x96x320 ![0, 2, 3] bcast_S8x96x320_S8x1x96x320_0_2_3 ((W (Proc.devRef .tc main_v60)) : (⟨S8x96x320, .f32⟩ : BufTy).Contents (Elt F)))⟩, ⟨S8x1x96x320, (broadcastInDim S8x1x96x320 ![0, 2, 3] bcast_S8x96x320_S8x1x96x320_0_2_3 ((W (Proc.devRef .tc main_v67)) : (⟨S8x96x320, .f32⟩ : BufTy).Contents (Elt F)))⟩, ⟨S8x1x96x320, (broadcastInDim S8x1x96x320 ![0, 2, 3] bcast_S8x96x320_S8x1x96x320_0_2_3 ((W (Proc.devRef .tc main_v74)) : (⟨S8x96x320, .f32⟩ : BufTy).Contents (Elt F)))⟩, ⟨S8x1x96x320, (broadcastInDim S8x1x96x320 ![0, 2, 3] bcast_S8x96x320_S8x1x96x320_0_2_3 ((W (Proc.devRef .tc main_v81)) : (⟨S8x96x320, .f32⟩ : BufTy).Contents (Elt F)))⟩, ⟨S8x1x96x320, (broadcastInDim S8x1x96x320 ![0, 2, 3] bcast_S8x96x320_S8x1x96x320_0_2_3 ((W (Proc.devRef .tc main_v88)) : (⟨S8x96x320, .f32⟩ : BufTy).Contents (Elt F)))⟩, ⟨S8x1x96x320, (broadcastInDim S8x1x96x320 ![0, 2, 3] bcast_S8x96x320_S8x1x96x320_0_2_3 ((W (Proc.devRef .tc main_v95)) : (⟨S8x96x320, .f32⟩ : BufTy).Contents (Elt F)))⟩, ⟨S8x1x96x320, (broadcastInDim S8x1x96x320 ![0, 2, 3] bcast_S8x96x320_S8x1x96x320_0_2_3 ((W (Proc.devRef .tc main_v102)) : (⟨S8x96x320, .f32⟩ : BufTy).Contents (Elt F)))⟩, ⟨S8x1x96x320, (broadcastInDim S8x1x96x320 ![0, 2, 3] bcast_S8x96x320_S8x1x96x320_0_2_3 ((W (Proc.devRef .tc main_v109)) : (⟨S8x96x320, .f32⟩ : BufTy).Contents (Elt F)))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 ((W (Proc.devRef .tc main_v116)) : (⟨S8x96x320, .f32⟩ : BufTy).Contents (Elt F)))⟩, ⟨S8x1x96x320, (broadcastInDim S8x1x96x320 ![0, 2, 3] bcast_S8x96x320_S8x1x96x320_0_2_3 ((W (Proc.devRef .tc main_v123)) : (⟨S8x96x320, .f32⟩ : BufTy).Contents (Elt F)))⟩, ⟨S8x1x96x320, (broadcastInDim S8x1x96x320 ![0, 2, 3] bcast_S8x96x320_S8x1x96x320_0_2_3 ((W (Proc.devRef .tc main_v130)) : (⟨S8x96x320, .f32⟩ : BufTy).Contents (Elt F)))⟩, ⟨S8x1x96x320, (broadcastInDim S8x1x96x320 ![0, 2, 3] bcast_S8x96x320_S8x1x96x320_0_2_3 ((W (Proc.devRef .tc main_v137)) : (⟨S8x96x320, .f32⟩ : BufTy).Contents (Elt F)))⟩, ⟨S8x1x96x320, (broadcastInDim S8x1x96x320 ![0, 2, 3] bcast_S8x96x320_S8x1x96x320_0_2_3 ((W (Proc.devRef .tc main_v144)) : (⟨S8x96x320, .f32⟩ : BufTy).Contents (Elt F)))⟩, ⟨S8x1x96x320, (broadcastInDim S8x1x96x320 ![0, 2, 3] bcast_S8x96x320_S8x1x96x320_0_2_3 ((W (Proc.devRef .tc main_v151)) : (⟨S8x96x320, .f32⟩ : BufTy).Contents (Elt F)))⟩, ⟨S8x1x96x320, (broadcastInDim S8x1x96x320 ![0, 2, 3] bcast_S8x96x320_S8x1x96x320_0_2_3 ((W (Proc.devRef .tc main_v158)) : (⟨S8x96x320, .f32⟩ : BufTy).Contents (Elt F)))⟩, ⟨S8x1x96x320, (broadcastInDim S8x1x96x320 ![0, 2, 3] bcast_S8x96x320_S8x1x96x320_0_2_3 ((W (Proc.devRef .tc main_v165)) : (⟨S8x96x320, .f32⟩ : BufTy).Contents (Elt F)))⟩, ⟨S8x1x96x320, (broadcastInDim S8x1x96x320 ![0, 2, 3] bcast_S8x96x320_S8x1x96x320_0_2_3 ((W (Proc.devRef .tc main_v172)) : (⟨S8x96x320, .f32⟩ : BufTy).Contents (Elt F)))⟩, ⟨S8x1x96x320, (broadcastInDim S8x1x96x320 ![0, 2, 3] bcast_S8x96x320_S8x1x96x320_0_2_3 ((W (Proc.devRef .tc main_v179)) : (⟨S8x96x320, .f32⟩ : BufTy).Contents (Elt F)))⟩, ⟨S8x1x96x320, (broadcastInDim S8x1x96x320 ![0, 2, 3] bcast_S8x96x320_S8x1x96x320_0_2_3 ((W (Proc.devRef .tc main_v186)) : (⟨S8x96x320, .f32⟩ : BufTy).Contents (Elt F)))⟩, ⟨S8x1x96x320, (broadcastInDim S8x1x96x320 ![0, 2, 3] bcast_S8x96x320_S8x1x96x320_0_2_3 ((W (Proc.devRef .tc main_v193)) : (⟨S8x96x320, .f32⟩ : BufTy).Contents (Elt F)))⟩, ⟨S8x1x96x320, (broadcastInDim S8x1x96x320 ![0, 2, 3] bcast_S8x96x320_S8x1x96x320_0_2_3 ((W (Proc.devRef .tc main_v200)) : (⟨S8x96x320, .f32⟩ : BufTy).Contents (Elt F)))⟩, ⟨S8x1x96x320, (broadcastInDim S8x1x96x320 ![0, 2, 3] bcast_S8x96x320_S8x1x96x320_0_2_3 ((W (Proc.devRef .tc main_v207)) : (⟨S8x96x320, .f32⟩ : BufTy).Contents (Elt F)))⟩, ⟨S8x1x96x320, (broadcastInDim S8x1x96x320 ![0, 2, 3] bcast_S8x96x320_S8x1x96x320_0_2_3 ((W (Proc.devRef .tc main_v214)) : (⟨S8x96x320, .f32⟩ : BufTy).Contents (Elt F)))⟩, ⟨S8x1x96x320, (broadcastInDim S8x1x96x320 ![0, 2, 3] bcast_S8x96x320_S8x1x96x320_0_2_3 ((W (Proc.devRef .tc main_v221)) : (⟨S8x96x320, .f32⟩ : BufTy).Contents (Elt F)))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 ((W (Proc.devRef .tc main_v228)) : (⟨S8x96x320, .f32⟩ : BufTy).Contents (Elt F)))⟩, ⟨S8x1x96x320, (broadcastInDim S8x1x96x320 ![0, 2, 3] bcast_S8x96x320_S8x1x96x320_0_2_3 ((W (Proc.devRef .tc main_v235)) : (⟨S8x96x320, .f32⟩ : BufTy).Contents (Elt F)))⟩, ⟨S8x1x96x320, (broadcastInDim S8x1x96x320 ![0, 2, 3] bcast_S8x96x320_S8x1x96x320_0_2_3 ((W (Proc.devRef .tc main_v242)) : (⟨S8x96x320, .f32⟩ : BufTy).Contents (Elt F)))⟩, ⟨S8x1x96x320, (broadcastInDim S8x1x96x320 ![0, 2, 3] bcast_S8x96x320_S8x1x96x320_0_2_3 ((W (Proc.devRef .tc main_v249)) : (⟨S8x96x320, .f32⟩ : BufTy).Contents (Elt F)))⟩, ⟨S8x1x96x320, (broadcastInDim S8x1x96x320 ![0, 2, 3] bcast_S8x96x320_S8x1x96x320_0_2_3 ((W (Proc.devRef .tc main_v256)) : (⟨S8x96x320, .f32⟩ : BufTy).Contents (Elt F)))⟩, ⟨S8x1x96x320, (broadcastInDim S8x1x96x320 ![0, 2, 3] bcast_S8x96x320_S8x1x96x320_0_2_3 ((W (Proc.devRef .tc main_v263)) : (⟨S8x96x320, .f32⟩ : BufTy).Contents (Elt F)))⟩, ⟨S8x1x96x320, (broadcastInDim S8x1x96x320 ![0, 2, 3] bcast_S8x96x320_S8x1x96x320_0_2_3 ((W (Proc.devRef .tc main_v270)) : (⟨S8x96x320, .f32⟩ : BufTy).Contents (Elt F)))⟩, ⟨S8x1x96x320, (broadcastInDim S8x1x96x320 ![0, 2, 3] bcast_S8x96x320_S8x1x96x320_0_2_3 ((W (Proc.devRef .tc main_v277)) : (⟨S8x96x320, .f32⟩ : BufTy).Contents (Elt F)))⟩, ⟨S8x1x96x320, (broadcastInDim S8x1x96x320 ![0, 2, 3] bcast_S8x96x320_S8x1x96x320_0_2_3 ((W (Proc.devRef .tc main_v284)) : (⟨S8x96x320, .f32⟩ : BufTy).Contents (Elt F)))⟩, ⟨S8x1x96x320, (broadcastInDim S8x1x96x320 ![0, 2, 3] bcast_S8x96x320_S8x1x96x320_0_2_3 ((W (Proc.devRef .tc main_v291)) : (⟨S8x96x320, .f32⟩ : BufTy).Contents (Elt F)))⟩, ⟨S8x1x96x320, (broadcastInDim S8x1x96x320 ![0, 2, 3] bcast_S8x96x320_S8x1x96x320_0_2_3 ((W (Proc.devRef .tc main_v298)) : (⟨S8x96x320, .f32⟩ : BufTy).Contents (Elt F)))⟩, ⟨S8x1x96x320, (broadcastInDim S8x1x96x320 ![0, 2, 3] bcast_S8x96x320_S8x1x96x320_0_2_3 ((W (Proc.devRef .tc main_v305)) : (⟨S8x96x320, .f32⟩ : BufTy).Contents (Elt F)))⟩, ⟨S8x1x96x320, (broadcastInDim S8x1x96x320 ![0, 2, 3] bcast_S8x96x320_S8x1x96x320_0_2_3 ((W (Proc.devRef .tc main_v312)) : (⟨S8x96x320, .f32⟩ : BufTy).Contents (Elt F)))⟩, ⟨S8x1x96x320, (broadcastInDim S8x1x96x320 ![0, 2, 3] bcast_S8x96x320_S8x1x96x320_0_2_3 ((W (Proc.devRef .tc main_v319)) : (⟨S8x96x320, .f32⟩ : BufTy).Contents (Elt F)))⟩, ⟨S8x1x96x320, (broadcastInDim S8x1x96x320 ![0, 2, 3] bcast_S8x96x320_S8x1x96x320_0_2_3 ((W (Proc.devRef .tc main_v326)) : (⟨S8x96x320, .f32⟩ : BufTy).Contents (Elt F)))⟩, ⟨S8x1x96x320, (broadcastInDim S8x1x96x320 ![0, 2, 3] bcast_S8x96x320_S8x1x96x320_0_2_3 ((W (Proc.devRef .tc main_v333)) : (⟨S8x96x320, .f32⟩ : BufTy).Contents (Elt F)))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩] concatenates_S8x16x96x320_S8x16x96x320_S8x16x96x320_S8x48x96x320_d1 := by
  unfold cT
  after_results_simp <;> rfl

end Cert.ReferenceIdeal.ValueP

end
-- ==== Proof.RefRunValue.lean ====
/- THE RESULT AND THE TWO ARGUMENTS AFTER ALL 578 OPERATIONS, from the table alone and by rewriting alone: the contents after the
   thirteen lists in a row are read one list at a time (the law for ++); the last list's result is rewritten first; then, plane
   by plane, the plane's buffer is passed back through the later lists that leave it alone to the list that makes it, whose
   entry gives the plane's term of the two arguments as that list finds them; and last the two arguments are passed back through
   every earlier list to the contents at launch. What is left is the composed term of the operations module, letter for letter. -/
import proofs.«167814_j57853209477697_1_alg».proof.Proof.RefRunTable

noncomputable section

namespace Cert.ReferenceIdeal.ValueP

open Cert.ReferenceIdeal Cert.ReferenceIdeal.Gen Cert.ListParts Idealize.ShloMosaic Idealize.ShloMosaic.TcCoe Idealize.SL.Sem Idealize.ShloMosaic.StableHlo

variable {F : FTy → Type} [FloatOps F]

set_option maxRecDepth 8192 in
set_option maxHeartbeats 40000000 in
/-- After all 578 operations the result buffer holds the composed term of the two arguments. -/
theorem value_eval (V : Valuation τ sig (Elt F)) :
    after (ops (F := F)) V (Proc.devRef .tc main_v385)
      = concatenate S8x48x96x320 1 [⟨S8x16x96x320, (concatenate S8x16x96x320 1 [⟨S8x1x96x320, (broadcastInDim S8x1x96x320 ![0, 2, 3] bcast_S8x96x320_S8x1x96x320_0_2_3 (pad S8x96x320 ![0, 0, 0] ![0, 0, 0] ![0, 0, 0] (Host.divf (Host.reduceAdd (mulf ((V (Proc.devRef .tc main_arg0)) : (⟨S8x128x96x320, .f32⟩ : BufTy).Contents (Elt F)) ((V (Proc.devRef .tc main_arg1)) : (⟨S8x128x96x320, .f32⟩ : BufTy).Contents (Elt F))) (constant S_ .f32 0x00000000#32) reducesTo_S8x128x96x320_S8x96x320_d1 h_S_) (broadcastInDim S8x96x320 ![] bcast_S_S8x96x320 (constant S_ .f32 0x43000000#32))) (sitofp .f32 (constantI S_ 32 0#32)) pads_S8x96x320_S8x96x320_000_000_000 h_S_))⟩, ⟨S8x1x96x320, (broadcastInDim S8x1x96x320 ![0, 2, 3] bcast_S8x96x320_S8x1x96x320_0_2_3 (pad S8x96x320 ![0, 0, 1] ![0, 0, 0] ![0, 0, 0] (Host.divf (Host.reduceAdd (mulf (extractStridedSlice S8x128x96x319 ![0, 0, 0, 1] ((V (Proc.devRef .tc main_arg0)) : (⟨S8x128x96x320, .f32⟩ : BufTy).Contents (Elt F)) slices_S8x128x96x320_S8x128x96x319_0_0_0_1) (extractStridedSlice S8x128x96x319 ![0, 0, 0, 0] ((V (Proc.devRef .tc main_arg1)) : (⟨S8x128x96x320, .f32⟩ : BufTy).Contents (Elt F)) slices_S8x128x96x320_S8x128x96x319_0_0_0_0)) (constant S_ .f32 0x00000000#32) reducesTo_S8x128x96x319_S8x96x319_d1 h_S_) (broadcastInDim S8x96x319 ![] bcast_S_S8x96x319 (constant S_ .f32 0x43000000#32))) (sitofp .f32 (constantI S_ 32 0#32)) pads_S8x96x319_S8x96x320_000_000_100 h_S_))⟩, ⟨S8x1x96x320, (broadcastInDim S8x1x96x320 ![0, 2, 3] bcast_S8x96x320_S8x1x96x320_0_2_3 (pad S8x96x320 ![0, 0, 2] ![0, 0, 0] ![0, 0, 0] (Host.divf (Host.reduceAdd (mulf (extractStridedSlice S8x128x96x318 ![0, 0, 0, 2] ((V (Proc.devRef .tc main_arg0)) : (⟨S8x128x96x320, .f32⟩ : BufTy).Contents (Elt F)) slices_S8x128x96x320_S8x128x96x318_0_0_0_2) (extractStridedSlice S8x128x96x318 ![0, 0, 0, 0] ((V (Proc.devRef .tc main_arg1)) : (⟨S8x128x96x320, .f32⟩ : BufTy).Contents (Elt F)) slices_S8x128x96x320_S8x128x96x318_0_0_0_0)) (constant S_ .f32 0x00000000#32) reducesTo_S8x128x96x318_S8x96x318_d1 h_S_) (broadcastInDim S8x96x318 ![] bcast_S_S8x96x318 (constant S_ .f32 0x43000000#32))) (sitofp .f32 (constantI S_ 32 0#32)) pads_S8x96x318_S8x96x320_000_000_200 h_S_))⟩, ⟨S8x1x96x320, (broadcastInDim S8x1x96x320 ![0, 2, 3] bcast_S8x96x320_S8x1x96x320_0_2_3 (pad S8x96x320 ![0, 0, 3] ![0, 0, 0] ![0, 0, 0] (Host.divf (Host.reduceAdd (mulf (extractStridedSlice S8x128x96x317 ![0, 0, 0, 3] ((V (Proc.devRef .tc main_arg0)) : (⟨S8x128x96x320, .f32⟩ : BufTy).Contents (Elt F)) slices_S8x128x96x320_S8x128x96x317_0_0_0_3) (extractStridedSlice S8x128x96x317 ![0, 0, 0, 0] ((V (Proc.devRef .tc main_arg1)) : (⟨S8x128x96x320, .f32⟩ : BufTy).Contents (Elt F)) slices_S8x128x96x320_S8x128x96x317_0_0_0_0)) (constant S_ .f32 0x00000000#32) reducesTo_S8x128x96x317_S8x96x317_d1 h_S_) (broadcastInDim S8x96x317 ![] bcast_S_S8x96x317 (constant S_ .f32 0x43000000#32))) (sitofp .f32 (constantI S_ 32 0#32)) pads_S8x96x317_S8x96x320_000_000_300 h_S_))⟩, ⟨S8x1x96x320, (broadcastInDim S8x1x96x320 ![0, 2, 3] bcast_S8x96x320_S8x1x96x320_0_2_3 (pad S8x96x320 ![0, 0, 4] ![0, 0, 0] ![0, 0, 0] (Host.divf (Host.reduceAdd (mulf (extractStridedSlice S8x128x96x316 ![0, 0, 0, 4] ((V (Proc.devRef .tc main_arg0)) : (⟨S8x128x96x320, .f32⟩ : BufTy).Contents (Elt F)) slices_S8x128x96x320_S8x128x96x316_0_0_0_4) (extractStridedSlice S8x128x96x316 ![0, 0, 0, 0] ((V (Proc.devRef .tc main_arg1)) : (⟨S8x128x96x320, .f32⟩ : BufTy).Contents (Elt F)) slices_S8x128x96x320_S8x128x96x316_0_0_0_0)) (constant S_ .f32 0x00000000#32) reducesTo_S8x128x96x316_S8x96x316_d1 h_S_) (broadcastInDim S8x96x316 ![] bcast_S_S8x96x316 (constant S_ .f32 0x43000000#32))) (sitofp .f32 (constantI S_ 32 0#32)) pads_S8x96x316_S8x96x320_000_000_400 h_S_))⟩, ⟨S8x1x96x320, (broadcastInDim S8x1x96x320 ![0, 2, 3] bcast_S8x96x320_S8x1x96x320_0_2_3 (pad S8x96x320 ![0, 0, 5] ![0, 0, 0] ![0, 0, 0] (Host.divf (Host.reduceAdd (mulf (extractStridedSlice S8x128x96x315 ![0, 0, 0, 5] ((V (Proc.devRef .tc main_arg0)) : (⟨S8x128x96x320, .f32⟩ : BufTy).Contents (Elt F)) slices_S8x128x96x320_S8x128x96x315_0_0_0_5) (extractStridedSlice S8x128x96x315 ![0, 0, 0, 0] ((V (Proc.devRef .tc main_arg1)) : (⟨S8x128x96x320, .f32⟩ : BufTy).Contents (Elt F)) slices_S8x128x96x320_S8x128x96x315_0_0_0_0)) (constant S_ .f32 0x00000000#32) reducesTo_S8x128x96x315_S8x96x315_d1 h_S_) (broadcastInDim S8x96x315 ![] bcast_S_S8x96x315 (constant S_ .f32 0x43000000#32))) (sitofp .f32 (constantI S_ 32 0#32)) pads_S8x96x315_S8x96x320_000_000_500 h_S_))⟩, ⟨S8x1x96x320, (broadcastInDim S8x1x96x320 ![0, 2, 3] bcast_S8x96x320_S8x1x96x320_0_2_3 (pad S8x96x320 ![0, 0, 6] ![0, 0, 0] ![0, 0, 0] (Host.divf (Host.reduceAdd (mulf (extractStridedSlice S8x128x96x314 ![0, 0, 0, 6] ((V (Proc.devRef .tc main_arg0)) : (⟨S8x128x96x320, .f32⟩ : BufTy).Contents (Elt F)) slices_S8x128x96x320_S8x128x96x314_0_0_0_6) (extractStridedSlice S8x128x96x314 ![0, 0, 0, 0] ((V (Proc.devRef .tc main_arg1)) : (⟨S8x128x96x320, .f32⟩ : BufTy).Contents (Elt F)) slices_S8x128x96x320_S8x128x96x314_0_0_0_0)) (constant S_ .f32 0x00000000#32) reducesTo_S8x128x96x314_S8x96x314_d1 h_S_) (broadcastInDim S8x96x314 ![] bcast_S_S8x96x314 (constant S_ .f32 0x43000000#32))) (sitofp .f32 (constantI S_ 32 0#32)) pads_S8x96x314_S8x96x320_000_000_600 h_S_))⟩, ⟨S8x1x96x320, (broadcastInDim S8x1x96x320 ![0, 2, 3] bcast_S8x96x320_S8x1x96x320_0_2_3 (pad S8x96x320 ![0, 0, 7] ![0, 0, 0] ![0, 0, 0] (Host.divf (Host.reduceAdd (mulf (extractStridedSlice S8x128x96x313 ![0, 0, 0, 7] ((V (Proc.devRef .tc main_arg0)) : (⟨S8x128x96x320, .f32⟩ : BufTy).Contents (Elt F)) slices_S8x128x96x320_S8x128x96x313_0_0_0_7) (extractStridedSlice S8x128x96x313 ![0, 0, 0, 0] ((V (Proc.devRef .tc main_arg1)) : (⟨S8x128x96x320, .f32⟩ : BufTy).Contents (Elt F)) slices_S8x128x96x320_S8x128x96x313_0_0_0_0)) (constant S_ .f32 0x00000000#32) reducesTo_S8x128x96x313_S8x96x313_d1 h_S_) (broadcastInDim S8x96x313 ![] bcast_S_S8x96x313 (constant S_ .f32 0x43000000#32))) (sitofp .f32 (constantI S_ 32 0#32)) pads_S8x96x313_S8x96x320_000_000_700 h_S_))⟩, ⟨S8x1x96x320, (broadcastInDim S8x1x96x320 ![0, 2, 3] bcast_S8x96x320_S8x1x96x320_0_2_3 (pad S8x96x320 ![0, 0, 8] ![0, 0, 0] ![0, 0, 0] (Host.divf (Host.reduceAdd (mulf (extractStridedSlice S8x128x96x312 ![0, 0, 0, 8] ((V (Proc.devRef .tc main_arg0)) : (⟨S8x128x96x320, .f32⟩ : BufTy).Contents (Elt F)) slices_S8x128x96x320_S8x128x96x312_0_0_0_8) (extractStridedSlice S8x128x96x312 ![0, 0, 0, 0] ((V (Proc.devRef .tc main_arg1)) : (⟨S8x128x96x320, .f32⟩ : BufTy).Contents (Elt F)) slices_S8x128x96x320_S8x128x96x312_0_0_0_0)) (constant S_ .f32 0x00000000#32) reducesTo_S8x128x96x312_S8x96x312_d1 h_S_) (broadcastInDim S8x96x312 ![] bcast_S_S8x96x312 (constant S_ .f32 0x43000000#32))) (sitofp .f32 (constantI S_ 32 0#32)) pads_S8x96x312_S8x96x320_000_000_800 h_S_))⟩, ⟨S8x1x96x320, (broadcastInDim S8x1x96x320 ![0, 2, 3] bcast_S8x96x320_S8x1x96x320_0_2_3 (pad S8x96x320 ![0, 0, 9] ![0, 0, 0] ![0, 0, 0] (Host.divf (Host.reduceAdd (mulf (extractStridedSlice S8x128x96x311 ![0, 0, 0, 9] ((V (Proc.devRef .tc main_arg0)) : (⟨S8x128x96x320, .f32⟩ : BufTy).Contents (Elt F)) slices_S8x128x96x320_S8x128x96x311_0_0_0_9) (extractStridedSlice S8x128x96x311 ![0, 0, 0, 0] ((V (Proc.devRef .tc main_arg1)) : (⟨S8x128x96x320, .f32⟩ : BufTy).Contents (Elt F)) slices_S8x128x96x320_S8x128x96x311_0_0_0_0)) (constant S_ .f32 0x00000000#32) reducesTo_S8x128x96x311_S8x96x311_d1 h_S_) (broadcastInDim S8x96x311 ![] bcast_S_S8x96x311 (constant S_ .f32 0x43000000#32))) (sitofp .f32 (constantI S_ 32 0#32)) pads_S8x96x311_S8x96x320_000_000_900 h_S_))⟩, ⟨S8x1x96x320, (broadcastInDim S8x1x96x320 ![0, 2, 3] bcast_S8x96x320_S8x1x96x320_0_2_3 (pad S8x96x320 ![0, 0, 10] ![0, 0, 0] ![0, 0, 0] (Host.divf (Host.reduceAdd (mulf (extractStridedSlice S8x128x96x310 ![0, 0, 0, 10] ((V (Proc.devRef .tc main_arg0)) : (⟨S8x128x96x320, .f32⟩ : BufTy).Contents (Elt F)) slices_S8x128x96x320_S8x128x96x310_0_0_0_10) (extractStridedSlice S8x128x96x310 ![0, 0, 0, 0] ((V (Proc.devRef .tc main_arg1)) : (⟨S8x128x96x320, .f32⟩ : BufTy).Contents (Elt F)) slices_S8x128x96x320_S8x128x96x310_0_0_0_0)) (constant S_ .f32 0x00000000#32) reducesTo_S8x128x96x310_S8x96x310_d1 h_S_) (broadcastInDim S8x96x310 ![] bcast_S_S8x96x310 (constant S_ .f32 0x43000000#32))) (sitofp .f32 (constantI S_ 32 0#32)) pads_S8x96x310_S8x96x320_000_000_1000 h_S_))⟩, ⟨S8x1x96x320, (broadcastInDim S8x1x96x320 ![0, 2, 3] bcast_S8x96x320_S8x1x96x320_0_2_3 (pad S8x96x320 ![0, 0, 11] ![0, 0, 0] ![0, 0, 0] (Host.divf (Host.reduceAdd (mulf (extractStridedSlice S8x128x96x309 ![0, 0, 0, 11] ((V (Proc.devRef .tc main_arg0)) : (⟨S8x128x96x320, .f32⟩ : BufTy).Contents (Elt F)) slices_S8x128x96x320_S8x128x96x309_0_0_0_11) (extractStridedSlice S8x128x96x309 ![0, 0, 0, 0] ((V (Proc.devRef .tc main_arg1)) : (⟨S8x128x96x320, .f32⟩ : BufTy).Contents (Elt F)) slices_S8x128x96x320_S8x128x96x309_0_0_0_0)) (constant S_ .f32 0x00000000#32) reducesTo_S8x128x96x309_S8x96x309_d1 h_S_) (broadcastInDim S8x96x309 ![] bcast_S_S8x96x309 (constant S_ .f32 0x43000000#32))) (sitofp .f32 (constantI S_ 32 0#32)) pads_S8x96x309_S8x96x320_000_000_1100 h_S_))⟩, ⟨S8x1x96x320, (broadcastInDim S8x1x96x320 ![0, 2, 3] bcast_S8x96x320_S8x1x96x320_0_2_3 (pad S8x96x320 ![0, 0, 12] ![0, 0, 0] ![0, 0, 0] (Host.divf (Host.reduceAdd (mulf (extractStridedSlice S8x128x96x308 ![0, 0, 0, 12] ((V (Proc.devRef .tc main_arg0)) : (⟨S8x128x96x320, .f32⟩ : BufTy).Contents (Elt F)) slices_S8x128x96x320_S8x128x96x308_0_0_0_12) (extractStridedSlice S8x128x96x308 ![0, 0, 0, 0] ((V (Proc.devRef .tc main_arg1)) : (⟨S8x128x96x320, .f32⟩ : BufTy).Contents (Elt F)) slices_S8x128x96x320_S8x128x96x308_0_0_0_0)) (constant S_ .f32 0x00000000#32) reducesTo_S8x128x96x308_S8x96x308_d1 h_S_) (broadcastInDim S8x96x308 ![] bcast_S_S8x96x308 (constant S_ .f32 0x43000000#32))) (sitofp .f32 (constantI S_ 32 0#32)) pads_S8x96x308_S8x96x320_000_000_1200 h_S_))⟩, ⟨S8x1x96x320, (broadcastInDim S8x1x96x320 ![0, 2, 3] bcast_S8x96x320_S8x1x96x320_0_2_3 (pad S8x96x320 ![0, 0, 13] ![0, 0, 0] ![0, 0, 0] (Host.divf (Host.reduceAdd (mulf (extractStridedSlice S8x128x96x307 ![0, 0, 0, 13] ((V (Proc.devRef .tc main_arg0)) : (⟨S8x128x96x320, .f32⟩ : BufTy).Contents (Elt F)) slices_S8x128x96x320_S8x128x96x307_0_0_0_13) (extractStridedSlice S8x128x96x307 ![0, 0, 0, 0] ((V (Proc.devRef .tc main_arg1)) : (⟨S8x128x96x320, .f32⟩ : BufTy).Contents (Elt F)) slices_S8x128x96x320_S8x128x96x307_0_0_0_0)) (constant S_ .f32 0x00000000#32) reducesTo_S8x128x96x307_S8x96x307_d1 h_S_) (broadcastInDim S8x96x307 ![] bcast_S_S8x96x307 (constant S_ .f32 0x43000000#32))) (sitofp .f32 (constantI S_ 32 0#32)) pads_S8x96x307_S8x96x320_000_000_1300 h_S_))⟩, ⟨S8x1x96x320, (broadcastInDim S8x1x96x320 ![0, 2, 3] bcast_S8x96x320_S8x1x96x320_0_2_3 (pad S8x96x320 ![0, 0, 14] ![0, 0, 0] ![0, 0, 0] (Host.divf (Host.reduceAdd (mulf (extractStridedSlice S8x128x96x306 ![0, 0, 0, 14] ((V (Proc.devRef .tc main_arg0)) : (⟨S8x128x96x320, .f32⟩ : BufTy).Contents (Elt F)) slices_S8x128x96x320_S8x128x96x306_0_0_0_14) (extractStridedSlice S8x128x96x306 ![0, 0, 0, 0] ((V (Proc.devRef .tc main_arg1)) : (⟨S8x128x96x320, .f32⟩ : BufTy).Contents (Elt F)) slices_S8x128x96x320_S8x128x96x306_0_0_0_0)) (constant S_ .f32 0x00000000#32) reducesTo_S8x128x96x306_S8x96x306_d1 h_S_) (broadcastInDim S8x96x306 ![] bcast_S_S8x96x306 (constant S_ .f32 0x43000000#32))) (sitofp .f32 (constantI S_ 32 0#32)) pads_S8x96x306_S8x96x320_000_000_1400 h_S_))⟩, ⟨S8x1x96x320, (broadcastInDim S8x1x96x320 ![0, 2, 3] bcast_S8x96x320_S8x1x96x320_0_2_3 (pad S8x96x320 ![0, 0, 15] ![0, 0, 0] ![0, 0, 0] (Host.divf (Host.reduceAdd (mulf (extractStridedSlice S8x128x96x305 ![0, 0, 0, 15] ((V (Proc.devRef .tc main_arg0)) : (⟨S8x128x96x320, .f32⟩ : BufTy).Contents (Elt F)) slices_S8x128x96x320_S8x128x96x305_0_0_0_15) (extractStridedSlice S8x128x96x305 ![0, 0, 0, 0] ((V (Proc.devRef .tc main_arg1)) : (⟨S8x128x96x320, .f32⟩ : BufTy).Contents (Elt F)) slices_S8x128x96x320_S8x128x96x305_0_0_0_0)) (constant S_ .f32 0x00000000#32) reducesTo_S8x128x96x305_S8x96x305_d1 h_S_) (broadcastInDim S8x96x305 ![] bcast_S_S8x96x305 (constant S_ .f32 0x43000000#32))) (sitofp .f32 (constantI S_ 32 0#32)) pads_S8x96x305_S8x96x320_000_000_1500 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 (pad S8x96x320 ![0, 0, 16] ![0, 0, 0] ![0, 0, 0] (Host.divf (Host.reduceAdd (mulf (extractStridedSlice S8x128x96x304 ![0, 0, 0, 16] ((V (Proc.devRef .tc main_arg0)) : (⟨S8x128x96x320, .f32⟩ : BufTy).Contents (Elt F)) slices_S8x128x96x320_S8x128x96x304_0_0_0_16) (extractStridedSlice S8x128x96x304 ![0, 0, 0, 0] ((V (Proc.devRef .tc main_arg1)) : (⟨S8x128x96x320, .f32⟩ : BufTy).Contents (Elt F)) slices_S8x128x96x320_S8x128x96x304_0_0_0_0)) (constant S_ .f32 0x00000000#32) reducesTo_S8x128x96x304_S8x96x304_d1 h_S_) (broadcastInDim S8x96x304 ![] bcast_S_S8x96x304 (constant S_ .f32 0x43000000#32))) (sitofp .f32 (constantI S_ 32 0#32)) pads_S8x96x304_S8x96x320_000_000_1600 h_S_))⟩, ⟨S8x1x96x320, (broadcastInDim S8x1x96x320 ![0, 2, 3] bcast_S8x96x320_S8x1x96x320_0_2_3 (pad S8x96x320 ![0, 0, 17] ![0, 0, 0] ![0, 0, 0] (Host.divf (Host.reduceAdd (mulf (extractStridedSlice S8x128x96x303 ![0, 0, 0, 17] ((V (Proc.devRef .tc main_arg0)) : (⟨S8x128x96x320, .f32⟩ : BufTy).Contents (Elt F)) slices_S8x128x96x320_S8x128x96x303_0_0_0_17) (extractStridedSlice S8x128x96x303 ![0, 0, 0, 0] ((V (Proc.devRef .tc main_arg1)) : (⟨S8x128x96x320, .f32⟩ : BufTy).Contents (Elt F)) slices_S8x128x96x320_S8x128x96x303_0_0_0_0)) (constant S_ .f32 0x00000000#32) reducesTo_S8x128x96x303_S8x96x303_d1 h_S_) (broadcastInDim S8x96x303 ![] bcast_S_S8x96x303 (constant S_ .f32 0x43000000#32))) (sitofp .f32 (constantI S_ 32 0#32)) pads_S8x96x303_S8x96x320_000_000_1700 h_S_))⟩, ⟨S8x1x96x320, (broadcastInDim S8x1x96x320 ![0, 2, 3] bcast_S8x96x320_S8x1x96x320_0_2_3 (pad S8x96x320 ![0, 0, 18] ![0, 0, 0] ![0, 0, 0] (Host.divf (Host.reduceAdd (mulf (extractStridedSlice S8x128x96x302 ![0, 0, 0, 18] ((V (Proc.devRef .tc main_arg0)) : (⟨S8x128x96x320, .f32⟩ : BufTy).Contents (Elt F)) slices_S8x128x96x320_S8x128x96x302_0_0_0_18) (extractStridedSlice S8x128x96x302 ![0, 0, 0, 0] ((V (Proc.devRef .tc main_arg1)) : (⟨S8x128x96x320, .f32⟩ : BufTy).Contents (Elt F)) slices_S8x128x96x320_S8x128x96x302_0_0_0_0)) (constant S_ .f32 0x00000000#32) reducesTo_S8x128x96x302_S8x96x302_d1 h_S_) (broadcastInDim S8x96x302 ![] bcast_S_S8x96x302 (constant S_ .f32 0x43000000#32))) (sitofp .f32 (constantI S_ 32 0#32)) pads_S8x96x302_S8x96x320_000_000_1800 h_S_))⟩, ⟨S8x1x96x320, (broadcastInDim S8x1x96x320 ![0, 2, 3] bcast_S8x96x320_S8x1x96x320_0_2_3 (pad S8x96x320 ![0, 0, 19] ![0, 0, 0] ![0, 0, 0] (Host.divf (Host.reduceAdd (mulf (extractStridedSlice S8x128x96x301 ![0, 0, 0, 19] ((V (Proc.devRef .tc main_arg0)) : (⟨S8x128x96x320, .f32⟩ : BufTy).Contents (Elt F)) slices_S8x128x96x320_S8x128x96x301_0_0_0_19) (extractStridedSlice S8x128x96x301 ![0, 0, 0, 0] ((V (Proc.devRef .tc main_arg1)) : (⟨S8x128x96x320, .f32⟩ : BufTy).Contents (Elt F)) slices_S8x128x96x320_S8x128x96x301_0_0_0_0)) (constant S_ .f32 0x00000000#32) reducesTo_S8x128x96x301_S8x96x301_d1 h_S_) (broadcastInDim S8x96x301 ![] bcast_S_S8x96x301 (constant S_ .f32 0x43000000#32))) (sitofp .f32 (constantI S_ 32 0#32)) pads_S8x96x301_S8x96x320_000_000_1900 h_S_))⟩, ⟨S8x1x96x320, (broadcastInDim S8x1x96x320 ![0, 2, 3] bcast_S8x96x320_S8x1x96x320_0_2_3 (pad S8x96x320 ![0, 0, 20] ![0, 0, 0] ![0, 0, 0] (Host.divf (Host.reduceAdd (mulf (extractStridedSlice S8x128x96x300 ![0, 0, 0, 20] ((V (Proc.devRef .tc main_arg0)) : (⟨S8x128x96x320, .f32⟩ : BufTy).Contents (Elt F)) slices_S8x128x96x320_S8x128x96x300_0_0_0_20) (extractStridedSlice S8x128x96x300 ![0, 0, 0, 0] ((V (Proc.devRef .tc main_arg1)) : (⟨S8x128x96x320, .f32⟩ : BufTy).Contents (Elt F)) slices_S8x128x96x320_S8x128x96x300_0_0_0_0)) (constant S_ .f32 0x00000000#32) reducesTo_S8x128x96x300_S8x96x300_d1 h_S_) (broadcastInDim S8x96x300 ![] bcast_S_S8x96x300 (constant S_ .f32 0x43000000#32))) (sitofp .f32 (constantI S_ 32 0#32)) pads_S8x96x300_S8x96x320_000_000_2000 h_S_))⟩, ⟨S8x1x96x320, (broadcastInDim S8x1x96x320 ![0, 2, 3] bcast_S8x96x320_S8x1x96x320_0_2_3 (pad S8x96x320 ![0, 0, 21] ![0, 0, 0] ![0, 0, 0] (Host.divf (Host.reduceAdd (mulf (extractStridedSlice S8x128x96x299 ![0, 0, 0, 21] ((V (Proc.devRef .tc main_arg0)) : (⟨S8x128x96x320, .f32⟩ : BufTy).Contents (Elt F)) slices_S8x128x96x320_S8x128x96x299_0_0_0_21) (extractStridedSlice S8x128x96x299 ![0, 0, 0, 0] ((V (Proc.devRef .tc main_arg1)) : (⟨S8x128x96x320, .f32⟩ : BufTy).Contents (Elt F)) slices_S8x128x96x320_S8x128x96x299_0_0_0_0)) (constant S_ .f32 0x00000000#32) reducesTo_S8x128x96x299_S8x96x299_d1 h_S_) (broadcastInDim S8x96x299 ![] bcast_S_S8x96x299 (constant S_ .f32 0x43000000#32))) (sitofp .f32 (constantI S_ 32 0#32)) pads_S8x96x299_S8x96x320_000_000_2100 h_S_))⟩, ⟨S8x1x96x320, (broadcastInDim S8x1x96x320 ![0, 2, 3] bcast_S8x96x320_S8x1x96x320_0_2_3 (pad S8x96x320 ![0, 0, 22] ![0, 0, 0] ![0, 0, 0] (Host.divf (Host.reduceAdd (mulf (extractStridedSlice S8x128x96x298 ![0, 0, 0, 22] ((V (Proc.devRef .tc main_arg0)) : (⟨S8x128x96x320, .f32⟩ : BufTy).Contents (Elt F)) slices_S8x128x96x320_S8x128x96x298_0_0_0_22) (extractStridedSlice S8x128x96x298 ![0, 0, 0, 0] ((V (Proc.devRef .tc main_arg1)) : (⟨S8x128x96x320, .f32⟩ : BufTy).Contents (Elt F)) slices_S8x128x96x320_S8x128x96x298_0_0_0_0)) (constant S_ .f32 0x00000000#32) reducesTo_S8x128x96x298_S8x96x298_d1 h_S_) (broadcastInDim S8x96x298 ![] bcast_S_S8x96x298 (constant S_ .f32 0x43000000#32))) (sitofp .f32 (constantI S_ 32 0#32)) pads_S8x96x298_S8x96x320_000_000_2200 h_S_))⟩, ⟨S8x1x96x320, (broadcastInDim S8x1x96x320 ![0, 2, 3] bcast_S8x96x320_S8x1x96x320_0_2_3 (pad S8x96x320 ![0, 0, 23] ![0, 0, 0] ![0, 0, 0] (Host.divf (Host.reduceAdd (mulf (extractStridedSlice S8x128x96x297 ![0, 0, 0, 23] ((V (Proc.devRef .tc main_arg0)) : (⟨S8x128x96x320, .f32⟩ : BufTy).Contents (Elt F)) slices_S8x128x96x320_S8x128x96x297_0_0_0_23) (extractStridedSlice S8x128x96x297 ![0, 0, 0, 0] ((V (Proc.devRef .tc main_arg1)) : (⟨S8x128x96x320, .f32⟩ : BufTy).Contents (Elt F)) slices_S8x128x96x320_S8x128x96x297_0_0_0_0)) (constant S_ .f32 0x00000000#32) reducesTo_S8x128x96x297_S8x96x297_d1 h_S_) (broadcastInDim S8x96x297 ![] bcast_S_S8x96x297 (constant S_ .f32 0x43000000#32))) (sitofp .f32 (constantI S_ 32 0#32)) pads_S8x96x297_S8x96x320_000_000_2300 h_S_))⟩, ⟨S8x1x96x320, (broadcastInDim S8x1x96x320 ![0, 2, 3] bcast_S8x96x320_S8x1x96x320_0_2_3 (pad S8x96x320 ![0, 0, 24] ![0, 0, 0] ![0, 0, 0] (Host.divf (Host.reduceAdd (mulf (extractStridedSlice S8x128x96x296 ![0, 0, 0, 24] ((V (Proc.devRef .tc main_arg0)) : (⟨S8x128x96x320, .f32⟩ : BufTy).Contents (Elt F)) slices_S8x128x96x320_S8x128x96x296_0_0_0_24) (extractStridedSlice S8x128x96x296 ![0, 0, 0, 0] ((V (Proc.devRef .tc main_arg1)) : (⟨S8x128x96x320, .f32⟩ : BufTy).Contents (Elt F)) slices_S8x128x96x320_S8x128x96x296_0_0_0_0)) (constant S_ .f32 0x00000000#32) reducesTo_S8x128x96x296_S8x96x296_d1 h_S_) (broadcastInDim S8x96x296 ![] bcast_S_S8x96x296 (constant S_ .f32 0x43000000#32))) (sitofp .f32 (constantI S_ 32 0#32)) pads_S8x96x296_S8x96x320_000_000_2400 h_S_))⟩, ⟨S8x1x96x320, (broadcastInDim S8x1x96x320 ![0, 2, 3] bcast_S8x96x320_S8x1x96x320_0_2_3 (pad S8x96x320 ![0, 0, 25] ![0, 0, 0] ![0, 0, 0] (Host.divf (Host.reduceAdd (mulf (extractStridedSlice S8x128x96x295 ![0, 0, 0, 25] ((V (Proc.devRef .tc main_arg0)) : (⟨S8x128x96x320, .f32⟩ : BufTy).Contents (Elt F)) slices_S8x128x96x320_S8x128x96x295_0_0_0_25) (extractStridedSlice S8x128x96x295 ![0, 0, 0, 0] ((V (Proc.devRef .tc main_arg1)) : (⟨S8x128x96x320, .f32⟩ : BufTy).Contents (Elt F)) slices_S8x128x96x320_S8x128x96x295_0_0_0_0)) (constant S_ .f32 0x00000000#32) reducesTo_S8x128x96x295_S8x96x295_d1 h_S_) (broadcastInDim S8x96x295 ![] bcast_S_S8x96x295 (constant S_ .f32 0x43000000#32))) (sitofp .f32 (constantI S_ 32 0#32)) pads_S8x96x295_S8x96x320_000_000_2500 h_S_))⟩, ⟨S8x1x96x320, (broadcastInDim S8x1x96x320 ![0, 2, 3] bcast_S8x96x320_S8x1x96x320_0_2_3 (pad S8x96x320 ![0, 0, 26] ![0, 0, 0] ![0, 0, 0] (Host.divf (Host.reduceAdd (mulf (extractStridedSlice S8x128x96x294 ![0, 0, 0, 26] ((V (Proc.devRef .tc main_arg0)) : (⟨S8x128x96x320, .f32⟩ : BufTy).Contents (Elt F)) slices_S8x128x96x320_S8x128x96x294_0_0_0_26) (extractStridedSlice S8x128x96x294 ![0, 0, 0, 0] ((V (Proc.devRef .tc main_arg1)) : (⟨S8x128x96x320, .f32⟩ : BufTy).Contents (Elt F)) slices_S8x128x96x320_S8x128x96x294_0_0_0_0)) (constant S_ .f32 0x00000000#32) reducesTo_S8x128x96x294_S8x96x294_d1 h_S_) (broadcastInDim S8x96x294 ![] bcast_S_S8x96x294 (constant S_ .f32 0x43000000#32))) (sitofp .f32 (constantI S_ 32 0#32)) pads_S8x96x294_S8x96x320_000_000_2600 h_S_))⟩, ⟨S8x1x96x320, (broadcastInDim S8x1x96x320 ![0, 2, 3] bcast_S8x96x320_S8x1x96x320_0_2_3 (pad S8x96x320 ![0, 0, 27] ![0, 0, 0] ![0, 0, 0] (Host.divf (Host.reduceAdd (mulf (extractStridedSlice S8x128x96x293 ![0, 0, 0, 27] ((V (Proc.devRef .tc main_arg0)) : (⟨S8x128x96x320, .f32⟩ : BufTy).Contents (Elt F)) slices_S8x128x96x320_S8x128x96x293_0_0_0_27) (extractStridedSlice S8x128x96x293 ![0, 0, 0, 0] ((V (Proc.devRef .tc main_arg1)) : (⟨S8x128x96x320, .f32⟩ : BufTy).Contents (Elt F)) slices_S8x128x96x320_S8x128x96x293_0_0_0_0)) (constant S_ .f32 0x00000000#32) reducesTo_S8x128x96x293_S8x96x293_d1 h_S_) (broadcastInDim S8x96x293 ![] bcast_S_S8x96x293 (constant S_ .f32 0x43000000#32))) (sitofp .f32 (constantI S_ 32 0#32)) pads_S8x96x293_S8x96x320_000_000_2700 h_S_))⟩, ⟨S8x1x96x320, (broadcastInDim S8x1x96x320 ![0, 2, 3] bcast_S8x96x320_S8x1x96x320_0_2_3 (pad S8x96x320 ![0, 0, 28] ![0, 0, 0] ![0, 0, 0] (Host.divf (Host.reduceAdd (mulf (extractStridedSlice S8x128x96x292 ![0, 0, 0, 28] ((V (Proc.devRef .tc main_arg0)) : (⟨S8x128x96x320, .f32⟩ : BufTy).Contents (Elt F)) slices_S8x128x96x320_S8x128x96x292_0_0_0_28) (extractStridedSlice S8x128x96x292 ![0, 0, 0, 0] ((V (Proc.devRef .tc main_arg1)) : (⟨S8x128x96x320, .f32⟩ : BufTy).Contents (Elt F)) slices_S8x128x96x320_S8x128x96x292_0_0_0_0)) (constant S_ .f32 0x00000000#32) reducesTo_S8x128x96x292_S8x96x292_d1 h_S_) (broadcastInDim S8x96x292 ![] bcast_S_S8x96x292 (constant S_ .f32 0x43000000#32))) (sitofp .f32 (constantI S_ 32 0#32)) pads_S8x96x292_S8x96x320_000_000_2800 h_S_))⟩, ⟨S8x1x96x320, (broadcastInDim S8x1x96x320 ![0, 2, 3] bcast_S8x96x320_S8x1x96x320_0_2_3 (pad S8x96x320 ![0, 0, 29] ![0, 0, 0] ![0, 0, 0] (Host.divf (Host.reduceAdd (mulf (extractStridedSlice S8x128x96x291 ![0, 0, 0, 29] ((V (Proc.devRef .tc main_arg0)) : (⟨S8x128x96x320, .f32⟩ : BufTy).Contents (Elt F)) slices_S8x128x96x320_S8x128x96x291_0_0_0_29) (extractStridedSlice S8x128x96x291 ![0, 0, 0, 0] ((V (Proc.devRef .tc main_arg1)) : (⟨S8x128x96x320, .f32⟩ : BufTy).Contents (Elt F)) slices_S8x128x96x320_S8x128x96x291_0_0_0_0)) (constant S_ .f32 0x00000000#32) reducesTo_S8x128x96x291_S8x96x291_d1 h_S_) (broadcastInDim S8x96x291 ![] bcast_S_S8x96x291 (constant S_ .f32 0x43000000#32))) (sitofp .f32 (constantI S_ 32 0#32)) pads_S8x96x291_S8x96x320_000_000_2900 h_S_))⟩, ⟨S8x1x96x320, (broadcastInDim S8x1x96x320 ![0, 2, 3] bcast_S8x96x320_S8x1x96x320_0_2_3 (pad S8x96x320 ![0, 0, 30] ![0, 0, 0] ![0, 0, 0] (Host.divf (Host.reduceAdd (mulf (extractStridedSlice S8x128x96x290 ![0, 0, 0, 30] ((V (Proc.devRef .tc main_arg0)) : (⟨S8x128x96x320, .f32⟩ : BufTy).Contents (Elt F)) slices_S8x128x96x320_S8x128x96x290_0_0_0_30) (extractStridedSlice S8x128x96x290 ![0, 0, 0, 0] ((V (Proc.devRef .tc main_arg1)) : (⟨S8x128x96x320, .f32⟩ : BufTy).Contents (Elt F)) slices_S8x128x96x320_S8x128x96x290_0_0_0_0)) (constant S_ .f32 0x00000000#32) reducesTo_S8x128x96x290_S8x96x290_d1 h_S_) (broadcastInDim S8x96x290 ![] bcast_S_S8x96x290 (constant S_ .f32 0x43000000#32))) (sitofp .f32 (constantI S_ 32 0#32)) pads_S8x96x290_S8x96x320_000_000_3000 h_S_))⟩, ⟨S8x1x96x320, (broadcastInDim S8x1x96x320 ![0, 2, 3] bcast_S8x96x320_S8x1x96x320_0_2_3 (pad S8x96x320 ![0, 0, 31] ![0, 0, 0] ![0, 0, 0] (Host.divf (Host.reduceAdd (mulf (extractStridedSlice S8x128x96x289 ![0, 0, 0, 31] ((V (Proc.devRef .tc main_arg0)) : (⟨S8x128x96x320, .f32⟩ : BufTy).Contents (Elt F)) slices_S8x128x96x320_S8x128x96x289_0_0_0_31) (extractStridedSlice S8x128x96x289 ![0, 0, 0, 0] ((V (Proc.devRef .tc main_arg1)) : (⟨S8x128x96x320, .f32⟩ : BufTy).Contents (Elt F)) slices_S8x128x96x320_S8x128x96x289_0_0_0_0)) (constant S_ .f32 0x00000000#32) reducesTo_S8x128x96x289_S8x96x289_d1 h_S_) (broadcastInDim S8x96x289 ![] bcast_S_S8x96x289 (constant S_ .f32 0x43000000#32))) (sitofp .f32 (constantI S_ 32 0#32)) pads_S8x96x289_S8x96x320_000_000_3100 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩, ⟨S8x16x96x320, (concatenate S8x16x96x320 1 [⟨S8x1x96x320, (broadcastInDim S8x1x96x320 ![0, 2, 3] bcast_S8x96x320_S8x1x96x320_0_2_3 (pad S8x96x320 ![0, 0, 32] ![0, 0, 0] ![0, 0, 0] (Host.divf (Host.reduceAdd (mulf (extractStridedSlice S8x128x96x288 ![0, 0, 0, 32] ((V (Proc.devRef .tc main_arg0)) : (⟨S8x128x96x320, .f32⟩ : BufTy).Contents (Elt F)) slices_S8x128x96x320_S8x128x96x288_0_0_0_32) (extractStridedSlice S8x128x96x288 ![0, 0, 0, 0] ((V (Proc.devRef .tc main_arg1)) : (⟨S8x128x96x320, .f32⟩ : BufTy).Contents (Elt F)) slices_S8x128x96x320_S8x128x96x288_0_0_0_0)) (constant S_ .f32 0x00000000#32) reducesTo_S8x128x96x288_S8x96x288_d1 h_S_) (broadcastInDim S8x96x288 ![] bcast_S_S8x96x288 (constant S_ .f32 0x43000000#32))) (sitofp .f32 (constantI S_ 32 0#32)) pads_S8x96x288_S8x96x320_000_000_3200 h_S_))⟩, ⟨S8x1x96x320, (broadcastInDim S8x1x96x320 ![0, 2, 3] bcast_S8x96x320_S8x1x96x320_0_2_3 (pad S8x96x320 ![0, 0, 33] ![0, 0, 0] ![0, 0, 0] (Host.divf (Host.reduceAdd (mulf (extractStridedSlice S8x128x96x287 ![0, 0, 0, 33] ((V (Proc.devRef .tc main_arg0)) : (⟨S8x128x96x320, .f32⟩ : BufTy).Contents (Elt F)) slices_S8x128x96x320_S8x128x96x287_0_0_0_33) (extractStridedSlice S8x128x96x287 ![0, 0, 0, 0] ((V (Proc.devRef .tc main_arg1)) : (⟨S8x128x96x320, .f32⟩ : BufTy).Contents (Elt F)) slices_S8x128x96x320_S8x128x96x287_0_0_0_0)) (constant S_ .f32 0x00000000#32) reducesTo_S8x128x96x287_S8x96x287_d1 h_S_) (broadcastInDim S8x96x287 ![] bcast_S_S8x96x287 (constant S_ .f32 0x43000000#32))) (sitofp .f32 (constantI S_ 32 0#32)) pads_S8x96x287_S8x96x320_000_000_3300 h_S_))⟩, ⟨S8x1x96x320, (broadcastInDim S8x1x96x320 ![0, 2, 3] bcast_S8x96x320_S8x1x96x320_0_2_3 (pad S8x96x320 ![0, 0, 34] ![0, 0, 0] ![0, 0, 0] (Host.divf (Host.reduceAdd (mulf (extractStridedSlice S8x128x96x286 ![0, 0, 0, 34] ((V (Proc.devRef .tc main_arg0)) : (⟨S8x128x96x320, .f32⟩ : BufTy).Contents (Elt F)) slices_S8x128x96x320_S8x128x96x286_0_0_0_34) (extractStridedSlice S8x128x96x286 ![0, 0, 0, 0] ((V (Proc.devRef .tc main_arg1)) : (⟨S8x128x96x320, .f32⟩ : BufTy).Contents (Elt F)) slices_S8x128x96x320_S8x128x96x286_0_0_0_0)) (constant S_ .f32 0x00000000#32) reducesTo_S8x128x96x286_S8x96x286_d1 h_S_) (broadcastInDim S8x96x286 ![] bcast_S_S8x96x286 (constant S_ .f32 0x43000000#32))) (sitofp .f32 (constantI S_ 32 0#32)) pads_S8x96x286_S8x96x320_000_000_3400 h_S_))⟩, ⟨S8x1x96x320, (broadcastInDim S8x1x96x320 ![0, 2, 3] bcast_S8x96x320_S8x1x96x320_0_2_3 (pad S8x96x320 ![0, 0, 35] ![0, 0, 0] ![0, 0, 0] (Host.divf (Host.reduceAdd (mulf (extractStridedSlice S8x128x96x285 ![0, 0, 0, 35] ((V (Proc.devRef .tc main_arg0)) : (⟨S8x128x96x320, .f32⟩ : BufTy).Contents (Elt F)) slices_S8x128x96x320_S8x128x96x285_0_0_0_35) (extractStridedSlice S8x128x96x285 ![0, 0, 0, 0] ((V (Proc.devRef .tc main_arg1)) : (⟨S8x128x96x320, .f32⟩ : BufTy).Contents (Elt F)) slices_S8x128x96x320_S8x128x96x285_0_0_0_0)) (constant S_ .f32 0x00000000#32) reducesTo_S8x128x96x285_S8x96x285_d1 h_S_) (broadcastInDim S8x96x285 ![] bcast_S_S8x96x285 (constant S_ .f32 0x43000000#32))) (sitofp .f32 (constantI S_ 32 0#32)) pads_S8x96x285_S8x96x320_000_000_3500 h_S_))⟩, ⟨S8x1x96x320, (broadcastInDim S8x1x96x320 ![0, 2, 3] bcast_S8x96x320_S8x1x96x320_0_2_3 (pad S8x96x320 ![0, 0, 36] ![0, 0, 0] ![0, 0, 0] (Host.divf (Host.reduceAdd (mulf (extractStridedSlice S8x128x96x284 ![0, 0, 0, 36] ((V (Proc.devRef .tc main_arg0)) : (⟨S8x128x96x320, .f32⟩ : BufTy).Contents (Elt F)) slices_S8x128x96x320_S8x128x96x284_0_0_0_36) (extractStridedSlice S8x128x96x284 ![0, 0, 0, 0] ((V (Proc.devRef .tc main_arg1)) : (⟨S8x128x96x320, .f32⟩ : BufTy).Contents (Elt F)) slices_S8x128x96x320_S8x128x96x284_0_0_0_0)) (constant S_ .f32 0x00000000#32) reducesTo_S8x128x96x284_S8x96x284_d1 h_S_) (broadcastInDim S8x96x284 ![] bcast_S_S8x96x284 (constant S_ .f32 0x43000000#32))) (sitofp .f32 (constantI S_ 32 0#32)) pads_S8x96x284_S8x96x320_000_000_3600 h_S_))⟩, ⟨S8x1x96x320, (broadcastInDim S8x1x96x320 ![0, 2, 3] bcast_S8x96x320_S8x1x96x320_0_2_3 (pad S8x96x320 ![0, 0, 37] ![0, 0, 0] ![0, 0, 0] (Host.divf (Host.reduceAdd (mulf (extractStridedSlice S8x128x96x283 ![0, 0, 0, 37] ((V (Proc.devRef .tc main_arg0)) : (⟨S8x128x96x320, .f32⟩ : BufTy).Contents (Elt F)) slices_S8x128x96x320_S8x128x96x283_0_0_0_37) (extractStridedSlice S8x128x96x283 ![0, 0, 0, 0] ((V (Proc.devRef .tc main_arg1)) : (⟨S8x128x96x320, .f32⟩ : BufTy).Contents (Elt F)) slices_S8x128x96x320_S8x128x96x283_0_0_0_0)) (constant S_ .f32 0x00000000#32) reducesTo_S8x128x96x283_S8x96x283_d1 h_S_) (broadcastInDim S8x96x283 ![] bcast_S_S8x96x283 (constant S_ .f32 0x43000000#32))) (sitofp .f32 (constantI S_ 32 0#32)) pads_S8x96x283_S8x96x320_000_000_3700 h_S_))⟩, ⟨S8x1x96x320, (broadcastInDim S8x1x96x320 ![0, 2, 3] bcast_S8x96x320_S8x1x96x320_0_2_3 (pad S8x96x320 ![0, 0, 38] ![0, 0, 0] ![0, 0, 0] (Host.divf (Host.reduceAdd (mulf (extractStridedSlice S8x128x96x282 ![0, 0, 0, 38] ((V (Proc.devRef .tc main_arg0)) : (⟨S8x128x96x320, .f32⟩ : BufTy).Contents (Elt F)) slices_S8x128x96x320_S8x128x96x282_0_0_0_38) (extractStridedSlice S8x128x96x282 ![0, 0, 0, 0] ((V (Proc.devRef .tc main_arg1)) : (⟨S8x128x96x320, .f32⟩ : BufTy).Contents (Elt F)) slices_S8x128x96x320_S8x128x96x282_0_0_0_0)) (constant S_ .f32 0x00000000#32) reducesTo_S8x128x96x282_S8x96x282_d1 h_S_) (broadcastInDim S8x96x282 ![] bcast_S_S8x96x282 (constant S_ .f32 0x43000000#32))) (sitofp .f32 (constantI S_ 32 0#32)) pads_S8x96x282_S8x96x320_000_000_3800 h_S_))⟩, ⟨S8x1x96x320, (broadcastInDim S8x1x96x320 ![0, 2, 3] bcast_S8x96x320_S8x1x96x320_0_2_3 (pad S8x96x320 ![0, 0, 39] ![0, 0, 0] ![0, 0, 0] (Host.divf (Host.reduceAdd (mulf (extractStridedSlice S8x128x96x281 ![0, 0, 0, 39] ((V (Proc.devRef .tc main_arg0)) : (⟨S8x128x96x320, .f32⟩ : BufTy).Contents (Elt F)) slices_S8x128x96x320_S8x128x96x281_0_0_0_39) (extractStridedSlice S8x128x96x281 ![0, 0, 0, 0] ((V (Proc.devRef .tc main_arg1)) : (⟨S8x128x96x320, .f32⟩ : BufTy).Contents (Elt F)) slices_S8x128x96x320_S8x128x96x281_0_0_0_0)) (constant S_ .f32 0x00000000#32) reducesTo_S8x128x96x281_S8x96x281_d1 h_S_) (broadcastInDim S8x96x281 ![] bcast_S_S8x96x281 (constant S_ .f32 0x43000000#32))) (sitofp .f32 (constantI S_ 32 0#32)) pads_S8x96x281_S8x96x320_000_000_3900 h_S_))⟩, ⟨S8x1x96x320, (broadcastInDim S8x1x96x320 ![0, 2, 3] bcast_S8x96x320_S8x1x96x320_0_2_3 (pad S8x96x320 ![0, 0, 40] ![0, 0, 0] ![0, 0, 0] (Host.divf (Host.reduceAdd (mulf (extractStridedSlice S8x128x96x280 ![0, 0, 0, 40] ((V (Proc.devRef .tc main_arg0)) : (⟨S8x128x96x320, .f32⟩ : BufTy).Contents (Elt F)) slices_S8x128x96x320_S8x128x96x280_0_0_0_40) (extractStridedSlice S8x128x96x280 ![0, 0, 0, 0] ((V (Proc.devRef .tc main_arg1)) : (⟨S8x128x96x320, .f32⟩ : BufTy).Contents (Elt F)) slices_S8x128x96x320_S8x128x96x280_0_0_0_0)) (constant S_ .f32 0x00000000#32) reducesTo_S8x128x96x280_S8x96x280_d1 h_S_) (broadcastInDim S8x96x280 ![] bcast_S_S8x96x280 (constant S_ .f32 0x43000000#32))) (sitofp .f32 (constantI S_ 32 0#32)) pads_S8x96x280_S8x96x320_000_000_4000 h_S_))⟩, ⟨S8x1x96x320, (broadcastInDim S8x1x96x320 ![0, 2, 3] bcast_S8x96x320_S8x1x96x320_0_2_3 (pad S8x96x320 ![0, 0, 41] ![0, 0, 0] ![0, 0, 0] (Host.divf (Host.reduceAdd (mulf (extractStridedSlice S8x128x96x279 ![0, 0, 0, 41] ((V (Proc.devRef .tc main_arg0)) : (⟨S8x128x96x320, .f32⟩ : BufTy).Contents (Elt F)) slices_S8x128x96x320_S8x128x96x279_0_0_0_41) (extractStridedSlice S8x128x96x279 ![0, 0, 0, 0] ((V (Proc.devRef .tc main_arg1)) : (⟨S8x128x96x320, .f32⟩ : BufTy).Contents (Elt F)) slices_S8x128x96x320_S8x128x96x279_0_0_0_0)) (constant S_ .f32 0x00000000#32) reducesTo_S8x128x96x279_S8x96x279_d1 h_S_) (broadcastInDim S8x96x279 ![] bcast_S_S8x96x279 (constant S_ .f32 0x43000000#32))) (sitofp .f32 (constantI S_ 32 0#32)) pads_S8x96x279_S8x96x320_000_000_4100 h_S_))⟩, ⟨S8x1x96x320, (broadcastInDim S8x1x96x320 ![0, 2, 3] bcast_S8x96x320_S8x1x96x320_0_2_3 (pad S8x96x320 ![0, 0, 42] ![0, 0, 0] ![0, 0, 0] (Host.divf (Host.reduceAdd (mulf (extractStridedSlice S8x128x96x278 ![0, 0, 0, 42] ((V (Proc.devRef .tc main_arg0)) : (⟨S8x128x96x320, .f32⟩ : BufTy).Contents (Elt F)) slices_S8x128x96x320_S8x128x96x278_0_0_0_42) (extractStridedSlice S8x128x96x278 ![0, 0, 0, 0] ((V (Proc.devRef .tc main_arg1)) : (⟨S8x128x96x320, .f32⟩ : BufTy).Contents (Elt F)) slices_S8x128x96x320_S8x128x96x278_0_0_0_0)) (constant S_ .f32 0x00000000#32) reducesTo_S8x128x96x278_S8x96x278_d1 h_S_) (broadcastInDim S8x96x278 ![] bcast_S_S8x96x278 (constant S_ .f32 0x43000000#32))) (sitofp .f32 (constantI S_ 32 0#32)) pads_S8x96x278_S8x96x320_000_000_4200 h_S_))⟩, ⟨S8x1x96x320, (broadcastInDim S8x1x96x320 ![0, 2, 3] bcast_S8x96x320_S8x1x96x320_0_2_3 (pad S8x96x320 ![0, 0, 43] ![0, 0, 0] ![0, 0, 0] (Host.divf (Host.reduceAdd (mulf (extractStridedSlice S8x128x96x277 ![0, 0, 0, 43] ((V (Proc.devRef .tc main_arg0)) : (⟨S8x128x96x320, .f32⟩ : BufTy).Contents (Elt F)) slices_S8x128x96x320_S8x128x96x277_0_0_0_43) (extractStridedSlice S8x128x96x277 ![0, 0, 0, 0] ((V (Proc.devRef .tc main_arg1)) : (⟨S8x128x96x320, .f32⟩ : BufTy).Contents (Elt F)) slices_S8x128x96x320_S8x128x96x277_0_0_0_0)) (constant S_ .f32 0x00000000#32) reducesTo_S8x128x96x277_S8x96x277_d1 h_S_) (broadcastInDim S8x96x277 ![] bcast_S_S8x96x277 (constant S_ .f32 0x43000000#32))) (sitofp .f32 (constantI S_ 32 0#32)) pads_S8x96x277_S8x96x320_000_000_4300 h_S_))⟩, ⟨S8x1x96x320, (broadcastInDim S8x1x96x320 ![0, 2, 3] bcast_S8x96x320_S8x1x96x320_0_2_3 (pad S8x96x320 ![0, 0, 44] ![0, 0, 0] ![0, 0, 0] (Host.divf (Host.reduceAdd (mulf (extractStridedSlice S8x128x96x276 ![0, 0, 0, 44] ((V (Proc.devRef .tc main_arg0)) : (⟨S8x128x96x320, .f32⟩ : BufTy).Contents (Elt F)) slices_S8x128x96x320_S8x128x96x276_0_0_0_44) (extractStridedSlice S8x128x96x276 ![0, 0, 0, 0] ((V (Proc.devRef .tc main_arg1)) : (⟨S8x128x96x320, .f32⟩ : BufTy).Contents (Elt F)) slices_S8x128x96x320_S8x128x96x276_0_0_0_0)) (constant S_ .f32 0x00000000#32) reducesTo_S8x128x96x276_S8x96x276_d1 h_S_) (broadcastInDim S8x96x276 ![] bcast_S_S8x96x276 (constant S_ .f32 0x43000000#32))) (sitofp .f32 (constantI S_ 32 0#32)) pads_S8x96x276_S8x96x320_000_000_4400 h_S_))⟩, ⟨S8x1x96x320, (broadcastInDim S8x1x96x320 ![0, 2, 3] bcast_S8x96x320_S8x1x96x320_0_2_3 (pad S8x96x320 ![0, 0, 45] ![0, 0, 0] ![0, 0, 0] (Host.divf (Host.reduceAdd (mulf (extractStridedSlice S8x128x96x275 ![0, 0, 0, 45] ((V (Proc.devRef .tc main_arg0)) : (⟨S8x128x96x320, .f32⟩ : BufTy).Contents (Elt F)) slices_S8x128x96x320_S8x128x96x275_0_0_0_45) (extractStridedSlice S8x128x96x275 ![0, 0, 0, 0] ((V (Proc.devRef .tc main_arg1)) : (⟨S8x128x96x320, .f32⟩ : BufTy).Contents (Elt F)) slices_S8x128x96x320_S8x128x96x275_0_0_0_0)) (constant S_ .f32 0x00000000#32) reducesTo_S8x128x96x275_S8x96x275_d1 h_S_) (broadcastInDim S8x96x275 ![] bcast_S_S8x96x275 (constant S_ .f32 0x43000000#32))) (sitofp .f32 (constantI S_ 32 0#32)) pads_S8x96x275_S8x96x320_000_000_4500 h_S_))⟩, ⟨S8x1x96x320, (broadcastInDim S8x1x96x320 ![0, 2, 3] bcast_S8x96x320_S8x1x96x320_0_2_3 (pad S8x96x320 ![0, 0, 46] ![0, 0, 0] ![0, 0, 0] (Host.divf (Host.reduceAdd (mulf (extractStridedSlice S8x128x96x274 ![0, 0, 0, 46] ((V (Proc.devRef .tc main_arg0)) : (⟨S8x128x96x320, .f32⟩ : BufTy).Contents (Elt F)) slices_S8x128x96x320_S8x128x96x274_0_0_0_46) (extractStridedSlice S8x128x96x274 ![0, 0, 0, 0] ((V (Proc.devRef .tc main_arg1)) : (⟨S8x128x96x320, .f32⟩ : BufTy).Contents (Elt F)) slices_S8x128x96x320_S8x128x96x274_0_0_0_0)) (constant S_ .f32 0x00000000#32) reducesTo_S8x128x96x274_S8x96x274_d1 h_S_) (broadcastInDim S8x96x274 ![] bcast_S_S8x96x274 (constant S_ .f32 0x43000000#32))) (sitofp .f32 (constantI S_ 32 0#32)) pads_S8x96x274_S8x96x320_000_000_4600 h_S_))⟩, ⟨S8x1x96x320, (broadcastInDim S8x1x96x320 ![0, 2, 3] bcast_S8x96x320_S8x1x96x320_0_2_3 (pad S8x96x320 ![0, 0, 47] ![0, 0, 0] ![0, 0, 0] (Host.divf (Host.reduceAdd (mulf (extractStridedSlice S8x128x96x273 ![0, 0, 0, 47] ((V (Proc.devRef .tc main_arg0)) : (⟨S8x128x96x320, .f32⟩ : BufTy).Contents (Elt F)) slices_S8x128x96x320_S8x128x96x273_0_0_0_47) (extractStridedSlice S8x128x96x273 ![0, 0, 0, 0] ((V (Proc.devRef .tc main_arg1)) : (⟨S8x128x96x320, .f32⟩ : BufTy).Contents (Elt F)) slices_S8x128x96x320_S8x128x96x273_0_0_0_0)) (constant S_ .f32 0x00000000#32) reducesTo_S8x128x96x273_S8x96x273_d1 h_S_) (broadcastInDim S8x96x273 ![] bcast_S_S8x96x273 (constant S_ .f32 0x43000000#32))) (sitofp .f32 (constantI S_ 32 0#32)) pads_S8x96x273_S8x96x320_000_000_4700 h_S_))⟩] concatenates_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x1x96x320_S8x16x96x320_d1)⟩] concatenates_S8x16x96x320_S8x16x96x320_S8x16x96x320_S8x48x96x320_d1 := by
  unfold ops
  simp only [after_append]
  rw [tail_eval]
  rw [keep_c11_main_v4, keep_c10_main_v4, keep_c9_main_v4, keep_c8_main_v4, keep_c7_main_v4, keep_c6_main_v4]
  rw [keep_c5_main_v4, keep_c4_main_v4, keep_c3_main_v4, keep_c2_main_v4, keep_c1_main_v4, plane_eval_0]
  rw [keep_c11_main_v11, keep_c10_main_v11, keep_c9_main_v11, keep_c8_main_v11, keep_c7_main_v11, keep_c6_main_v11]
  rw [keep_c5_main_v11, keep_c4_main_v11, keep_c3_main_v11, keep_c2_main_v11, keep_c1_main_v11, plane_eval_1]
  rw [keep_c11_main_v18, keep_c10_main_v18, keep_c9_main_v18, keep_c8_main_v18, keep_c7_main_v18, keep_c6_main_v18]
  rw [keep_c5_main_v18, keep_c4_main_v18, keep_c3_main_v18, keep_c2_main_v18, keep_c1_main_v18, plane_eval_2]
  rw [keep_c11_main_v25, keep_c10_main_v25, keep_c9_main_v25, keep_c8_main_v25, keep_c7_main_v25, keep_c6_main_v25]
  rw [keep_c5_main_v25, keep_c4_main_v25, keep_c3_main_v25, keep_c2_main_v25, keep_c1_main_v25, plane_eval_3]
  rw [keep_c11_main_v32, keep_c10_main_v32, keep_c9_main_v32, keep_c8_main_v32, keep_c7_main_v32, keep_c6_main_v32]
  rw [keep_c5_main_v32, keep_c4_main_v32, keep_c3_main_v32, keep_c2_main_v32, plane_eval_4, keep_c11_main_v39]
  rw [keep_c10_main_v39, keep_c9_main_v39, keep_c8_main_v39, keep_c7_main_v39, keep_c6_main_v39, keep_c5_main_v39]
  rw [keep_c4_main_v39, keep_c3_main_v39, keep_c2_main_v39, plane_eval_5, keep_c11_main_v46, keep_c10_main_v46]
  rw [keep_c9_main_v46, keep_c8_main_v46, keep_c7_main_v46, keep_c6_main_v46, keep_c5_main_v46, keep_c4_main_v46]
  rw [keep_c3_main_v46, keep_c2_main_v46, plane_eval_6, keep_c11_main_v53, keep_c10_main_v53, keep_c9_main_v53]
  rw [keep_c8_main_v53, keep_c7_main_v53, keep_c6_main_v53, keep_c5_main_v53, keep_c4_main_v53, keep_c3_main_v53]
  rw [keep_c2_main_v53, plane_eval_7, keep_c11_main_v60, keep_c10_main_v60, keep_c9_main_v60, keep_c8_main_v60]
  rw [keep_c7_main_v60, keep_c6_main_v60, keep_c5_main_v60, keep_c4_main_v60, keep_c3_main_v60, plane_eval_8]
  rw [keep_c11_main_v67, keep_c10_main_v67, keep_c9_main_v67, keep_c8_main_v67, keep_c7_main_v67, keep_c6_main_v67]
  rw [keep_c5_main_v67, keep_c4_main_v67, keep_c3_main_v67, plane_eval_9, keep_c11_main_v74, keep_c10_main_v74]
  rw [keep_c9_main_v74, keep_c8_main_v74, keep_c7_main_v74, keep_c6_main_v74, keep_c5_main_v74, keep_c4_main_v74]
  rw [keep_c3_main_v74, plane_eval_10, keep_c11_main_v81, keep_c10_main_v81, keep_c9_main_v81, keep_c8_main_v81]
  rw [keep_c7_main_v81, keep_c6_main_v81, keep_c5_main_v81, keep_c4_main_v81, keep_c3_main_v81, plane_eval_11]
  rw [keep_c11_main_v88, keep_c10_main_v88, keep_c9_main_v88, keep_c8_main_v88, keep_c7_main_v88, keep_c6_main_v88]
  rw [keep_c5_main_v88, keep_c4_main_v88, plane_eval_12, keep_c11_main_v95, keep_c10_main_v95, keep_c9_main_v95]
  rw [keep_c8_main_v95, keep_c7_main_v95, keep_c6_main_v95, keep_c5_main_v95, keep_c4_main_v95, plane_eval_13]
  rw [keep_c11_main_v102, keep_c10_main_v102, keep_c9_main_v102, keep_c8_main_v102, keep_c7_main_v102, keep_c6_main_v102]
  rw [keep_c5_main_v102, keep_c4_main_v102, plane_eval_14, keep_c11_main_v109, keep_c10_main_v109, keep_c9_main_v109]
  rw [keep_c8_main_v109, keep_c7_main_v109, keep_c6_main_v109, keep_c5_main_v109, keep_c4_main_v109, plane_eval_15]
  rw [keep_c11_main_v116, keep_c10_main_v116, keep_c9_main_v116, keep_c8_main_v116, keep_c7_main_v116, keep_c6_main_v116]
  rw [keep_c5_main_v116, plane_eval_16, keep_c11_main_v123, keep_c10_main_v123, keep_c9_main_v123, keep_c8_main_v123]
  rw [keep_c7_main_v123, keep_c6_main_v123, keep_c5_main_v123, plane_eval_17, keep_c11_main_v130, keep_c10_main_v130]
  rw [keep_c9_main_v130, keep_c8_main_v130, keep_c7_main_v130, keep_c6_main_v130, keep_c5_main_v130, plane_eval_18]
  rw [keep_c11_main_v137, keep_c10_main_v137, keep_c9_main_v137, keep_c8_main_v137, keep_c7_main_v137, keep_c6_main_v137]
  rw [keep_c5_main_v137, plane_eval_19, keep_c11_main_v144, keep_c10_main_v144, keep_c9_main_v144, keep_c8_main_v144]
  rw [keep_c7_main_v144, keep_c6_main_v144, plane_eval_20, keep_c11_main_v151, keep_c10_main_v151, keep_c9_main_v151]
  rw [keep_c8_main_v151, keep_c7_main_v151, keep_c6_main_v151, plane_eval_21, keep_c11_main_v158, keep_c10_main_v158]
  rw [keep_c9_main_v158, keep_c8_main_v158, keep_c7_main_v158, keep_c6_main_v158, plane_eval_22, keep_c11_main_v165]
  rw [keep_c10_main_v165, keep_c9_main_v165, keep_c8_main_v165, keep_c7_main_v165, keep_c6_main_v165, plane_eval_23]
  rw [keep_c11_main_v172, keep_c10_main_v172, keep_c9_main_v172, keep_c8_main_v172, keep_c7_main_v172, plane_eval_24]
  rw [keep_c11_main_v179, keep_c10_main_v179, keep_c9_main_v179, keep_c8_main_v179, keep_c7_main_v179, plane_eval_25]
  rw [keep_c11_main_v186, keep_c10_main_v186, keep_c9_main_v186, keep_c8_main_v186, keep_c7_main_v186, plane_eval_26]
  rw [keep_c11_main_v193, keep_c10_main_v193, keep_c9_main_v193, keep_c8_main_v193, keep_c7_main_v193, plane_eval_27]
  rw [keep_c11_main_v200, keep_c10_main_v200, keep_c9_main_v200, keep_c8_main_v200, plane_eval_28, keep_c11_main_v207]
  rw [keep_c10_main_v207, keep_c9_main_v207, keep_c8_main_v207, plane_eval_29, keep_c11_main_v214, keep_c10_main_v214]
  rw [keep_c9_main_v214, keep_c8_main_v214, plane_eval_30, keep_c11_main_v221, keep_c10_main_v221, keep_c9_main_v221]
  rw [keep_c8_main_v221, plane_eval_31, keep_c11_main_v228, keep_c10_main_v228, keep_c9_main_v228, plane_eval_32]
  rw [keep_c11_main_v235, keep_c10_main_v235, keep_c9_main_v235, plane_eval_33, keep_c11_main_v242, keep_c10_main_v242]
  rw [keep_c9_main_v242, plane_eval_34, keep_c11_main_v249, keep_c10_main_v249, keep_c9_main_v249, plane_eval_35]
  rw [keep_c11_main_v256, keep_c10_main_v256, plane_eval_36, keep_c11_main_v263, keep_c10_main_v263, plane_eval_37]
  rw [keep_c11_main_v270, keep_c10_main_v270, plane_eval_38, keep_c11_main_v277, keep_c10_main_v277, plane_eval_39]
  rw [keep_c11_main_v284, plane_eval_40, keep_c11_main_v291, plane_eval_41, keep_c11_main_v298, plane_eval_42]
  rw [keep_c11_main_v305, plane_eval_43, plane_eval_44, plane_eval_45, plane_eval_46, plane_eval_47]
  rw [keep_c10_main_arg0, keep_c9_main_arg0, keep_c8_main_arg0, keep_c7_main_arg0, keep_c6_main_arg0, keep_c5_main_arg0]
  rw [keep_c4_main_arg0, keep_c3_main_arg0, keep_c2_main_arg0, keep_c1_main_arg0, keep_c0_main_arg0]
  rw [keep_c10_main_arg1, keep_c9_main_arg1, keep_c8_main_arg1, keep_c7_main_arg1, keep_c6_main_arg1, keep_c5_main_arg1]
  rw [keep_c4_main_arg1, keep_c3_main_arg1, keep_c2_main_arg1, keep_c1_main_arg1, keep_c0_main_arg1]

set_option maxRecDepth 8192 in
set_option maxHeartbeats 40000000 in
/-- No operation writes the first argument. -/
theorem arg0_kept (V : Valuation τ sig (Elt F)) :
    after (ops (F := F)) V (Proc.devRef .tc main_arg0) = V (Proc.devRef .tc main_arg0) := by
  unfold ops
  simp only [after_append]
  rw [keep_cT_main_arg0, keep_c11_main_arg0, keep_c10_main_arg0, keep_c9_main_arg0, keep_c8_main_arg0, keep_c7_main_arg0]
  rw [keep_c6_main_arg0, keep_c5_main_arg0, keep_c4_main_arg0, keep_c3_main_arg0, keep_c2_main_arg0, keep_c1_main_arg0]
  rw [keep_c0_main_arg0]

set_option maxRecDepth 8192 in
set_option maxHeartbeats 40000000 in
/-- No operation writes the second argument. -/
theorem arg1_kept (V : Valuation τ sig (Elt F)) :
    after (ops (F := F)) V (Proc.devRef .tc main_arg1) = V (Proc.devRef .tc main_arg1) := by
  unfold ops
  simp only [after_append]
  rw [keep_cT_main_arg1, keep_c11_main_arg1, keep_c10_main_arg1, keep_c9_main_arg1, keep_c8_main_arg1, keep_c7_main_arg1]
  rw [keep_c6_main_arg1, keep_c5_main_arg1, keep_c4_main_arg1, keep_c3_main_arg1, keep_c2_main_arg1, keep_c1_main_arg1]
  rw [keep_c0_main_arg1]

end Cert.ReferenceIdeal.ValueP

end
-- ==== Proof.RefRun.lean ====
/-
  The reference's run, read in stages.

  The reference is a straight-line program: a list of 578 operations, each of which rewrites one buffer from the contents of
  the buffers it reads. Every weakly fair execution ends with each buffer holding the fold of the operations over the launch
  contents. The contents after a list `l₁ ++ l₂` are those after `l₂` FROM those after `l₁` (Proof/LibAppend.lean), so the
  fold over the thirteen short lists of Proof/RefOps.lean is read one list at a time (Proof/RefRunTable.lean, Proof/RefRunValue.lean): the last list
  makes the result out of the 48 plane buffers, by laying each plane out and joining them; each earlier list leaves in the
  buffers of its four planes those planes' terms of the two arguments, and leaves the arguments and the planes made before
  it as they were. Put together the result buffer holds the composed term of the two arguments, which Proof/RefArray.lean
  shows to be the cost volume; and no operation writes an argument buffer, so the arguments end as launched.
-/
import proofs.«167814_j57853209477697_1_alg».proof.Proof.RefRunValue

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
/-- After all 578 operations the result buffer holds the composed term of the two arguments as launched. -/
theorem value_eq (m : (ℓ : Loc nD τ sig) → Buf (Elt F) ℓ) (c : Dev nD) :
    after (ops (F := F)) (launchContents m c) (Proc.devRef .tc main_v385) = res_main_v385 m c :=
  (value_eval (launchContents m c)).trans rfl

/-- THE REFERENCE'S RUN: every weakly fair execution of @main terminates with the result buffer at the composed term of
    the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v385) = res_main_v385 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v385).trans (value_eq m c),
      (h c main_arg0).trans ((arg0_kept _).trans rfl),
      (h c main_arg1).trans ((arg1_kept _).trans rfl)⟩)
    (run_seq scopedRefs_eq scopedSems_eq defs main (fun _ => ops) main_eq (fun _ => ops_sub) m ρ (fun _ => ops_fresh))

end Cert.ReferenceIdeal.ValueP

end
-- ==== Proof.RefPlane.lean ====
/-
  One plane of the reference, read at an index.

  For the disparity `j` the reference cuts columns `j …` out of the left stack and columns `0 … 320 - j` out of the right stack
  (both [8, 128, 96, W] with W = 320 - j), multiplies them entry by entry, sums over the channel axis from the zero word,
  divides by the word of 128, pads the [8, 96, W] result with `j` columns of the integer 0 converted to f32 on the left, and
  lays the [8, 96, 320] plane out as [8, 1, 96, 320]. So at (b, ·, h, w) the plane holds
      (0 + ∑ c, left[b, c, h, j + q] · right[b, c, h, q]) / 128   with q = w - j,   when j ≤ w,
      the pad value 0                                                               when w < j,
  and dividing by 128 is multiplying by the word of 1/128 (Scale.lean): the cost volume's entry (b, d = j, h, w).
  Stated for ANY width `W` and offset `j` with j + W = 320, the facts about the shapes taken as hypotheses, so that the 48
  planes, each of its own width, are instances of one statement. Plane 0 has no cut and no padding and is stated apart.
-/
import Idealize.ShloMosaic.PureOps.Ideal.Laws
import Idealize.ShloMosaic.Lib.ValueIdx
import Idealize.ShloMosaic.Lib.Pipeline.Value
import Idealize.ShloMosaic.Lib.KernelVsHost
import proofs.«167814_j57853209477697_1_alg».proof.Proof.Spec
import proofs.«167814_j57853209477697_1_alg».proof.Proof.Scale

noncomputable section

namespace Cert.CostVolume

open Idealize.ShloMosaic Idealize.ShloMosaic.ValueIdx

/-- The pad value — the integer 0 converted to f32 — is 0. -/
theorem padValue_eq (hu : 0 < (⟨0, ![]⟩ : Shape).numel) :
    sitofp (F := Ideal) .f32 (constantI (⟨0, ![]⟩ : Shape) 32 0#32) (Shape.Idx.first hu) = (0 : EReal) := by
  show (((0#32 : BitVec 32).toInt : ℝ) : EReal) = 0
  simp

/-- The plane laid out as [8, 1, 96, 320] reads, at (b, u, h, w), the [8, 96, 320] plane at (b, h, w). -/
theorem unitPlane_apply {α : Type} (p : (⟨3, ![8, 96, 320]⟩ : Shape).Idx → α)
    (hb : (⟨3, ![8, 96, 320]⟩ : Shape).BroadcastsInDim ⟨4, ![8, 1, 96, 320]⟩ ![0, 2, 3])
    (b : Fin 8) (u : Fin 1) (h : Fin 96) (w : Fin 320) :
    broadcastInDim ⟨4, ![8, 1, 96, 320]⟩ ![0, 2, 3] hb p (ix4 b u h w) = p (ix3 b h w) :=
  broadcastInDim_apply ![0, 2, 3] hb p (ix4 b u h w) (ix3 b h w) (fun a => by
    match a with
    | ⟨0, _⟩ => show b.val = if (8 : ℕ) = 1 then 0 else b.val; rw [if_neg (by decide)]
    | ⟨1, _⟩ => show h.val = if (96 : ℕ) = 1 then 0 else h.val; rw [if_neg (by decide)]
    | ⟨2, _⟩ => show w.val = if (320 : ℕ) = 1 then 0 else w.val; rw [if_neg (by decide)])

/-- The mean over the channels of the shifted product at (b, h, q): the channel sum from the zero word, divided by 128. -/
theorem shiftedMean_apply {W : ℕ} (j : ℕ) (A0 A1 : FVec Ideal (⟨4, ![8, 128, 96, 320]⟩ : Shape) .f32)
    (hs1 : (⟨4, ![8, 128, 96, 320]⟩ : Shape).Slices ![0, 0, 0, j] ⟨4, ![8, 128, 96, W]⟩)
    (hs0 : (⟨4, ![8, 128, 96, 320]⟩ : Shape).Slices ![0, 0, 0, 0] ⟨4, ![8, 128, 96, W]⟩)
    (hrt : (⟨4, ![8, 128, 96, W]⟩ : Shape).ReducesTo [1] ⟨3, ![8, 96, W]⟩)
    (hr : (⟨4, ![8, 128, 96, W]⟩ : Shape).Reduces [1] ⟨3, ![8, 96, W]⟩)
    (hu : 0 < (⟨0, ![]⟩ : Shape).numel)
    (hbc : (⟨0, ![]⟩ : Shape).BroadcastsInDim ⟨3, ![8, 96, W]⟩ ![])
    (b : Fin 8) (h : Fin 96) (q : Fin W) (w w' : Fin 320) (hw : w.val = j + q.val) (hw' : w'.val = q.val) :
    Host.divf (F := Ideal)
        (Host.reduceAdd (F := Ideal)
          (mulf (extractStridedSlice ⟨4, ![8, 128, 96, W]⟩ ![0, 0, 0, j] A0 hs1)
            (extractStridedSlice ⟨4, ![8, 128, 96, W]⟩ ![0, 0, 0, 0] A1 hs0))
          (constant (F := Ideal) (⟨0, ![]⟩ : Shape) .f32 0x00000000#32) hrt hu)
        (broadcastInDim ⟨3, ![8, 96, W]⟩ ![] hbc (constant (F := Ideal) (⟨0, ![]⟩ : Shape) .f32 0x43000000#32))
        (ix3 b h q)
      = (∑ c : Fin 128, A0 (ix4 b c h w) * A1 (ix4 b c h w')) * Ideal.ofBits .f32 0x3C000000#32 := by
  show Ideal.div
      (Ideal.hostReduceAdd hrt
        (mulf (extractStridedSlice ⟨4, ![8, 128, 96, W]⟩ ![0, 0, 0, j] A0 hs1)
          (extractStridedSlice ⟨4, ![8, 128, 96, W]⟩ ![0, 0, 0, 0] A1 hs0))
        (Ideal.ofBits .f32 0x00000000#32) (ix3 b h q))
      (Ideal.ofBits .f32 0x43000000#32) = _
  rw [Ideal.hostReduceAdd_single hrt hr, ofBits_zero, zero_add, div_128]
  refine congrArg (· * Ideal.ofBits .f32 0x3C000000#32) ?_
  show ∑ c : Fin 128, _ = _
  refine Finset.sum_congr rfl fun c _ => ?_
  have e1 := extractStridedSlice_apply ![0, 0, 0, j] A0 hs1 (hr.lift (ix3 b h q) c) (ix4 b c h w) (fun a => by
    match a with
    | ⟨0, _⟩ => exact (Nat.zero_add _).symm
    | ⟨1, _⟩ => exact (Nat.zero_add _).symm
    | ⟨2, _⟩ => exact (Nat.zero_add _).symm
    | ⟨3, _⟩ => exact hw)
  have e3 := extractStridedSlice_apply ![0, 0, 0, 0] A1 hs0 (hr.lift (ix3 b h q) c) (ix4 b c h w') (fun a => by
    match a with
    | ⟨0, _⟩ => exact (Nat.zero_add _).symm
    | ⟨1, _⟩ => exact (Nat.zero_add _).symm
    | ⟨2, _⟩ => exact (Nat.zero_add _).symm
    | ⟨3, _⟩ => exact hw'.trans (Nat.zero_add _).symm)
  show extractStridedSlice _ _ A0 hs1 (hr.lift (ix3 b h q) c) * extractStridedSlice _ _ A1 hs0 (hr.lift (ix3 b h q) c) = _
  rw [e1, e3]

/-- The mean over the channels of the product with no shift (plane 0) at (b, h, w). -/
theorem mean_apply (A0 A1 : FVec Ideal (⟨4, ![8, 128, 96, 320]⟩ : Shape) .f32)
    (hrt : (⟨4, ![8, 128, 96, 320]⟩ : Shape).ReducesTo [1] ⟨3, ![8, 96, 320]⟩)
    (hr : (⟨4, ![8, 128, 96, 320]⟩ : Shape).Reduces [1] ⟨3, ![8, 96, 320]⟩)
    (hu : 0 < (⟨0, ![]⟩ : Shape).numel)
    (hbc : (⟨0, ![]⟩ : Shape).BroadcastsInDim ⟨3, ![8, 96, 320]⟩ ![])
    (b : Fin 8) (h : Fin 96) (w : Fin 320) :
    Host.divf (F := Ideal)
        (Host.reduceAdd (F := Ideal) (mulf A0 A1) (constant (F := Ideal) (⟨0, ![]⟩ : Shape) .f32 0x00000000#32) hrt hu)
        (broadcastInDim ⟨3, ![8, 96, 320]⟩ ![] hbc (constant (F := Ideal) (⟨0, ![]⟩ : Shape) .f32 0x43000000#32))
        (ix3 b h w)
      = (∑ c : Fin 128, A0 (ix4 b c h w) * A1 (ix4 b c h w)) * Ideal.ofBits .f32 0x3C000000#32 := by
  show Ideal.div (Ideal.hostReduceAdd hrt (mulf A0 A1) (Ideal.ofBits .f32 0x00000000#32) (ix3 b h w))
      (Ideal.ofBits .f32 0x43000000#32) = _
  rw [Ideal.hostReduceAdd_single hrt hr, ofBits_zero, zero_add, div_128]
  refine congrArg (· * Ideal.ofBits .f32 0x3C000000#32) ?_
  show ∑ c : Fin 128, _ = _
  refine Finset.sum_congr rfl fun c _ => ?_
  have e : hr.lift (ix3 b h w) c = ix4 b c h w := funext fun a => Fin.ext (by
    match a with
    | ⟨0, _⟩ => rfl
    | ⟨1, _⟩ => rfl
    | ⟨2, _⟩ => rfl
    | ⟨3, _⟩ => rfl)
  show A0 (hr.lift (ix3 b h w) c) * A1 (hr.lift (ix3 b h w) c) = _
  rw [e]

/-- PLANE `j ≥ 1` OF THE REFERENCE, as it enters the join: at (b, u, h, w) the cost volume's entry (b, d, h, w), d = j. -/
theorem refPlane_apply {W : ℕ} (j : ℕ) (A0 A1 : FVec Ideal (⟨4, ![8, 128, 96, 320]⟩ : Shape) .f32)
    (hs1 : (⟨4, ![8, 128, 96, 320]⟩ : Shape).Slices ![0, 0, 0, j] ⟨4, ![8, 128, 96, W]⟩)
    (hs0 : (⟨4, ![8, 128, 96, 320]⟩ : Shape).Slices ![0, 0, 0, 0] ⟨4, ![8, 128, 96, W]⟩)
    (hrt : (⟨4, ![8, 128, 96, W]⟩ : Shape).ReducesTo [1] ⟨3, ![8, 96, W]⟩)
    (hr : (⟨4, ![8, 128, 96, W]⟩ : Shape).Reduces [1] ⟨3, ![8, 96, W]⟩)
    (hu : 0 < (⟨0, ![]⟩ : Shape).numel)
    (hbc : (⟨0, ![]⟩ : Shape).BroadcastsInDim ⟨3, ![8, 96, W]⟩ ![])
    (hp : (⟨3, ![8, 96, W]⟩ : Shape).Pads ![0, 0, j] ![0, 0, 0] ![0, 0, 0] ⟨3, ![8, 96, 320]⟩)
    (hb : (⟨3, ![8, 96, 320]⟩ : Shape).BroadcastsInDim ⟨4, ![8, 1, 96, 320]⟩ ![0, 2, 3])
    (hW : j + W = 320) (b : Fin 8) (u : Fin 1) (h : Fin 96) (w : Fin 320) (d : Fin 48) (hd : d.val = j) :
    broadcastInDim ⟨4, ![8, 1, 96, 320]⟩ ![0, 2, 3] hb
        (pad ⟨3, ![8, 96, 320]⟩ ![0, 0, j] ![0, 0, 0] ![0, 0, 0]
          (Host.divf (F := Ideal)
            (Host.reduceAdd (F := Ideal)
              (mulf (extractStridedSlice ⟨4, ![8, 128, 96, W]⟩ ![0, 0, 0, j] A0 hs1)
                (extractStridedSlice ⟨4, ![8, 128, 96, W]⟩ ![0, 0, 0, 0] A1 hs0))
              (constant (F := Ideal) (⟨0, ![]⟩ : Shape) .f32 0x00000000#32) hrt hu)
            (broadcastInDim ⟨3, ![8, 96, W]⟩ ![] hbc (constant (F := Ideal) (⟨0, ![]⟩ : Shape) .f32 0x43000000#32)))
          (sitofp (F := Ideal) .f32 (constantI (⟨0, ![]⟩ : Shape) 32 0#32)) hp hu)
        (ix4 b u h w)
      = costAt A0 A1 b d h w := by
  rw [unitPlane_apply]
  by_cases hjw : j ≤ w.val
  · have hq : w.val - j < W := by have := w.isLt; omega
    rw [pad_apply_of_inside ![0, 0, j] ![0, 0, 0] ![0, 0, 0] _ _ hp hu (ix3 b h w) (ix3 b h ⟨w.val - j, hq⟩) (fun a => by
      match a with
      | ⟨0, _⟩ => show b.val = 0 + b.val * (0 + 1); omega
      | ⟨1, _⟩ => show h.val = 0 + h.val * (0 + 1); omega
      | ⟨2, _⟩ => show w.val = j + (w.val - j) * (0 + 1); omega)]
    have hq320 : w.val - j < 320 := by omega
    rw [shiftedMean_apply j A0 A1 hs1 hs0 hrt hr hu hbc b h ⟨w.val - j, hq⟩ w ⟨w.val - j, hq320⟩
        (by show w.val = j + (w.val - j); omega) rfl,
      costAt_of_le A0 A1 b d h w ⟨w.val - j, hq320⟩ (by show w.val = d.val + (w.val - j); omega)]
  · rw [pad_apply_of_not_inside (s := ⟨3, ![8, 96, W]⟩) ![0, 0, j] ![0, 0, 0] ![0, 0, 0] _ _ hp hu (ix3 b h w) (2 : Fin 3) (by
      show ¬ (j ≤ w.val ∧ (w.val - j) % (0 + 1) = 0 ∧ (w.val - j) / (0 + 1) < W)
      omega), padValue_eq hu, costAt_of_lt A0 A1 b d h w (by omega)]

/-- PLANE 0 OF THE REFERENCE (no cut, a padding of no columns), as it enters the join. -/
theorem refPlane0_apply (A0 A1 : FVec Ideal (⟨4, ![8, 128, 96, 320]⟩ : Shape) .f32)
    (hrt : (⟨4, ![8, 128, 96, 320]⟩ : Shape).ReducesTo [1] ⟨3, ![8, 96, 320]⟩)
    (hr : (⟨4, ![8, 128, 96, 320]⟩ : Shape).Reduces [1] ⟨3, ![8, 96, 320]⟩)
    (hu : 0 < (⟨0, ![]⟩ : Shape).numel)
    (hbc : (⟨0, ![]⟩ : Shape).BroadcastsInDim ⟨3, ![8, 96, 320]⟩ ![])
    (hp : (⟨3, ![8, 96, 320]⟩ : Shape).Pads ![0, 0, 0] ![0, 0, 0] ![0, 0, 0] ⟨3, ![8, 96, 320]⟩)
    (hb : (⟨3, ![8, 96, 320]⟩ : Shape).BroadcastsInDim ⟨4, ![8, 1, 96, 320]⟩ ![0, 2, 3])
    (b : Fin 8) (u : Fin 1) (h : Fin 96) (w : Fin 320) (d : Fin 48) (hd : d.val = 0) :
    broadcastInDim ⟨4, ![8, 1, 96, 320]⟩ ![0, 2, 3] hb
        (pad ⟨3, ![8, 96, 320]⟩ ![0, 0, 0] ![0, 0, 0] ![0, 0, 0]
          (Host.divf (F := Ideal)
            (Host.reduceAdd (F := Ideal) (mulf A0 A1) (constant (F := Ideal) (⟨0, ![]⟩ : Shape) .f32 0x00000000#32) hrt hu)
            (broadcastInDim ⟨3, ![8, 96, 320]⟩ ![] hbc (constant (F := Ideal) (⟨0, ![]⟩ : Shape) .f32 0x43000000#32)))
          (sitofp (F := Ideal) .f32 (constantI (⟨0, ![]⟩ : Shape) 32 0#32)) hp hu)
        (ix4 b u h w)
      = costAt A0 A1 b d h w := by
  rw [unitPlane_apply, pad_apply_of_inside ![0, 0, 0] ![0, 0, 0] ![0, 0, 0] _ _ hp hu (ix3 b h w) (ix3 b h w) (fun a => by
      match a with
      | ⟨0, _⟩ => show b.val = 0 + b.val * (0 + 1); omega
      | ⟨1, _⟩ => show h.val = 0 + h.val * (0 + 1); omega
      | ⟨2, _⟩ => show w.val = 0 + w.val * (0 + 1); omega),
    mean_apply A0 A1 hrt hr hu hbc b h w, costAt_of_le A0 A1 b d h w w (by omega)]

end Cert.CostVolume

end
-- ==== Proof.LibJoinAxis1.lean ====
/-
  N arrays of one rank-4 shape joined along their SECOND axis, read at coordinates.

  A concatenation along axis 1 of N pieces of shape [A, K, B, C] (a stack of planes: each piece holds K planes) is an array
  [A, M, B, C] whose entry at (p, l, q, r) is piece number l / K at (p, l % K, q, r): position l along the joined axis lies
  in the piece its quotient by K names, at the remainder; the other three coordinates pass through unchanged. The pieces are
  given as `List.ofFn` of a family; a literal list of N pieces of one shape is that by `rfl`.
-/
import Idealize.ShloMosaic.Lib.Pipeline.Value
import Idealize.ShloMosaic.Lib.ValueIdx

noncomputable section

namespace Cert.JoinAxis1

open Idealize.ShloMosaic Idealize.ShloMosaic.ValueIdx

/-- Entry (p, l, q, r) of the join of the family `f` along axis 1: piece `n = l / K` at (p, k, q, r) with `k = l % K`. -/
theorem join_apply {α : Type} {A K B C M N : ℕ} (f : Fin N → ((⟨4, ![A, K, B, C]⟩ : Shape).Idx → α))
    (h : Shape.Concatenates
      ((List.ofFn fun n : Fin N => (⟨(⟨4, ![A, K, B, C]⟩ : Shape), f n⟩ : (s : Shape) × (s.Idx → α))).map (·.1))
      (⟨4, ![A, M, B, C]⟩ : Shape) 1)
    (p : Fin A) (l : Fin M) (q : Fin B) (r : Fin C) (n : Fin N) (k : Fin K)
    (hn : l.val / K = n.val) (hk : l.val % K = k.val) :
    concatenate (⟨4, ![A, M, B, C]⟩ : Shape) 1
        (List.ofFn fun n : Fin N => (⟨(⟨4, ![A, K, B, C]⟩ : Shape), f n⟩ : (s : Shape) × (s.Idx → α))) h (ix4 p l q r)
      = f n (ix4 p k q r) :=
  concatenate_ofFn_apply (t := (⟨4, ![A, M, B, C]⟩ : Shape)) (s₁ := (⟨4, ![A, K, B, C]⟩ : Shape)) (1 : Fin 4) f h rfl K rfl (ix4 p l q r) n hn (ix4 p k q r) hk.symm (fun b hb => by
    match b with
    | ⟨0, _⟩ => rfl
    | ⟨1, _⟩ => exact absurd rfl hb
    | ⟨2, _⟩ => rfl
    | ⟨3, _⟩ => rfl)

end Cert.JoinAxis1

end
-- ==== Proof.RefArray.lean ====
/-
  The reference's result array is the cost volume of its two arguments.

  The reference computes its 48 planes one by one (RefPlane.lean: plane d, laid out as [8, 1, 96, 320], holds the cost
  volume's entries of disparity d), joins planes 0–15, 16–31 and 32–47 into three [8, 16, 96, 320] stacks and joins the
  three stacks into the [8, 48, 96, 320] result, every join along the plane axis. Entry (b, d, h, w) of the result is
  therefore entry (b, d % 16, h, w) of stack d / 16, which is entry (b, 0, h, w) of plane d (LibJoinAxis1.lean, twice): the
  cost volume's entry (b, d, h, w). The plane coordinate is split into its 48 values and each value is closed by the one
  statement about a plane.
-/
import proofs.«167814_j57853209477697_1_alg».proof.Proof.RefRun
import proofs.«167814_j57853209477697_1_alg».proof.Proof.RefPlane
import proofs.«167814_j57853209477697_1_alg».proof.Proof.LibJoinAxis1

set_option maxRecDepth 16384

noncomputable section

namespace Cert.ReferenceIdeal.RefValue

open Cert.ReferenceIdeal Cert.ReferenceIdeal.Gen Cert.CostVolume Cert.JoinAxis1
open Idealize.ShloMosaic Idealize.ShloMosaic.TcCoe Idealize.SL.Sem Idealize.ShloMosaic.ValueIdx

/-- Sixteen planes joined: entry (b, k, h, w) of the stack is entry (b, 0, h, w) of plane `k`. -/
theorem join16_apply {α : Type} (t0 t1 t2 t3 t4 t5 t6 t7 t8 t9 t10 t11 t12 t13 t14 t15 : S8x1x96x320.Idx → α)
    (hc : Shape.Concatenates ([(⟨S8x1x96x320, t0⟩ : (s : Shape) × (s.Idx → α)), ⟨S8x1x96x320, t1⟩, ⟨S8x1x96x320, t2⟩, ⟨S8x1x96x320, t3⟩, ⟨S8x1x96x320, t4⟩, ⟨S8x1x96x320, t5⟩, ⟨S8x1x96x320, t6⟩, ⟨S8x1x96x320, t7⟩, ⟨S8x1x96x320, t8⟩, ⟨S8x1x96x320, t9⟩, ⟨S8x1x96x320, t10⟩, ⟨S8x1x96x320, t11⟩, ⟨S8x1x96x320, t12⟩, ⟨S8x1x96x320, t13⟩, ⟨S8x1x96x320, t14⟩, ⟨S8x1x96x320, t15⟩].map (·.1)) S8x16x96x320 1)
    (b : Fin 8) (k : Fin 16) (h : Fin 96) (w : Fin 320) :
    concatenate S8x16x96x320 1 [(⟨S8x1x96x320, t0⟩ : (s : Shape) × (s.Idx → α)), ⟨S8x1x96x320, t1⟩, ⟨S8x1x96x320, t2⟩, ⟨S8x1x96x320, t3⟩, ⟨S8x1x96x320, t4⟩, ⟨S8x1x96x320, t5⟩, ⟨S8x1x96x320, t6⟩, ⟨S8x1x96x320, t7⟩, ⟨S8x1x96x320, t8⟩, ⟨S8x1x96x320, t9⟩, ⟨S8x1x96x320, t10⟩, ⟨S8x1x96x320, t11⟩, ⟨S8x1x96x320, t12⟩, ⟨S8x1x96x320, t13⟩, ⟨S8x1x96x320, t14⟩, ⟨S8x1x96x320, t15⟩] hc (ix4 b k h w)
      = (![t0, t1, t2, t3, t4, t5, t6, t7, t8, t9, t10, t11, t12, t13, t14, t15] k) (ix4 b (0 : Fin 1) h w) :=
  join_apply (A := 8) (K := 1) (B := 96) (C := 320) (M := 16) (N := 16) ![t0, t1, t2, t3, t4, t5, t6, t7, t8, t9, t10, t11, t12, t13, t14, t15] hc b k h w k 0
    (Nat.div_one _) (Nat.mod_one _)

/-- Three stacks of sixteen planes joined: entry (b, d, h, w) of the result is entry (b, d % 16, h, w) of stack d / 16. -/
theorem join3_apply {α : Type} (T0 T1 T2 : S8x16x96x320.Idx → α)
    (hc : Shape.Concatenates ([(⟨S8x16x96x320, T0⟩ : (s : Shape) × (s.Idx → α)), ⟨S8x16x96x320, T1⟩, ⟨S8x16x96x320, T2⟩].map (·.1))
      S8x48x96x320 1)
    (b : Fin 8) (d : Fin 48) (h : Fin 96) (w : Fin 320) (g : Fin 3) (k : Fin 16)
    (hg : d.val / 16 = g.val) (hk : d.val % 16 = k.val) :
    concatenate S8x48x96x320 1 [(⟨S8x16x96x320, T0⟩ : (s : Shape) × (s.Idx → α)), ⟨S8x16x96x320, T1⟩, ⟨S8x16x96x320, T2⟩] hc
        (ix4 b d h w)
      = (![T0, T1, T2] g) (ix4 b k h w) :=
  join_apply (A := 8) (K := 16) (B := 96) (C := 320) (M := 48) (N := 3) ![T0, T1, T2] hc b d h w g k hg hk

set_option maxHeartbeats 4000000 in
/-- THE REFERENCE'S RESULT, the composed term its run ends with, is the cost volume of the two argument arrays. -/
theorem res_eq (m : (ℓ : Loc nD τ sig) → Buf (Elt Ideal) ℓ) (c : Dev nD) :
    Cert.ReferenceIdeal.ValueP.res_main_v385 (F := Ideal) m c
      = (cost (B := 8) (H := 96) (m ((c.tc : Thread nD τ).loc main_arg0) : S8x128x96x320.Idx → Elt Ideal .f32)
          (m ((c.tc : Thread nD τ).loc main_arg1) : S8x128x96x320.Idx → Elt Ideal .f32)
          : S8x48x96x320.Idx → Elt Ideal .f32) := by
  unfold Cert.ReferenceIdeal.ValueP.res_main_v385
  generalize (m ((c.tc : Thread nD τ).loc main_arg0)) = A0
  generalize (m ((c.tc : Thread nD τ).loc main_arg1)) = A1
  funext j
  obtain ⟨b, d, h, w, rfl⟩ : ∃ (b : Fin 8) (d : Fin 48) (h : Fin 96) (w : Fin 320), j = ix4 b d h w :=
    ⟨j 0, j 1, j 2, j 3, eq_ix4 j⟩
  show _ = costAt A0 A1 b d h w
  obtain ⟨dv, hdv⟩ := d
  rw [join3_apply _ _ _ (by decide : Shape.Concatenates [S8x16x96x320, S8x16x96x320, S8x16x96x320] S8x48x96x320 1) b ⟨dv, hdv⟩ h w ⟨dv / 16, by omega⟩ ⟨dv % 16, Nat.mod_lt _ (by decide)⟩ rfl rfl]
  interval_cases dv
  all_goals
    refine (join16_apply _ _ _ _ _ _ _ _ _ _ _ _ _ _ _ _
      (by decide : Shape.Concatenates (List.replicate 16 S8x1x96x320) S8x16x96x320 1) b _ h w).trans ?_
    first
      | exact refPlane0_apply A0 A1 (by decide) (by decide) (by decide) (by decide) (by decide) (by decide) b 0 h w _ (by rfl)
      | exact refPlane_apply _ A0 A1 (by decide) (by decide) (by decide) (by decide) (by decide) (by decide) (by decide)
          (by decide) (by rfl) b 0 h w _ (by rfl)

end Cert.ReferenceIdeal.RefValue

end
-- ==== Proof.lean ====
/-
  A stereo cost volume: kernel against reference, over the extended reals.

  Both programs take a left and a right feature stack [8, 128, 96, 320] (batch, channel, row, column) and return the
  [8, 48, 96, 320] cost volume (Proof/Spec.lean): its plane d holds, at (b, h, w), the mean over the 128 channels of
  left[b, c, h, w] · right[b, c, h, w - d] when d ≤ w, and 0 in the first d columns.
    * The kernel works block by block (one batch entry, 16 rows): it fills the output block with zeros and overwrites plane
      d from column d on with the channel sums times 1/128 (Proof/KernelPlane.lean, Proof/KernelBlock.lean); the blocks
      partition the result (Proof/KernelArray.lean).
    * The reference computes each plane on the whole arrays — cut, multiply, sum from 0, divide by 128, pad with d zero
      columns — and joins the 48 planes (Proof/RefPlane.lean, Proof/RefArray.lean).
  The two differ in the order of the work and in one spelling: the kernel multiplies by the f32 word of 1/128, which is
  exactly 2⁻⁷, where the reference divides by 128; on the extended reals these are one function at every argument
  (Proof/Scale.lean), so the two results are equal entry by entry and no finiteness of the inputs is used. The sums over the
  channels are the same finite sums on both sides.
  The ideal pass rewrote nothing in the kernel, so `preserves` asks nothing; the three frames are the programs' runs with the
  result dropped.
-/
import proofs.«167814_j57853209477697_1_alg».proof.Defs
import proofs.«167814_j57853209477697_1_alg».proof.Proof.Gen.Kernel
import proofs.«167814_j57853209477697_1_alg».proof.Proof.Gen.KernelIdeal
import proofs.«167814_j57853209477697_1_alg».proof.Proof.Gen.ReferenceIdeal
import proofs.«167814_j57853209477697_1_alg».proof.Proof.Gen.Pre_finite_inputs
import proofs.«167814_j57853209477697_1_alg».proof.Proof.FrameBitsP
import proofs.«167814_j57853209477697_1_alg».proof.Proof.KernelArray
import proofs.«167814_j57853209477697_1_alg».proof.Proof.RefArray
import Idealize.ShloMosaic.Adequacy
import Idealize.ShloMosaic.Init

noncomputable section

namespace Cert.Proof

open Idealize.ShloMosaic Idealize.ShloMosaic.TcCoe Idealize.SL.Sem

theorem claim : Cert.Claim := ⟨Cert.Kernel.Gen.facts, Cert.KernelIdeal.Gen.facts, Cert.ReferenceIdeal.Gen.facts, Cert.Pre_finite_inputs.Gen.facts, by
  refine ⟨fun m ρ _ => Cert.Kernel.GenP.frame m ρ, fun m ρ _ => Cert.KernelIdeal.GenP.frame m ρ, ?_, trivial, ?_⟩
  · -- the reference's frame: its run, the result dropped
    exact fun m ρ _ => (θ_run Cert.ReferenceIdeal.defs _ _).mono (fun _ h c => (h c).2)
      (Cert.ReferenceIdeal.ValueP.run (F := Ideal) m ρ)
  · -- both runs end at the cost volume of arguments that agree
    intro m ρ m' ρ' _ hagree
    refine ⟨_, Cert.KernelIdeal.ArrayValue.run m ρ, ?_⟩
    refine (θ_run Cert.ReferenceIdeal.defs _ _).mono (fun _ h c => ⟨(h c).1.trans ?_, (h c).2⟩)
      (Cert.ReferenceIdeal.ValueP.run (F := Ideal) m' ρ')
    rw [Cert.ReferenceIdeal.RefValue.res_eq, (hagree c).1, (hagree c).2]⟩

end Cert.Proof

end
